-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v191)) (v1 : (c : Dev Cert.KernelIdeal.nD) → Buf (Elt Ideal) ((c.tc : Thread Cert.KernelIdeal.nD Cert.KernelIdeal.τ).loc Cert.KernelIdeal.main_v147)) (v2 : (c : Dev Cert.KernelIdeal.nD) → Buf (Elt Ideal) ((c.tc : Thread Cert.KernelIdeal.nD Cert.KernelIdeal.τ).loc Cert.KernelIdeal.main_v213)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_v147) = v1 c
          ∧ r.2.mem ((c.tc : Thread Cert.KernelIdeal.nD Cert.KernelIdeal.τ).loc Cert.KernelIdeal.main_v213) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v233) = v0 c
          ∧ r.2.mem ((c.tc : Thread Cert.ReferenceIdeal.nD Cert.ReferenceIdeal.τ).loc Cert.ReferenceIdeal.main_v172) = v1 c
          ∧ r.2.mem ((c.tc : Thread Cert.ReferenceIdeal.nD Cert.ReferenceIdeal.τ).loc Cert.ReferenceIdeal.main_v263) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S20000 : Shape := ⟨1, ![20000]⟩
abbrev S3000 : Shape := ⟨1, ![3000]⟩
abbrev S320000 : Shape := ⟨1, ![320000]⟩
abbrev S160000 : Shape := ⟨1, ![160000]⟩
abbrev S768x256 : Shape := ⟨2, ![768, 256]⟩
abbrev S256 : Shape := ⟨1, ![256]⟩
abbrev S20000x256 : Shape := ⟨2, ![20000, 256]⟩
abbrev S3000x256 : Shape := ⟨2, ![3000, 256]⟩
abbrev S4x256x256 : Shape := ⟨3, ![4, 256, 256]⟩
abbrev S4x256 : Shape := ⟨2, ![4, 256]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S20000x256 : S_.BroadcastsInDim S20000x256 (![] : Fin 0 → Fin S20000x256.rank)
  reducesTo_S20000x256_S_d0_1 : S20000x256.ReducesTo [0, 1] S_
  bcast_S_S3000x256 : S_.BroadcastsInDim S3000x256 (![] : Fin 0 → Fin S3000x256.rank)
  reducesTo_S3000x256_S_d0_1 : S3000x256.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S4x256 : S_.BroadcastsInDim S4x256 (![] : Fin 0 → Fin S4x256.rank)
  reducesTo_S4x256_S_d0_1 : S4x256.ReducesTo [0, 1] S_

variable [Facts]

def fn_part3 {F : FTy → Type} [FloatOps F] (main_v48 : IVec S_ 1) (main_v49 : FVec F S4x256x256 .f32) (main_v50 : FVec F S4x256x256 .f32) : IVec S_ 1 :=
  let main_v51 : IVec S4x256x256 1 := cmpf .olt main_v49 main_v50
  let main_c_19 : IVec S_ 1 := constantI S_ 1 1#1
  let main_v52 : IVec S_ 1 := (fun x v => Host.reduce IntOp.andi x v reducesTo_S4x256x256_S_d0_1_2 h_S_) main_v51 main_c_19
  let main_v53 : IVec S_ 1 := andi main_v48 main_v52
  main_v53

def fn_part2 {F : FTy → Type} [FloatOps F] (main_arg13 : FVec F S4x256x256 .f32) (main_arg14 : FVec F S4x256x256 .f32) (main_arg15 : FVec F S4x256 .f32) (main_arg16 : FVec F S4x256x256 .f32) (main_v33 : IVec S_ 1) : IVec S_ 1 :=
  let main_v34 : FVec F S4x256x256 .f32 := Host.absf main_arg13
  let main_cst_12 : FVec F S_ .f32 := constant S_ .f32 0x7F800000#32
  let main_v35 : FVec F S4x256x256 .f32 := broadcastInDim S4x256x256 ![] bcast_S_S4x256x256 main_cst_12
  let main_v36 : IVec S4x256x256 1 := cmpf .olt main_v34 main_v35
  let main_c_13 : IVec S_ 1 := constantI S_ 1 1#1
  let main_v37 : IVec S_ 1 := (fun x v => Host.reduce IntOp.andi x v reducesTo_S4x256x256_S_d0_1_2 h_S_) main_v36 main_c_13
  let main_v38 : IVec S_ 1 := andi main_v33 main_v37
  let main_v39 : FVec F S4x256x256 .f32 := Host.absf main_arg14
  let main_cst_14 : FVec F S_ .f32 := constant S_ .f32 0x7F800000#32
  let main_v40 : FVec F S4x256x256 .f32 := broadcastInDim S4x256x256 ![] bcast_S_S4x256x256 main_cst_14
  let main_v41 : IVec S4x256x256 1 := cmpf .olt main_v39 main_v40
  let main_c_15 : IVec S_ 1 := constantI S_ 1 1#1
  let main_v42 : IVec S_ 1 := (fun x v => Host.reduce IntOp.andi x v reducesTo_S4x256x256_S_d0_1_2 h_S_) main_v41 main_c_15
  let main_v43 : IVec S_ 1 := andi main_v38 main_v42
  let main_v44 : FVec F S4x256 .f32 := Host.absf main_arg15
  let main_cst_16 : FVec F S_ .f32 := constant S_ .f32 0x7F800000#32
  let main_v45 : FVec F S4x256 .f32 := broadcastInDim S4x256 ![] bcast_S_S4x256 main_cst_16
  let main_v46 : IVec S4x256 1 := cmpf .olt main_v44 main_v45
  let main_c_17 : IVec S_ 1 := constantI S_ 1 1#1
  let main_v47 : IVec S_ 1 := (fun x v => Host.reduce IntOp.andi x v reducesTo_S4x256_S_d0_1 h_S_) main_v46 main_c_17
  let main_v48 : IVec S_ 1 := andi main_v43 main_v47
  let main_v49 : FVec F S4x256x256 .f32 := Host.absf main_arg16
  let main_cst_18 : FVec F S_ .f32 := constant S_ .f32 0x7F800000#32
  let main_v50 : FVec F S4x256x256 .f32 := broadcastInDim S4x256x256 ![] bcast_S_S4x256x256 main_cst_18
  fn_part3 (F := F) main_v48 main_v49 main_v50

def fn_part1 {F : FTy → Type} [FloatOps F] (main_arg10 : FVec F S3000x256 .f32) (main_arg11 : FVec F S4x256x256 .f32) (main_arg12 : FVec F S4x256 .f32) (main_arg13 : FVec F S4x256x256 .f32) (main_arg14 : FVec F S4x256x256 .f32) (main_arg15 : FVec F S4x256 .f32) (main_arg16 : FVec F S4x256x256 .f32) (main_v13 : IVec S_ 1) (main_v16 : IVec S20000x256 1) : IVec S_ 1 :=
  let main_c_5 : IVec S_ 1 := constantI S_ 1 1#1
  let main_v17 : IVec S_ 1 := (fun x v => Host.reduce IntOp.andi x v reducesTo_S20000x256_S_d0_1 h_S_) main_v16 main_c_5
  let main_v18 : IVec S_ 1 := andi main_v13 main_v17
  let main_v19 : FVec F S3000x256 .f32 := Host.absf main_arg10
  let main_cst_6 : FVec F S_ .f32 := constant S_ .f32 0x7F800000#32
  let main_v20 : FVec F S3000x256 .f32 := broadcastInDim S3000x256 ![] bcast_S_S3000x256 main_cst_6
  let main_v21 : IVec S3000x256 1 := cmpf .olt main_v19 main_v20
  let main_c_7 : IVec S_ 1 := constantI S_ 1 1#1
  let main_v22 : IVec S_ 1 := (fun x v => Host.reduce IntOp.andi x v reducesTo_S3000x256_S_d0_1 h_S_) main_v21 main_c_7
  let main_v23 : IVec S_ 1 := andi main_v18 main_v22
  let main_v24 : FVec F S4x256x256 .f32 := Host.absf main_arg11
  let main_cst_8 : FVec F S_ .f32 := constant S_ .f32 0x7F800000#32
  let main_v25 : FVec F S4x256x256 .f32 := broadcastInDim S4x256x256 ![] bcast_S_S4x256x256 main_cst_8
  let main_v26 : IVec S4x256x256 1 := cmpf .olt main_v24 main_v25
  let main_c_9 : IVec S_ 1 := constantI S_ 1 1#1
  let main_v27 : IVec S_ 1 := (fun x v => Host.reduce IntOp.andi x v reducesTo_S4x256x256_S_d0_1_2 h_S_) main_v26 main_c_9
  let main_v28 : IVec S_ 1 := andi main_v23 main_v27
  let main_v29 : FVec F S4x256 .f32 := Host.absf main_arg12
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg13 main_arg14 main_arg15 main_arg16 main_v33

def fn {F : FTy → Type} [FloatOps F] (main_arg0 : FVec F S100000x768 .f32) (main_arg1 : IVec S20000 32) (main_arg2 : IVec S3000 32) (main_arg3 : IVec S320000 32) (main_arg4 : IVec S320000 32) (main_arg5 : IVec S160000 32) (main_arg6 : IVec S160000 32) (main_arg7 : FVec F S768x256 .f32) (main_arg8 : FVec F S256 .f32) (main_arg9 : FVec F S20000x256 .f32) (main_arg10 : FVec F S3000x256 .f32) (main_arg11 : FVec F S4x256x256 .f32) (main_arg12 : FVec F S4x256 .f32) (main_arg13 : FVec F S4x256x256 .f32) (main_arg14 : FVec F S4x256x256 .f32) (main_arg15 : FVec F S4x256 .f32) (main_arg16 : FVec F S4x256x256 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S768x256 .f32 := Host.absf main_arg7
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S256 .f32 := Host.absf main_arg8
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S20000x256 .f32 := Host.absf main_arg9
  let main_cst_4 : FVec F S_ .f32 := constant S_ .f32 0x7F800000#32
  let main_v15 : FVec F S20000x256 .f32 := broadcastInDim S20000x256 ![] bcast_S_S20000x256 main_cst_4
  let main_v16 : IVec S20000x256 1 := cmpf .olt main_v14 main_v15
  fn_part1 (F := F) main_arg10 main_arg11 main_arg12 main_arg13 main_arg14 main_arg15 main_arg16 main_v13 main_v16
-- ==== Kernel.lean ====
abbrev S100000x768 : Shape := ⟨2, ![100000, 768]⟩
abbrev S20000 : Shape := ⟨1, ![20000]⟩
abbrev S3000 : Shape := ⟨1, ![3000]⟩
abbrev S320000 : Shape := ⟨1, ![320000]⟩
abbrev S160000 : Shape := ⟨1, ![160000]⟩
abbrev S768x256 : Shape := ⟨2, ![768, 256]⟩
abbrev S256 : Shape := ⟨1, ![256]⟩
abbrev S20000x256 : Shape := ⟨2, ![20000, 256]⟩
abbrev S3000x256 : Shape := ⟨2, ![3000, 256]⟩
abbrev S4x256x256 : Shape := ⟨3, ![4, 256, 256]⟩
abbrev S4x256 : Shape := ⟨2, ![4, 256]⟩
abbrev S1x256 : Shape := ⟨2, ![1, 256]⟩
abbrev S100000x256 : Shape := ⟨2, ![100000, 256]⟩
abbrev S2000x768 : Shape := ⟨2, ![2000, 768]⟩
abbrev S2000x256 : Shape := ⟨2, ![2000, 256]⟩
abbrev S_ : Shape := ⟨0, ![]⟩
abbrev S20000x1 : Shape := ⟨2, ![20000, 1]⟩
abbrev S3000x1 : Shape := ⟨2, ![3000, 1]⟩
abbrev S320000x1 : Shape := ⟨2, ![320000, 1]⟩
abbrev S160000x1 : Shape := ⟨2, ![160000, 1]⟩
abbrev S100000x1 : Shape := ⟨2, ![100000, 1]⟩
abbrev S320000x256 : Shape := ⟨2, ![320000, 256]⟩
abbrev S1x256x256 : Shape := ⟨3, ![1, 256, 256]⟩
abbrev S256x256 : Shape := ⟨2, ![256, 256]⟩
abbrev S4000x256 : Shape := ⟨2, ![4000, 256]⟩
abbrev S160000x256 : Shape := ⟨2, ![160000, 256]⟩

abbrev nBuf : Space → Nat
  | .hbm => 269
  | .vmem => 60
  | .smem => 0
  | _ => 0

abbrev hbmTy0_0 (i : Nat) : BufTy := match i % 128 with
  | 0 => ⟨S100000x768, .f32⟩
  | 1 => ⟨S20000, .i32⟩
  | 2 => ⟨S3000, .i32⟩
  | 3 => ⟨S320000, .i32⟩
  | 4 => ⟨S320000, .i32⟩
  | 5 => ⟨S160000, .i32⟩
  | 6 => ⟨S160000, .i32⟩
  | 7 => ⟨S768x256, .f32⟩
  | 8 => ⟨S256, .f32⟩
  | 9 => ⟨S20000x256, .f32⟩
  | 10 => ⟨S3000x256, .f32⟩
  | 11 => ⟨S4x256x256, .f32⟩
  | 12 => ⟨S4x256, .f32⟩
  | 13 => ⟨S4x256x256, .f32⟩
  | 14 => ⟨S4x256x256, .f32⟩
  | 15 => ⟨S4x256, .f32⟩
  | 16 => ⟨S4x256x256, .f32⟩
  | 17 => ⟨S1x256, .f32⟩
  | 18 => ⟨S100000x256, .f32⟩
  | 19 => ⟨S_, .i32⟩
  | 20 => ⟨S20000, .i32⟩
  | 21 => ⟨S20000, .i1⟩
  | 22 => ⟨S_, .i32⟩
  | 23 => ⟨S20000, .i32⟩
  | 24 => ⟨S20000, .i32⟩
  | 25 => ⟨S20000, .i32⟩
  | 26 => ⟨S20000x1, .i32⟩
  | 27 => ⟨S20000x256, .f32⟩
  | 28 => ⟨S_, .i32⟩
  | 29 => ⟨S3000, .i32⟩
  | 30 => ⟨S3000, .i1⟩
  | 31 => ⟨S_, .i32⟩
  | 32 => ⟨S3000, .i32⟩
  | 33 => ⟨S3000, .i32⟩
  | 34 => ⟨S3000, .i32⟩
  | 35 => ⟨S3000x1, .i32⟩
  | 36 => ⟨S3000x256, .f32⟩
  | 37 => ⟨S_, .f32⟩
  | 38 => ⟨S320000x1, .f32⟩
  | 39 => ⟨S_, .f32⟩
  | 40 => ⟨S160000x1, .f32⟩
  | 41 => ⟨S_, .f32⟩
  | 42 => ⟨S20000x1, .f32⟩
  | 43 => ⟨S320000x1, .i32⟩
  | 44 => ⟨S20000x1, .f32⟩
  | 45 => ⟨S_, .f32⟩
  | 46 => ⟨S20000x1, .f32⟩
  | 47 => ⟨S20000x1, .f32⟩
  | 48 => ⟨S_, .f32⟩
  | 49 => ⟨S100000x1, .f32⟩
  | 50 => ⟨S320000x1, .i32⟩
  | 51 => ⟨S100000x1, .f32⟩
  | 52 => ⟨S_, .f32⟩
  | 53 => ⟨S100000x1, .f32⟩
  | 54 => ⟨S100000x1, .f32⟩
  | 55 => ⟨S_, .f32⟩
  | 56 => ⟨S100000x1, .f32⟩
  | 57 => ⟨S160000x1, .i32⟩
  | 58 => ⟨S100000x1, .f32⟩
  | 59 => ⟨S_, .f32⟩
  | 60 => ⟨S100000x1, .f32⟩
  | 61 => ⟨S100000x1, .f32⟩
  | 62 => ⟨S_, .f32⟩
  | 63 => ⟨S3000x1, .f32⟩
  | 64 => ⟨S160000x1, .i32⟩
  | 65 => ⟨S3000x1, .f32⟩
  | 66 => ⟨S_, .f32⟩
  | 67 => ⟨S3000x1, .f32⟩
  | 68 => ⟨S3000x1, .f32⟩
  | 69 => ⟨S100000x256, .bf16⟩
  | 70 => ⟨S_, .i32⟩
  | 71 => ⟨S320000, .i32⟩
  | 72 => ⟨S320000, .i1⟩
  | 73 => ⟨S_, .i32⟩
  | 74 => ⟨S320000, .i32⟩
  | 75 => ⟨S320000, .i32⟩
  | 76 => ⟨S320000, .i32⟩
  | 77 => ⟨S320000x1, .i32⟩
  | 78 => ⟨S320000x256, .bf16⟩
  | 79 => ⟨S320000x256, .f32⟩
  | 80 => ⟨S_, .f32⟩
  | 81 => ⟨S20000x256, .f32⟩
  | 82 => ⟨S320000x1, .i32⟩
  | 83 => ⟨S20000x256, .f32⟩
  | 84 => ⟨S20000x256, .f32⟩
  | 85 => ⟨S20000x256, .f32⟩
  | 86 => ⟨S1x256x256, .f32⟩
  | 87 => ⟨S256x256, .f32⟩
  | 88 => ⟨S1x256, .f32⟩
  | 89 => ⟨S256, .f32⟩
  | 90 => ⟨S1x256x256, .f32⟩
  | 91 => ⟨S256x256, .f32⟩
  | 92 => ⟨S1x256, .f32⟩
  | 93 => ⟨S20000x256, .f32⟩
  | 94 => ⟨S20000x256, .bf16⟩
  | 95 => ⟨S_, .i32⟩
  | 96 => ⟨S320000, .i32⟩
  | 97 => ⟨S320000, .i1⟩
  | 98 => ⟨S_, .i32⟩
  | 99 => ⟨S320000, .i32⟩
  | 100 => ⟨S320000, .i32⟩
  | 101 => ⟨S320000, .i32⟩
  | 102 => ⟨S320000x1, .i32⟩
  | 103 => ⟨S320000x256, .bf16⟩
  | 104 => ⟨S320000x256, .f32⟩
  | 105 => ⟨S_, .f32⟩
  | 106 => ⟨S100000x256, .f32⟩
  | 107 => ⟨S320000x1, .i32⟩
  | 108 => ⟨S100000x256, .f32⟩
  | 109 => ⟨S100000x256, .f32⟩
  | 110 => ⟨S100000x256, .f32⟩
  | 111 => ⟨S3000x256, .bf16⟩
  | 112 => ⟨S_, .i32⟩
  | 113 => ⟨S160000, .i32⟩
  | 114 => ⟨S160000, .i1⟩
  | 115 => ⟨S_, .i32⟩
  | 116 => ⟨S160000, .i32⟩
  | 117 => ⟨S160000, .i32⟩
  | 118 => ⟨S160000, .i32⟩
  | 119 => ⟨S160000x1, .i32⟩
  | 120 => ⟨S160000x256, .bf16⟩
  | 121 => ⟨S160000x256, .f32⟩
  | 122 => ⟨S_, .f32⟩
  | 123 => ⟨S100000x256, .f32⟩
  | 124 => ⟨S160000x1, .i32⟩
  | 125 => ⟨S100000x256, .f32⟩
  | 126 => ⟨S100000x256, .f32⟩
  | 127 => ⟨S100000x256, .f32⟩
  | _ => ⟨S100000x768, .f32⟩

abbrev hbmTy0_1 (i : Nat) : BufTy := match i % 128 with
  | 0 => ⟨S1x256x256, .f32⟩
  | 1 => ⟨S256x256, .f32⟩
  | 2 => ⟨S1x256x256, .f32⟩
  | 3 => ⟨S256x256, .f32⟩
  | 4 => ⟨S256x256, .f32⟩
  | 5 => ⟨S1x256, .f32⟩
  | 6 => ⟨S256, .f32⟩
  | 7 => ⟨S1x256, .f32⟩
  | 8 => ⟨S256, .f32⟩
  | 9 => ⟨S256, .f32⟩
  | 10 => ⟨S1x256x256, .f32⟩
  | 11 => ⟨S256x256, .f32⟩
  | 12 => ⟨S1x256x256, .f32⟩
  | 13 => ⟨S256x256, .f32⟩
  | 14 => ⟨S1x256, .f32⟩
  | 15 => ⟨S100000x256, .f32⟩
  | 16 => ⟨S100000x256, .bf16⟩
  | 17 => ⟨S_, .i32⟩
  | 18 => ⟨S160000, .i32⟩
  | 19 => ⟨S160000, .i1⟩
  | 20 => ⟨S_, .i32⟩
  | 21 => ⟨S160000, .i32⟩
  | 22 => ⟨S160000, .i32⟩
  | 23 => ⟨S160000, .i32⟩
  | 24 => ⟨S160000x1, .i32⟩
  | 25 => ⟨S160000x256, .bf16⟩
  | 26 => ⟨S160000x256, .f32⟩
  | 27 => ⟨S_, .f32⟩
  | 28 => ⟨S3000x256, .f32⟩
  | 29 => ⟨S160000x1, .i32⟩
  | 30 => ⟨S3000x256, .f32⟩
  | 31 => ⟨S3000x256, .f32⟩
  | 32 => ⟨S3000x256, .f32⟩
  | 33 => ⟨S1x256x256, .f32⟩
  | 34 => ⟨S256x256, .f32⟩
  | 35 => ⟨S1x256, .f32⟩
  | 36 => ⟨S256, .f32⟩
  | 37 => ⟨S1x256x256, .f32⟩
  | 38 => ⟨S256x256, .f32⟩
  | 39 => ⟨S1x256, .f32⟩
  | 40 => ⟨S3000x256, .f32⟩
  | 41 => ⟨S100000x256, .bf16⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000x256, .bf16⟩
  | 51 => ⟨S320000x256, .f32⟩
  | 52 => ⟨S_, .f32⟩
  | 53 => ⟨S20000x256, .f32⟩
  | 54 => ⟨S320000x1, .i32⟩
  | 55 => ⟨S20000x256, .f32⟩
  | 56 => ⟨S20000x256, .f32⟩
  | 57 => ⟨S20000x256, .f32⟩
  | 58 => ⟨S1x256x256, .f32⟩
  | 59 => ⟨S256x256, .f32⟩
  | 60 => ⟨S1x256, .f32⟩
  | 61 => ⟨S256, .f32⟩
  | 62 => ⟨S1x256x256, .f32⟩
  | 63 => ⟨S256x256, .f32⟩
  | 64 => ⟨S1x256, .f32⟩
  | 65 => ⟨S20000x256, .f32⟩
  | 66 => ⟨S20000x256, .bf16⟩
  | 67 => ⟨S_, .i32⟩
  | 68 => ⟨S320000, .i32⟩
  | 69 => ⟨S320000, .i1⟩
  | 70 => ⟨S_, .i32⟩
  | 71 => ⟨S320000, .i32⟩
  | 72 => ⟨S320000, .i32⟩
  | 73 => ⟨S320000, .i32⟩
  | 74 => ⟨S320000x1, .i32⟩
  | 75 => ⟨S320000x256, .bf16⟩
  | 76 => ⟨S320000x256, .f32⟩
  | 77 => ⟨S_, .f32⟩
  | 78 => ⟨S100000x256, .f32⟩
  | 79 => ⟨S320000x1, .i32⟩
  | 80 => ⟨S100000x256, .f32⟩
  | 81 => ⟨S100000x256, .f32⟩
  | 82 => ⟨S100000x256, .f32⟩
  | 83 => ⟨S3000x256, .bf16⟩
  | 84 => ⟨S_, .i32⟩
  | 85 => ⟨S160000, .i32⟩
  | 86 => ⟨S160000, .i1⟩
  | 87 => ⟨S_, .i32⟩
  | 88 => ⟨S160000, .i32⟩
  | 89 => ⟨S160000, .i32⟩
  | 90 => ⟨S160000, .i32⟩
  | 91 => ⟨S160000x1, .i32⟩
  | 92 => ⟨S160000x256, .bf16⟩
  | 93 => ⟨S160000x256, .f32⟩
  | 94 => ⟨S_, .f32⟩
  | 95 => ⟨S100000x256, .f32⟩
  | 96 => ⟨S160000x1, .i32⟩
  | 97 => ⟨S100000x256, .f32⟩
  | 98 => ⟨S100000x256, .f32⟩
  | 99 => ⟨S100000x256, .f32⟩
  | 100 => ⟨S1x256x256, .f32⟩
  | 101 => ⟨S256x256, .f32⟩
  | 102 => ⟨S1x256x256, .f32⟩
  | 103 => ⟨S256x256, .f32⟩
  | 104 => ⟨S256x256, .f32⟩
  | 105 => ⟨S1x256, .f32⟩
  | 106 => ⟨S256, .f32⟩
  | 107 => ⟨S1x256, .f32⟩
  | 108 => ⟨S256, .f32⟩
  | 109 => ⟨S256, .f32⟩
  | 110 => ⟨S1x256x256, .f32⟩
  | 111 => ⟨S256x256, .f32⟩
  | 112 => ⟨S1x256x256, .f32⟩
  | 113 => ⟨S256x256, .f32⟩
  | 114 => ⟨S1x256, .f32⟩
  | 115 => ⟨S100000x256, .f32⟩
  | 116 => ⟨S100000x256, .bf16⟩
  | 117 => ⟨S_, .i32⟩
  | 118 => ⟨S160000, .i32⟩
  | 119 => ⟨S160000, .i1⟩
  | 120 => ⟨S_, .i32⟩
  | 121 => ⟨S160000, .i32⟩
  | 122 => ⟨S160000, .i32⟩
  | 123 => ⟨S160000, .i32⟩
  | 124 => ⟨S160000x1, .i32⟩
  | 125 => ⟨S160000x256, .bf16⟩
  | 126 => ⟨S160000x256, .f32⟩
  | 127 => ⟨S_, .f32⟩
  | _ => ⟨S100000x768, .f32⟩

abbrev hbmTy0_2 (i : Nat) : BufTy := match i % 128 with
  | 0 => ⟨S3000x256, .f32⟩
  | 1 => ⟨S160000x1, .i32⟩
  | 2 => ⟨S3000x256, .f32⟩
  | 3 => ⟨S3000x256, .f32⟩
  | 4 => ⟨S3000x256, .f32⟩
  | 5 => ⟨S1x256x256, .f32⟩
  | 6 => ⟨S256x256, .f32⟩
  | 7 => ⟨S1x256, .f32⟩
  | 8 => ⟨S256, .f32⟩
  | 9 => ⟨S1x256x256, .f32⟩
  | 10 => ⟨S256x256, .f32⟩
  | 11 => ⟨S1x256, .f32⟩
  | 12 => ⟨S3000x256, .f32⟩
  | _ => ⟨S100000x768, .f32⟩

abbrev hbmTy (i : Nat) : BufTy := match i / 128 with
  | 0 => hbmTy0_0 i
  | 1 => hbmTy0_1 i
  | 2 => hbmTy0_2 i
  | _ => ⟨S100000x768, .f32⟩

abbrev bufTy : (tb : Table) → Fin (tcTables nBuf tb) → BufTy
  | .hbm, ⟨i, _⟩ => hbmTy i
  | .local _ .vmem, ⟨0, _⟩ => ⟨S2000x768, .f32⟩
  | .local _ .vmem, ⟨1, _⟩ => ⟨S2000x768, .f32⟩
  | .local _ .vmem, ⟨2, _⟩ => ⟨S768x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S4000x256, .f32⟩
  | .local _ .vmem, ⟨7, _⟩ => ⟨S4000x256, .f32⟩
  | .local _ .vmem, ⟨8, _⟩ => ⟨S4000x256, .f32⟩
  | .local _ .vmem, ⟨9, _⟩ => ⟨S4000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S4000x256, .f32⟩
  | .local _ .vmem, ⟨14, _⟩ => ⟨S4000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S1x256, .f32⟩
  | .local _ .vmem, ⟨25, _⟩ => ⟨S2000x256, .f32⟩
  | .local _ .vmem, ⟨26, _⟩ => ⟨S2000x256, .f32⟩
  | .local _ .vmem, ⟨27, _⟩ => ⟨S3000x256, .f32⟩
  | .local _ .vmem, ⟨28, _⟩ => ⟨S3000x256, .f32⟩
  | .local _ .vmem, ⟨29, _⟩ => ⟨S256x256, .f32⟩
  | .local _ .vmem, ⟨30, _⟩ => ⟨S1x256, .f32⟩
  | .local _ .vmem, ⟨31, _⟩ => ⟨S256x256, .f32⟩
  | .local _ .vmem, ⟨32, _⟩ => ⟨S3000x256, .f32⟩
  | .local _ .vmem, ⟨33, _⟩ => ⟨S4000x256, .f32⟩
  | .local _ .vmem, ⟨34, _⟩ => ⟨S4000x256, .f32⟩
  | .local _ .vmem, ⟨35, _⟩ => ⟨S4000x256, .f32⟩
  | .local _ .vmem, ⟨36, _⟩ => ⟨S4000x256, .f32⟩
  | .local _ .vmem, ⟨37, _⟩ => ⟨S256x256, .f32⟩
  | .local _ .vmem, ⟨38, _⟩ => ⟨S1x256, .f32⟩
  | .local _ .vmem, ⟨39, _⟩ => ⟨S256x256, .f32⟩
  | .local _ .vmem, ⟨40, _⟩ => ⟨S4000x256, .f32⟩
  | .local _ .vmem, ⟨41, _⟩ => ⟨S4000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x256, .f32⟩
  | .local _ .vmem, ⟨46, _⟩ => ⟨S2000x256, .f32⟩
  | .local _ .vmem, ⟨47, _⟩ => ⟨S2000x256, .f32⟩
  | .local _ .vmem, ⟨48, _⟩ => ⟨S256x256, .f32⟩
  | .local _ .vmem, ⟨49, _⟩ => ⟨S256x256, .f32⟩
  | .local _ .vmem, ⟨50, _⟩ => ⟨S256x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | .local _ .vmem, ⟨54, _⟩ => ⟨S3000x256, .f32⟩
  | .local _ .vmem, ⟨55, _⟩ => ⟨S3000x256, .f32⟩
  | .local _ .vmem, ⟨56, _⟩ => ⟨S256x256, .f32⟩
  | .local _ .vmem, ⟨57, _⟩ => ⟨S1x256, .f32⟩
  | .local _ .vmem, ⟨58, _⟩ => ⟨S256x256, .f32⟩
  | .local _ .vmem, ⟨59, _⟩ => ⟨S3000x256, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_3 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_5 : Ref sig .tc := ⟨.hbm, 45, rfl⟩
abbrev main_v21 : Ref sig .tc := ⟨.hbm, 46, rfl⟩
abbrev main_v22 : Ref sig .tc := ⟨.hbm, 47, rfl⟩
abbrev main_cst_6 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_cst_8 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_cst_10 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_11 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_12 : Ref sig .tc := ⟨.hbm, 70, rfl⟩
abbrev main_v39 : Ref sig .tc := ⟨.hbm, 71, rfl⟩
abbrev main_v40 : Ref sig .tc := ⟨.hbm, 72, rfl⟩
abbrev main_c_13 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_14 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_c_15 : Ref sig .tc := ⟨.hbm, 95, rfl⟩
abbrev main_v61 : Ref sig .tc := ⟨.hbm, 96, rfl⟩
abbrev main_v62 : Ref sig .tc := ⟨.hbm, 97, rfl⟩
abbrev main_c_16 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_18 : Ref sig .tc := ⟨.hbm, 112, rfl⟩
abbrev main_v75 : Ref sig .tc := ⟨.hbm, 113, rfl⟩
abbrev main_v76 : Ref sig .tc := ⟨.hbm, 114, rfl⟩
abbrev main_c_19 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_20 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_c_21 : Ref sig .tc := ⟨.hbm, 145, rfl⟩
abbrev main_v105 : Ref sig .tc := ⟨.hbm, 146, rfl⟩
abbrev main_v106 : Ref sig .tc := ⟨.hbm, 147, rfl⟩
abbrev main_c_22 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_23 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_24 : Ref sig .tc := ⟨.hbm, 170, rfl⟩
abbrev main_v127 : Ref sig .tc := ⟨.hbm, 171, rfl⟩
abbrev main_v128 : Ref sig .tc := ⟨.hbm, 172, rfl⟩
abbrev main_c_25 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_26 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_c_27 : Ref sig .tc := ⟨.hbm, 195, rfl⟩
abbrev main_v149 : Ref sig .tc := ⟨.hbm, 196, rfl⟩
abbrev main_v150 : Ref sig .tc := ⟨.hbm, 197, rfl⟩
abbrev main_c_28 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_29 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_c_30 : Ref sig .tc := ⟨.hbm, 212, rfl⟩
abbrev main_v163 : Ref sig .tc := ⟨.hbm, 213, rfl⟩
abbrev main_v164 : Ref sig .tc := ⟨.hbm, 214, rfl⟩
abbrev main_c_31 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_cst_32 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_v191 : Ref sig .tc := ⟨.hbm, 243, rfl⟩
abbrev main_v192 : Ref sig .tc := ⟨.hbm, 244, rfl⟩
abbrev main_c_33 : Ref sig .tc := ⟨.hbm, 245, rfl⟩
abbrev main_v193 : Ref sig .tc := ⟨.hbm, 246, rfl⟩
abbrev main_v194 : Ref sig .tc := ⟨.hbm, 247, rfl⟩
abbrev main_c_34 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_cst_35 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg6_0 : Ref sig .tc := ⟨.vmem, 51, rfl⟩
abbrev cc5_stg7_0 : Ref sig .tc := ⟨.vmem, 52, rfl⟩
abbrev cc5_stg7_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc3_sem0_0 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem4_0 : DmaSem sig := 49
abbrev cc5_sem5_0 : DmaSem sig := 50
abbrev cc5_sem6_0 : DmaSem sig := 51
abbrev cc5_sem7_0 : DmaSem sig := 52
abbrev cc5_sem7_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S3000x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S3000x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3000x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S256x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S3000x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S3000x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S256x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S256x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S3000x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

class Facts₀ : Prop where
  shapeCasts_S256_S1x256 : S256.ShapeCasts S1x256
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S20000 : S_.BroadcastsInDim S20000 (![] : Fin 0 → Fin S20000.rank)
  bcast_S20000_S20000x1_0 : S20000.BroadcastsInDim S20000x1 (![0] : Fin 1 → Fin S20000x1.rank)
  bcast_S_S3000 : S_.BroadcastsInDim S3000 (![] : Fin 0 → Fin S3000.rank)
  bcast_S3000_S3000x1_0 : S3000.BroadcastsInDim S3000x1 (![0] : Fin 1 → Fin S3000x1.rank)
  bcast_S_S320000x1 : S_.BroadcastsInDim S320000x1 (![] : Fin 0 → Fin S320000x1.rank)
  bcast_S_S160000x1 : S_.BroadcastsInDim S160000x1 (![] : Fin 0 → Fin S160000x1.rank)
  bcast_S_S20000x1 : S_.BroadcastsInDim S20000x1 (![] : Fin 0 → Fin S20000x1.rank)
  bcast_S320000_S320000x1_0 : S320000.BroadcastsInDim S320000x1 (![0] : Fin 1 → Fin S320000x1.rank)
  bcast_S_S100000x1 : S_.BroadcastsInDim S100000x1 (![] : Fin 0 → Fin S100000x1.rank)
  bcast_S160000_S160000x1_0 : S160000.BroadcastsInDim S160000x1 (![0] : Fin 1 → Fin S160000x1.rank)
  bcast_S_S3000x1 : S_.BroadcastsInDim S3000x1 (![] : Fin 0 → Fin S3000x1.rank)
  bcast_S_S320000 : S_.BroadcastsInDim S320000 (![] : Fin 0 → Fin S320000.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S4000x256 : S1x256.Broadcasts S4000x256
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S_S160000 : S_.BroadcastsInDim S160000 (![] : Fin 0 → Fin S160000.rank)
  slices_S4x256x256_S1x256x256_1_0_0 : S4x256x256.Slices ![1, 0, 0] S1x256x256
  slices_S4x256x256_S1x256x256_3_0_0 : S4x256x256.Slices ![3, 0, 0] S1x256x256
  slices_S4x256_S1x256_1_0 : S4x256.Slices ![1, 0] S1x256
  slices_S4x256_S1x256_3_0 : S4x256.Slices ![3, 0] S1x256
  shapeCasts_S2000x256_S2000x256 : S2000x256.ShapeCasts S2000x256
  bcast_S_S3000x256 : S_.BroadcastsInDim S3000x256 (![] : Fin 0 → Fin S3000x256.rank)
  bcast_S3000x1_S3000x256_0_1 : S3000x1.BroadcastsInDim S3000x256 (![0, 1] : Fin 2 → Fin S3000x256.rank)
  slices_S4x256x256_S1x256x256_2_0_0 : S4x256x256.Slices ![2, 0, 0] S1x256x256
  slices_S4x256_S1x256_2_0 : S4x256.Slices ![2, 0] S1x256
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  broadcasts_S1x256_S3000x256 : S1x256.Broadcasts S3000x256
  dot_S2000x768_S768x256_S2000x256_1_0_0_1_n_n_wf : DotDims.WF S2000x768 S768x256 S2000x256 [1] [0] [0] [1] [] []
  gather_S20000x256_S20000x1_S20000x256_1_0_n_n_0_1_1256_wf : GatherDims.WF S20000x256 S20000x1 S20000x256 [1] [0] [] [0] [] 1 ![1, 256]
  gather_S3000x256_S3000x1_S3000x256_1_0_n_n_0_1_1256_wf : GatherDims.WF S3000x256 S3000x1 S3000x256 [1] [0] [] [0] [] 1 ![1, 256]
  scatter_S20000x1_S320000x1_S320000x1_1_0_0_1_wf : ScatterDims.WF S20000x1 S320000x1 S320000x1 [1] [0] [0] 1
  scatter_S100000x1_S320000x1_S320000x1_1_0_0_1_wf : ScatterDims.WF S100000x1 S320000x1 S320000x1 [1] [0] [0] 1
  scatter_S100000x1_S160000x1_S160000x1_1_0_0_1_wf : ScatterDims.WF S100000x1 S160000x1 S160000x1 [1] [0] [0] 1
  scatter_S3000x1_S160000x1_S160000x1_1_0_0_1_wf : ScatterDims.WF S3000x1 S160000x1 S160000x1 [1] [0] [0] 1
  gather_S100000x256_S320000x1_S320000x256_1_0_n_n_0_1_1256_wf : GatherDims.WF S100000x256 S320000x1 S320000x256 [1] [0] [] [0] [] 1 ![1, 256]
  scatter_S20000x256_S320000x1_S320000x256_1_0_0_1_wf : ScatterDims.WF S20000x256 S320000x1 S320000x256 [1] [0] [0] 1
  dot_S4000x256_S256x256_S4000x256_1_0_0_1_n_n_wf : DotDims.WF S4000x256 S256x256 S4000x256 [1] [0] [0] [1] [] []
  gather_S20000x256_S320000x1_S320000x256_1_0_n_n_0_1_1256_wf : GatherDims.WF S20000x256 S320000x1 S320000x256 [1] [0] [] [0] [] 1 ![1, 256]
  scatter_S100000x256_S320000x1_S320000x256_1_0_0_1_wf : ScatterDims.WF S100000x256 S320000x1 S320000x256 [1] [0] [0] 1
  gather_S3000x256_S160000x1_S160000x256_1_0_n_n_0_1_1256_wf : GatherDims.WF S3000x256 S160000x1 S160000x256 [1] [0] [] [0] [] 1 ![1, 256]
  scatter_S100000x256_S160000x1_S160000x256_1_0_0_1_wf : ScatterDims.WF S100000x256 S160000x1 S160000x256 [1] [0] [0] 1
  dot_S2000x256_S256x256_S2000x256_1_0_0_1_n_n_wf : DotDims.WF S2000x256 S256x256 S2000x256 [1] [0] [0] [1] [] []
  gather_S100000x256_S160000x1_S160000x256_1_0_n_n_0_1_1256_wf : GatherDims.WF S100000x256 S160000x1 S160000x256 [1] [0] [] [0] [] 1 ![1, 256]
  scatter_S3000x256_S160000x1_S160000x256_1_0_0_1_wf : ScatterDims.WF S3000x256 S160000x1 S160000x256 [1] [0] [0] 1
  dot_S3000x256_S256x256_S3000x256_1_0_0_1_n_n_wf : DotDims.WF S3000x256 S256x256 S3000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S20000x256.size a
  hwx1_0 : ∀ i : grid1.Coords, EltTy.bits .f32 = 32 ∨ (Rect.block (s := S20000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S20000x256.size a
  hwx1_1 : ∀ i : grid1.Coords, EltTy.bits .f32 = 32 ∨ (Rect.block (s := S20000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S20000x256.size a
  hwx1_5 : ∀ i : grid1.Coords, EltTy.bits .f32 = 32 ∨ (Rect.block (s := S20000x256) S4000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S100000x256.size a
  hwx2_2 : ∀ i : grid2.Coords, EltTy.bits .f32 = 32 ∨ (Rect.block (s := S100000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x256.size a ≤ S100000x256.size a
  hwx2_7 : ∀ i : grid2.Coords, EltTy.bits .f32 = 32 ∨ (Rect.block (s := S100000x256) S2000x256.size (cc2_transform_7 i) (hinb2_7 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S3000x256.size a ≤ S3000x256.size a
  hwx3_0 : ∀ i : grid3.Coords, EltTy.bits .f32 = 32 ∨ (Rect.block (s := S3000x256) S3000x256.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S3000x256.size a ≤ S3000x256.size a
  hwx3_1 : ∀ i : grid3.Coords, EltTy.bits .f32 = 32 ∨ (Rect.block (s := S3000x256) S3000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 1
  hreads3_5 : ∀ i i' : grid3.Coords, (∀ a, reads3_5 a = true → i a = i' a) → cc3_transform_5 i = cc3_transform_5 i'
  hinb3_5 : ∀ (i : grid3.Coords) a, (cc3_transform_5 i a + 1) * S3000x256.size a ≤ S3000x256.size a
  hwx3_5 : ∀ i : grid3.Coords, EltTy.bits .f32 = 32 ∨ (Rect.block (s := S3000x256) S3000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S20000x256.size a
  hwx4_0 : ∀ i : grid4.Coords, EltTy.bits .f32 = 32 ∨ (Rect.block (s := S20000x256) S4000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x256.size a ≤ S20000x256.size a
  hwx4_1 : ∀ i : grid4.Coords, EltTy.bits .f32 = 32 ∨ (Rect.block (s := S20000x256) S4000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x256.size a ≤ S20000x256.size a
  hwx4_5 : ∀ i : grid4.Coords, EltTy.bits .f32 = 32 ∨ (Rect.block (s := S20000x256) S4000x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S100000x256.size a
  hwx5_1 : ∀ i : grid5.Coords, EltTy.bits .f32 = 32 ∨ (Rect.block (s := S100000x256) S2000x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x256.size a ≤ S100000x256.size a
  hwx5_2 : ∀ i : grid5.Coords, EltTy.bits .f32 = 32 ∨ (Rect.block (s := S100000x256) S2000x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S256x256.size a
  hwx5_3 : ∀ i : grid5.Coords, EltTy.bits .f32 = 32 ∨ (Rect.block (s := S256x256) S256x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S256x256.size a
  hwx5_4 : ∀ i : grid5.Coords, EltTy.bits .f32 = 32 ∨ (Rect.block (s := S256x256) S256x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .f32 = 32 ∨ (Rect.block (s := S256x256) S256x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x256.size a ≤ S100000x256.size a
  hwx5_7 : ∀ i : grid5.Coords, EltTy.bits .f32 = 32 ∨ (Rect.block (s := S100000x256) S2000x256.size (cc5_transform_7 i) (hinb5_7 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S3000x256.size a ≤ S3000x256.size a
  hwx6_0 : ∀ i : grid6.Coords, EltTy.bits .f32 = 32 ∨ (Rect.block (s := S3000x256) S3000x256.size (cc6_transform_0 i) (hinb6_0 i)).WholeWords (EltTy.packing .f32)
  hstage6_1 : ∀ j, (stage6_1 j).IsWhole
  nbuf6_1 : grid6.bufCount reads6_1 false = 1
  hreads6_1 : ∀ i i' : grid6.Coords, (∀ a, reads6_1 a = true → i a = i' a) → cc6_transform_1 i = cc6_transform_1 i'
  hinb6_1 : ∀ (i : grid6.Coords) a, (cc6_transform_1 i a + 1) * S3000x256.size a ≤ S3000x256.size a
  hwx6_1 : ∀ i : grid6.Coords, EltTy.bits .f32 = 32 ∨ (Rect.block (s := S3000x256) S3000x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x256.size a ≤ S256x256.size a
  hwx6_2 : ∀ i : grid6.Coords, EltTy.bits .f32 = 32 ∨ (Rect.block (s := S256x256) S256x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x256.size a ≤ S256x256.size a
  hwx6_4 : ∀ i : grid6.Coords, EltTy.bits .f32 = 32 ∨ (Rect.block (s := S256x256) S256x256.size (cc6_transform_4 i) (hinb6_4 i)).WholeWords (EltTy.packing .f32)
  hstage6_5 : ∀ j, (stage6_5 j).IsWhole
  nbuf6_5 : grid6.bufCount reads6_5 false = 1
  hreads6_5 : ∀ i i' : grid6.Coords, (∀ a, reads6_5 a = true → i a = i' a) → cc6_transform_5 i = cc6_transform_5 i'
  hinb6_5 : ∀ (i : grid6.Coords) a, (cc6_transform_5 i a + 1) * S3000x256.size a ≤ S3000x256.size a
  hwx6_5 : ∀ i : grid6.Coords, EltTy.bits .f32 = 32 ∨ (Rect.block (s := S3000x256) S3000x256.size (cc6_transform_5 i) (hinb6_5 i)).WholeWords (EltTy.packing .f32)

variable [Facts₀]

def dot_S2000x768_S768x256_S2000x256_1_0_0_1_n_n : DotDims S2000x768 S768x256 S2000x256 where
  lhsContracting := [1]
  rhsContracting := [0]
  lhsNonContracting := [0]
  rhsNonContracting := [1]
  lhsBatch := []
  rhsBatch := []
  wf := dot_S2000x768_S768x256_S2000x256_1_0_0_1_n_n_wf
def gather_S20000x256_S20000x1_S20000x256_1_0_n_n_0_1_1256 : GatherDims S20000x256 S20000x1 S20000x256 where
  offsetDims := [1]
  collapsedSliceDims := [0]
  operandBatchingDims := []
  startIndicesBatchingDims := []
  startIndexMap := [0]
  indexVectorDim := 1
  sliceSizes := ![1, 256]
  wf := gather_S20000x256_S20000x1_S20000x256_1_0_n_n_0_1_1256_wf
def gather_S3000x256_S3000x1_S3000x256_1_0_n_n_0_1_1256 : GatherDims S3000x256 S3000x1 S3000x256 where
  offsetDims := [1]
  collapsedSliceDims := [0]
  operandBatchingDims := []
  startIndicesBatchingDims := []
  startIndexMap := [0]
  indexVectorDim := 1
  sliceSizes := ![1, 256]
  wf := gather_S3000x256_S3000x1_S3000x256_1_0_n_n_0_1_1256_wf
def scatter_S20000x1_S320000x1_S320000x1_1_0_0_1 : ScatterDims S20000x1 S320000x1 S320000x1 where
  updateWindowDims := [1]
  insertedWindowDims := [0]
  scatterDimsToOperandDims := [0]
  indexVectorDim := 1
  wf := scatter_S20000x1_S320000x1_S320000x1_1_0_0_1_wf
def scatter_S100000x1_S320000x1_S320000x1_1_0_0_1 : ScatterDims S100000x1 S320000x1 S320000x1 where
  updateWindowDims := [1]
  insertedWindowDims := [0]
  scatterDimsToOperandDims := [0]
  indexVectorDim := 1
  wf := scatter_S100000x1_S320000x1_S320000x1_1_0_0_1_wf
def scatter_S100000x1_S160000x1_S160000x1_1_0_0_1 : ScatterDims S100000x1 S160000x1 S160000x1 where
  updateWindowDims := [1]
  insertedWindowDims := [0]
  scatterDimsToOperandDims := [0]
  indexVectorDim := 1
  wf := scatter_S100000x1_S160000x1_S160000x1_1_0_0_1_wf
def scatter_S3000x1_S160000x1_S160000x1_1_0_0_1 : ScatterDims S3000x1 S160000x1 S160000x1 where
  updateWindowDims := [1]
  insertedWindowDims := [0]
  scatterDimsToOperandDims := [0]
  indexVectorDim := 1
  wf := scatter_S3000x1_S160000x1_S160000x1_1_0_0_1_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def gather_S3000x256_S160000x1_S160000x256_1_0_n_n_0_1_1256 : GatherDims S3000x256 S160000x1 S160000x256 where
  offsetDims := [1]
  collapsedSliceDims := [0]
  operandBatchingDims := []
  startIndicesBatchingDims := []
  startIndexMap := [0]
  indexVectorDim := 1
  sliceSizes := ![1, 256]
  wf := gather_S3000x256_S160000x1_S160000x256_1_0_n_n_0_1_1256_wf
def scatter_S100000x256_S160000x1_S160000x256_1_0_0_1 : ScatterDims S100000x256 S160000x1 S160000x256 where
  updateWindowDims := [1]
  insertedWindowDims := [0]
  scatterDimsToOperandDims := [0]
  indexVectorDim := 1
  wf := scatter_S100000x256_S160000x1_S160000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S160000x1_S160000x256_1_0_n_n_0_1_1256 : GatherDims S100000x256 S160000x1 S160000x256 where
  offsetDims := [1]
  collapsedSliceDims := [0]
  operandBatchingDims := []
  startIndicesBatchingDims := []
  startIndexMap := [0]
  indexVectorDim := 1
  sliceSizes := ![1, 256]
  wf := gather_S100000x256_S160000x1_S160000x256_1_0_n_n_0_1_1256_wf
def scatter_S3000x256_S160000x1_S160000x256_1_0_0_1 : ScatterDims S3000x256 S160000x1 S160000x256 where
  updateWindowDims := [1]
  insertedWindowDims := [0]
  scatterDimsToOperandDims := [0]
  indexVectorDim := 1
  wf := scatter_S3000x256_S160000x1_S160000x256_1_0_0_1_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v53) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v57) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v73) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v99) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v101) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v92) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v102) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v103) S2000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v117) S3000x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v15) S3000x256.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v119) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v124) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v123) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v125) S3000x256.size cc3_transform_5 reads3_5 true false 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v139) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S4000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v141) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v146) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v145) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v147) S4000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v161) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v175) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v103) S2000x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v187) S256x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v189) S256x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v180) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v190) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v191) S2000x256.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v205) S3000x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_v125) S3000x256.size cc6_transform_1 reads6_1 false false 1 stage6_1 sem6_1
    hrank6 hreads6_1 hinb6_1 nbuf6_1 (Memref.isWhole_whole _) hwx6_1 hstage6_1

abbrev win6_2 : Pipeline.Window sig grid6 :=
  Pipeline.Window.ofSpec (Memref.whole main_v207) S256x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v212) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v211) S256x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v213) S3000x256.size cc6_transform_5 reads6_5 true false 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x768 : Shape := ⟨2, ![100000, 768]⟩
abbrev S20000 : Shape := ⟨1, ![20000]⟩
abbrev S3000 : Shape := ⟨1, ![3000]⟩
abbrev S320000 : Shape := ⟨1, ![320000]⟩
abbrev S160000 : Shape := ⟨1, ![160000]⟩
abbrev S768x256 : Shape := ⟨2, ![768, 256]⟩
abbrev S256 : Shape := ⟨1, ![256]⟩
abbrev S20000x256 : Shape := ⟨2, ![20000, 256]⟩
abbrev S3000x256 : Shape := ⟨2, ![3000, 256]⟩
abbrev S4x256x256 : Shape := ⟨3, ![4, 256, 256]⟩
abbrev S4x256 : Shape := ⟨2, ![4, 256]⟩
abbrev S100000x256 : Shape := ⟨2, ![100000, 256]⟩
abbrev S1x256 : Shape := ⟨2, ![1, 256]⟩
abbrev S_ : Shape := ⟨0, ![]⟩
abbrev S20000x1 : Shape := ⟨2, ![20000, 1]⟩
abbrev S3000x1 : Shape := ⟨2, ![3000, 1]⟩
abbrev S1x256x256 : Shape := ⟨3, ![1, 256, 256]⟩
abbrev S256x256 : Shape := ⟨2, ![256, 256]⟩
abbrev S320000x1 : Shape := ⟨2, ![320000, 1]⟩
abbrev S320000x256 : Shape := ⟨2, ![320000, 256]⟩
abbrev S100000x1 : Shape := ⟨2, ![100000, 1]⟩
abbrev S160000x1 : Shape := ⟨2, ![160000, 1]⟩
abbrev S160000x256 : Shape := ⟨2, ![160000, 256]⟩

abbrev nBuf : Space → Nat
  | .hbm => 341
  | .vmem => 0
  | .smem => 0
  | _ => 0

abbrev hbmTy0_0 (i : Nat) : BufTy := match i % 128 with
  | 0 => ⟨S100000x768, .f32⟩
  | 1 => ⟨S20000, .i32⟩
  | 2 => ⟨S3000, .i32⟩
  | 3 => ⟨S320000, .i32⟩
  | 4 => ⟨S320000, .i32⟩
  | 5 => ⟨S160000, .i32⟩
  | 6 => ⟨S160000, .i32⟩
  | 7 => ⟨S768x256, .f32⟩
  | 8 => ⟨S256, .f32⟩
  | 9 => ⟨S20000x256, .f32⟩
  | 10 => ⟨S3000x256, .f32⟩
  | 11 => ⟨S4x256x256, .f32⟩
  | 12 => ⟨S4x256, .f32⟩
  | 13 => ⟨S4x256x256, .f32⟩
  | 14 => ⟨S4x256x256, .f32⟩
  | 15 => ⟨S4x256, .f32⟩
  | 16 => ⟨S4x256x256, .f32⟩
  | 17 => ⟨S100000x256, .f32⟩
  | 18 => ⟨S1x256, .f32⟩
  | 19 => ⟨S100000x256, .f32⟩
  | 20 => ⟨S100000x256, .f32⟩
  | 21 => ⟨S_, .f32⟩
  | 22 => ⟨S100000x256, .f32⟩
  | 23 => ⟨S100000x256, .f32⟩
  | 24 => ⟨S_, .i32⟩
  | 25 => ⟨S20000, .i32⟩
  | 26 => ⟨S20000, .i1⟩
  | 27 => ⟨S_, .i32⟩
  | 28 => ⟨S20000, .i32⟩
  | 29 => ⟨S20000, .i32⟩
  | 30 => ⟨S20000, .i32⟩
  | 31 => ⟨S20000x1, .i32⟩
  | 32 => ⟨S20000x256, .f32⟩
  | 33 => ⟨S_, .i32⟩
  | 34 => ⟨S3000, .i32⟩
  | 35 => ⟨S3000, .i1⟩
  | 36 => ⟨S_, .i32⟩
  | 37 => ⟨S3000, .i32⟩
  | 38 => ⟨S3000, .i32⟩
  | 39 => ⟨S3000, .i32⟩
  | 40 => ⟨S3000x1, .i32⟩
  | 41 => ⟨S3000x256, .f32⟩
  | 42 => ⟨S1x256x256, .f32⟩
  | 43 => ⟨S256x256, .f32⟩
  | 44 => ⟨S1x256, .f32⟩
  | 45 => ⟨S256, .f32⟩
  | 46 => ⟨S1x256x256, .f32⟩
  | 47 => ⟨S256x256, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x256, .f32⟩
  | 57 => ⟨S_, .f32⟩
  | 58 => ⟨S20000x256, .f32⟩
  | 59 => ⟨S320000x1, .i32⟩
  | 60 => ⟨S20000x256, .f32⟩
  | 61 => ⟨S_, .f32⟩
  | 62 => ⟨S320000x1, .f32⟩
  | 63 => ⟨S_, .f32⟩
  | 64 => ⟨S20000x1, .f32⟩
  | 65 => ⟨S320000x1, .i32⟩
  | 66 => ⟨S20000x1, .f32⟩
  | 67 => ⟨S_, .f32⟩
  | 68 => ⟨S20000x1, .f32⟩
  | 69 => ⟨S20000x1, .f32⟩
  | 70 => ⟨S20000x256, .f32⟩
  | 71 => ⟨S20000x256, .f32⟩
  | 72 => ⟨S20000x256, .f32⟩
  | 73 => ⟨S1x256, .f32⟩
  | 74 => ⟨S20000x256, .f32⟩
  | 75 => ⟨S20000x256, .f32⟩
  | 76 => ⟨S20000x256, .f32⟩
  | 77 => ⟨S20000x256, .f32⟩
  | 78 => ⟨S1x256x256, .f32⟩
  | 79 => ⟨S256x256, .f32⟩
  | 80 => ⟨S1x256, .f32⟩
  | 81 => ⟨S256, .f32⟩
  | 82 => ⟨S1x256x256, .f32⟩
  | 83 => ⟨S256x256, .f32⟩
  | 84 => ⟨S_, .i32⟩
  | 85 => ⟨S320000, .i32⟩
  | 86 => ⟨S320000, .i1⟩
  | 87 => ⟨S_, .i32⟩
  | 88 => ⟨S320000, .i32⟩
  | 89 => ⟨S320000, .i32⟩
  | 90 => ⟨S320000, .i32⟩
  | 91 => ⟨S320000x1, .i32⟩
  | 92 => ⟨S320000x256, .f32⟩
  | 93 => ⟨S_, .f32⟩
  | 94 => ⟨S100000x256, .f32⟩
  | 95 => ⟨S320000x1, .i32⟩
  | 96 => ⟨S100000x256, .f32⟩
  | 97 => ⟨S_, .f32⟩
  | 98 => ⟨S320000x1, .f32⟩
  | 99 => ⟨S_, .f32⟩
  | 100 => ⟨S100000x1, .f32⟩
  | 101 => ⟨S320000x1, .i32⟩
  | 102 => ⟨S100000x1, .f32⟩
  | 103 => ⟨S_, .f32⟩
  | 104 => ⟨S100000x1, .f32⟩
  | 105 => ⟨S100000x1, .f32⟩
  | 106 => ⟨S100000x256, .f32⟩
  | 107 => ⟨S100000x256, .f32⟩
  | 108 => ⟨S100000x256, .f32⟩
  | 109 => ⟨S1x256, .f32⟩
  | 110 => ⟨S100000x256, .f32⟩
  | 111 => ⟨S100000x256, .f32⟩
  | 112 => ⟨S100000x256, .f32⟩
  | 113 => ⟨S100000x256, .f32⟩
  | 114 => ⟨S1x256x256, .f32⟩
  | 115 => ⟨S256x256, .f32⟩
  | 116 => ⟨S1x256, .f32⟩
  | 117 => ⟨S256, .f32⟩
  | 118 => ⟨S1x256x256, .f32⟩
  | 119 => ⟨S256x256, .f32⟩
  | 120 => ⟨S_, .i32⟩
  | 121 => ⟨S160000, .i32⟩
  | 122 => ⟨S160000, .i1⟩
  | 123 => ⟨S_, .i32⟩
  | 124 => ⟨S160000, .i32⟩
  | 125 => ⟨S160000, .i32⟩
  | 126 => ⟨S160000, .i32⟩
  | 127 => ⟨S160000x1, .i32⟩
  | _ => ⟨S100000x768, .f32⟩

abbrev hbmTy0_1 (i : Nat) : BufTy := match i % 128 with
  | 0 => ⟨S160000x256, .f32⟩
  | 1 => ⟨S_, .f32⟩
  | 2 => ⟨S100000x256, .f32⟩
  | 3 => ⟨S160000x1, .i32⟩
  | 4 => ⟨S100000x256, .f32⟩
  | 5 => ⟨S_, .f32⟩
  | 6 => ⟨S160000x1, .f32⟩
  | 7 => ⟨S_, .f32⟩
  | 8 => ⟨S100000x1, .f32⟩
  | 9 => ⟨S160000x1, .i32⟩
  | 10 => ⟨S100000x1, .f32⟩
  | 11 => ⟨S_, .f32⟩
  | 12 => ⟨S100000x1, .f32⟩
  | 13 => ⟨S100000x1, .f32⟩
  | 14 => ⟨S100000x256, .f32⟩
  | 15 => ⟨S100000x256, .f32⟩
  | 16 => ⟨S100000x256, .f32⟩
  | 17 => ⟨S1x256, .f32⟩
  | 18 => ⟨S100000x256, .f32⟩
  | 19 => ⟨S100000x256, .f32⟩
  | 20 => ⟨S100000x256, .f32⟩
  | 21 => ⟨S100000x256, .f32⟩
  | 22 => ⟨S100000x256, .f32⟩
  | 23 => ⟨S1x256x256, .f32⟩
  | 24 => ⟨S256x256, .f32⟩
  | 25 => ⟨S1x256, .f32⟩
  | 26 => ⟨S256, .f32⟩
  | 27 => ⟨S1x256x256, .f32⟩
  | 28 => ⟨S256x256, .f32⟩
  | 29 => ⟨S_, .i32⟩
  | 30 => ⟨S160000, .i32⟩
  | 31 => ⟨S160000, .i1⟩
  | 32 => ⟨S_, .i32⟩
  | 33 => ⟨S160000, .i32⟩
  | 34 => ⟨S160000, .i32⟩
  | 35 => ⟨S160000, .i32⟩
  | 36 => ⟨S160000x1, .i32⟩
  | 37 => ⟨S160000x256, .f32⟩
  | 38 => ⟨S_, .f32⟩
  | 39 => ⟨S3000x256, .f32⟩
  | 40 => ⟨S160000x1, .i32⟩
  | 41 => ⟨S3000x256, .f32⟩
  | 42 => ⟨S_, .f32⟩
  | 43 => ⟨S160000x1, .f32⟩
  | 44 => ⟨S_, .f32⟩
  | 45 => ⟨S3000x1, .f32⟩
  | 46 => ⟨S160000x1, .i32⟩
  | 47 => ⟨S3000x1, .f32⟩
  | 48 => ⟨S_, .f32⟩
  | 49 => ⟨S3000x1, .f32⟩
  | 50 => ⟨S3000x1, .f32⟩
  | 51 => ⟨S3000x256, .f32⟩
  | 52 => ⟨S3000x256, .f32⟩
  | 53 => ⟨S3000x256, .f32⟩
  | 54 => ⟨S1x256, .f32⟩
  | 55 => ⟨S3000x256, .f32⟩
  | 56 => ⟨S3000x256, .f32⟩
  | 57 => ⟨S3000x256, .f32⟩
  | 58 => ⟨S3000x256, .f32⟩
  | 59 => ⟨S_, .f32⟩
  | 60 => ⟨S100000x256, .f32⟩
  | 61 => ⟨S100000x256, .f32⟩
  | 62 => ⟨S_, .f32⟩
  | 63 => ⟨S20000x256, .f32⟩
  | 64 => ⟨S20000x256, .f32⟩
  | 65 => ⟨S_, .f32⟩
  | 66 => ⟨S3000x256, .f32⟩
  | 67 => ⟨S3000x256, .f32⟩
  | 68 => ⟨S1x256x256, .f32⟩
  | 69 => ⟨S256x256, .f32⟩
  | 70 => ⟨S1x256, .f32⟩
  | 71 => ⟨S256, .f32⟩
  | 72 => ⟨S1x256x256, .f32⟩
  | 73 => ⟨S256x256, .f32⟩
  | 74 => ⟨S_, .i32⟩
  | 75 => ⟨S320000, .i32⟩
  | 76 => ⟨S320000, .i1⟩
  | 77 => ⟨S_, .i32⟩
  | 78 => ⟨S320000, .i32⟩
  | 79 => ⟨S320000, .i32⟩
  | 80 => ⟨S320000, .i32⟩
  | 81 => ⟨S320000x1, .i32⟩
  | 82 => ⟨S320000x256, .f32⟩
  | 83 => ⟨S_, .f32⟩
  | 84 => ⟨S20000x256, .f32⟩
  | 85 => ⟨S320000x1, .i32⟩
  | 86 => ⟨S20000x256, .f32⟩
  | 87 => ⟨S_, .f32⟩
  | 88 => ⟨S320000x1, .f32⟩
  | 89 => ⟨S_, .f32⟩
  | 90 => ⟨S20000x1, .f32⟩
  | 91 => ⟨S320000x1, .i32⟩
  | 92 => ⟨S20000x1, .f32⟩
  | 93 => ⟨S_, .f32⟩
  | 94 => ⟨S20000x1, .f32⟩
  | 95 => ⟨S20000x1, .f32⟩
  | 96 => ⟨S20000x256, .f32⟩
  | 97 => ⟨S20000x256, .f32⟩
  | 98 => ⟨S20000x256, .f32⟩
  | 99 => ⟨S1x256, .f32⟩
  | 100 => ⟨S20000x256, .f32⟩
  | 101 => ⟨S20000x256, .f32⟩
  | 102 => ⟨S20000x256, .f32⟩
  | 103 => ⟨S20000x256, .f32⟩
  | 104 => ⟨S1x256x256, .f32⟩
  | 105 => ⟨S256x256, .f32⟩
  | 106 => ⟨S1x256, .f32⟩
  | 107 => ⟨S256, .f32⟩
  | 108 => ⟨S1x256x256, .f32⟩
  | 109 => ⟨S256x256, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S320000x256, .f32⟩
  | 119 => ⟨S_, .f32⟩
  | 120 => ⟨S100000x256, .f32⟩
  | 121 => ⟨S320000x1, .i32⟩
  | 122 => ⟨S100000x256, .f32⟩
  | 123 => ⟨S_, .f32⟩
  | 124 => ⟨S320000x1, .f32⟩
  | 125 => ⟨S_, .f32⟩
  | 126 => ⟨S100000x1, .f32⟩
  | 127 => ⟨S320000x1, .i32⟩
  | _ => ⟨S100000x768, .f32⟩

abbrev hbmTy0_2 (i : Nat) : BufTy := match i % 128 with
  | 0 => ⟨S100000x1, .f32⟩
  | 1 => ⟨S_, .f32⟩
  | 2 => ⟨S100000x1, .f32⟩
  | 3 => ⟨S100000x1, .f32⟩
  | 4 => ⟨S100000x256, .f32⟩
  | 5 => ⟨S100000x256, .f32⟩
  | 6 => ⟨S100000x256, .f32⟩
  | 7 => ⟨S1x256, .f32⟩
  | 8 => ⟨S100000x256, .f32⟩
  | 9 => ⟨S100000x256, .f32⟩
  | 10 => ⟨S100000x256, .f32⟩
  | 11 => ⟨S100000x256, .f32⟩
  | 12 => ⟨S1x256x256, .f32⟩
  | 13 => ⟨S256x256, .f32⟩
  | 14 => ⟨S1x256, .f32⟩
  | 15 => ⟨S256, .f32⟩
  | 16 => ⟨S1x256x256, .f32⟩
  | 17 => ⟨S256x256, .f32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S160000x256, .f32⟩
  | 27 => ⟨S_, .f32⟩
  | 28 => ⟨S100000x256, .f32⟩
  | 29 => ⟨S160000x1, .i32⟩
  | 30 => ⟨S100000x256, .f32⟩
  | 31 => ⟨S_, .f32⟩
  | 32 => ⟨S160000x1, .f32⟩
  | 33 => ⟨S_, .f32⟩
  | 34 => ⟨S100000x1, .f32⟩
  | 35 => ⟨S160000x1, .i32⟩
  | 36 => ⟨S100000x1, .f32⟩
  | 37 => ⟨S_, .f32⟩
  | 38 => ⟨S100000x1, .f32⟩
  | 39 => ⟨S100000x1, .f32⟩
  | 40 => ⟨S100000x256, .f32⟩
  | 41 => ⟨S100000x256, .f32⟩
  | 42 => ⟨S100000x256, .f32⟩
  | 43 => ⟨S1x256, .f32⟩
  | 44 => ⟨S100000x256, .f32⟩
  | 45 => ⟨S100000x256, .f32⟩
  | 46 => ⟨S100000x256, .f32⟩
  | 47 => ⟨S100000x256, .f32⟩
  | 48 => ⟨S100000x256, .f32⟩
  | 49 => ⟨S1x256x256, .f32⟩
  | 50 => ⟨S256x256, .f32⟩
  | 51 => ⟨S1x256, .f32⟩
  | 52 => ⟨S256, .f32⟩
  | 53 => ⟨S1x256x256, .f32⟩
  | 54 => ⟨S256x256, .f32⟩
  | 55 => ⟨S_, .i32⟩
  | 56 => ⟨S160000, .i32⟩
  | 57 => ⟨S160000, .i1⟩
  | 58 => ⟨S_, .i32⟩
  | 59 => ⟨S160000, .i32⟩
  | 60 => ⟨S160000, .i32⟩
  | 61 => ⟨S160000, .i32⟩
  | 62 => ⟨S160000x1, .i32⟩
  | 63 => ⟨S160000x256, .f32⟩
  | 64 => ⟨S_, .f32⟩
  | 65 => ⟨S3000x256, .f32⟩
  | 66 => ⟨S160000x1, .i32⟩
  | 67 => ⟨S3000x256, .f32⟩
  | 68 => ⟨S_, .f32⟩
  | 69 => ⟨S160000x1, .f32⟩
  | 70 => ⟨S_, .f32⟩
  | 71 => ⟨S3000x1, .f32⟩
  | 72 => ⟨S160000x1, .i32⟩
  | 73 => ⟨S3000x1, .f32⟩
  | 74 => ⟨S_, .f32⟩
  | 75 => ⟨S3000x1, .f32⟩
  | 76 => ⟨S3000x1, .f32⟩
  | 77 => ⟨S3000x256, .f32⟩
  | 78 => ⟨S3000x256, .f32⟩
  | 79 => ⟨S3000x256, .f32⟩
  | 80 => ⟨S1x256, .f32⟩
  | 81 => ⟨S3000x256, .f32⟩
  | 82 => ⟨S3000x256, .f32⟩
  | 83 => ⟨S3000x256, .f32⟩
  | 84 => ⟨S3000x256, .f32⟩
  | _ => ⟨S100000x768, .f32⟩

abbrev hbmTy (i : Nat) : BufTy := match i / 128 with
  | 0 => hbmTy0_0 i
  | 1 => hbmTy0_1 i
  | 2 => hbmTy0_2 i
  | _ => ⟨S100000x768, .f32⟩

abbrev bufTy : (tb : Table) → Fin (tcTables nBuf tb) → BufTy
  | .hbm, ⟨i, _⟩ => hbmTy i
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call0_cst : Ref sig .tc := ⟨.hbm, 21, rfl⟩
abbrev main_call0_v0 : Ref sig .tc := ⟨.hbm, 22, rfl⟩
abbrev main_v4 : Ref sig .tc := ⟨.hbm, 23, rfl⟩
abbrev main_c : Ref sig .tc := ⟨.hbm, 24, rfl⟩
abbrev main_v5 : Ref sig .tc := ⟨.hbm, 25, rfl⟩
abbrev main_v6 : Ref sig .tc := ⟨.hbm, 26, rfl⟩
abbrev main_c_0 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_c_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_8 : Ref sig .tc := ⟨.hbm, 84, rfl⟩
abbrev main_v55 : Ref sig .tc := ⟨.hbm, 85, rfl⟩
abbrev main_v56 : Ref sig .tc := ⟨.hbm, 86, rfl⟩
abbrev main_c_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_10 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_c_14 : Ref sig .tc := ⟨.hbm, 120, rfl⟩
abbrev main_v85 : Ref sig .tc := ⟨.hbm, 121, rfl⟩
abbrev main_v86 : Ref sig .tc := ⟨.hbm, 122, rfl⟩
abbrev main_c_15 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_16 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_17 : Ref sig .tc := ⟨.hbm, 133, rfl⟩
abbrev main_v95 : Ref sig .tc := ⟨.hbm, 134, rfl⟩
abbrev main_cst_18 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_19 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_20 : Ref sig .tc := ⟨.hbm, 157, rfl⟩
abbrev main_v116 : Ref sig .tc := ⟨.hbm, 158, rfl⟩
abbrev main_v117 : Ref sig .tc := ⟨.hbm, 159, rfl⟩
abbrev main_c_21 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_22 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_23 : Ref sig .tc := ⟨.hbm, 170, rfl⟩
abbrev main_v126 : Ref sig .tc := ⟨.hbm, 171, rfl⟩
abbrev main_cst_24 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_25 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_call1_cst : Ref sig .tc := ⟨.hbm, 187, rfl⟩
abbrev main_call1_v0 : Ref sig .tc := ⟨.hbm, 188, rfl⟩
abbrev main_v140 : Ref sig .tc := ⟨.hbm, 189, rfl⟩
abbrev main_call2_cst : Ref sig .tc := ⟨.hbm, 190, rfl⟩
abbrev main_call2_v0 : Ref sig .tc := ⟨.hbm, 191, rfl⟩
abbrev main_v141 : Ref sig .tc := ⟨.hbm, 192, rfl⟩
abbrev main_call3_cst : Ref sig .tc := ⟨.hbm, 193, rfl⟩
abbrev main_call3_v0 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_c_26 : Ref sig .tc := ⟨.hbm, 202, rfl⟩
abbrev main_v149 : Ref sig .tc := ⟨.hbm, 203, rfl⟩
abbrev main_v150 : Ref sig .tc := ⟨.hbm, 204, rfl⟩
abbrev main_c_27 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_28 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_29 : Ref sig .tc := ⟨.hbm, 215, rfl⟩
abbrev main_v159 : Ref sig .tc := ⟨.hbm, 216, rfl⟩
abbrev main_cst_30 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_cst_31 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_c_32 : Ref sig .tc := ⟨.hbm, 238, rfl⟩
abbrev main_v179 : Ref sig .tc := ⟨.hbm, 239, rfl⟩
abbrev main_v180 : Ref sig .tc := ⟨.hbm, 240, rfl⟩
abbrev main_c_33 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_cst_34 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_cst_35 : Ref sig .tc := ⟨.hbm, 251, rfl⟩
abbrev main_v189 : Ref sig .tc := ⟨.hbm, 252, rfl⟩
abbrev main_cst_36 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_cst_37 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_c_38 : Ref sig .tc := ⟨.hbm, 274, rfl⟩
abbrev main_v209 : Ref sig .tc := ⟨.hbm, 275, rfl⟩
abbrev main_v210 : Ref sig .tc := ⟨.hbm, 276, rfl⟩
abbrev main_c_39 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_cst_40 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_cst_41 : Ref sig .tc := ⟨.hbm, 287, rfl⟩
abbrev main_v219 : Ref sig .tc := ⟨.hbm, 288, rfl⟩
abbrev main_cst_42 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_cst_43 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_v230 : Ref sig .tc := ⟨.hbm, 301, rfl⟩
abbrev main_v231 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_c_44 : Ref sig .tc := ⟨.hbm, 311, rfl⟩
abbrev main_v240 : Ref sig .tc := ⟨.hbm, 312, rfl⟩
abbrev main_v241 : Ref sig .tc := ⟨.hbm, 313, rfl⟩
abbrev main_c_45 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_cst_46 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_cst_47 : Ref sig .tc := ⟨.hbm, 324, rfl⟩
abbrev main_v250 : Ref sig .tc := ⟨.hbm, 325, rfl⟩
abbrev main_cst_48 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_cst_49 : Ref sig .tc := ⟨.hbm, 330, rfl⟩
abbrev main_v254 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev main_v262 : Ref sig .tc := ⟨.hbm, 339, rfl⟩
abbrev main_v263 : Ref sig .tc := ⟨.hbm, 340, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S3000 : S_.BroadcastsInDim S3000 (![] : Fin 0 → Fin S3000.rank)
  bcast_S3000_S3000x1_0 : S3000.BroadcastsInDim S3000x1 (![0] : Fin 1 → Fin S3000x1.rank)
  slices_S4x256x256_S1x256x256_0_0_0 : S4x256x256.Slices ![0, 0, 0] S1x256x256
  shapeCasts_S1x256x256_S256x256 : S1x256x256.ShapeCasts S256x256
  slices_S4x256_S1x256_0_0 : S4x256.Slices ![0, 0] S1x256
  shapeCasts_S1x256_S256 : S1x256.ShapeCasts S256
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S320000x1 : S_.BroadcastsInDim S320000x1 (![] : Fin 0 → Fin S320000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  bcast_S1x256_S20000x256_0_1 : S1x256.BroadcastsInDim S20000x256 (![0, 1] : Fin 2 → Fin S20000x256.rank)
  slices_S4x256x256_S1x256x256_1_0_0 : S4x256x256.Slices ![1, 0, 0] S1x256x256
  slices_S4x256_S1x256_1_0 : S4x256.Slices ![1, 0] S1x256
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  slices_S4x256x256_S1x256x256_3_0_0 : S4x256x256.Slices ![3, 0, 0] S1x256x256
  slices_S4x256_S1x256_3_0 : S4x256.Slices ![3, 0] S1x256
  bcast_S_S160000 : S_.BroadcastsInDim S160000 (![] : Fin 0 → Fin S160000.rank)
  bcast_S160000_S160000x1_0 : S160000.BroadcastsInDim S160000x1 (![0] : Fin 1 → Fin S160000x1.rank)
  bcast_S_S160000x1 : S_.BroadcastsInDim S160000x1 (![] : Fin 0 → Fin S160000x1.rank)
  slices_S4x256x256_S1x256x256_2_0_0 : S4x256x256.Slices ![2, 0, 0] S1x256x256
  slices_S4x256_S1x256_2_0 : S4x256.Slices ![2, 0] S1x256
  bcast_S_S3000x256 : S_.BroadcastsInDim S3000x256 (![] : Fin 0 → Fin S3000x256.rank)
  bcast_S_S3000x1 : S_.BroadcastsInDim S3000x1 (![] : Fin 0 → Fin S3000x1.rank)
  bcast_S3000x1_S3000x256_0_1 : S3000x1.BroadcastsInDim S3000x256 (![0, 1] : Fin 2 → Fin S3000x256.rank)
  bcast_S1x256_S3000x256_0_1 : S1x256.BroadcastsInDim S3000x256 (![0, 1] : Fin 2 → Fin S3000x256.rank)
  dot_S100000x768_S768x256_S100000x256_1_0_0_1_n_n_wf : DotDims.WF S100000x768 S768x256 S100000x256 [1] [0] [0] [1] [] []
  gather_S20000x256_S20000x1_S20000x256_1_0_n_n_0_1_1256_wf : GatherDims.WF S20000x256 S20000x1 S20000x256 [1] [0] [] [0] [] 1 ![1, 256]
  gather_S3000x256_S3000x1_S3000x256_1_0_n_n_0_1_1256_wf : GatherDims.WF S3000x256 S3000x1 S3000x256 [1] [0] [] [0] [] 1 ![1, 256]
  gather_S100000x256_S320000x1_S320000x256_1_0_n_n_0_1_1256_wf : GatherDims.WF S100000x256 S320000x1 S320000x256 [1] [0] [] [0] [] 1 ![1, 256]
  scatter_S20000x256_S320000x1_S320000x256_1_0_0_1_wf : ScatterDims.WF S20000x256 S320000x1 S320000x256 [1] [0] [0] 1
  scatter_S20000x1_S320000x1_S320000x1_1_0_0_1_wf : ScatterDims.WF S20000x1 S320000x1 S320000x1 [1] [0] [0] 1
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S100000x256_S320000x1_S320000x256_1_0_0_1_wf : ScatterDims.WF S100000x256 S320000x1 S320000x256 [1] [0] [0] 1
  scatter_S100000x1_S320000x1_S320000x1_1_0_0_1_wf : ScatterDims.WF S100000x1 S320000x1 S320000x1 [1] [0] [0] 1
  dot_S100000x256_S256x256_S100000x256_1_0_0_1_n_n_wf : DotDims.WF S100000x256 S256x256 S100000x256 [1] [0] [0] [1] [] []
  gather_S3000x256_S160000x1_S160000x256_1_0_n_n_0_1_1256_wf : GatherDims.WF S3000x256 S160000x1 S160000x256 [1] [0] [] [0] [] 1 ![1, 256]
  scatter_S100000x256_S160000x1_S160000x256_1_0_0_1_wf : ScatterDims.WF S100000x256 S160000x1 S160000x256 [1] [0] [0] 1
  scatter_S100000x1_S160000x1_S160000x1_1_0_0_1_wf : ScatterDims.WF S100000x1 S160000x1 S160000x1 [1] [0] [0] 1
  gather_S100000x256_S160000x1_S160000x256_1_0_n_n_0_1_1256_wf : GatherDims.WF S100000x256 S160000x1 S160000x256 [1] [0] [] [0] [] 1 ![1, 256]
  scatter_S3000x256_S160000x1_S160000x256_1_0_0_1_wf : ScatterDims.WF S3000x256 S160000x1 S160000x256 [1] [0] [0] 1
  scatter_S3000x1_S160000x1_S160000x1_1_0_0_1_wf : ScatterDims.WF S3000x1 S160000x1 S160000x1 [1] [0] [0] 1
  dot_S3000x256_S256x256_S3000x256_1_0_0_1_n_n_wf : DotDims.WF S3000x256 S256x256 S3000x256 [1] [0] [0] [1] [] []

variable [Facts₀]

def dot_S100000x768_S768x256_S100000x256_1_0_0_1_n_n : DotDims S100000x768 S768x256 S100000x256 where
  lhsContracting := [1]
  rhsContracting := [0]
  lhsNonContracting := [0]
  rhsNonContracting := [1]
  lhsBatch := []
  rhsBatch := []
  wf := dot_S100000x768_S768x256_S100000x256_1_0_0_1_n_n_wf
def gather_S20000x256_S20000x1_S20000x256_1_0_n_n_0_1_1256 : GatherDims S20000x256 S20000x1 S20000x256 where
  offsetDims := [1]
  collapsedSliceDims := [0]
  operandBatchingDims := []
  startIndicesBatchingDims := []
  startIndexMap := [0]
  indexVectorDim := 1
  sliceSizes := ![1, 256]
  wf := gather_S20000x256_S20000x1_S20000x256_1_0_n_n_0_1_1256_wf
def gather_S3000x256_S3000x1_S3000x256_1_0_n_n_0_1_1256 : GatherDims S3000x256 S3000x1 S3000x256 where
  offsetDims := [1]
  collapsedSliceDims := [0]
  operandBatchingDims := []
  startIndicesBatchingDims := []
  startIndexMap := [0]
  indexVectorDim := 1
  sliceSizes := ![1, 256]
  wf := gather_S3000x256_S3000x1_S3000x256_1_0_n_n_0_1_1256_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000x1_S320000x1_S320000x1_1_0_0_1 : ScatterDims S20000x1 S320000x1 S320000x1 where
  updateWindowDims := [1]
  insertedWindowDims := [0]
  scatterDimsToOperandDims := [0]
  indexVectorDim := 1
  wf := scatter_S20000x1_S320000x1_S320000x1_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def scatter_S100000x1_S320000x1_S320000x1_1_0_0_1 : ScatterDims S100000x1 S320000x1 S320000x1 where
  updateWindowDims := [1]
  insertedWindowDims := [0]
  scatterDimsToOperandDims := [0]
  indexVectorDim := 1
  wf := scatter_S100000x1_S320000x1_S320000x1_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S3000x256_S160000x1_S160000x256_1_0_n_n_0_1_1256 : GatherDims S3000x256 S160000x1 S160000x256 where
  offsetDims := [1]
  collapsedSliceDims := [0]
  operandBatchingDims := []
  startIndicesBatchingDims := []
  startIndexMap := [0]
  indexVectorDim := 1
  sliceSizes := ![1, 256]
  wf := gather_S3000x256_S160000x1_S160000x256_1_0_n_n_0_1_1256_wf
def scatter_S100000x256_S160000x1_S160000x256_1_0_0_1 : ScatterDims S100000x256 S160000x1 S160000x256 where
  updateWindowDims := [1]
  insertedWindowDims := [0]
  scatterDimsToOperandDims := [0]
  indexVectorDim := 1
  wf := scatter_S100000x256_S160000x1_S160000x256_1_0_0_1_wf
def scatter_S100000x1_S160000x1_S160000x1_1_0_0_1 : ScatterDims S100000x1 S160000x1 S160000x1 where
  updateWindowDims := [1]
  insertedWindowDims := [0]
  scatterDimsToOperandDims := [0]
  indexVectorDim := 1
  wf := scatter_S100000x1_S160000x1_S160000x1_1_0_0_1_wf
def gather_S100000x256_S160000x1_S160000x256_1_0_n_n_0_1_1256 : GatherDims S100000x256 S160000x1 S160000x256 where
  offsetDims := [1]
  collapsedSliceDims := [0]
  operandBatchingDims := []
  startIndicesBatchingDims := []
  startIndexMap := [0]
  indexVectorDim := 1
  sliceSizes := ![1, 256]
  wf := gather_S100000x256_S160000x1_S160000x256_1_0_n_n_0_1_1256_wf
def scatter_S3000x256_S160000x1_S160000x256_1_0_0_1 : ScatterDims S3000x256 S160000x1 S160000x256 where
  updateWindowDims := [1]
  insertedWindowDims := [0]
  scatterDimsToOperandDims := [0]
  indexVectorDim := 1
  wf := scatter_S3000x256_S160000x1_S160000x256_1_0_0_1_wf
def scatter_S3000x1_S160000x1_S160000x1_1_0_0_1 : ScatterDims S3000x1 S160000x1 S160000x1 where
  updateWindowDims := [1]
  insertedWindowDims := [0]
  scatterDimsToOperandDims := [0]
  indexVectorDim := 1
  wf := scatter_S3000x1_S160000x1_S160000x1_1_0_0_1_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf

class Facts : Prop extends Facts₀ where

variable [Facts]
-- ==== Proof.KRun.lean ====
/-
  The idealized kernel's run with its three results named.

  The program is seven pipelined regions among stretches of host operations. The contents of every unscoped buffer at
  each boundary between two segments form a fold from the launch memory: a stretch applies its host operations, a region
  leaves each of its arrays at what its write-backs fold to and every other buffer as it found it. `W14` is the last of
  these, the contents when the program returns. Every weakly fair execution terminates without fault, and in its final
  state each result buffer — the news, keyword and stock tables of the second layer — holds `W14` at that buffer,
  while the argument arrays are as launched.
-/
import proofs.«146827_j53558242181513_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without fault; the three result buffers end at the last
    boundary's contents, and the seventeen argument arrays end as launched. -/
theorem run_values : θ_run defs (onTc (τ := τ) (main (F := F))) ⟨m, fun _ => 0, ρ⟩ (fun r => ∀ c : Dev nD,
      r.2.mem ((c.tc : Thread nD τ).loc main_v191) = W14 m ρ c (Proc.devRef .tc main_v191)
      ∧ r.2.mem ((c.tc : Thread nD τ).loc main_v147) = W14 m ρ c (Proc.devRef .tc main_v147)
      ∧ r.2.mem ((c.tc : Thread nD τ).loc main_v213) = W14 m ρ c (Proc.devRef .tc main_v213)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v191 (by decide)),
       h c _ (mem_uc main_v147 (by decide)),
       h c _ (mem_uc main_v213 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c)⟩)

end Cert.KernelIdeal.RunValue

end
-- ==== Proof.Rows.lean ====
/-
  The row formulas of the two-layer heterogeneous graph network, index by index on the extended reals, and the one
  algebraic law that joins the two programs.

  For a destination table of `M` rows and 256 features:
  * `mm x w r j = Σ_k x[r,k] · w[k,j]` is an entry of a matrix product;
  * `enc x w b` is the encoder `max (x·w + b, 0)`;
  * `sage relu mean xd wl bl wr` is one relation's update `mean·wl + bl + xd·wr`, followed by `max (·, 0)` when
    `relu` is set;
  * `fused relu m1 m3 h wl1 wl3 wr bl` is the news update with the two root weights and the two biases already
    added: `m1·wl1 + m3·wl3 + bl + h·wr`.
  The law `fused_eq_add_sage`: when `h`, `wr1`, `wr3` hold real numbers,
  `fused (wr := wr1 + wr3) (bl := bl1 + bl3) = sage (wl1, bl1, wr1) + sage (wl3, bl3, wr3)` entry by entry: the
  regrouping of the five summands is commutativity and associativity of `+` on the extended reals, and
  `Σ_k h[r,k]·(wr1[k,j] + wr3[k,j]) = Σ_k h[r,k]·wr1[k,j] + Σ_k h[r,k]·wr3[k,j]` is distributivity, which holds
  because every factor is real (at an infinite factor it fails).
-/
import Idealize.ShloMosaic.PureOps.Ideal
import Idealize.ShloMosaic.Lib.ValueIdx
import Mathlib.Data.EReal.Operations
import Mathlib.Algebra.BigOperators.Group.Finset.Basic

noncomputable section

namespace Cert.Rows

open Idealize.ShloMosaic Idealize.ShloMosaic.ValueIdx

/-- An `r × c` table of extended reals, indexed as the rank-2 shape `[r, c]`. -/
abbrev Mat (r c : ℕ) : Type := (⟨2, ![r, c]⟩ : Shape).Idx → EReal

/-- Every entry is a real number. -/
def AllReal {ι : Type} (x : ι → EReal) : Prop := ∀ i, ∃ r : ℝ, x i = (r : EReal)

/-- An entry of the product `x · w`. -/
def mm {M K N : ℕ} (x : Mat M K) (w : Mat K N) (r : Fin M) (j : Fin N) : EReal :=
  ∑ k : Fin K, x (ix2 r k) * w (ix2 k j)

/-- `max (v, 0)` when `relu` is set, `v` otherwise. -/
def act (relu : Bool) (v : EReal) : EReal := if relu then max v 0 else v

/-- An entry of the encoder: `max (x·w + b, 0)`, the bias kept as a `1 × 256` row. -/
def encAt {M K : ℕ} (x : Mat M K) (w : Mat K 256) (b : Mat 1 256) (r : Fin M) (j : Fin 256) : EReal :=
  max (mm x w r j + b (ix2 0 j)) 0

/-- An entry of one relation's update: `mean·wl + bl + xd·wr`, then `max (·, 0)` when `relu` is set. -/
def sageAt {M : ℕ} (relu : Bool) (mean xd : Mat M 256) (wl : Mat 256 256) (bl : Mat 1 256) (wr : Mat 256 256)
    (r : Fin M) (j : Fin 256) : EReal :=
  act relu ((mm mean wl r j + bl (ix2 0 j)) + mm xd wr r j)

/-- An entry of the news update with root weights and biases already added: `m1·wl1 + m3·wl3 + bl + h·wr`. -/
def fusedAt {M : ℕ} (relu : Bool) (m1 m3 h : Mat M 256) (wl1 wl3 wr : Mat 256 256) (bl : Mat 1 256)
    (r : Fin M) (j : Fin 256) : EReal :=
  act relu (((mm m1 wl1 r j + mm m3 wl3 r j) + bl (ix2 0 j)) + mm h wr r j)

/-- The three updates as whole tables. -/
def enc {M K : ℕ} (x : Mat M K) (w : Mat K 256) (b : Mat 1 256) : Mat M 256 := fun i => encAt x w b (i 0) (i 1)
def sage {M : ℕ} (relu : Bool) (mean xd : Mat M 256) (wl : Mat 256 256) (bl : Mat 1 256) (wr : Mat 256 256) : Mat M 256 :=
  fun i => sageAt relu mean xd wl bl wr (i 0) (i 1)
def fused {M : ℕ} (relu : Bool) (m1 m3 h : Mat M 256) (wl1 wl3 wr : Mat 256 256) (bl : Mat 1 256) : Mat M 256 :=
  fun i => fusedAt relu m1 m3 h wl1 wl3 wr bl (i 0) (i 1)

theorem enc_ix2 {M K : ℕ} (x : Mat M K) (w : Mat K 256) (b : Mat 1 256) (r : Fin M) (j : Fin 256) :
    enc x w b (ix2 r j) = encAt x w b r j := rfl
theorem sage_ix2 {M : ℕ} (relu : Bool) (mean xd : Mat M 256) (wl : Mat 256 256) (bl : Mat 1 256) (wr : Mat 256 256)
    (r : Fin M) (j : Fin 256) : sage relu mean xd wl bl wr (ix2 r j) = sageAt relu mean xd wl bl wr r j := rfl
theorem fused_ix2 {M : ℕ} (relu : Bool) (m1 m3 h : Mat M 256) (wl1 wl3 wr : Mat 256 256) (bl : Mat 1 256)
    (r : Fin M) (j : Fin 256) : fused relu m1 m3 h wl1 wl3 wr bl (ix2 r j) = fusedAt relu m1 m3 h wl1 wl3 wr bl r j := rfl

/-- A finite sum of reals, taken in the extended reals, is the real sum. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- Distributivity of a row of reals over the sum of two real columns. -/
theorem mm_add_right {M K N : ℕ} (h : Mat M K) (w1 w3 : Mat K N) (hh : AllReal h) (h1 : AllReal w1) (h3 : AllReal w3)
    (r : Fin M) (j : Fin N) :
    mm h (fun i => w1 i + w3 i) r j = mm h w1 r j + mm h w3 r j := by
  unfold mm
  choose hr hhr using hh
  choose a ha using h1
  choose b hb using h3
  simp only [hhr, ha, hb]
  rw [← Finset.sum_add_distrib]
  refine Finset.sum_congr rfl fun k _ => ?_
  rw [← EReal.coe_add, ← EReal.coe_mul, ← EReal.coe_mul, ← EReal.coe_mul, ← EReal.coe_add, mul_add]

/-- The fused news update is the sum of the two relations' updates, entry by entry, when the root features and the
    two root weight matrices are real; the activation, when there is one, is applied to the sum. -/
theorem fusedAt_eq_add_sageAt {M : ℕ} (relu : Bool) (m1 m3 h : Mat M 256) (wl1 wl3 wr1 wr3 : Mat 256 256) (bl1 bl3 : Mat 1 256)
    (hh : AllReal h) (h1 : AllReal wr1) (h3 : AllReal wr3) (r : Fin M) (j : Fin 256) :
    fusedAt relu m1 m3 h wl1 wl3 (fun i => wr1 i + wr3 i) (fun i => bl1 i + bl3 i) r j
      = act relu (sageAt false m1 h wl1 bl1 wr1 r j + sageAt false m3 h wl3 bl3 wr3 r j) := by
  unfold fusedAt sageAt
  rw [mm_add_right h wr1 wr3 hh h1 h3]
  refine congrArg (act relu) ?_
  simp only [act, Bool.false_eq_true, if_false]
  ac_rfl

end Cert.Rows

end
-- ==== Proof.KArgs.lean ====
/-
  The argument arrays at the boundaries between the segments of the idealized kernel's run: no host operation and no
  region writes an argument, so at every boundary an argument's buffer holds what the launch memory held. One line per
  (argument, boundary) pair that a later stretch or region reads; `argK_Wj` is argument K at boundary j.
-/
import proofs.«146827_j53558242181513_2_alg».proof.Proof.Gen.KernelIdeal.Frame
import Idealize.ShloMosaic.PureOps.Ideal

set_option maxRecDepth 16384

noncomputable section

namespace Cert.KernelIdeal.Args

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem arg0_W0 : W0 (F := Ideal) m ρ c (Proc.devRef .tc main_arg0) = m ((c.tc : Thread nD τ).loc main_arg0) := rfl
theorem arg0_step1 : W1 (F := Ideal) m ρ c (Proc.devRef .tc main_arg0) = W0 m ρ c (Proc.devRef .tc main_arg0) := by
  show StableHlo.after hostOps0 (W0 m ρ c) (Proc.devRef .tc main_arg0) = _; after_results_simp
theorem arg0_W1 : W1 (F := Ideal) m ρ c (Proc.devRef .tc main_arg0) = m ((c.tc : Thread nD τ).loc main_arg0) :=
  (arg0_step1 m ρ c).trans (arg0_W0 m ρ c)

theorem arg7_W0 : W0 (F := Ideal) m ρ c (Proc.devRef .tc main_arg7) = m ((c.tc : Thread nD τ).loc main_arg7) := rfl
theorem arg7_step1 : W1 (F := Ideal) m ρ c (Proc.devRef .tc main_arg7) = W0 m ρ c (Proc.devRef .tc main_arg7) := by
  show StableHlo.after hostOps0 (W0 m ρ c) (Proc.devRef .tc main_arg7) = _; after_results_simp
theorem arg7_W1 : W1 (F := Ideal) m ρ c (Proc.devRef .tc main_arg7) = m ((c.tc : Thread nD τ).loc main_arg7) :=
  (arg7_step1 m ρ c).trans (arg7_W0 m ρ c)

theorem arg1_W0 : W0 (F := Ideal) m ρ c (Proc.devRef .tc main_arg1) = m ((c.tc : Thread nD τ).loc main_arg1) := rfl
theorem arg1_step1 : W1 (F := Ideal) m ρ c (Proc.devRef .tc main_arg1) = W0 m ρ c (Proc.devRef .tc main_arg1) := by
  show StableHlo.after hostOps0 (W0 m ρ c) (Proc.devRef .tc main_arg1) = _; after_results_simp
theorem arg1_W1 : W1 (F := Ideal) m ρ c (Proc.devRef .tc main_arg1) = m ((c.tc : Thread nD τ).loc main_arg1) :=
  (arg1_step1 m ρ c).trans (arg1_W0 m ρ c)
theorem arg1_step2 : W2 (F := Ideal) m ρ c (Proc.devRef .tc main_arg1) = W1 m ρ c (Proc.devRef .tc main_arg1) := W2_of_ne m ρ c main_arg1 (by decide)
theorem arg1_W2 : W2 (F := Ideal) m ρ c (Proc.devRef .tc main_arg1) = m ((c.tc : Thread nD τ).loc main_arg1) :=
  (arg1_step2 m ρ c).trans (arg1_W1 m ρ c)

theorem arg2_W0 : W0 (F := Ideal) m ρ c (Proc.devRef .tc main_arg2) = m ((c.tc : Thread nD τ).loc main_arg2) := rfl
theorem arg2_step1 : W1 (F := Ideal) m ρ c (Proc.devRef .tc main_arg2) = W0 m ρ c (Proc.devRef .tc main_arg2) := by
  show StableHlo.after hostOps0 (W0 m ρ c) (Proc.devRef .tc main_arg2) = _; after_results_simp
theorem arg2_W1 : W1 (F := Ideal) m ρ c (Proc.devRef .tc main_arg2) = m ((c.tc : Thread nD τ).loc main_arg2) :=
  (arg2_step1 m ρ c).trans (arg2_W0 m ρ c)
theorem arg2_step2 : W2 (F := Ideal) m ρ c (Proc.devRef .tc main_arg2) = W1 m ρ c (Proc.devRef .tc main_arg2) := W2_of_ne m ρ c main_arg2 (by decide)
theorem arg2_W2 : W2 (F := Ideal) m ρ c (Proc.devRef .tc main_arg2) = m ((c.tc : Thread nD τ).loc main_arg2) :=
  (arg2_step2 m ρ c).trans (arg2_W1 m ρ c)

theorem arg9_W0 : W0 (F := Ideal) m ρ c (Proc.devRef .tc main_arg9) = m ((c.tc : Thread nD τ).loc main_arg9) := rfl
theorem arg9_step1 : W1 (F := Ideal) m ρ c (Proc.devRef .tc main_arg9) = W0 m ρ c (Proc.devRef .tc main_arg9) := by
  show StableHlo.after hostOps0 (W0 m ρ c) (Proc.devRef .tc main_arg9) = _; after_results_simp
theorem arg9_W1 : W1 (F := Ideal) m ρ c (Proc.devRef .tc main_arg9) = m ((c.tc : Thread nD τ).loc main_arg9) :=
  (arg9_step1 m ρ c).trans (arg9_W0 m ρ c)
theorem arg9_step2 : W2 (F := Ideal) m ρ c (Proc.devRef .tc main_arg9) = W1 m ρ c (Proc.devRef .tc main_arg9) := W2_of_ne m ρ c main_arg9 (by decide)
theorem arg9_W2 : W2 (F := Ideal) m ρ c (Proc.devRef .tc main_arg9) = m ((c.tc : Thread nD τ).loc main_arg9) :=
  (arg9_step2 m ρ c).trans (arg9_W1 m ρ c)

theorem arg10_W0 : W0 (F := Ideal) m ρ c (Proc.devRef .tc main_arg10) = m ((c.tc : Thread nD τ).loc main_arg10) := rfl
theorem arg10_step1 : W1 (F := Ideal) m ρ c (Proc.devRef .tc main_arg10) = W0 m ρ c (Proc.devRef .tc main_arg10) := by
  show StableHlo.after hostOps0 (W0 m ρ c) (Proc.devRef .tc main_arg10) = _; after_results_simp
theorem arg10_W1 : W1 (F := Ideal) m ρ c (Proc.devRef .tc main_arg10) = m ((c.tc : Thread nD τ).loc main_arg10) :=
  (arg10_step1 m ρ c).trans (arg10_W0 m ρ c)
theorem arg10_step2 : W2 (F := Ideal) m ρ c (Proc.devRef .tc main_arg10) = W1 m ρ c (Proc.devRef .tc main_arg10) := W2_of_ne m ρ c main_arg10 (by decide)
theorem arg10_W2 : W2 (F := Ideal) m ρ c (Proc.devRef .tc main_arg10) = m ((c.tc : Thread nD τ).loc main_arg10) :=
  (arg10_step2 m ρ c).trans (arg10_W1 m ρ c)

theorem arg3_W0 : W0 (F := Ideal) m ρ c (Proc.devRef .tc main_arg3) = m ((c.tc : Thread nD τ).loc main_arg3) := rfl
theorem arg3_step1 : W1 (F := Ideal) m ρ c (Proc.devRef .tc main_arg3) = W0 m ρ c (Proc.devRef .tc main_arg3) := by
  show StableHlo.after hostOps0 (W0 m ρ c) (Proc.devRef .tc main_arg3) = _; after_results_simp
theorem arg3_W1 : W1 (F := Ideal) m ρ c (Proc.devRef .tc main_arg3) = m ((c.tc : Thread nD τ).loc main_arg3) :=
  (arg3_step1 m ρ c).trans (arg3_W0 m ρ c)
theorem arg3_step2 : W2 (F := Ideal) m ρ c (Proc.devRef .tc main_arg3) = W1 m ρ c (Proc.devRef .tc main_arg3) := W2_of_ne m ρ c main_arg3 (by decide)
theorem arg3_W2 : W2 (F := Ideal) m ρ c (Proc.devRef .tc main_arg3) = m ((c.tc : Thread nD τ).loc main_arg3) :=
  (arg3_step2 m ρ c).trans (arg3_W1 m ρ c)
theorem arg3_step3 : W3 (F := Ideal) m ρ c (Proc.devRef .tc main_arg3) = W2 m ρ c (Proc.devRef .tc main_arg3) := by
  show StableHlo.after hostOps1 (W2 m ρ c) (Proc.devRef .tc main_arg3) = _; after_results_simp
theorem arg3_W3 : W3 (F := Ideal) m ρ c (Proc.devRef .tc main_arg3) = m ((c.tc : Thread nD τ).loc main_arg3) :=
  (arg3_step3 m ρ c).trans (arg3_W2 m ρ c)
theorem arg3_step4 : W4 (F := Ideal) m ρ c (Proc.devRef .tc main_arg3) = W3 m ρ c (Proc.devRef .tc main_arg3) := W4_of_ne m ρ c main_arg3 (by decide)
theorem arg3_W4 : W4 (F := Ideal) m ρ c (Proc.devRef .tc main_arg3) = m ((c.tc : Thread nD τ).loc main_arg3) :=
  (arg3_step4 m ρ c).trans (arg3_W3 m ρ c)
theorem arg3_step5 : W5 (F := Ideal) m ρ c (Proc.devRef .tc main_arg3) = W4 m ρ c (Proc.devRef .tc main_arg3) := by
  show StableHlo.after hostOps2 (W4 m ρ c) (Proc.devRef .tc main_arg3) = _; after_results_simp
theorem arg3_W5 : W5 (F := Ideal) m ρ c (Proc.devRef .tc main_arg3) = m ((c.tc : Thread nD τ).loc main_arg3) :=
  (arg3_step5 m ρ c).trans (arg3_W4 m ρ c)
theorem arg3_step6 : W6 (F := Ideal) m ρ c (Proc.devRef .tc main_arg3) = W5 m ρ c (Proc.devRef .tc main_arg3) := W6_of_ne m ρ c main_arg3 (by decide)
theorem arg3_W6 : W6 (F := Ideal) m ρ c (Proc.devRef .tc main_arg3) = m ((c.tc : Thread nD τ).loc main_arg3) :=
  (arg3_step6 m ρ c).trans (arg3_W5 m ρ c)
theorem arg3_step7 : W7 (F := Ideal) m ρ c (Proc.devRef .tc main_arg3) = W6 m ρ c (Proc.devRef .tc main_arg3) := by
  show StableHlo.after hostOps3 (W6 m ρ c) (Proc.devRef .tc main_arg3) = _; after_results_simp
theorem arg3_W7 : W7 (F := Ideal) m ρ c (Proc.devRef .tc main_arg3) = m ((c.tc : Thread nD τ).loc main_arg3) :=
  (arg3_step7 m ρ c).trans (arg3_W6 m ρ c)
theorem arg3_step8 : W8 (F := Ideal) m ρ c (Proc.devRef .tc main_arg3) = W7 m ρ c (Proc.devRef .tc main_arg3) := W8_of_ne m ρ c main_arg3 (by decide)
theorem arg3_W8 : W8 (F := Ideal) m ρ c (Proc.devRef .tc main_arg3) = m ((c.tc : Thread nD τ).loc main_arg3) :=
  (arg3_step8 m ρ c).trans (arg3_W7 m ρ c)
theorem arg3_step9 : W9 (F := Ideal) m ρ c (Proc.devRef .tc main_arg3) = W8 m ρ c (Proc.devRef .tc main_arg3) := by
  show StableHlo.after hostOps4 (W8 m ρ c) (Proc.devRef .tc main_arg3) = _; after_results_simp
theorem arg3_W9 : W9 (F := Ideal) m ρ c (Proc.devRef .tc main_arg3) = m ((c.tc : Thread nD τ).loc main_arg3) :=
  (arg3_step9 m ρ c).trans (arg3_W8 m ρ c)
theorem arg3_step10 : W10 (F := Ideal) m ρ c (Proc.devRef .tc main_arg3) = W9 m ρ c (Proc.devRef .tc main_arg3) := W10_of_ne m ρ c main_arg3 (by decide)
theorem arg3_W10 : W10 (F := Ideal) m ρ c (Proc.devRef .tc main_arg3) = m ((c.tc : Thread nD τ).loc main_arg3) :=
  (arg3_step10 m ρ c).trans (arg3_W9 m ρ c)
theorem arg3_step11 : W11 (F := Ideal) m ρ c (Proc.devRef .tc main_arg3) = W10 m ρ c (Proc.devRef .tc main_arg3) := by
  show StableHlo.after hostOps5 (W10 m ρ c) (Proc.devRef .tc main_arg3) = _; after_results_simp
theorem arg3_W11 : W11 (F := Ideal) m ρ c (Proc.devRef .tc main_arg3) = m ((c.tc : Thread nD τ).loc main_arg3) :=
  (arg3_step11 m ρ c).trans (arg3_W10 m ρ c)
theorem arg3_step12 : W12 (F := Ideal) m ρ c (Proc.devRef .tc main_arg3) = W11 m ρ c (Proc.devRef .tc main_arg3) := W12_of_ne m ρ c main_arg3 (by decide)
theorem arg3_W12 : W12 (F := Ideal) m ρ c (Proc.devRef .tc main_arg3) = m ((c.tc : Thread nD τ).loc main_arg3) :=
  (arg3_step12 m ρ c).trans (arg3_W11 m ρ c)

theorem arg4_W0 : W0 (F := Ideal) m ρ c (Proc.devRef .tc main_arg4) = m ((c.tc : Thread nD τ).loc main_arg4) := rfl
theorem arg4_step1 : W1 (F := Ideal) m ρ c (Proc.devRef .tc main_arg4) = W0 m ρ c (Proc.devRef .tc main_arg4) := by
  show StableHlo.after hostOps0 (W0 m ρ c) (Proc.devRef .tc main_arg4) = _; after_results_simp
theorem arg4_W1 : W1 (F := Ideal) m ρ c (Proc.devRef .tc main_arg4) = m ((c.tc : Thread nD τ).loc main_arg4) :=
  (arg4_step1 m ρ c).trans (arg4_W0 m ρ c)
theorem arg4_step2 : W2 (F := Ideal) m ρ c (Proc.devRef .tc main_arg4) = W1 m ρ c (Proc.devRef .tc main_arg4) := W2_of_ne m ρ c main_arg4 (by decide)
theorem arg4_W2 : W2 (F := Ideal) m ρ c (Proc.devRef .tc main_arg4) = m ((c.tc : Thread nD τ).loc main_arg4) :=
  (arg4_step2 m ρ c).trans (arg4_W1 m ρ c)
theorem arg4_step3 : W3 (F := Ideal) m ρ c (Proc.devRef .tc main_arg4) = W2 m ρ c (Proc.devRef .tc main_arg4) := by
  show StableHlo.after hostOps1 (W2 m ρ c) (Proc.devRef .tc main_arg4) = _; after_results_simp
theorem arg4_W3 : W3 (F := Ideal) m ρ c (Proc.devRef .tc main_arg4) = m ((c.tc : Thread nD τ).loc main_arg4) :=
  (arg4_step3 m ρ c).trans (arg4_W2 m ρ c)
theorem arg4_step4 : W4 (F := Ideal) m ρ c (Proc.devRef .tc main_arg4) = W3 m ρ c (Proc.devRef .tc main_arg4) := W4_of_ne m ρ c main_arg4 (by decide)
theorem arg4_W4 : W4 (F := Ideal) m ρ c (Proc.devRef .tc main_arg4) = m ((c.tc : Thread nD τ).loc main_arg4) :=
  (arg4_step4 m ρ c).trans (arg4_W3 m ρ c)
theorem arg4_step5 : W5 (F := Ideal) m ρ c (Proc.devRef .tc main_arg4) = W4 m ρ c (Proc.devRef .tc main_arg4) := by
  show StableHlo.after hostOps2 (W4 m ρ c) (Proc.devRef .tc main_arg4) = _; after_results_simp
theorem arg4_W5 : W5 (F := Ideal) m ρ c (Proc.devRef .tc main_arg4) = m ((c.tc : Thread nD τ).loc main_arg4) :=
  (arg4_step5 m ρ c).trans (arg4_W4 m ρ c)
theorem arg4_step6 : W6 (F := Ideal) m ρ c (Proc.devRef .tc main_arg4) = W5 m ρ c (Proc.devRef .tc main_arg4) := W6_of_ne m ρ c main_arg4 (by decide)
theorem arg4_W6 : W6 (F := Ideal) m ρ c (Proc.devRef .tc main_arg4) = m ((c.tc : Thread nD τ).loc main_arg4) :=
  (arg4_step6 m ρ c).trans (arg4_W5 m ρ c)
theorem arg4_step7 : W7 (F := Ideal) m ρ c (Proc.devRef .tc main_arg4) = W6 m ρ c (Proc.devRef .tc main_arg4) := by
  show StableHlo.after hostOps3 (W6 m ρ c) (Proc.devRef .tc main_arg4) = _; after_results_simp
theorem arg4_W7 : W7 (F := Ideal) m ρ c (Proc.devRef .tc main_arg4) = m ((c.tc : Thread nD τ).loc main_arg4) :=
  (arg4_step7 m ρ c).trans (arg4_W6 m ρ c)
theorem arg4_step8 : W8 (F := Ideal) m ρ c (Proc.devRef .tc main_arg4) = W7 m ρ c (Proc.devRef .tc main_arg4) := W8_of_ne m ρ c main_arg4 (by decide)
theorem arg4_W8 : W8 (F := Ideal) m ρ c (Proc.devRef .tc main_arg4) = m ((c.tc : Thread nD τ).loc main_arg4) :=
  (arg4_step8 m ρ c).trans (arg4_W7 m ρ c)
theorem arg4_step9 : W9 (F := Ideal) m ρ c (Proc.devRef .tc main_arg4) = W8 m ρ c (Proc.devRef .tc main_arg4) := by
  show StableHlo.after hostOps4 (W8 m ρ c) (Proc.devRef .tc main_arg4) = _; after_results_simp
theorem arg4_W9 : W9 (F := Ideal) m ρ c (Proc.devRef .tc main_arg4) = m ((c.tc : Thread nD τ).loc main_arg4) :=
  (arg4_step9 m ρ c).trans (arg4_W8 m ρ c)
theorem arg4_step10 : W10 (F := Ideal) m ρ c (Proc.devRef .tc main_arg4) = W9 m ρ c (Proc.devRef .tc main_arg4) := W10_of_ne m ρ c main_arg4 (by decide)
theorem arg4_W10 : W10 (F := Ideal) m ρ c (Proc.devRef .tc main_arg4) = m ((c.tc : Thread nD τ).loc main_arg4) :=
  (arg4_step10 m ρ c).trans (arg4_W9 m ρ c)
theorem arg4_step11 : W11 (F := Ideal) m ρ c (Proc.devRef .tc main_arg4) = W10 m ρ c (Proc.devRef .tc main_arg4) := by
  show StableHlo.after hostOps5 (W10 m ρ c) (Proc.devRef .tc main_arg4) = _; after_results_simp
theorem arg4_W11 : W11 (F := Ideal) m ρ c (Proc.devRef .tc main_arg4) = m ((c.tc : Thread nD τ).loc main_arg4) :=
  (arg4_step11 m ρ c).trans (arg4_W10 m ρ c)
theorem arg4_step12 : W12 (F := Ideal) m ρ c (Proc.devRef .tc main_arg4) = W11 m ρ c (Proc.devRef .tc main_arg4) := W12_of_ne m ρ c main_arg4 (by decide)
theorem arg4_W12 : W12 (F := Ideal) m ρ c (Proc.devRef .tc main_arg4) = m ((c.tc : Thread nD τ).loc main_arg4) :=
  (arg4_step12 m ρ c).trans (arg4_W11 m ρ c)

theorem arg5_W0 : W0 (F := Ideal) m ρ c (Proc.devRef .tc main_arg5) = m ((c.tc : Thread nD τ).loc main_arg5) := rfl
theorem arg5_step1 : W1 (F := Ideal) m ρ c (Proc.devRef .tc main_arg5) = W0 m ρ c (Proc.devRef .tc main_arg5) := by
  show StableHlo.after hostOps0 (W0 m ρ c) (Proc.devRef .tc main_arg5) = _; after_results_simp
theorem arg5_W1 : W1 (F := Ideal) m ρ c (Proc.devRef .tc main_arg5) = m ((c.tc : Thread nD τ).loc main_arg5) :=
  (arg5_step1 m ρ c).trans (arg5_W0 m ρ c)
theorem arg5_step2 : W2 (F := Ideal) m ρ c (Proc.devRef .tc main_arg5) = W1 m ρ c (Proc.devRef .tc main_arg5) := W2_of_ne m ρ c main_arg5 (by decide)
theorem arg5_W2 : W2 (F := Ideal) m ρ c (Proc.devRef .tc main_arg5) = m ((c.tc : Thread nD τ).loc main_arg5) :=
  (arg5_step2 m ρ c).trans (arg5_W1 m ρ c)
theorem arg5_step3 : W3 (F := Ideal) m ρ c (Proc.devRef .tc main_arg5) = W2 m ρ c (Proc.devRef .tc main_arg5) := by
  show StableHlo.after hostOps1 (W2 m ρ c) (Proc.devRef .tc main_arg5) = _; after_results_simp
theorem arg5_W3 : W3 (F := Ideal) m ρ c (Proc.devRef .tc main_arg5) = m ((c.tc : Thread nD τ).loc main_arg5) :=
  (arg5_step3 m ρ c).trans (arg5_W2 m ρ c)
theorem arg5_step4 : W4 (F := Ideal) m ρ c (Proc.devRef .tc main_arg5) = W3 m ρ c (Proc.devRef .tc main_arg5) := W4_of_ne m ρ c main_arg5 (by decide)
theorem arg5_W4 : W4 (F := Ideal) m ρ c (Proc.devRef .tc main_arg5) = m ((c.tc : Thread nD τ).loc main_arg5) :=
  (arg5_step4 m ρ c).trans (arg5_W3 m ρ c)
theorem arg5_step5 : W5 (F := Ideal) m ρ c (Proc.devRef .tc main_arg5) = W4 m ρ c (Proc.devRef .tc main_arg5) := by
  show StableHlo.after hostOps2 (W4 m ρ c) (Proc.devRef .tc main_arg5) = _; after_results_simp
theorem arg5_W5 : W5 (F := Ideal) m ρ c (Proc.devRef .tc main_arg5) = m ((c.tc : Thread nD τ).loc main_arg5) :=
  (arg5_step5 m ρ c).trans (arg5_W4 m ρ c)
theorem arg5_step6 : W6 (F := Ideal) m ρ c (Proc.devRef .tc main_arg5) = W5 m ρ c (Proc.devRef .tc main_arg5) := W6_of_ne m ρ c main_arg5 (by decide)
theorem arg5_W6 : W6 (F := Ideal) m ρ c (Proc.devRef .tc main_arg5) = m ((c.tc : Thread nD τ).loc main_arg5) :=
  (arg5_step6 m ρ c).trans (arg5_W5 m ρ c)
theorem arg5_step7 : W7 (F := Ideal) m ρ c (Proc.devRef .tc main_arg5) = W6 m ρ c (Proc.devRef .tc main_arg5) := by
  show StableHlo.after hostOps3 (W6 m ρ c) (Proc.devRef .tc main_arg5) = _; after_results_simp
theorem arg5_W7 : W7 (F := Ideal) m ρ c (Proc.devRef .tc main_arg5) = m ((c.tc : Thread nD τ).loc main_arg5) :=
  (arg5_step7 m ρ c).trans (arg5_W6 m ρ c)
theorem arg5_step8 : W8 (F := Ideal) m ρ c (Proc.devRef .tc main_arg5) = W7 m ρ c (Proc.devRef .tc main_arg5) := W8_of_ne m ρ c main_arg5 (by decide)
theorem arg5_W8 : W8 (F := Ideal) m ρ c (Proc.devRef .tc main_arg5) = m ((c.tc : Thread nD τ).loc main_arg5) :=
  (arg5_step8 m ρ c).trans (arg5_W7 m ρ c)
theorem arg5_step9 : W9 (F := Ideal) m ρ c (Proc.devRef .tc main_arg5) = W8 m ρ c (Proc.devRef .tc main_arg5) := by
  show StableHlo.after hostOps4 (W8 m ρ c) (Proc.devRef .tc main_arg5) = _; after_results_simp
theorem arg5_W9 : W9 (F := Ideal) m ρ c (Proc.devRef .tc main_arg5) = m ((c.tc : Thread nD τ).loc main_arg5) :=
  (arg5_step9 m ρ c).trans (arg5_W8 m ρ c)
theorem arg5_step10 : W10 (F := Ideal) m ρ c (Proc.devRef .tc main_arg5) = W9 m ρ c (Proc.devRef .tc main_arg5) := W10_of_ne m ρ c main_arg5 (by decide)
theorem arg5_W10 : W10 (F := Ideal) m ρ c (Proc.devRef .tc main_arg5) = m ((c.tc : Thread nD τ).loc main_arg5) :=
  (arg5_step10 m ρ c).trans (arg5_W9 m ρ c)
theorem arg5_step11 : W11 (F := Ideal) m ρ c (Proc.devRef .tc main_arg5) = W10 m ρ c (Proc.devRef .tc main_arg5) := by
  show StableHlo.after hostOps5 (W10 m ρ c) (Proc.devRef .tc main_arg5) = _; after_results_simp
theorem arg5_W11 : W11 (F := Ideal) m ρ c (Proc.devRef .tc main_arg5) = m ((c.tc : Thread nD τ).loc main_arg5) :=
  (arg5_step11 m ρ c).trans (arg5_W10 m ρ c)
theorem arg5_step12 : W12 (F := Ideal) m ρ c (Proc.devRef .tc main_arg5) = W11 m ρ c (Proc.devRef .tc main_arg5) := W12_of_ne m ρ c main_arg5 (by decide)
theorem arg5_W12 : W12 (F := Ideal) m ρ c (Proc.devRef .tc main_arg5) = m ((c.tc : Thread nD τ).loc main_arg5) :=
  (arg5_step12 m ρ c).trans (arg5_W11 m ρ c)

theorem arg6_W0 : W0 (F := Ideal) m ρ c (Proc.devRef .tc main_arg6) = m ((c.tc : Thread nD τ).loc main_arg6) := rfl
theorem arg6_step1 : W1 (F := Ideal) m ρ c (Proc.devRef .tc main_arg6) = W0 m ρ c (Proc.devRef .tc main_arg6) := by
  show StableHlo.after hostOps0 (W0 m ρ c) (Proc.devRef .tc main_arg6) = _; after_results_simp
theorem arg6_W1 : W1 (F := Ideal) m ρ c (Proc.devRef .tc main_arg6) = m ((c.tc : Thread nD τ).loc main_arg6) :=
  (arg6_step1 m ρ c).trans (arg6_W0 m ρ c)
theorem arg6_step2 : W2 (F := Ideal) m ρ c (Proc.devRef .tc main_arg6) = W1 m ρ c (Proc.devRef .tc main_arg6) := W2_of_ne m ρ c main_arg6 (by decide)
theorem arg6_W2 : W2 (F := Ideal) m ρ c (Proc.devRef .tc main_arg6) = m ((c.tc : Thread nD τ).loc main_arg6) :=
  (arg6_step2 m ρ c).trans (arg6_W1 m ρ c)
theorem arg6_step3 : W3 (F := Ideal) m ρ c (Proc.devRef .tc main_arg6) = W2 m ρ c (Proc.devRef .tc main_arg6) := by
  show StableHlo.after hostOps1 (W2 m ρ c) (Proc.devRef .tc main_arg6) = _; after_results_simp
theorem arg6_W3 : W3 (F := Ideal) m ρ c (Proc.devRef .tc main_arg6) = m ((c.tc : Thread nD τ).loc main_arg6) :=
  (arg6_step3 m ρ c).trans (arg6_W2 m ρ c)
theorem arg6_step4 : W4 (F := Ideal) m ρ c (Proc.devRef .tc main_arg6) = W3 m ρ c (Proc.devRef .tc main_arg6) := W4_of_ne m ρ c main_arg6 (by decide)
theorem arg6_W4 : W4 (F := Ideal) m ρ c (Proc.devRef .tc main_arg6) = m ((c.tc : Thread nD τ).loc main_arg6) :=
  (arg6_step4 m ρ c).trans (arg6_W3 m ρ c)
theorem arg6_step5 : W5 (F := Ideal) m ρ c (Proc.devRef .tc main_arg6) = W4 m ρ c (Proc.devRef .tc main_arg6) := by
  show StableHlo.after hostOps2 (W4 m ρ c) (Proc.devRef .tc main_arg6) = _; after_results_simp
theorem arg6_W5 : W5 (F := Ideal) m ρ c (Proc.devRef .tc main_arg6) = m ((c.tc : Thread nD τ).loc main_arg6) :=
  (arg6_step5 m ρ c).trans (arg6_W4 m ρ c)
theorem arg6_step6 : W6 (F := Ideal) m ρ c (Proc.devRef .tc main_arg6) = W5 m ρ c (Proc.devRef .tc main_arg6) := W6_of_ne m ρ c main_arg6 (by decide)
theorem arg6_W6 : W6 (F := Ideal) m ρ c (Proc.devRef .tc main_arg6) = m ((c.tc : Thread nD τ).loc main_arg6) :=
  (arg6_step6 m ρ c).trans (arg6_W5 m ρ c)
theorem arg6_step7 : W7 (F := Ideal) m ρ c (Proc.devRef .tc main_arg6) = W6 m ρ c (Proc.devRef .tc main_arg6) := by
  show StableHlo.after hostOps3 (W6 m ρ c) (Proc.devRef .tc main_arg6) = _; after_results_simp
theorem arg6_W7 : W7 (F := Ideal) m ρ c (Proc.devRef .tc main_arg6) = m ((c.tc : Thread nD τ).loc main_arg6) :=
  (arg6_step7 m ρ c).trans (arg6_W6 m ρ c)
theorem arg6_step8 : W8 (F := Ideal) m ρ c (Proc.devRef .tc main_arg6) = W7 m ρ c (Proc.devRef .tc main_arg6) := W8_of_ne m ρ c main_arg6 (by decide)
theorem arg6_W8 : W8 (F := Ideal) m ρ c (Proc.devRef .tc main_arg6) = m ((c.tc : Thread nD τ).loc main_arg6) :=
  (arg6_step8 m ρ c).trans (arg6_W7 m ρ c)
theorem arg6_step9 : W9 (F := Ideal) m ρ c (Proc.devRef .tc main_arg6) = W8 m ρ c (Proc.devRef .tc main_arg6) := by
  show StableHlo.after hostOps4 (W8 m ρ c) (Proc.devRef .tc main_arg6) = _; after_results_simp
theorem arg6_W9 : W9 (F := Ideal) m ρ c (Proc.devRef .tc main_arg6) = m ((c.tc : Thread nD τ).loc main_arg6) :=
  (arg6_step9 m ρ c).trans (arg6_W8 m ρ c)
theorem arg6_step10 : W10 (F := Ideal) m ρ c (Proc.devRef .tc main_arg6) = W9 m ρ c (Proc.devRef .tc main_arg6) := W10_of_ne m ρ c main_arg6 (by decide)
theorem arg6_W10 : W10 (F := Ideal) m ρ c (Proc.devRef .tc main_arg6) = m ((c.tc : Thread nD τ).loc main_arg6) :=
  (arg6_step10 m ρ c).trans (arg6_W9 m ρ c)
theorem arg6_step11 : W11 (F := Ideal) m ρ c (Proc.devRef .tc main_arg6) = W10 m ρ c (Proc.devRef .tc main_arg6) := by
  show StableHlo.after hostOps5 (W10 m ρ c) (Proc.devRef .tc main_arg6) = _; after_results_simp
theorem arg6_W11 : W11 (F := Ideal) m ρ c (Proc.devRef .tc main_arg6) = m ((c.tc : Thread nD τ).loc main_arg6) :=
  (arg6_step11 m ρ c).trans (arg6_W10 m ρ c)
theorem arg6_step12 : W12 (F := Ideal) m ρ c (Proc.devRef .tc main_arg6) = W11 m ρ c (Proc.devRef .tc main_arg6) := W12_of_ne m ρ c main_arg6 (by decide)
theorem arg6_W12 : W12 (F := Ideal) m ρ c (Proc.devRef .tc main_arg6) = m ((c.tc : Thread nD τ).loc main_arg6) :=
  (arg6_step12 m ρ c).trans (arg6_W11 m ρ c)

theorem arg11_W0 : W0 (F := Ideal) m ρ c (Proc.devRef .tc main_arg11) = m ((c.tc : Thread nD τ).loc main_arg11) := rfl
theorem arg11_step1 : W1 (F := Ideal) m ρ c (Proc.devRef .tc main_arg11) = W0 m ρ c (Proc.devRef .tc main_arg11) := by
  show StableHlo.after hostOps0 (W0 m ρ c) (Proc.devRef .tc main_arg11) = _; after_results_simp
theorem arg11_W1 : W1 (F := Ideal) m ρ c (Proc.devRef .tc main_arg11) = m ((c.tc : Thread nD τ).loc main_arg11) :=
  (arg11_step1 m ρ c).trans (arg11_W0 m ρ c)
theorem arg11_step2 : W2 (F := Ideal) m ρ c (Proc.devRef .tc main_arg11) = W1 m ρ c (Proc.devRef .tc main_arg11) := W2_of_ne m ρ c main_arg11 (by decide)
theorem arg11_W2 : W2 (F := Ideal) m ρ c (Proc.devRef .tc main_arg11) = m ((c.tc : Thread nD τ).loc main_arg11) :=
  (arg11_step2 m ρ c).trans (arg11_W1 m ρ c)
theorem arg11_step3 : W3 (F := Ideal) m ρ c (Proc.devRef .tc main_arg11) = W2 m ρ c (Proc.devRef .tc main_arg11) := by
  show StableHlo.after hostOps1 (W2 m ρ c) (Proc.devRef .tc main_arg11) = _; after_results_simp
theorem arg11_W3 : W3 (F := Ideal) m ρ c (Proc.devRef .tc main_arg11) = m ((c.tc : Thread nD τ).loc main_arg11) :=
  (arg11_step3 m ρ c).trans (arg11_W2 m ρ c)
theorem arg11_step4 : W4 (F := Ideal) m ρ c (Proc.devRef .tc main_arg11) = W3 m ρ c (Proc.devRef .tc main_arg11) := W4_of_ne m ρ c main_arg11 (by decide)
theorem arg11_W4 : W4 (F := Ideal) m ρ c (Proc.devRef .tc main_arg11) = m ((c.tc : Thread nD τ).loc main_arg11) :=
  (arg11_step4 m ρ c).trans (arg11_W3 m ρ c)
theorem arg11_step5 : W5 (F := Ideal) m ρ c (Proc.devRef .tc main_arg11) = W4 m ρ c (Proc.devRef .tc main_arg11) := by
  show StableHlo.after hostOps2 (W4 m ρ c) (Proc.devRef .tc main_arg11) = _; after_results_simp
theorem arg11_W5 : W5 (F := Ideal) m ρ c (Proc.devRef .tc main_arg11) = m ((c.tc : Thread nD τ).loc main_arg11) :=
  (arg11_step5 m ρ c).trans (arg11_W4 m ρ c)
theorem arg11_step6 : W6 (F := Ideal) m ρ c (Proc.devRef .tc main_arg11) = W5 m ρ c (Proc.devRef .tc main_arg11) := W6_of_ne m ρ c main_arg11 (by decide)
theorem arg11_W6 : W6 (F := Ideal) m ρ c (Proc.devRef .tc main_arg11) = m ((c.tc : Thread nD τ).loc main_arg11) :=
  (arg11_step6 m ρ c).trans (arg11_W5 m ρ c)

theorem arg12_W0 : W0 (F := Ideal) m ρ c (Proc.devRef .tc main_arg12) = m ((c.tc : Thread nD τ).loc main_arg12) := rfl
theorem arg12_step1 : W1 (F := Ideal) m ρ c (Proc.devRef .tc main_arg12) = W0 m ρ c (Proc.devRef .tc main_arg12) := by
  show StableHlo.after hostOps0 (W0 m ρ c) (Proc.devRef .tc main_arg12) = _; after_results_simp
theorem arg12_W1 : W1 (F := Ideal) m ρ c (Proc.devRef .tc main_arg12) = m ((c.tc : Thread nD τ).loc main_arg12) :=
  (arg12_step1 m ρ c).trans (arg12_W0 m ρ c)
theorem arg12_step2 : W2 (F := Ideal) m ρ c (Proc.devRef .tc main_arg12) = W1 m ρ c (Proc.devRef .tc main_arg12) := W2_of_ne m ρ c main_arg12 (by decide)
theorem arg12_W2 : W2 (F := Ideal) m ρ c (Proc.devRef .tc main_arg12) = m ((c.tc : Thread nD τ).loc main_arg12) :=
  (arg12_step2 m ρ c).trans (arg12_W1 m ρ c)
theorem arg12_step3 : W3 (F := Ideal) m ρ c (Proc.devRef .tc main_arg12) = W2 m ρ c (Proc.devRef .tc main_arg12) := by
  show StableHlo.after hostOps1 (W2 m ρ c) (Proc.devRef .tc main_arg12) = _; after_results_simp
theorem arg12_W3 : W3 (F := Ideal) m ρ c (Proc.devRef .tc main_arg12) = m ((c.tc : Thread nD τ).loc main_arg12) :=
  (arg12_step3 m ρ c).trans (arg12_W2 m ρ c)
theorem arg12_step4 : W4 (F := Ideal) m ρ c (Proc.devRef .tc main_arg12) = W3 m ρ c (Proc.devRef .tc main_arg12) := W4_of_ne m ρ c main_arg12 (by decide)
theorem arg12_W4 : W4 (F := Ideal) m ρ c (Proc.devRef .tc main_arg12) = m ((c.tc : Thread nD τ).loc main_arg12) :=
  (arg12_step4 m ρ c).trans (arg12_W3 m ρ c)
theorem arg12_step5 : W5 (F := Ideal) m ρ c (Proc.devRef .tc main_arg12) = W4 m ρ c (Proc.devRef .tc main_arg12) := by
  show StableHlo.after hostOps2 (W4 m ρ c) (Proc.devRef .tc main_arg12) = _; after_results_simp
theorem arg12_W5 : W5 (F := Ideal) m ρ c (Proc.devRef .tc main_arg12) = m ((c.tc : Thread nD τ).loc main_arg12) :=
  (arg12_step5 m ρ c).trans (arg12_W4 m ρ c)
theorem arg12_step6 : W6 (F := Ideal) m ρ c (Proc.devRef .tc main_arg12) = W5 m ρ c (Proc.devRef .tc main_arg12) := W6_of_ne m ρ c main_arg12 (by decide)
theorem arg12_W6 : W6 (F := Ideal) m ρ c (Proc.devRef .tc main_arg12) = m ((c.tc : Thread nD τ).loc main_arg12) :=
  (arg12_step6 m ρ c).trans (arg12_W5 m ρ c)

theorem arg13_W0 : W0 (F := Ideal) m ρ c (Proc.devRef .tc main_arg13) = m ((c.tc : Thread nD τ).loc main_arg13) := rfl
theorem arg13_step1 : W1 (F := Ideal) m ρ c (Proc.devRef .tc main_arg13) = W0 m ρ c (Proc.devRef .tc main_arg13) := by
  show StableHlo.after hostOps0 (W0 m ρ c) (Proc.devRef .tc main_arg13) = _; after_results_simp
theorem arg13_W1 : W1 (F := Ideal) m ρ c (Proc.devRef .tc main_arg13) = m ((c.tc : Thread nD τ).loc main_arg13) :=
  (arg13_step1 m ρ c).trans (arg13_W0 m ρ c)
theorem arg13_step2 : W2 (F := Ideal) m ρ c (Proc.devRef .tc main_arg13) = W1 m ρ c (Proc.devRef .tc main_arg13) := W2_of_ne m ρ c main_arg13 (by decide)
theorem arg13_W2 : W2 (F := Ideal) m ρ c (Proc.devRef .tc main_arg13) = m ((c.tc : Thread nD τ).loc main_arg13) :=
  (arg13_step2 m ρ c).trans (arg13_W1 m ρ c)
theorem arg13_step3 : W3 (F := Ideal) m ρ c (Proc.devRef .tc main_arg13) = W2 m ρ c (Proc.devRef .tc main_arg13) := by
  show StableHlo.after hostOps1 (W2 m ρ c) (Proc.devRef .tc main_arg13) = _; after_results_simp
theorem arg13_W3 : W3 (F := Ideal) m ρ c (Proc.devRef .tc main_arg13) = m ((c.tc : Thread nD τ).loc main_arg13) :=
  (arg13_step3 m ρ c).trans (arg13_W2 m ρ c)
theorem arg13_step4 : W4 (F := Ideal) m ρ c (Proc.devRef .tc main_arg13) = W3 m ρ c (Proc.devRef .tc main_arg13) := W4_of_ne m ρ c main_arg13 (by decide)
theorem arg13_W4 : W4 (F := Ideal) m ρ c (Proc.devRef .tc main_arg13) = m ((c.tc : Thread nD τ).loc main_arg13) :=
  (arg13_step4 m ρ c).trans (arg13_W3 m ρ c)
theorem arg13_step5 : W5 (F := Ideal) m ρ c (Proc.devRef .tc main_arg13) = W4 m ρ c (Proc.devRef .tc main_arg13) := by
  show StableHlo.after hostOps2 (W4 m ρ c) (Proc.devRef .tc main_arg13) = _; after_results_simp
theorem arg13_W5 : W5 (F := Ideal) m ρ c (Proc.devRef .tc main_arg13) = m ((c.tc : Thread nD τ).loc main_arg13) :=
  (arg13_step5 m ρ c).trans (arg13_W4 m ρ c)
theorem arg13_step6 : W6 (F := Ideal) m ρ c (Proc.devRef .tc main_arg13) = W5 m ρ c (Proc.devRef .tc main_arg13) := W6_of_ne m ρ c main_arg13 (by decide)
theorem arg13_W6 : W6 (F := Ideal) m ρ c (Proc.devRef .tc main_arg13) = m ((c.tc : Thread nD τ).loc main_arg13) :=
  (arg13_step6 m ρ c).trans (arg13_W5 m ρ c)

theorem arg14_W0 : W0 (F := Ideal) m ρ c (Proc.devRef .tc main_arg14) = m ((c.tc : Thread nD τ).loc main_arg14) := rfl
theorem arg14_step1 : W1 (F := Ideal) m ρ c (Proc.devRef .tc main_arg14) = W0 m ρ c (Proc.devRef .tc main_arg14) := by
  show StableHlo.after hostOps0 (W0 m ρ c) (Proc.devRef .tc main_arg14) = _; after_results_simp
theorem arg14_W1 : W1 (F := Ideal) m ρ c (Proc.devRef .tc main_arg14) = m ((c.tc : Thread nD τ).loc main_arg14) :=
  (arg14_step1 m ρ c).trans (arg14_W0 m ρ c)
theorem arg14_step2 : W2 (F := Ideal) m ρ c (Proc.devRef .tc main_arg14) = W1 m ρ c (Proc.devRef .tc main_arg14) := W2_of_ne m ρ c main_arg14 (by decide)
theorem arg14_W2 : W2 (F := Ideal) m ρ c (Proc.devRef .tc main_arg14) = m ((c.tc : Thread nD τ).loc main_arg14) :=
  (arg14_step2 m ρ c).trans (arg14_W1 m ρ c)
theorem arg14_step3 : W3 (F := Ideal) m ρ c (Proc.devRef .tc main_arg14) = W2 m ρ c (Proc.devRef .tc main_arg14) := by
  show StableHlo.after hostOps1 (W2 m ρ c) (Proc.devRef .tc main_arg14) = _; after_results_simp
theorem arg14_W3 : W3 (F := Ideal) m ρ c (Proc.devRef .tc main_arg14) = m ((c.tc : Thread nD τ).loc main_arg14) :=
  (arg14_step3 m ρ c).trans (arg14_W2 m ρ c)
theorem arg14_step4 : W4 (F := Ideal) m ρ c (Proc.devRef .tc main_arg14) = W3 m ρ c (Proc.devRef .tc main_arg14) := W4_of_ne m ρ c main_arg14 (by decide)
theorem arg14_W4 : W4 (F := Ideal) m ρ c (Proc.devRef .tc main_arg14) = m ((c.tc : Thread nD τ).loc main_arg14) :=
  (arg14_step4 m ρ c).trans (arg14_W3 m ρ c)
theorem arg14_step5 : W5 (F := Ideal) m ρ c (Proc.devRef .tc main_arg14) = W4 m ρ c (Proc.devRef .tc main_arg14) := by
  show StableHlo.after hostOps2 (W4 m ρ c) (Proc.devRef .tc main_arg14) = _; after_results_simp
theorem arg14_W5 : W5 (F := Ideal) m ρ c (Proc.devRef .tc main_arg14) = m ((c.tc : Thread nD τ).loc main_arg14) :=
  (arg14_step5 m ρ c).trans (arg14_W4 m ρ c)
theorem arg14_step6 : W6 (F := Ideal) m ρ c (Proc.devRef .tc main_arg14) = W5 m ρ c (Proc.devRef .tc main_arg14) := W6_of_ne m ρ c main_arg14 (by decide)
theorem arg14_W6 : W6 (F := Ideal) m ρ c (Proc.devRef .tc main_arg14) = m ((c.tc : Thread nD τ).loc main_arg14) :=
  (arg14_step6 m ρ c).trans (arg14_W5 m ρ c)
theorem arg14_step7 : W7 (F := Ideal) m ρ c (Proc.devRef .tc main_arg14) = W6 m ρ c (Proc.devRef .tc main_arg14) := by
  show StableHlo.after hostOps3 (W6 m ρ c) (Proc.devRef .tc main_arg14) = _; after_results_simp
theorem arg14_W7 : W7 (F := Ideal) m ρ c (Proc.devRef .tc main_arg14) = m ((c.tc : Thread nD τ).loc main_arg14) :=
  (arg14_step7 m ρ c).trans (arg14_W6 m ρ c)
theorem arg14_step8 : W8 (F := Ideal) m ρ c (Proc.devRef .tc main_arg14) = W7 m ρ c (Proc.devRef .tc main_arg14) := W8_of_ne m ρ c main_arg14 (by decide)
theorem arg14_W8 : W8 (F := Ideal) m ρ c (Proc.devRef .tc main_arg14) = m ((c.tc : Thread nD τ).loc main_arg14) :=
  (arg14_step8 m ρ c).trans (arg14_W7 m ρ c)
theorem arg14_step9 : W9 (F := Ideal) m ρ c (Proc.devRef .tc main_arg14) = W8 m ρ c (Proc.devRef .tc main_arg14) := by
  show StableHlo.after hostOps4 (W8 m ρ c) (Proc.devRef .tc main_arg14) = _; after_results_simp
theorem arg14_W9 : W9 (F := Ideal) m ρ c (Proc.devRef .tc main_arg14) = m ((c.tc : Thread nD τ).loc main_arg14) :=
  (arg14_step9 m ρ c).trans (arg14_W8 m ρ c)
theorem arg14_step10 : W10 (F := Ideal) m ρ c (Proc.devRef .tc main_arg14) = W9 m ρ c (Proc.devRef .tc main_arg14) := W10_of_ne m ρ c main_arg14 (by decide)
theorem arg14_W10 : W10 (F := Ideal) m ρ c (Proc.devRef .tc main_arg14) = m ((c.tc : Thread nD τ).loc main_arg14) :=
  (arg14_step10 m ρ c).trans (arg14_W9 m ρ c)
theorem arg14_step11 : W11 (F := Ideal) m ρ c (Proc.devRef .tc main_arg14) = W10 m ρ c (Proc.devRef .tc main_arg14) := by
  show StableHlo.after hostOps5 (W10 m ρ c) (Proc.devRef .tc main_arg14) = _; after_results_simp
theorem arg14_W11 : W11 (F := Ideal) m ρ c (Proc.devRef .tc main_arg14) = m ((c.tc : Thread nD τ).loc main_arg14) :=
  (arg14_step11 m ρ c).trans (arg14_W10 m ρ c)
theorem arg14_step12 : W12 (F := Ideal) m ρ c (Proc.devRef .tc main_arg14) = W11 m ρ c (Proc.devRef .tc main_arg14) := W12_of_ne m ρ c main_arg14 (by decide)
theorem arg14_W12 : W12 (F := Ideal) m ρ c (Proc.devRef .tc main_arg14) = m ((c.tc : Thread nD τ).loc main_arg14) :=
  (arg14_step12 m ρ c).trans (arg14_W11 m ρ c)

theorem arg15_W0 : W0 (F := Ideal) m ρ c (Proc.devRef .tc main_arg15) = m ((c.tc : Thread nD τ).loc main_arg15) := rfl
theorem arg15_step1 : W1 (F := Ideal) m ρ c (Proc.devRef .tc main_arg15) = W0 m ρ c (Proc.devRef .tc main_arg15) := by
  show StableHlo.after hostOps0 (W0 m ρ c) (Proc.devRef .tc main_arg15) = _; after_results_simp
theorem arg15_W1 : W1 (F := Ideal) m ρ c (Proc.devRef .tc main_arg15) = m ((c.tc : Thread nD τ).loc main_arg15) :=
  (arg15_step1 m ρ c).trans (arg15_W0 m ρ c)
theorem arg15_step2 : W2 (F := Ideal) m ρ c (Proc.devRef .tc main_arg15) = W1 m ρ c (Proc.devRef .tc main_arg15) := W2_of_ne m ρ c main_arg15 (by decide)
theorem arg15_W2 : W2 (F := Ideal) m ρ c (Proc.devRef .tc main_arg15) = m ((c.tc : Thread nD τ).loc main_arg15) :=
  (arg15_step2 m ρ c).trans (arg15_W1 m ρ c)
theorem arg15_step3 : W3 (F := Ideal) m ρ c (Proc.devRef .tc main_arg15) = W2 m ρ c (Proc.devRef .tc main_arg15) := by
  show StableHlo.after hostOps1 (W2 m ρ c) (Proc.devRef .tc main_arg15) = _; after_results_simp
theorem arg15_W3 : W3 (F := Ideal) m ρ c (Proc.devRef .tc main_arg15) = m ((c.tc : Thread nD τ).loc main_arg15) :=
  (arg15_step3 m ρ c).trans (arg15_W2 m ρ c)
theorem arg15_step4 : W4 (F := Ideal) m ρ c (Proc.devRef .tc main_arg15) = W3 m ρ c (Proc.devRef .tc main_arg15) := W4_of_ne m ρ c main_arg15 (by decide)
theorem arg15_W4 : W4 (F := Ideal) m ρ c (Proc.devRef .tc main_arg15) = m ((c.tc : Thread nD τ).loc main_arg15) :=
  (arg15_step4 m ρ c).trans (arg15_W3 m ρ c)
theorem arg15_step5 : W5 (F := Ideal) m ρ c (Proc.devRef .tc main_arg15) = W4 m ρ c (Proc.devRef .tc main_arg15) := by
  show StableHlo.after hostOps2 (W4 m ρ c) (Proc.devRef .tc main_arg15) = _; after_results_simp
theorem arg15_W5 : W5 (F := Ideal) m ρ c (Proc.devRef .tc main_arg15) = m ((c.tc : Thread nD τ).loc main_arg15) :=
  (arg15_step5 m ρ c).trans (arg15_W4 m ρ c)
theorem arg15_step6 : W6 (F := Ideal) m ρ c (Proc.devRef .tc main_arg15) = W5 m ρ c (Proc.devRef .tc main_arg15) := W6_of_ne m ρ c main_arg15 (by decide)
theorem arg15_W6 : W6 (F := Ideal) m ρ c (Proc.devRef .tc main_arg15) = m ((c.tc : Thread nD τ).loc main_arg15) :=
  (arg15_step6 m ρ c).trans (arg15_W5 m ρ c)
theorem arg15_step7 : W7 (F := Ideal) m ρ c (Proc.devRef .tc main_arg15) = W6 m ρ c (Proc.devRef .tc main_arg15) := by
  show StableHlo.after hostOps3 (W6 m ρ c) (Proc.devRef .tc main_arg15) = _; after_results_simp
theorem arg15_W7 : W7 (F := Ideal) m ρ c (Proc.devRef .tc main_arg15) = m ((c.tc : Thread nD τ).loc main_arg15) :=
  (arg15_step7 m ρ c).trans (arg15_W6 m ρ c)
theorem arg15_step8 : W8 (F := Ideal) m ρ c (Proc.devRef .tc main_arg15) = W7 m ρ c (Proc.devRef .tc main_arg15) := W8_of_ne m ρ c main_arg15 (by decide)
theorem arg15_W8 : W8 (F := Ideal) m ρ c (Proc.devRef .tc main_arg15) = m ((c.tc : Thread nD τ).loc main_arg15) :=
  (arg15_step8 m ρ c).trans (arg15_W7 m ρ c)
theorem arg15_step9 : W9 (F := Ideal) m ρ c (Proc.devRef .tc main_arg15) = W8 m ρ c (Proc.devRef .tc main_arg15) := by
  show StableHlo.after hostOps4 (W8 m ρ c) (Proc.devRef .tc main_arg15) = _; after_results_simp
theorem arg15_W9 : W9 (F := Ideal) m ρ c (Proc.devRef .tc main_arg15) = m ((c.tc : Thread nD τ).loc main_arg15) :=
  (arg15_step9 m ρ c).trans (arg15_W8 m ρ c)
theorem arg15_step10 : W10 (F := Ideal) m ρ c (Proc.devRef .tc main_arg15) = W9 m ρ c (Proc.devRef .tc main_arg15) := W10_of_ne m ρ c main_arg15 (by decide)
theorem arg15_W10 : W10 (F := Ideal) m ρ c (Proc.devRef .tc main_arg15) = m ((c.tc : Thread nD τ).loc main_arg15) :=
  (arg15_step10 m ρ c).trans (arg15_W9 m ρ c)
theorem arg15_step11 : W11 (F := Ideal) m ρ c (Proc.devRef .tc main_arg15) = W10 m ρ c (Proc.devRef .tc main_arg15) := by
  show StableHlo.after hostOps5 (W10 m ρ c) (Proc.devRef .tc main_arg15) = _; after_results_simp
theorem arg15_W11 : W11 (F := Ideal) m ρ c (Proc.devRef .tc main_arg15) = m ((c.tc : Thread nD τ).loc main_arg15) :=
  (arg15_step11 m ρ c).trans (arg15_W10 m ρ c)
theorem arg15_step12 : W12 (F := Ideal) m ρ c (Proc.devRef .tc main_arg15) = W11 m ρ c (Proc.devRef .tc main_arg15) := W12_of_ne m ρ c main_arg15 (by decide)
theorem arg15_W12 : W12 (F := Ideal) m ρ c (Proc.devRef .tc main_arg15) = m ((c.tc : Thread nD τ).loc main_arg15) :=
  (arg15_step12 m ρ c).trans (arg15_W11 m ρ c)

theorem arg16_W0 : W0 (F := Ideal) m ρ c (Proc.devRef .tc main_arg16) = m ((c.tc : Thread nD τ).loc main_arg16) := rfl
theorem arg16_step1 : W1 (F := Ideal) m ρ c (Proc.devRef .tc main_arg16) = W0 m ρ c (Proc.devRef .tc main_arg16) := by
  show StableHlo.after hostOps0 (W0 m ρ c) (Proc.devRef .tc main_arg16) = _; after_results_simp
theorem arg16_W1 : W1 (F := Ideal) m ρ c (Proc.devRef .tc main_arg16) = m ((c.tc : Thread nD τ).loc main_arg16) :=
  (arg16_step1 m ρ c).trans (arg16_W0 m ρ c)
theorem arg16_step2 : W2 (F := Ideal) m ρ c (Proc.devRef .tc main_arg16) = W1 m ρ c (Proc.devRef .tc main_arg16) := W2_of_ne m ρ c main_arg16 (by decide)
theorem arg16_W2 : W2 (F := Ideal) m ρ c (Proc.devRef .tc main_arg16) = m ((c.tc : Thread nD τ).loc main_arg16) :=
  (arg16_step2 m ρ c).trans (arg16_W1 m ρ c)
theorem arg16_step3 : W3 (F := Ideal) m ρ c (Proc.devRef .tc main_arg16) = W2 m ρ c (Proc.devRef .tc main_arg16) := by
  show StableHlo.after hostOps1 (W2 m ρ c) (Proc.devRef .tc main_arg16) = _; after_results_simp
theorem arg16_W3 : W3 (F := Ideal) m ρ c (Proc.devRef .tc main_arg16) = m ((c.tc : Thread nD τ).loc main_arg16) :=
  (arg16_step3 m ρ c).trans (arg16_W2 m ρ c)
theorem arg16_step4 : W4 (F := Ideal) m ρ c (Proc.devRef .tc main_arg16) = W3 m ρ c (Proc.devRef .tc main_arg16) := W4_of_ne m ρ c main_arg16 (by decide)
theorem arg16_W4 : W4 (F := Ideal) m ρ c (Proc.devRef .tc main_arg16) = m ((c.tc : Thread nD τ).loc main_arg16) :=
  (arg16_step4 m ρ c).trans (arg16_W3 m ρ c)
theorem arg16_step5 : W5 (F := Ideal) m ρ c (Proc.devRef .tc main_arg16) = W4 m ρ c (Proc.devRef .tc main_arg16) := by
  show StableHlo.after hostOps2 (W4 m ρ c) (Proc.devRef .tc main_arg16) = _; after_results_simp
theorem arg16_W5 : W5 (F := Ideal) m ρ c (Proc.devRef .tc main_arg16) = m ((c.tc : Thread nD τ).loc main_arg16) :=
  (arg16_step5 m ρ c).trans (arg16_W4 m ρ c)
theorem arg16_step6 : W6 (F := Ideal) m ρ c (Proc.devRef .tc main_arg16) = W5 m ρ c (Proc.devRef .tc main_arg16) := W6_of_ne m ρ c main_arg16 (by decide)
theorem arg16_W6 : W6 (F := Ideal) m ρ c (Proc.devRef .tc main_arg16) = m ((c.tc : Thread nD τ).loc main_arg16) :=
  (arg16_step6 m ρ c).trans (arg16_W5 m ρ c)
theorem arg16_step7 : W7 (F := Ideal) m ρ c (Proc.devRef .tc main_arg16) = W6 m ρ c (Proc.devRef .tc main_arg16) := by
  show StableHlo.after hostOps3 (W6 m ρ c) (Proc.devRef .tc main_arg16) = _; after_results_simp
theorem arg16_W7 : W7 (F := Ideal) m ρ c (Proc.devRef .tc main_arg16) = m ((c.tc : Thread nD τ).loc main_arg16) :=
  (arg16_step7 m ρ c).trans (arg16_W6 m ρ c)
theorem arg16_step8 : W8 (F := Ideal) m ρ c (Proc.devRef .tc main_arg16) = W7 m ρ c (Proc.devRef .tc main_arg16) := W8_of_ne m ρ c main_arg16 (by decide)
theorem arg16_W8 : W8 (F := Ideal) m ρ c (Proc.devRef .tc main_arg16) = m ((c.tc : Thread nD τ).loc main_arg16) :=
  (arg16_step8 m ρ c).trans (arg16_W7 m ρ c)
theorem arg16_step9 : W9 (F := Ideal) m ρ c (Proc.devRef .tc main_arg16) = W8 m ρ c (Proc.devRef .tc main_arg16) := by
  show StableHlo.after hostOps4 (W8 m ρ c) (Proc.devRef .tc main_arg16) = _; after_results_simp
theorem arg16_W9 : W9 (F := Ideal) m ρ c (Proc.devRef .tc main_arg16) = m ((c.tc : Thread nD τ).loc main_arg16) :=
  (arg16_step9 m ρ c).trans (arg16_W8 m ρ c)
theorem arg16_step10 : W10 (F := Ideal) m ρ c (Proc.devRef .tc main_arg16) = W9 m ρ c (Proc.devRef .tc main_arg16) := W10_of_ne m ρ c main_arg16 (by decide)
theorem arg16_W10 : W10 (F := Ideal) m ρ c (Proc.devRef .tc main_arg16) = m ((c.tc : Thread nD τ).loc main_arg16) :=
  (arg16_step10 m ρ c).trans (arg16_W9 m ρ c)
theorem arg16_step11 : W11 (F := Ideal) m ρ c (Proc.devRef .tc main_arg16) = W10 m ρ c (Proc.devRef .tc main_arg16) := by
  show StableHlo.after hostOps5 (W10 m ρ c) (Proc.devRef .tc main_arg16) = _; after_results_simp
theorem arg16_W11 : W11 (F := Ideal) m ρ c (Proc.devRef .tc main_arg16) = m ((c.tc : Thread nD τ).loc main_arg16) :=
  (arg16_step11 m ρ c).trans (arg16_W10 m ρ c)
theorem arg16_step12 : W12 (F := Ideal) m ρ c (Proc.devRef .tc main_arg16) = W11 m ρ c (Proc.devRef .tc main_arg16) := W12_of_ne m ρ c main_arg16 (by decide)
theorem arg16_W12 : W12 (F := Ideal) m ρ c (Proc.devRef .tc main_arg16) = m ((c.tc : Thread nD τ).loc main_arg16) :=
  (arg16_step12 m ρ c).trans (arg16_W11 m ρ c)

theorem arg8_W0 : W0 (F := Ideal) m ρ c (Proc.devRef .tc main_arg8) = m ((c.tc : Thread nD τ).loc main_arg8) := rfl

end Cert.KernelIdeal.Args

end
-- ==== Proof.KKeep.lean ====
/-
  The intermediate arrays of the idealized kernel's run that are read again after the segment that wrote them: each keeps
  its contents across the boundaries in between. `vN_keep_a_b` says buffer vN holds at boundary b what it held at boundary a.
-/
import proofs.«146827_j53558242181513_2_alg».proof.Proof.Gen.KernelIdeal.Frame
import Idealize.ShloMosaic.PureOps.Ideal

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem v1_step3 : W3 (F := Ideal) m ρ c (Proc.devRef .tc main_v1) = W2 m ρ c (Proc.devRef .tc main_v1) := by
  show StableHlo.after hostOps1 (W2 m ρ c) (Proc.devRef .tc main_v1) = _; after_results_simp
theorem v1_keep_2_3 : W3 (F := Ideal) m ρ c (Proc.devRef .tc main_v1) = W2 m ρ c (Proc.devRef .tc main_v1) := v1_step3 m ρ c
theorem v1_step4 : W4 (F := Ideal) m ρ c (Proc.devRef .tc main_v1) = W3 m ρ c (Proc.devRef .tc main_v1) := W4_of_ne m ρ c main_v1 (by decide)
theorem v1_keep_2_4 : W4 (F := Ideal) m ρ c (Proc.devRef .tc main_v1) = W2 m ρ c (Proc.devRef .tc main_v1) :=
  (v1_step4 m ρ c).trans (v1_keep_2_3 m ρ c)
theorem v1_step5 : W5 (F := Ideal) m ρ c (Proc.devRef .tc main_v1) = W4 m ρ c (Proc.devRef .tc main_v1) := by
  show StableHlo.after hostOps2 (W4 m ρ c) (Proc.devRef .tc main_v1) = _; after_results_simp
theorem v1_keep_2_5 : W5 (F := Ideal) m ρ c (Proc.devRef .tc main_v1) = W2 m ρ c (Proc.devRef .tc main_v1) :=
  (v1_step5 m ρ c).trans (v1_keep_2_4 m ρ c)
theorem v1_step6 : W6 (F := Ideal) m ρ c (Proc.devRef .tc main_v1) = W5 m ρ c (Proc.devRef .tc main_v1) :=
  (W6_arr m ρ c 2).trans (((dat2 (V5 m ρ) c).arrAt_in 2 rfl _).trans (A_eq2 (V5 m ρ) c 2))
theorem v1_keep_2_6 : W6 (F := Ideal) m ρ c (Proc.devRef .tc main_v1) = W2 m ρ c (Proc.devRef .tc main_v1) :=
  (v1_step6 m ρ c).trans (v1_keep_2_5 m ρ c)

theorem v8_step4 : W4 (F := Ideal) m ρ c (Proc.devRef .tc main_v8) = W3 m ρ c (Proc.devRef .tc main_v8) :=
  (W4_arr m ρ c 1).trans (((dat1 (V3 m ρ) c).arrAt_in 1 rfl _).trans (A_eq1 (V3 m ρ) c 1))
theorem v8_keep_3_4 : W4 (F := Ideal) m ρ c (Proc.devRef .tc main_v8) = W3 m ρ c (Proc.devRef .tc main_v8) := v8_step4 m ρ c

theorem v15_step4 : W4 (F := Ideal) m ρ c (Proc.devRef .tc main_v15) = W3 m ρ c (Proc.devRef .tc main_v15) := W4_of_ne m ρ c main_v15 (by decide)
theorem v15_keep_3_4 : W4 (F := Ideal) m ρ c (Proc.devRef .tc main_v15) = W3 m ρ c (Proc.devRef .tc main_v15) := v15_step4 m ρ c
theorem v15_step5 : W5 (F := Ideal) m ρ c (Proc.devRef .tc main_v15) = W4 m ρ c (Proc.devRef .tc main_v15) := by
  show StableHlo.after hostOps2 (W4 m ρ c) (Proc.devRef .tc main_v15) = _; after_results_simp
theorem v15_keep_3_5 : W5 (F := Ideal) m ρ c (Proc.devRef .tc main_v15) = W3 m ρ c (Proc.devRef .tc main_v15) :=
  (v15_step5 m ρ c).trans (v15_keep_3_4 m ρ c)
theorem v15_step6 : W6 (F := Ideal) m ρ c (Proc.devRef .tc main_v15) = W5 m ρ c (Proc.devRef .tc main_v15) := W6_of_ne m ρ c main_v15 (by decide)
theorem v15_keep_3_6 : W6 (F := Ideal) m ρ c (Proc.devRef .tc main_v15) = W3 m ρ c (Proc.devRef .tc main_v15) :=
  (v15_step6 m ρ c).trans (v15_keep_3_5 m ρ c)
theorem v15_step7 : W7 (F := Ideal) m ρ c (Proc.devRef .tc main_v15) = W6 m ρ c (Proc.devRef .tc main_v15) := by
  show StableHlo.after hostOps3 (W6 m ρ c) (Proc.devRef .tc main_v15) = _; after_results_simp
theorem v15_keep_3_7 : W7 (F := Ideal) m ρ c (Proc.devRef .tc main_v15) = W3 m ρ c (Proc.devRef .tc main_v15) :=
  (v15_step7 m ρ c).trans (v15_keep_3_6 m ρ c)

theorem v22_step4 : W4 (F := Ideal) m ρ c (Proc.devRef .tc main_v22) = W3 m ρ c (Proc.devRef .tc main_v22) := W4_of_ne m ρ c main_v22 (by decide)
theorem v22_keep_3_4 : W4 (F := Ideal) m ρ c (Proc.devRef .tc main_v22) = W3 m ρ c (Proc.devRef .tc main_v22) := v22_step4 m ρ c
theorem v22_step5 : W5 (F := Ideal) m ρ c (Proc.devRef .tc main_v22) = W4 m ρ c (Proc.devRef .tc main_v22) := by
  show StableHlo.after hostOps2 (W4 m ρ c) (Proc.devRef .tc main_v22) = _; after_results_simp
theorem v22_keep_3_5 : W5 (F := Ideal) m ρ c (Proc.devRef .tc main_v22) = W3 m ρ c (Proc.devRef .tc main_v22) :=
  (v22_step5 m ρ c).trans (v22_keep_3_4 m ρ c)
theorem v22_step6 : W6 (F := Ideal) m ρ c (Proc.devRef .tc main_v22) = W5 m ρ c (Proc.devRef .tc main_v22) := W6_of_ne m ρ c main_v22 (by decide)
theorem v22_keep_3_6 : W6 (F := Ideal) m ρ c (Proc.devRef .tc main_v22) = W3 m ρ c (Proc.devRef .tc main_v22) :=
  (v22_step6 m ρ c).trans (v22_keep_3_5 m ρ c)
theorem v22_step7 : W7 (F := Ideal) m ρ c (Proc.devRef .tc main_v22) = W6 m ρ c (Proc.devRef .tc main_v22) := by
  show StableHlo.after hostOps3 (W6 m ρ c) (Proc.devRef .tc main_v22) = _; after_results_simp
theorem v22_keep_3_7 : W7 (F := Ideal) m ρ c (Proc.devRef .tc main_v22) = W3 m ρ c (Proc.devRef .tc main_v22) :=
  (v22_step7 m ρ c).trans (v22_keep_3_6 m ρ c)
theorem v22_step8 : W8 (F := Ideal) m ρ c (Proc.devRef .tc main_v22) = W7 m ρ c (Proc.devRef .tc main_v22) := W8_of_ne m ρ c main_v22 (by decide)
theorem v22_keep_3_8 : W8 (F := Ideal) m ρ c (Proc.devRef .tc main_v22) = W3 m ρ c (Proc.devRef .tc main_v22) :=
  (v22_step8 m ρ c).trans (v22_keep_3_7 m ρ c)

theorem v27_step4 : W4 (F := Ideal) m ρ c (Proc.devRef .tc main_v27) = W3 m ρ c (Proc.devRef .tc main_v27) := W4_of_ne m ρ c main_v27 (by decide)
theorem v27_keep_3_4 : W4 (F := Ideal) m ρ c (Proc.devRef .tc main_v27) = W3 m ρ c (Proc.devRef .tc main_v27) := v27_step4 m ρ c
theorem v27_step5 : W5 (F := Ideal) m ρ c (Proc.devRef .tc main_v27) = W4 m ρ c (Proc.devRef .tc main_v27) := by
  show StableHlo.after hostOps2 (W4 m ρ c) (Proc.devRef .tc main_v27) = _; after_results_simp
theorem v27_keep_3_5 : W5 (F := Ideal) m ρ c (Proc.devRef .tc main_v27) = W3 m ρ c (Proc.devRef .tc main_v27) :=
  (v27_step5 m ρ c).trans (v27_keep_3_4 m ρ c)
theorem v27_step6 : W6 (F := Ideal) m ρ c (Proc.devRef .tc main_v27) = W5 m ρ c (Proc.devRef .tc main_v27) := W6_of_ne m ρ c main_v27 (by decide)
theorem v27_keep_3_6 : W6 (F := Ideal) m ρ c (Proc.devRef .tc main_v27) = W3 m ρ c (Proc.devRef .tc main_v27) :=
  (v27_step6 m ρ c).trans (v27_keep_3_5 m ρ c)
theorem v27_step7 : W7 (F := Ideal) m ρ c (Proc.devRef .tc main_v27) = W6 m ρ c (Proc.devRef .tc main_v27) := by
  show StableHlo.after hostOps3 (W6 m ρ c) (Proc.devRef .tc main_v27) = _; after_results_simp
theorem v27_keep_3_7 : W7 (F := Ideal) m ρ c (Proc.devRef .tc main_v27) = W3 m ρ c (Proc.devRef .tc main_v27) :=
  (v27_step7 m ρ c).trans (v27_keep_3_6 m ρ c)
theorem v27_step8 : W8 (F := Ideal) m ρ c (Proc.devRef .tc main_v27) = W7 m ρ c (Proc.devRef .tc main_v27) := W8_of_ne m ρ c main_v27 (by decide)
theorem v27_keep_3_8 : W8 (F := Ideal) m ρ c (Proc.devRef .tc main_v27) = W3 m ρ c (Proc.devRef .tc main_v27) :=
  (v27_step8 m ρ c).trans (v27_keep_3_7 m ρ c)
theorem v27_step9 : W9 (F := Ideal) m ρ c (Proc.devRef .tc main_v27) = W8 m ρ c (Proc.devRef .tc main_v27) := by
  show StableHlo.after hostOps4 (W8 m ρ c) (Proc.devRef .tc main_v27) = _; after_results_simp
theorem v27_keep_3_9 : W9 (F := Ideal) m ρ c (Proc.devRef .tc main_v27) = W3 m ρ c (Proc.devRef .tc main_v27) :=
  (v27_step9 m ρ c).trans (v27_keep_3_8 m ρ c)
theorem v27_step10 : W10 (F := Ideal) m ρ c (Proc.devRef .tc main_v27) = W9 m ρ c (Proc.devRef .tc main_v27) := W10_of_ne m ρ c main_v27 (by decide)
theorem v27_keep_3_10 : W10 (F := Ideal) m ρ c (Proc.devRef .tc main_v27) = W3 m ρ c (Proc.devRef .tc main_v27) :=
  (v27_step10 m ρ c).trans (v27_keep_3_9 m ρ c)

theorem v32_step4 : W4 (F := Ideal) m ρ c (Proc.devRef .tc main_v32) = W3 m ρ c (Proc.devRef .tc main_v32) := W4_of_ne m ρ c main_v32 (by decide)
theorem v32_keep_3_4 : W4 (F := Ideal) m ρ c (Proc.devRef .tc main_v32) = W3 m ρ c (Proc.devRef .tc main_v32) := v32_step4 m ρ c
theorem v32_step5 : W5 (F := Ideal) m ρ c (Proc.devRef .tc main_v32) = W4 m ρ c (Proc.devRef .tc main_v32) := by
  show StableHlo.after hostOps2 (W4 m ρ c) (Proc.devRef .tc main_v32) = _; after_results_simp
theorem v32_keep_3_5 : W5 (F := Ideal) m ρ c (Proc.devRef .tc main_v32) = W3 m ρ c (Proc.devRef .tc main_v32) :=
  (v32_step5 m ρ c).trans (v32_keep_3_4 m ρ c)
theorem v32_step6 : W6 (F := Ideal) m ρ c (Proc.devRef .tc main_v32) = W5 m ρ c (Proc.devRef .tc main_v32) := W6_of_ne m ρ c main_v32 (by decide)
theorem v32_keep_3_6 : W6 (F := Ideal) m ρ c (Proc.devRef .tc main_v32) = W3 m ρ c (Proc.devRef .tc main_v32) :=
  (v32_step6 m ρ c).trans (v32_keep_3_5 m ρ c)
theorem v32_step7 : W7 (F := Ideal) m ρ c (Proc.devRef .tc main_v32) = W6 m ρ c (Proc.devRef .tc main_v32) := by
  show StableHlo.after hostOps3 (W6 m ρ c) (Proc.devRef .tc main_v32) = _; after_results_simp
theorem v32_keep_3_7 : W7 (F := Ideal) m ρ c (Proc.devRef .tc main_v32) = W3 m ρ c (Proc.devRef .tc main_v32) :=
  (v32_step7 m ρ c).trans (v32_keep_3_6 m ρ c)
theorem v32_step8 : W8 (F := Ideal) m ρ c (Proc.devRef .tc main_v32) = W7 m ρ c (Proc.devRef .tc main_v32) := W8_of_ne m ρ c main_v32 (by decide)
theorem v32_keep_3_8 : W8 (F := Ideal) m ρ c (Proc.devRef .tc main_v32) = W3 m ρ c (Proc.devRef .tc main_v32) :=
  (v32_step8 m ρ c).trans (v32_keep_3_7 m ρ c)
theorem v32_step9 : W9 (F := Ideal) m ρ c (Proc.devRef .tc main_v32) = W8 m ρ c (Proc.devRef .tc main_v32) := by
  show StableHlo.after hostOps4 (W8 m ρ c) (Proc.devRef .tc main_v32) = _; after_results_simp
theorem v32_keep_3_9 : W9 (F := Ideal) m ρ c (Proc.devRef .tc main_v32) = W3 m ρ c (Proc.devRef .tc main_v32) :=
  (v32_step9 m ρ c).trans (v32_keep_3_8 m ρ c)
theorem v32_step10 : W10 (F := Ideal) m ρ c (Proc.devRef .tc main_v32) = W9 m ρ c (Proc.devRef .tc main_v32) := W10_of_ne m ρ c main_v32 (by decide)
theorem v32_keep_3_10 : W10 (F := Ideal) m ρ c (Proc.devRef .tc main_v32) = W3 m ρ c (Proc.devRef .tc main_v32) :=
  (v32_step10 m ρ c).trans (v32_keep_3_9 m ρ c)

theorem v37_step4 : W4 (F := Ideal) m ρ c (Proc.devRef .tc main_v37) = W3 m ρ c (Proc.devRef .tc main_v37) := W4_of_ne m ρ c main_v37 (by decide)
theorem v37_keep_3_4 : W4 (F := Ideal) m ρ c (Proc.devRef .tc main_v37) = W3 m ρ c (Proc.devRef .tc main_v37) := v37_step4 m ρ c
theorem v37_step5 : W5 (F := Ideal) m ρ c (Proc.devRef .tc main_v37) = W4 m ρ c (Proc.devRef .tc main_v37) := by
  show StableHlo.after hostOps2 (W4 m ρ c) (Proc.devRef .tc main_v37) = _; after_results_simp
theorem v37_keep_3_5 : W5 (F := Ideal) m ρ c (Proc.devRef .tc main_v37) = W3 m ρ c (Proc.devRef .tc main_v37) :=
  (v37_step5 m ρ c).trans (v37_keep_3_4 m ρ c)
theorem v37_step6 : W6 (F := Ideal) m ρ c (Proc.devRef .tc main_v37) = W5 m ρ c (Proc.devRef .tc main_v37) := W6_of_ne m ρ c main_v37 (by decide)
theorem v37_keep_3_6 : W6 (F := Ideal) m ρ c (Proc.devRef .tc main_v37) = W3 m ρ c (Proc.devRef .tc main_v37) :=
  (v37_step6 m ρ c).trans (v37_keep_3_5 m ρ c)
theorem v37_step7 : W7 (F := Ideal) m ρ c (Proc.devRef .tc main_v37) = W6 m ρ c (Proc.devRef .tc main_v37) := by
  show StableHlo.after hostOps3 (W6 m ρ c) (Proc.devRef .tc main_v37) = _; after_results_simp
theorem v37_keep_3_7 : W7 (F := Ideal) m ρ c (Proc.devRef .tc main_v37) = W3 m ρ c (Proc.devRef .tc main_v37) :=
  (v37_step7 m ρ c).trans (v37_keep_3_6 m ρ c)
theorem v37_step8 : W8 (F := Ideal) m ρ c (Proc.devRef .tc main_v37) = W7 m ρ c (Proc.devRef .tc main_v37) := W8_of_ne m ρ c main_v37 (by decide)
theorem v37_keep_3_8 : W8 (F := Ideal) m ρ c (Proc.devRef .tc main_v37) = W3 m ρ c (Proc.devRef .tc main_v37) :=
  (v37_step8 m ρ c).trans (v37_keep_3_7 m ρ c)
theorem v37_step9 : W9 (F := Ideal) m ρ c (Proc.devRef .tc main_v37) = W8 m ρ c (Proc.devRef .tc main_v37) := by
  show StableHlo.after hostOps4 (W8 m ρ c) (Proc.devRef .tc main_v37) = _; after_results_simp
theorem v37_keep_3_9 : W9 (F := Ideal) m ρ c (Proc.devRef .tc main_v37) = W3 m ρ c (Proc.devRef .tc main_v37) :=
  (v37_step9 m ρ c).trans (v37_keep_3_8 m ρ c)
theorem v37_step10 : W10 (F := Ideal) m ρ c (Proc.devRef .tc main_v37) = W9 m ρ c (Proc.devRef .tc main_v37) := W10_of_ne m ρ c main_v37 (by decide)
theorem v37_keep_3_10 : W10 (F := Ideal) m ρ c (Proc.devRef .tc main_v37) = W3 m ρ c (Proc.devRef .tc main_v37) :=
  (v37_step10 m ρ c).trans (v37_keep_3_9 m ρ c)
theorem v37_step11 : W11 (F := Ideal) m ρ c (Proc.devRef .tc main_v37) = W10 m ρ c (Proc.devRef .tc main_v37) := by
  show StableHlo.after hostOps5 (W10 m ρ c) (Proc.devRef .tc main_v37) = _; after_results_simp
theorem v37_keep_3_11 : W11 (F := Ideal) m ρ c (Proc.devRef .tc main_v37) = W3 m ρ c (Proc.devRef .tc main_v37) :=
  (v37_step11 m ρ c).trans (v37_keep_3_10 m ρ c)
theorem v37_step12 : W12 (F := Ideal) m ρ c (Proc.devRef .tc main_v37) = W11 m ρ c (Proc.devRef .tc main_v37) := W12_of_ne m ρ c main_v37 (by decide)
theorem v37_keep_3_12 : W12 (F := Ideal) m ρ c (Proc.devRef .tc main_v37) = W3 m ρ c (Proc.devRef .tc main_v37) :=
  (v37_step12 m ρ c).trans (v37_keep_3_11 m ρ c)

theorem v59_step5 : W5 (F := Ideal) m ρ c (Proc.devRef .tc main_v59) = W4 m ρ c (Proc.devRef .tc main_v59) := by
  show StableHlo.after hostOps2 (W4 m ρ c) (Proc.devRef .tc main_v59) = _; after_results_simp
theorem v59_keep_4_5 : W5 (F := Ideal) m ρ c (Proc.devRef .tc main_v59) = W4 m ρ c (Proc.devRef .tc main_v59) := v59_step5 m ρ c
theorem v59_step6 : W6 (F := Ideal) m ρ c (Proc.devRef .tc main_v59) = W5 m ρ c (Proc.devRef .tc main_v59) := W6_of_ne m ρ c main_v59 (by decide)
theorem v59_keep_4_6 : W6 (F := Ideal) m ρ c (Proc.devRef .tc main_v59) = W4 m ρ c (Proc.devRef .tc main_v59) :=
  (v59_step6 m ρ c).trans (v59_keep_4_5 m ρ c)
theorem v59_step7 : W7 (F := Ideal) m ρ c (Proc.devRef .tc main_v59) = W6 m ρ c (Proc.devRef .tc main_v59) := by
  show StableHlo.after hostOps3 (W6 m ρ c) (Proc.devRef .tc main_v59) = _; after_results_simp
theorem v59_keep_4_7 : W7 (F := Ideal) m ρ c (Proc.devRef .tc main_v59) = W4 m ρ c (Proc.devRef .tc main_v59) :=
  (v59_step7 m ρ c).trans (v59_keep_4_6 m ρ c)
theorem v59_step8 : W8 (F := Ideal) m ρ c (Proc.devRef .tc main_v59) = W7 m ρ c (Proc.devRef .tc main_v59) := W8_of_ne m ρ c main_v59 (by decide)
theorem v59_keep_4_8 : W8 (F := Ideal) m ρ c (Proc.devRef .tc main_v59) = W4 m ρ c (Proc.devRef .tc main_v59) :=
  (v59_step8 m ρ c).trans (v59_keep_4_7 m ρ c)
theorem v59_step9 : W9 (F := Ideal) m ρ c (Proc.devRef .tc main_v59) = W8 m ρ c (Proc.devRef .tc main_v59) := by
  show StableHlo.after hostOps4 (W8 m ρ c) (Proc.devRef .tc main_v59) = _; after_results_simp
theorem v59_keep_4_9 : W9 (F := Ideal) m ρ c (Proc.devRef .tc main_v59) = W4 m ρ c (Proc.devRef .tc main_v59) :=
  (v59_step9 m ρ c).trans (v59_keep_4_8 m ρ c)
theorem v59_step10 : W10 (F := Ideal) m ρ c (Proc.devRef .tc main_v59) = W9 m ρ c (Proc.devRef .tc main_v59) :=
  (W10_arr m ρ c 1).trans (((dat4 (V9 m ρ) c).arrAt_in 1 rfl _).trans (A_eq4 (V9 m ρ) c 1))
theorem v59_keep_4_10 : W10 (F := Ideal) m ρ c (Proc.devRef .tc main_v59) = W4 m ρ c (Proc.devRef .tc main_v59) :=
  (v59_step10 m ρ c).trans (v59_keep_4_9 m ρ c)

theorem v103_step7 : W7 (F := Ideal) m ρ c (Proc.devRef .tc main_v103) = W6 m ρ c (Proc.devRef .tc main_v103) := by
  show StableHlo.after hostOps3 (W6 m ρ c) (Proc.devRef .tc main_v103) = _; after_results_simp
theorem v103_keep_6_7 : W7 (F := Ideal) m ρ c (Proc.devRef .tc main_v103) = W6 m ρ c (Proc.devRef .tc main_v103) := v103_step7 m ρ c
theorem v103_step8 : W8 (F := Ideal) m ρ c (Proc.devRef .tc main_v103) = W7 m ρ c (Proc.devRef .tc main_v103) := W8_of_ne m ρ c main_v103 (by decide)
theorem v103_keep_6_8 : W8 (F := Ideal) m ρ c (Proc.devRef .tc main_v103) = W6 m ρ c (Proc.devRef .tc main_v103) :=
  (v103_step8 m ρ c).trans (v103_keep_6_7 m ρ c)
theorem v103_step9 : W9 (F := Ideal) m ρ c (Proc.devRef .tc main_v103) = W8 m ρ c (Proc.devRef .tc main_v103) := by
  show StableHlo.after hostOps4 (W8 m ρ c) (Proc.devRef .tc main_v103) = _; after_results_simp
theorem v103_keep_6_9 : W9 (F := Ideal) m ρ c (Proc.devRef .tc main_v103) = W6 m ρ c (Proc.devRef .tc main_v103) :=
  (v103_step9 m ρ c).trans (v103_keep_6_8 m ρ c)
theorem v103_step10 : W10 (F := Ideal) m ρ c (Proc.devRef .tc main_v103) = W9 m ρ c (Proc.devRef .tc main_v103) := W10_of_ne m ρ c main_v103 (by decide)
theorem v103_keep_6_10 : W10 (F := Ideal) m ρ c (Proc.devRef .tc main_v103) = W6 m ρ c (Proc.devRef .tc main_v103) :=
  (v103_step10 m ρ c).trans (v103_keep_6_9 m ρ c)
theorem v103_step11 : W11 (F := Ideal) m ρ c (Proc.devRef .tc main_v103) = W10 m ρ c (Proc.devRef .tc main_v103) := by
  show StableHlo.after hostOps5 (W10 m ρ c) (Proc.devRef .tc main_v103) = _; after_results_simp
theorem v103_keep_6_11 : W11 (F := Ideal) m ρ c (Proc.devRef .tc main_v103) = W6 m ρ c (Proc.devRef .tc main_v103) :=
  (v103_step11 m ρ c).trans (v103_keep_6_10 m ρ c)
theorem v103_step12 : W12 (F := Ideal) m ρ c (Proc.devRef .tc main_v103) = W11 m ρ c (Proc.devRef .tc main_v103) :=
  (W12_arr m ρ c 2).trans (((dat5 (V11 m ρ) c).arrAt_in 2 rfl _).trans (A_eq5 (V11 m ρ) c 2))
theorem v103_keep_6_12 : W12 (F := Ideal) m ρ c (Proc.devRef .tc main_v103) = W6 m ρ c (Proc.devRef .tc main_v103) :=
  (v103_step12 m ρ c).trans (v103_keep_6_11 m ρ c)

theorem v125_step9 : W9 (F := Ideal) m ρ c (Proc.devRef .tc main_v125) = W8 m ρ c (Proc.devRef .tc main_v125) := by
  show StableHlo.after hostOps4 (W8 m ρ c) (Proc.devRef .tc main_v125) = _; after_results_simp
theorem v125_keep_8_9 : W9 (F := Ideal) m ρ c (Proc.devRef .tc main_v125) = W8 m ρ c (Proc.devRef .tc main_v125) := v125_step9 m ρ c
theorem v125_step10 : W10 (F := Ideal) m ρ c (Proc.devRef .tc main_v125) = W9 m ρ c (Proc.devRef .tc main_v125) := W10_of_ne m ρ c main_v125 (by decide)
theorem v125_keep_8_10 : W10 (F := Ideal) m ρ c (Proc.devRef .tc main_v125) = W8 m ρ c (Proc.devRef .tc main_v125) :=
  (v125_step10 m ρ c).trans (v125_keep_8_9 m ρ c)
theorem v125_step11 : W11 (F := Ideal) m ρ c (Proc.devRef .tc main_v125) = W10 m ρ c (Proc.devRef .tc main_v125) := by
  show StableHlo.after hostOps5 (W10 m ρ c) (Proc.devRef .tc main_v125) = _; after_results_simp
theorem v125_keep_8_11 : W11 (F := Ideal) m ρ c (Proc.devRef .tc main_v125) = W8 m ρ c (Proc.devRef .tc main_v125) :=
  (v125_step11 m ρ c).trans (v125_keep_8_10 m ρ c)
theorem v125_step12 : W12 (F := Ideal) m ρ c (Proc.devRef .tc main_v125) = W11 m ρ c (Proc.devRef .tc main_v125) := W12_of_ne m ρ c main_v125 (by decide)
theorem v125_keep_8_12 : W12 (F := Ideal) m ρ c (Proc.devRef .tc main_v125) = W8 m ρ c (Proc.devRef .tc main_v125) :=
  (v125_step12 m ρ c).trans (v125_keep_8_11 m ρ c)
theorem v125_step13 : W13 (F := Ideal) m ρ c (Proc.devRef .tc main_v125) = W12 m ρ c (Proc.devRef .tc main_v125) := by
  show StableHlo.after hostOps6 (W12 m ρ c) (Proc.devRef .tc main_v125) = _; after_results_simp
theorem v125_keep_8_13 : W13 (F := Ideal) m ρ c (Proc.devRef .tc main_v125) = W8 m ρ c (Proc.devRef .tc main_v125) :=
  (v125_step13 m ρ c).trans (v125_keep_8_12 m ρ c)

theorem v147_step11 : W11 (F := Ideal) m ρ c (Proc.devRef .tc main_v147) = W10 m ρ c (Proc.devRef .tc main_v147) := by
  show StableHlo.after hostOps5 (W10 m ρ c) (Proc.devRef .tc main_v147) = _; after_results_simp
theorem v147_keep_10_11 : W11 (F := Ideal) m ρ c (Proc.devRef .tc main_v147) = W10 m ρ c (Proc.devRef .tc main_v147) := v147_step11 m ρ c
theorem v147_step12 : W12 (F := Ideal) m ρ c (Proc.devRef .tc main_v147) = W11 m ρ c (Proc.devRef .tc main_v147) := W12_of_ne m ρ c main_v147 (by decide)
theorem v147_keep_10_12 : W12 (F := Ideal) m ρ c (Proc.devRef .tc main_v147) = W10 m ρ c (Proc.devRef .tc main_v147) :=
  (v147_step12 m ρ c).trans (v147_keep_10_11 m ρ c)
theorem v147_step13 : W13 (F := Ideal) m ρ c (Proc.devRef .tc main_v147) = W12 m ρ c (Proc.devRef .tc main_v147) := by
  show StableHlo.after hostOps6 (W12 m ρ c) (Proc.devRef .tc main_v147) = _; after_results_simp
theorem v147_keep_10_13 : W13 (F := Ideal) m ρ c (Proc.devRef .tc main_v147) = W10 m ρ c (Proc.devRef .tc main_v147) :=
  (v147_step13 m ρ c).trans (v147_keep_10_12 m ρ c)
theorem v147_step14 : W14 (F := Ideal) m ρ c (Proc.devRef .tc main_v147) = W13 m ρ c (Proc.devRef .tc main_v147) := W14_of_ne m ρ c main_v147 (by decide)
theorem v147_keep_10_14 : W14 (F := Ideal) m ρ c (Proc.devRef .tc main_v147) = W10 m ρ c (Proc.devRef .tc main_v147) :=
  (v147_step14 m ρ c).trans (v147_keep_10_13 m ρ c)

theorem v191_step13 : W13 (F := Ideal) m ρ c (Proc.devRef .tc main_v191) = W12 m ρ c (Proc.devRef .tc main_v191) := by
  show StableHlo.after hostOps6 (W12 m ρ c) (Proc.devRef .tc main_v191) = _; after_results_simp
theorem v191_keep_12_13 : W13 (F := Ideal) m ρ c (Proc.devRef .tc main_v191) = W12 m ρ c (Proc.devRef .tc main_v191) := v191_step13 m ρ c
theorem v191_step14 : W14 (F := Ideal) m ρ c (Proc.devRef .tc main_v191) = W13 m ρ c (Proc.devRef .tc main_v191) := W14_of_ne m ρ c main_v191 (by decide)
theorem v191_keep_12_14 : W14 (F := Ideal) m ρ c (Proc.devRef .tc main_v191) = W12 m ρ c (Proc.devRef .tc main_v191) :=
  (v191_step14 m ρ c).trans (v191_keep_12_13 m ρ c)

end Cert.KernelIdeal.Keep

end
-- ==== Proof.KFold1.lean ====
/-
  The first stretch of host operations of the idealized kernel, read against the reference's stages.

  After the encoder region the kernel's host program computes, from the argument arrays and the encoder's output: the
  keyword and stock embeddings (two row gathers), the four degree counts (an accumulating scatter of ones along an edge
  list, then a maximum with one), the first mean aggregation news → keyword (gather the source rows along the edges, add
  them into the destination rows, divide by the destination's count), and the first relation's two weight matrices.
  Each is, operation for operation, what the reference computes for the same quantity, the kernel's passage through a
  narrower float format and back being the identity on the extended reals. So each buffer after the stretch holds the
  reference's stage of the launch arguments — for the mean, once the encoder's output is known to be the reference's
  encoder stage.
-/
import proofs.«146827_j53558242181513_2_alg».proof.Proof.Gen.KernelIdeal.Frame
import proofs.«146827_j53558242181513_2_alg».proof.Proof.RefReadP
import proofs.«146827_j53558242181513_2_alg».proof.Proof.KArgs

set_option maxRecDepth 16384
set_option quotPrecheck false

noncomputable section

namespace Cert.KernelIdeal.Fold1

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)

theorem v8_W3 :
    W3 (F := Ideal) m ρ c (Proc.devRef .tc main_v8) = val_main_v11 (F := Ideal) x1 x9 := by
  show StableHlo.after hostOps1 (W2 m ρ c) (Proc.devRef .tc main_v8) = _
  after_results_simp
  simp only [Args.arg1_W2 m ρ c, Args.arg9_W2 m ρ c]
  unfold val_main_v11 val_main_v10 val_main_v9 val_main_v6 val_main_v5 val_main_c val_main_v8 val_main_v7 val_main_c_0
  rfl

theorem v15_W3 :
    W3 (F := Ideal) m ρ c (Proc.devRef .tc main_v15) = val_main_v18 (F := Ideal) x2 x10 := by
  show StableHlo.after hostOps1 (W2 m ρ c) (Proc.devRef .tc main_v15) = _
  after_results_simp
  simp only [Args.arg2_W2 m ρ c, Args.arg10_W2 m ρ c]
  unfold val_main_v18 val_main_v17 val_main_v16 val_main_v13 val_main_v12 val_main_c_1 val_main_v15 val_main_v14 val_main_c_2
  rfl

theorem v22_W3 :
    W3 (F := Ideal) m ρ c (Proc.devRef .tc main_v22) = val_main_v40 (F := Ideal) x4 := by
  show StableHlo.after hostOps1 (W2 m ρ c) (Proc.devRef .tc main_v22) = _
  after_results_simp
  simp only [Args.arg4_W2 m ρ c]
  unfold val_main_v40 val_main_v38 val_main_v36 val_main_cst_6 val_main_v37 val_main_v35 val_main_cst_5 val_main_v39 val_main_cst_7
  rfl

theorem v27_W3 :
    W3 (F := Ideal) m ρ c (Proc.devRef .tc main_v27) = val_main_v70 (F := Ideal) x3 := by
  show StableHlo.after hostOps1 (W2 m ρ c) (Proc.devRef .tc main_v27) = _
  after_results_simp
  simp only [Args.arg3_W2 m ρ c]
  unfold val_main_v70 val_main_v68 val_main_v66 val_main_cst_12 val_main_v67 val_main_v65 val_main_cst_11 val_main_v69 val_main_cst_13
  rfl

theorem v32_W3 :
    W3 (F := Ideal) m ρ c (Proc.devRef .tc main_v32) = val_main_v100 (F := Ideal) x5 := by
  show StableHlo.after hostOps1 (W2 m ρ c) (Proc.devRef .tc main_v32) = _
  after_results_simp
  simp only [Args.arg5_W2 m ρ c]
  unfold val_main_v100 val_main_v98 val_main_v96 val_main_cst_18 val_main_v97 val_main_v95 val_main_cst_17 val_main_v99 val_main_cst_19
  rfl

theorem v37_W3 :
    W3 (F := Ideal) m ρ c (Proc.devRef .tc main_v37) = val_main_v131 (F := Ideal) x6 := by
  show StableHlo.after hostOps1 (W2 m ρ c) (Proc.devRef .tc main_v37) = _
  after_results_simp
  simp only [Args.arg6_W2 m ρ c]
  unfold val_main_v131 val_main_v129 val_main_v127 val_main_cst_24 val_main_v128 val_main_v126 val_main_cst_23 val_main_v130 val_main_cst_25
  rfl

theorem v53_W3 :
    W3 (F := Ideal) m ρ c (Proc.devRef .tc main_v53) = val_main_v20 (F := Ideal) x11 := by
  show StableHlo.after hostOps1 (W2 m ρ c) (Proc.devRef .tc main_v53) = _
  after_results_simp
  simp only [Args.arg11_W2 m ρ c]
  unfold val_main_v20 val_main_v19
  rfl

theorem v57_W3 :
    W3 (F := Ideal) m ρ c (Proc.devRef .tc main_v57) = val_main_v24 (F := Ideal) x13 := by
  show StableHlo.after hostOps1 (W2 m ρ c) (Proc.devRef .tc main_v57) = _
  after_results_simp
  simp only [Args.arg13_W2 m ρ c]
  unfold val_main_v24 val_main_v23
  rfl

theorem v51_W3
    (h1 : W2 (F := Ideal) m ρ c (Proc.devRef .tc main_v1) = val_main_v4 (F := Ideal) x0 x7 x8) :
    W3 (F := Ideal) m ρ c (Proc.devRef .tc main_v51) = val_main_v42 (F := Ideal) x0 x3 x4 x7 x8 := by
  show StableHlo.after hostOps1 (W2 m ρ c) (Proc.devRef .tc main_v51) = _
  after_results_simp
  simp only [h1, Args.arg3_W2 m ρ c, Args.arg4_W2 m ρ c]
  unfold val_main_v42 val_main_v34 val_main_v32 val_main_cst val_main_v33 val_main_v31 val_main_v30 val_main_v29 val_main_v26 val_main_v25 val_main_c_3 val_main_v28 val_main_v27 val_main_c_4 val_main_v41 val_main_v40 val_main_v38 val_main_v36 val_main_cst_6 val_main_v37 val_main_v35 val_main_cst_5 val_main_v39 val_main_cst_7
  rfl

end Cert.KernelIdeal.Fold1

end
-- ==== Proof.KFold2.lean ====
/-
  The second stretch of host operations of the idealized kernel, read against the reference's stages: the mean
  aggregations keyword → news and stock → news (each divided by the news node's count for that relation, computed in the
  first stretch), the two relations' neighbour weights, and the sum of their two root weight matrices.
-/
import proofs.«146827_j53558242181513_2_alg».proof.Proof.Gen.KernelIdeal.Frame
import proofs.«146827_j53558242181513_2_alg».proof.Proof.RefReadP
import proofs.«146827_j53558242181513_2_alg».proof.Proof.KArgs

set_option maxRecDepth 16384
set_option quotPrecheck false

noncomputable section

namespace Cert.KernelIdeal.Fold2

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)

theorem v73_W5
    (h8 : W4 (F := Ideal) m ρ c (Proc.devRef .tc main_v8) = val_main_v11 (F := Ideal) x1 x9)
    (h27 : W4 (F := Ideal) m ρ c (Proc.devRef .tc main_v27) = val_main_v70 (F := Ideal) x3) :
    W5 (F := Ideal) m ρ c (Proc.devRef .tc main_v73) = val_main_v72 (F := Ideal) x1 x3 x4 x9 := by
  show StableHlo.after hostOps2 (W4 m ρ c) (Proc.devRef .tc main_v73) = _
  after_results_simp
  simp only [h8, h27, Args.arg3_W4 m ρ c, Args.arg4_W4 m ρ c]
  unfold val_main_v72 val_main_v64 val_main_v62 val_main_cst_10 val_main_v63 val_main_v61 val_main_v60 val_main_v59 val_main_v56 val_main_v55 val_main_c_8 val_main_v58 val_main_v57 val_main_c_9 val_main_v71
  rfl

theorem v87_W5
    (h15 : W4 (F := Ideal) m ρ c (Proc.devRef .tc main_v15) = val_main_v18 (F := Ideal) x2 x10)
    (h32 : W4 (F := Ideal) m ρ c (Proc.devRef .tc main_v32) = val_main_v100 (F := Ideal) x5) :
    W5 (F := Ideal) m ρ c (Proc.devRef .tc main_v87) = val_main_v102 (F := Ideal) x2 x5 x6 x10 := by
  show StableHlo.after hostOps2 (W4 m ρ c) (Proc.devRef .tc main_v87) = _
  after_results_simp
  simp only [h15, h32, Args.arg5_W4 m ρ c, Args.arg6_W4 m ρ c]
  unfold val_main_v102 val_main_v94 val_main_v92 val_main_cst_16 val_main_v93 val_main_v91 val_main_v90 val_main_v89 val_main_v86 val_main_v85 val_main_c_14 val_main_v88 val_main_v87 val_main_c_15 val_main_v101
  rfl

theorem v99_W5 :
    W5 (F := Ideal) m ρ c (Proc.devRef .tc main_v99) = val_main_v50 (F := Ideal) x11 := by
  show StableHlo.after hostOps2 (W4 m ρ c) (Proc.devRef .tc main_v99) = _
  after_results_simp
  simp only [Args.arg11_W4 m ρ c]
  unfold val_main_v50 val_main_v49
  rfl

theorem v101_W5 :
    W5 (F := Ideal) m ρ c (Proc.devRef .tc main_v101) = val_main_v80 (F := Ideal) x11 := by
  show StableHlo.after hostOps2 (W4 m ρ c) (Proc.devRef .tc main_v101) = _
  after_results_simp
  simp only [Args.arg11_W4 m ρ c]
  unfold val_main_v80 val_main_v79
  rfl

theorem v92_W5 :
    W5 (F := Ideal) m ρ c (Proc.devRef .tc main_v92) = addf (F := Ideal) (s := S256x256) (φ := .f32) (val_main_v54 (F := Ideal) x13) (val_main_v84 (F := Ideal) x13) := by
  show StableHlo.after hostOps2 (W4 m ρ c) (Proc.devRef .tc main_v92) = _
  after_results_simp
  simp only [Args.arg13_W4 m ρ c]
  unfold val_main_v54 val_main_v53 val_main_v84 val_main_v83
  rfl

end Cert.KernelIdeal.Fold2

end
-- ==== Proof.KFold3.lean ====
/-
  The third stretch: the mean aggregation news → stock of the first layer (divided by the stock node's count) and that
  relation's two weight matrices.
-/
import proofs.«146827_j53558242181513_2_alg».proof.Proof.Gen.KernelIdeal.Frame
import proofs.«146827_j53558242181513_2_alg».proof.Proof.RefReadP
import proofs.«146827_j53558242181513_2_alg».proof.Proof.KArgs

set_option maxRecDepth 16384
set_option quotPrecheck false

noncomputable section

namespace Cert.KernelIdeal.Fold3

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)

theorem v117_W7
    (h1 : W6 (F := Ideal) m ρ c (Proc.devRef .tc main_v1) = val_main_v4 (F := Ideal) x0 x7 x8)
    (h37 : W6 (F := Ideal) m ρ c (Proc.devRef .tc main_v37) = val_main_v131 (F := Ideal) x6) :
    W7 (F := Ideal) m ρ c (Proc.devRef .tc main_v117) = val_main_v133 (F := Ideal) x0 x5 x6 x7 x8 := by
  show StableHlo.after hostOps3 (W6 m ρ c) (Proc.devRef .tc main_v117) = _
  after_results_simp
  simp only [h1, h37, Args.arg5_W6 m ρ c, Args.arg6_W6 m ρ c]
  unfold val_main_v133 val_main_v125 val_main_v123 val_main_cst_22 val_main_v124 val_main_v122 val_main_v121 val_main_v120 val_main_v117 val_main_v116 val_main_c_20 val_main_v119 val_main_v118 val_main_c_21 val_main_v132
  rfl

theorem v119_W7 :
    W7 (F := Ideal) m ρ c (Proc.devRef .tc main_v119) = val_main_v111 (F := Ideal) x11 := by
  show StableHlo.after hostOps3 (W6 m ρ c) (Proc.devRef .tc main_v119) = _
  after_results_simp
  simp only [Args.arg11_W6 m ρ c]
  unfold val_main_v111 val_main_v110
  rfl

theorem v123_W7 :
    W7 (F := Ideal) m ρ c (Proc.devRef .tc main_v123) = val_main_v115 (F := Ideal) x13 := by
  show StableHlo.after hostOps3 (W6 m ρ c) (Proc.devRef .tc main_v123) = _
  after_results_simp
  simp only [Args.arg13_W6 m ρ c]
  unfold val_main_v115 val_main_v114
  rfl

end Cert.KernelIdeal.Fold3

end
-- ==== Proof.KFold4.lean ====
/-
  The fourth stretch: the second layer's mean aggregation news → keyword, of the first layer's news output. The kernel
  divides by the count it computed once, in the first stretch; the reference computes the same count again for this
  layer: the two are one term, so both are opened.
-/
import proofs.«146827_j53558242181513_2_alg».proof.Proof.Gen.KernelIdeal.Frame
import proofs.«146827_j53558242181513_2_alg».proof.Proof.RefReadP
import proofs.«146827_j53558242181513_2_alg».proof.Proof.KArgs

set_option maxRecDepth 16384
set_option quotPrecheck false

noncomputable section

namespace Cert.KernelIdeal.Fold4

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)

theorem v139_W9
    (h103 : W8 (F := Ideal) m ρ c (Proc.devRef .tc main_v103) = val_main_v140 (F := Ideal) x0 x1 x2 x3 x4 x5 x6 x7 x8 x9 x10 x11 x12 x13)
    (h22 : W8 (F := Ideal) m ρ c (Proc.devRef .tc main_v22) = val_main_v40 (F := Ideal) x4) :
    W9 (F := Ideal) m ρ c (Proc.devRef .tc main_v139) = val_main_v166 (F := Ideal) x0 x1 x2 x3 x4 x5 x6 x7 x8 x9 x10 x11 x12 x13 := by
  show StableHlo.after hostOps4 (W8 m ρ c) (Proc.devRef .tc main_v139) = _
  after_results_simp
  simp only [h103, h22, Args.arg3_W8 m ρ c, Args.arg4_W8 m ρ c]
  unfold val_main_v166 val_main_v158 val_main_v156 val_main_cst_28 val_main_v157 val_main_v155 val_main_v154 val_main_v153 val_main_v150 val_main_v149 val_main_c_26 val_main_v152 val_main_v151 val_main_c_27 val_main_v165 val_main_v164 val_main_v162 val_main_v160 val_main_cst_30 val_main_v161 val_main_v159 val_main_cst_29 val_main_v163 val_main_cst_31 val_main_v40 val_main_v38 val_main_v36 val_main_cst_6 val_main_v37 val_main_v35 val_main_cst_5 val_main_v39 val_main_cst_7
  rfl

theorem v141_W9 :
    W9 (F := Ideal) m ρ c (Proc.devRef .tc main_v141) = val_main_v144 (F := Ideal) x14 := by
  show StableHlo.after hostOps4 (W8 m ρ c) (Proc.devRef .tc main_v141) = _
  after_results_simp
  simp only [Args.arg14_W8 m ρ c]
  unfold val_main_v144 val_main_v143
  rfl

theorem v145_W9 :
    W9 (F := Ideal) m ρ c (Proc.devRef .tc main_v145) = val_main_v148 (F := Ideal) x16 := by
  show StableHlo.after hostOps4 (W8 m ρ c) (Proc.devRef .tc main_v145) = _
  after_results_simp
  simp only [Args.arg16_W8 m ρ c]
  unfold val_main_v148 val_main_v147
  rfl

end Cert.KernelIdeal.Fold4

end
-- ==== Proof.KFold5.lean ====
/-
  The fifth stretch: the second layer's mean aggregations keyword → news and stock → news (the counts those of the
  first stretch, which the reference computes again), the two neighbour weights and the sum of the two root weights.
-/
import proofs.«146827_j53558242181513_2_alg».proof.Proof.Gen.KernelIdeal.Frame
import proofs.«146827_j53558242181513_2_alg».proof.Proof.RefReadP
import proofs.«146827_j53558242181513_2_alg».proof.Proof.KArgs

set_option maxRecDepth 16384
set_option quotPrecheck false

noncomputable section

namespace Cert.KernelIdeal.Fold5

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)

theorem v161_W11
    (h59 : W10 (F := Ideal) m ρ c (Proc.devRef .tc main_v59) = val_main_v141 (F := Ideal) x0 x1 x3 x4 x7 x8 x9 x11 x12 x13)
    (h27 : W10 (F := Ideal) m ρ c (Proc.devRef .tc main_v27) = val_main_v70 (F := Ideal) x3) :
    W11 (F := Ideal) m ρ c (Proc.devRef .tc main_v161) = val_main_v196 (F := Ideal) x0 x1 x3 x4 x7 x8 x9 x11 x12 x13 := by
  show StableHlo.after hostOps5 (W10 m ρ c) (Proc.devRef .tc main_v161) = _
  after_results_simp
  simp only [h59, h27, Args.arg3_W10 m ρ c, Args.arg4_W10 m ρ c]
  unfold val_main_v196 val_main_v188 val_main_v186 val_main_cst_34 val_main_v187 val_main_v185 val_main_v184 val_main_v183 val_main_v180 val_main_v179 val_main_c_32 val_main_v182 val_main_v181 val_main_c_33 val_main_v195 val_main_v194 val_main_v192 val_main_v190 val_main_cst_36 val_main_v191 val_main_v189 val_main_cst_35 val_main_v193 val_main_cst_37 val_main_v70 val_main_v68 val_main_v66 val_main_cst_12 val_main_v67 val_main_v65 val_main_cst_11 val_main_v69 val_main_cst_13
  rfl

theorem v175_W11
    (h125 : W10 (F := Ideal) m ρ c (Proc.devRef .tc main_v125) = val_main_v142 (F := Ideal) x0 x2 x5 x6 x7 x8 x10 x11 x12 x13)
    (h32 : W10 (F := Ideal) m ρ c (Proc.devRef .tc main_v32) = val_main_v100 (F := Ideal) x5) :
    W11 (F := Ideal) m ρ c (Proc.devRef .tc main_v175) = val_main_v226 (F := Ideal) x0 x2 x5 x6 x7 x8 x10 x11 x12 x13 := by
  show StableHlo.after hostOps5 (W10 m ρ c) (Proc.devRef .tc main_v175) = _
  after_results_simp
  simp only [h125, h32, Args.arg5_W10 m ρ c, Args.arg6_W10 m ρ c]
  unfold val_main_v226 val_main_v218 val_main_v216 val_main_cst_40 val_main_v217 val_main_v215 val_main_v214 val_main_v213 val_main_v210 val_main_v209 val_main_c_38 val_main_v212 val_main_v211 val_main_c_39 val_main_v225 val_main_v224 val_main_v222 val_main_v220 val_main_cst_42 val_main_v221 val_main_v219 val_main_cst_41 val_main_v223 val_main_cst_43 val_main_v100 val_main_v98 val_main_v96 val_main_cst_18 val_main_v97 val_main_v95 val_main_cst_17 val_main_v99 val_main_cst_19
  rfl

theorem v187_W11 :
    W11 (F := Ideal) m ρ c (Proc.devRef .tc main_v187) = val_main_v174 (F := Ideal) x14 := by
  show StableHlo.after hostOps5 (W10 m ρ c) (Proc.devRef .tc main_v187) = _
  after_results_simp
  simp only [Args.arg14_W10 m ρ c]
  unfold val_main_v174 val_main_v173
  rfl

theorem v189_W11 :
    W11 (F := Ideal) m ρ c (Proc.devRef .tc main_v189) = val_main_v204 (F := Ideal) x14 := by
  show StableHlo.after hostOps5 (W10 m ρ c) (Proc.devRef .tc main_v189) = _
  after_results_simp
  simp only [Args.arg14_W10 m ρ c]
  unfold val_main_v204 val_main_v203
  rfl

theorem v180_W11 :
    W11 (F := Ideal) m ρ c (Proc.devRef .tc main_v180) = addf (F := Ideal) (s := S256x256) (φ := .f32) (val_main_v178 (F := Ideal) x16) (val_main_v208 (F := Ideal) x16) := by
  show StableHlo.after hostOps5 (W10 m ρ c) (Proc.devRef .tc main_v180) = _
  after_results_simp
  simp only [Args.arg16_W10 m ρ c]
  unfold val_main_v178 val_main_v177 val_main_v208 val_main_v207
  rfl

end Cert.KernelIdeal.Fold5

end
-- ==== Proof.KFold6.lean ====
/-
  The sixth stretch: the second layer's mean aggregation news → stock (the count that of the first stretch) and that
  relation's two weight matrices.
-/
import proofs.«146827_j53558242181513_2_alg».proof.Proof.Gen.KernelIdeal.Frame
import proofs.«146827_j53558242181513_2_alg».proof.Proof.RefReadP
import proofs.«146827_j53558242181513_2_alg».proof.Proof.KArgs

set_option maxRecDepth 16384
set_option quotPrecheck false

noncomputable section

namespace Cert.KernelIdeal.Fold6

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)

theorem v205_W13
    (h103 : W12 (F := Ideal) m ρ c (Proc.devRef .tc main_v103) = val_main_v140 (F := Ideal) x0 x1 x2 x3 x4 x5 x6 x7 x8 x9 x10 x11 x12 x13)
    (h37 : W12 (F := Ideal) m ρ c (Proc.devRef .tc main_v37) = val_main_v131 (F := Ideal) x6) :
    W13 (F := Ideal) m ρ c (Proc.devRef .tc main_v205) = val_main_v257 (F := Ideal) x0 x1 x2 x3 x4 x5 x6 x7 x8 x9 x10 x11 x12 x13 := by
  show StableHlo.after hostOps6 (W12 m ρ c) (Proc.devRef .tc main_v205) = _
  after_results_simp
  simp only [h103, h37, Args.arg5_W12 m ρ c, Args.arg6_W12 m ρ c]
  unfold val_main_v257 val_main_v249 val_main_v247 val_main_cst_46 val_main_v248 val_main_v246 val_main_v245 val_main_v244 val_main_v241 val_main_v240 val_main_c_44 val_main_v243 val_main_v242 val_main_c_45 val_main_v256 val_main_v255 val_main_v253 val_main_v251 val_main_cst_48 val_main_v252 val_main_v250 val_main_cst_47 val_main_v254 val_main_cst_49 val_main_v131 val_main_v129 val_main_v127 val_main_cst_24 val_main_v128 val_main_v126 val_main_cst_23 val_main_v130 val_main_cst_25
  rfl

theorem v207_W13 :
    W13 (F := Ideal) m ρ c (Proc.devRef .tc main_v207) = val_main_v235 (F := Ideal) x14 := by
  show StableHlo.after hostOps6 (W12 m ρ c) (Proc.devRef .tc main_v207) = _
  after_results_simp
  simp only [Args.arg14_W12 m ρ c]
  unfold val_main_v235 val_main_v234
  rfl

theorem v211_W13 :
    W13 (F := Ideal) m ρ c (Proc.devRef .tc main_v211) = val_main_v239 (F := Ideal) x16 := by
  show StableHlo.after hostOps6 (W12 m ρ c) (Proc.devRef .tc main_v211) = _
  after_results_simp
  simp only [Args.arg16_W12 m ρ c]
  unfold val_main_v239 val_main_v238
  rfl

end Cert.KernelIdeal.Fold6

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.KBias.lean ====
/-
  The bias rows of the idealized kernel against the reference's.

  Both programs take a length-256 bias out of a `[4, 256]` table (a slice of one row, reshaped to a vector). The kernel
  then RESHAPES the vector to a `1 × 256` row for its region; the reference BROADCASTS it to a `1 × 256` row (and from
  there over the rows of the table). At every entry `(0, q)` both rows read the vector's entry `q`, so the two rows are
  one array (`row_cast_eq_bcast`). For the news relation the kernel first adds the two relations' biases and reshapes the
  sum: that row is, entry by entry, the sum of the reference's two rows (`row_cast_add`).
-/
import proofs.«146827_j53558242181513_2_alg».proof.Proof.Gen.KernelIdeal.Frame
import proofs.«146827_j53558242181513_2_alg».proof.Proof.RefReadP
import proofs.«146827_j53558242181513_2_alg».proof.Proof.KArgs
import proofs.«146827_j53558242181513_2_alg».proof.Proof.LibRowOps

set_option maxRecDepth 16384
set_option quotPrecheck false

noncomputable section

namespace Cert.KernelIdeal.Bias

open Cert.KernelIdeal Cert.KernelIdeal.Gen Cert.ReferenceIdeal.ReadP
open Idealize.ShloMosaic Idealize.ShloMosaic.TcCoe Idealize.SL.Sem Idealize.ShloMosaic.StableHlo Idealize.ShloMosaic.ValueIdx

/-- A length-`b` vector reshaped to a `1 × b` row is the vector broadcast to that row along its second axis. -/
theorem row_cast_eq_bcast {α : Type} {b : ℕ} (y : (⟨1, ![b]⟩ : Shape).Idx → α) (h : (⟨1, ![b]⟩ : Shape).ShapeCasts ⟨2, ![1, b]⟩)
    (h' : (⟨1, ![b]⟩ : Shape).BroadcastsInDim ⟨2, ![1, b]⟩ ![1]) :
    shapeCast ⟨2, ![1, b]⟩ y h = broadcastInDim ⟨2, ![1, b]⟩ ![1] h' y := by
  funext i
  obtain ⟨p, q, rfl⟩ : ∃ (p : Fin 1) (q : Fin b), i = ix2 p q := ⟨i 0, i 1, eq_ix2 i⟩
  have hp : p = 0 := Subsingleton.elim _ _
  subst hp
  rw [shapeCast_a_1a_apply y h 0 q]
  refine (broadcastInDim_apply ![1] h' y (ix2 0 q) (ix1 q) fun a => ?_).symm
  match a with
  | ⟨0, _⟩ =>
    show q.val = if b = 1 then 0 else q.val
    split
    · have := q.isLt; omega
    · rfl

/-- The sum of two vectors reshaped to a row is, entry by entry, the sum of the two vectors' broadcast rows. -/
theorem row_cast_add {b : ℕ} (y z : (⟨1, ![b]⟩ : Shape).Idx → EReal) (h : (⟨1, ![b]⟩ : Shape).ShapeCasts ⟨2, ![1, b]⟩)
    (h' : (⟨1, ![b]⟩ : Shape).BroadcastsInDim ⟨2, ![1, b]⟩ ![1]) :
    shapeCast ⟨2, ![1, b]⟩ (addf (F := Ideal) (φ := .f32) y z) h
      = fun i => broadcastInDim ⟨2, ![1, b]⟩ ![1] h' y i + broadcastInDim ⟨2, ![1, b]⟩ ![1] h' z i := by
  funext i
  rw [← row_cast_eq_bcast y h h', ← row_cast_eq_bcast z h h']
  obtain ⟨p, q, rfl⟩ : ∃ (p : Fin 1) (q : Fin b), i = ix2 p q := ⟨i 0, i 1, eq_ix2 i⟩
  have hp : p = 0 := Subsingleton.elim _ _
  subst hp
  rw [shapeCast_a_1a_apply _ h 0 q, shapeCast_a_1a_apply y h 0 q,
    shapeCast_a_1a_apply z h 0 q]
  rfl

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)

/-- The encoder's bias row. -/
theorem v0_W1 : W1 (F := Ideal) m ρ c (Proc.devRef .tc main_v0) = val_main_v1 (F := Ideal) x8 := by
  show StableHlo.after hostOps0 (W0 m ρ c) (Proc.devRef .tc main_v0) = _
  after_results_simp
  simp only [Args.arg8_W0 m ρ c]
  unfold val_main_v1
  exact row_cast_eq_bcast _ _ _

/-- The first layer's keyword bias row. -/
theorem v58_W3 : W3 (F := Ideal) m ρ c (Proc.devRef .tc main_v58) = val_main_v44 (F := Ideal) x12 := by
  show StableHlo.after hostOps1 (W2 m ρ c) (Proc.devRef .tc main_v58) = _
  after_results_simp
  simp only [Args.arg12_W2 m ρ c]
  unfold val_main_v44
  refine Eq.trans ?_ (row_cast_eq_bcast (val_main_v22 (F := Ideal) x12) shapeCasts_S256_S1x256 _)
  unfold val_main_v22 val_main_v21
  rfl

/-- The first layer's news bias row: the sum of the two relations' biases. -/
theorem v102_W5 : W5 (F := Ideal) m ρ c (Proc.devRef .tc main_v102)
    = fun i => val_main_v74 (F := Ideal) x12 i + val_main_v104 (F := Ideal) x12 i := by
  show StableHlo.after hostOps2 (W4 m ρ c) (Proc.devRef .tc main_v102) = _
  after_results_simp
  simp only [Args.arg12_W4 m ρ c]
  unfold val_main_v74 val_main_v104
  refine Eq.trans ?_ (row_cast_add (val_main_v52 (F := Ideal) x12) (val_main_v82 (F := Ideal) x12) shapeCasts_S256_S1x256 _)
  unfold val_main_v52 val_main_v51 val_main_v82 val_main_v81
  rfl

/-- The first layer's stock bias row. -/
theorem v124_W7 : W7 (F := Ideal) m ρ c (Proc.devRef .tc main_v124) = val_main_v135 (F := Ideal) x12 := by
  show StableHlo.after hostOps3 (W6 m ρ c) (Proc.devRef .tc main_v124) = _
  after_results_simp
  simp only [Args.arg12_W6 m ρ c]
  unfold val_main_v135
  refine Eq.trans ?_ (row_cast_eq_bcast (val_main_v113 (F := Ideal) x12) shapeCasts_S256_S1x256 _)
  unfold val_main_v113 val_main_v112
  rfl

/-- The second layer's keyword bias row. -/
theorem v146_W9 : W9 (F := Ideal) m ρ c (Proc.devRef .tc main_v146) = val_main_v168 (F := Ideal) x15 := by
  show StableHlo.after hostOps4 (W8 m ρ c) (Proc.devRef .tc main_v146) = _
  after_results_simp
  simp only [Args.arg15_W8 m ρ c]
  unfold val_main_v168
  refine Eq.trans ?_ (row_cast_eq_bcast (val_main_v146 (F := Ideal) x15) shapeCasts_S256_S1x256 _)
  unfold val_main_v146 val_main_v145
  rfl

/-- The second layer's news bias row: the sum of the two relations' biases. -/
theorem v190_W11 : W11 (F := Ideal) m ρ c (Proc.devRef .tc main_v190)
    = fun i => val_main_v198 (F := Ideal) x15 i + val_main_v228 (F := Ideal) x15 i := by
  show StableHlo.after hostOps5 (W10 m ρ c) (Proc.devRef .tc main_v190) = _
  after_results_simp
  simp only [Args.arg15_W10 m ρ c]
  unfold val_main_v198 val_main_v228
  refine Eq.trans ?_ (row_cast_add (val_main_v176 (F := Ideal) x15) (val_main_v206 (F := Ideal) x15) shapeCasts_S256_S1x256 _)
  unfold val_main_v176 val_main_v175 val_main_v206 val_main_v205
  rfl

/-- The second layer's stock bias row. -/
theorem v212_W13 : W13 (F := Ideal) m ρ c (Proc.devRef .tc main_v212) = val_main_v259 (F := Ideal) x15 := by
  show StableHlo.after hostOps6 (W12 m ρ c) (Proc.devRef .tc main_v212) = _
  after_results_simp
  simp only [Args.arg15_W12 m ρ c]
  unfold val_main_v259
  refine Eq.trans ?_ (row_cast_eq_bcast (val_main_v237 (F := Ideal) x15) shapeCasts_S256_S1x256 _)
  unfold val_main_v237 val_main_v236
  rfl

end Cert.KernelIdeal.Bias

end
-- ==== Proof.KPay.lean ====
/-
  The three row updates of the network as the kernel bodies compute them, read at one entry at the ideal values
  (extended reals, exact operations, a change of float format the identity).

  A body is two or three plain matrix products into the zero accumulator, the operands first narrowed to a
  shorter float format (the identity here), a `1 × 256` bias row broadcast over the rows, additions, and in the
  first layer a maximum with a splat zero. At entry `(p, q)` of a tile of `M` rows this is the corresponding row
  formula of `Cert.Rows` of the tile's operands; and a row formula depends on its row operands only through row
  `p`, so it is unchanged when the tile's row `p` is replaced by the equal row `r` of a taller table.
-/
import proofs.«146827_j53558242181513_2_alg».proof.Proof.Rows
import proofs.«146827_j53558242181513_2_alg».proof.Proof.LibRowOps

noncomputable section

namespace Cert.KPay

open Idealize.ShloMosaic Idealize.ShloMosaic.ValueIdx Cert.Rows

/-! ## The row formulas with the activation decided -/

theorem act_true (v : EReal) : act true v = max v 0 := if_pos rfl
theorem act_false (v : EReal) : act false v = v := if_neg (by decide)

/-! ## The pieces of a body at an entry -/

/-- A plain product of two narrowed operands into the zero accumulator, at `(r, j)`: the entry of the product. -/
theorem mm_apply {M K N : ℕ} (d : DotDims ⟨2, ![M, K]⟩ ⟨2, ![K, N]⟩ ⟨2, ![M, N]⟩) (hd : d = DotDims.plain M K N)
    (x : FVec Ideal ⟨2, ![M, K]⟩ .f32) (w : FVec Ideal ⟨2, ![K, N]⟩ .f32) (hb : FTy.bf16.bits < FTy.f32.bits)
    (r : Fin M) (j : Fin N) :
    matmul d none (truncf .bf16 x hb) (truncf .bf16 w hb) (constant ⟨2, ![M, N]⟩ .f32 0x00000000#32) (ix2 r j)
      = mm x w r j :=
  Cert.LibRowOps.matmul_plain_apply d hd none (truncf .bf16 x hb) (truncf .bf16 w hb) r j

/-- The bias row broadcast over `M` rows, at `(p, q)`: the row's entry `q`. -/
theorem bias_apply {M : ℕ} (b : FVec Ideal ⟨2, ![1, 256]⟩ .f32) (h : (⟨2, ![1, 256]⟩ : Shape).Broadcasts ⟨2, ![M, 256]⟩)
    (p : Fin M) (q : Fin 256) : broadcastTo ⟨2, ![M, 256]⟩ b h (ix2 p q) = b (ix2 (0 : Fin 1) q) :=
  broadcastTo_1b_ab_apply b h p q

/-! ## The three bodies at an entry -/

/-- The encoder body: `max (x·w + b, 0)`. -/
theorem enc_apply {M K : ℕ} (d : DotDims ⟨2, ![M, K]⟩ ⟨2, ![K, 256]⟩ ⟨2, ![M, 256]⟩) (hd : d = DotDims.plain M K 256)
    (x : FVec Ideal ⟨2, ![M, K]⟩ .f32) (w : FVec Ideal ⟨2, ![K, 256]⟩ .f32) (b : FVec Ideal ⟨2, ![1, 256]⟩ .f32)
    (hb : FTy.bf16.bits < FTy.f32.bits) (h : (⟨2, ![1, 256]⟩ : Shape).Broadcasts ⟨2, ![M, 256]⟩) (p : Fin M) (q : Fin 256) :
    maximumf (addf (matmul d none (truncf .bf16 x hb) (truncf .bf16 w hb) (constant ⟨2, ![M, 256]⟩ .f32 0x00000000#32))
        (broadcastTo ⟨2, ![M, 256]⟩ b h))
      (broadcast ⟨2, ![M, 256]⟩ (Scalar.ofBits (F := Ideal) .f32 0x00000000#32)) (ix2 p q)
      = encAt x w b p q := by
  show max (matmul d none (truncf .bf16 x hb) (truncf .bf16 w hb) (constant ⟨2, ![M, 256]⟩ .f32 0x00000000#32) (ix2 p q)
      + broadcastTo ⟨2, ![M, 256]⟩ b h (ix2 p q)) (Ideal.ofBits .f32 0x00000000#32) = max (mm x w p q + b (ix2 0 q)) 0
  rw [mm_apply d hd, bias_apply, Ideal.ofBits_zero_f32]

/-- One relation's body without the activation: `mean·wl + bl + xd·wr`. -/
theorem sage_lin_apply {M : ℕ} (d : DotDims ⟨2, ![M, 256]⟩ ⟨2, ![256, 256]⟩ ⟨2, ![M, 256]⟩) (hd : d = DotDims.plain M 256 256)
    (mean xd : FVec Ideal ⟨2, ![M, 256]⟩ .f32) (wl : FVec Ideal ⟨2, ![256, 256]⟩ .f32) (bl : FVec Ideal ⟨2, ![1, 256]⟩ .f32)
    (wr : FVec Ideal ⟨2, ![256, 256]⟩ .f32)
    (hb : FTy.bf16.bits < FTy.f32.bits) (h : (⟨2, ![1, 256]⟩ : Shape).Broadcasts ⟨2, ![M, 256]⟩) (p : Fin M) (q : Fin 256) :
    addf (addf (matmul d none (truncf .bf16 mean hb) (truncf .bf16 wl hb) (constant ⟨2, ![M, 256]⟩ .f32 0x00000000#32))
        (broadcastTo ⟨2, ![M, 256]⟩ bl h))
      (matmul d none (truncf .bf16 xd hb) (truncf .bf16 wr hb) (constant ⟨2, ![M, 256]⟩ .f32 0x00000000#32)) (ix2 p q)
      = sageAt false mean xd wl bl wr p q := by
  unfold sageAt
  rw [act_false]
  show (matmul d none (truncf .bf16 mean hb) (truncf .bf16 wl hb) (constant ⟨2, ![M, 256]⟩ .f32 0x00000000#32) (ix2 p q)
      + broadcastTo ⟨2, ![M, 256]⟩ bl h (ix2 p q))
      + matmul d none (truncf .bf16 xd hb) (truncf .bf16 wr hb) (constant ⟨2, ![M, 256]⟩ .f32 0x00000000#32) (ix2 p q) = _
  rw [mm_apply d hd, mm_apply d hd, bias_apply]

/-- One relation's body with the activation: the maximum of the same with a splat zero. -/
theorem sage_relu_apply {M : ℕ} (d : DotDims ⟨2, ![M, 256]⟩ ⟨2, ![256, 256]⟩ ⟨2, ![M, 256]⟩) (hd : d = DotDims.plain M 256 256)
    (mean xd : FVec Ideal ⟨2, ![M, 256]⟩ .f32) (wl : FVec Ideal ⟨2, ![256, 256]⟩ .f32) (bl : FVec Ideal ⟨2, ![1, 256]⟩ .f32)
    (wr : FVec Ideal ⟨2, ![256, 256]⟩ .f32)
    (hb : FTy.bf16.bits < FTy.f32.bits) (h : (⟨2, ![1, 256]⟩ : Shape).Broadcasts ⟨2, ![M, 256]⟩) (p : Fin M) (q : Fin 256) :
    maximumf (addf (addf (matmul d none (truncf .bf16 mean hb) (truncf .bf16 wl hb) (constant ⟨2, ![M, 256]⟩ .f32 0x00000000#32))
          (broadcastTo ⟨2, ![M, 256]⟩ bl h))
        (matmul d none (truncf .bf16 xd hb) (truncf .bf16 wr hb) (constant ⟨2, ![M, 256]⟩ .f32 0x00000000#32)))
      (broadcast ⟨2, ![M, 256]⟩ (Scalar.ofBits (F := Ideal) .f32 0x00000000#32)) (ix2 p q)
      = sageAt true mean xd wl bl wr p q := by
  have e := sage_lin_apply d hd mean xd wl bl wr hb h p q
  unfold sageAt at e ⊢
  rw [act_false] at e
  rw [act_true, ← e]
  show max _ (Ideal.ofBits .f32 0x00000000#32) = _
  rw [Ideal.ofBits_zero_f32]

/-- The news body without the activation: `m1·wl1 + m3·wl3 + bl + h·wr`. -/
theorem fused_lin_apply {M : ℕ} (d : DotDims ⟨2, ![M, 256]⟩ ⟨2, ![256, 256]⟩ ⟨2, ![M, 256]⟩) (hd : d = DotDims.plain M 256 256)
    (m1 m3 hh : FVec Ideal ⟨2, ![M, 256]⟩ .f32) (wl1 wl3 wr : FVec Ideal ⟨2, ![256, 256]⟩ .f32) (bl : FVec Ideal ⟨2, ![1, 256]⟩ .f32)
    (hb : FTy.bf16.bits < FTy.f32.bits) (h : (⟨2, ![1, 256]⟩ : Shape).Broadcasts ⟨2, ![M, 256]⟩) (p : Fin M) (q : Fin 256) :
    addf (addf (addf (matmul d none (truncf .bf16 m1 hb) (truncf .bf16 wl1 hb) (constant ⟨2, ![M, 256]⟩ .f32 0x00000000#32))
          (matmul d none (truncf .bf16 m3 hb) (truncf .bf16 wl3 hb) (constant ⟨2, ![M, 256]⟩ .f32 0x00000000#32)))
        (broadcastTo ⟨2, ![M, 256]⟩ bl h))
      (matmul d none (truncf .bf16 hh hb) (truncf .bf16 wr hb) (constant ⟨2, ![M, 256]⟩ .f32 0x00000000#32)) (ix2 p q)
      = fusedAt false m1 m3 hh wl1 wl3 wr bl p q := by
  unfold fusedAt
  rw [act_false]
  show ((matmul d none (truncf .bf16 m1 hb) (truncf .bf16 wl1 hb) (constant ⟨2, ![M, 256]⟩ .f32 0x00000000#32) (ix2 p q)
      + matmul d none (truncf .bf16 m3 hb) (truncf .bf16 wl3 hb) (constant ⟨2, ![M, 256]⟩ .f32 0x00000000#32) (ix2 p q))
      + broadcastTo ⟨2, ![M, 256]⟩ bl h (ix2 p q))
      + matmul d none (truncf .bf16 hh hb) (truncf .bf16 wr hb) (constant ⟨2, ![M, 256]⟩ .f32 0x00000000#32) (ix2 p q) = _
  rw [mm_apply d hd, mm_apply d hd, mm_apply d hd, bias_apply]

/-- The news body with the activation. -/
theorem fused_relu_apply {M : ℕ} (d : DotDims ⟨2, ![M, 256]⟩ ⟨2, ![256, 256]⟩ ⟨2, ![M, 256]⟩) (hd : d = DotDims.plain M 256 256)
    (m1 m3 hh : FVec Ideal ⟨2, ![M, 256]⟩ .f32) (wl1 wl3 wr : FVec Ideal ⟨2, ![256, 256]⟩ .f32) (bl : FVec Ideal ⟨2, ![1, 256]⟩ .f32)
    (hb : FTy.bf16.bits < FTy.f32.bits) (h : (⟨2, ![1, 256]⟩ : Shape).Broadcasts ⟨2, ![M, 256]⟩) (p : Fin M) (q : Fin 256) :
    maximumf (addf (addf (addf (matmul d none (truncf .bf16 m1 hb) (truncf .bf16 wl1 hb) (constant ⟨2, ![M, 256]⟩ .f32 0x00000000#32))
            (matmul d none (truncf .bf16 m3 hb) (truncf .bf16 wl3 hb) (constant ⟨2, ![M, 256]⟩ .f32 0x00000000#32)))
          (broadcastTo ⟨2, ![M, 256]⟩ bl h))
        (matmul d none (truncf .bf16 hh hb) (truncf .bf16 wr hb) (constant ⟨2, ![M, 256]⟩ .f32 0x00000000#32)))
      (broadcast ⟨2, ![M, 256]⟩ (Scalar.ofBits (F := Ideal) .f32 0x00000000#32)) (ix2 p q)
      = fusedAt true m1 m3 hh wl1 wl3 wr bl p q := by
  have e := fused_lin_apply d hd m1 m3 hh wl1 wl3 wr bl hb h p q
  unfold fusedAt at e ⊢
  rw [act_false] at e
  rw [act_true, ← e]
  show max _ (Ideal.ofBits .f32 0x00000000#32) = _
  rw [Ideal.ofBits_zero_f32]

/-! ## A row formula reads its row operands through one row -/

theorem mm_row {Mb M K N : ℕ} (x : Mat Mb K) (A : Mat M K) (w : Mat K N) (p : Fin Mb) (r : Fin M)
    (h : ∀ k : Fin K, x (ix2 p k) = A (ix2 r k)) (j : Fin N) : mm x w p j = mm A w r j := by
  unfold mm
  exact Finset.sum_congr rfl fun k _ => by rw [h k]

theorem encAt_row {Mb M K : ℕ} (x : Mat Mb K) (A : Mat M K) (w : Mat K 256) (b : Mat 1 256) (p : Fin Mb) (r : Fin M)
    (h : ∀ k : Fin K, x (ix2 p k) = A (ix2 r k)) (j : Fin 256) : encAt x w b p j = encAt A w b r j := by
  unfold encAt
  rw [mm_row x A w p r h]

theorem sageAt_row {Mb M : ℕ} (relu : Bool) (x0 x1 : Mat Mb 256) (A0 A1 : Mat M 256) (wl : Mat 256 256) (bl : Mat 1 256)
    (wr : Mat 256 256) (p : Fin Mb) (r : Fin M)
    (h0 : ∀ k : Fin 256, x0 (ix2 p k) = A0 (ix2 r k)) (h1 : ∀ k : Fin 256, x1 (ix2 p k) = A1 (ix2 r k)) (j : Fin 256) :
    sageAt relu x0 x1 wl bl wr p j = sageAt relu A0 A1 wl bl wr r j := by
  unfold sageAt
  rw [mm_row x0 A0 wl p r h0, mm_row x1 A1 wr p r h1]

theorem fusedAt_row {Mb M : ℕ} (relu : Bool) (x0 x1 x2 : Mat Mb 256) (A0 A1 A2 : Mat M 256) (wl1 wl3 wr : Mat 256 256)
    (bl : Mat 1 256) (p : Fin Mb) (r : Fin M)
    (h0 : ∀ k : Fin 256, x0 (ix2 p k) = A0 (ix2 r k)) (h1 : ∀ k : Fin 256, x1 (ix2 p k) = A1 (ix2 r k))
    (h2 : ∀ k : Fin 256, x2 (ix2 p k) = A2 (ix2 r k)) (j : Fin 256) :
    fusedAt relu x0 x1 x2 wl1 wl3 wr bl p j = fusedAt relu A0 A1 A2 wl1 wl3 wr bl r j := by
  unfold fusedAt
  rw [mm_row x0 A0 wl1 p r h0, mm_row x1 A1 wl3 p r h1, mm_row x2 A2 wr p r h2]

/-! ## A tile's row formula is the table's, when the tile's rows are the table's and the other operands are the same -/

theorem encAt_blk {Mb M K : ℕ} (x : Mat Mb K) (w : Mat K 256) (b : Mat 1 256) (A : Mat M K) (W : Mat K 256) (B : Mat 1 256)
    (p : Fin Mb) (r : Fin M) (h : ∀ k : Fin K, x (ix2 p k) = A (ix2 r k)) (hw : w = W) (hb : b = B) (j : Fin 256) :
    encAt x w b p j = encAt A W B r j := by
  subst hw hb
  exact encAt_row x A w b p r h j

theorem sageAt_blk {Mb M : ℕ} (relu : Bool) (x0 x1 : Mat Mb 256) (x2 : Mat 256 256) (x3 : Mat 1 256) (x4 : Mat 256 256)
    (A0 A1 : Mat M 256) (A2 : Mat 256 256) (A3 : Mat 1 256) (A4 : Mat 256 256) (p : Fin Mb) (r : Fin M)
    (h0 : ∀ k : Fin 256, x0 (ix2 p k) = A0 (ix2 r k)) (h1 : ∀ k : Fin 256, x1 (ix2 p k) = A1 (ix2 r k))
    (h2 : x2 = A2) (h3 : x3 = A3) (h4 : x4 = A4) (j : Fin 256) :
    sageAt relu x0 x1 x2 x3 x4 p j = sageAt relu A0 A1 A2 A3 A4 r j := by
  subst h2 h3 h4
  exact sageAt_row relu x0 x1 A0 A1 x2 x3 x4 p r h0 h1 j

theorem fusedAt_blk {Mb M : ℕ} (relu : Bool) (x0 x1 x2 : Mat Mb 256) (x3 x4 x5 : Mat 256 256) (x6 : Mat 1 256)
    (A0 A1 A2 : Mat M 256) (A3 A4 A5 : Mat 256 256) (A6 : Mat 1 256) (p : Fin Mb) (r : Fin M)
    (h0 : ∀ k : Fin 256, x0 (ix2 p k) = A0 (ix2 r k)) (h1 : ∀ k : Fin 256, x1 (ix2 p k) = A1 (ix2 r k))
    (h2 : ∀ k : Fin 256, x2 (ix2 p k) = A2 (ix2 r k))
    (h3 : x3 = A3) (h4 : x4 = A4) (h5 : x5 = A5) (h6 : x6 = A6) (j : Fin 256) :
    fusedAt relu x0 x1 x2 x3 x4 x5 x6 p j = fusedAt relu A0 A1 A2 A3 A4 A5 A6 r j := by
  subst h3 h4 h5 h6
  exact fusedAt_row relu x0 x1 x2 A0 A1 A2 x3 x4 x5 x6 p r h0 h1 h2 j

/-- The zero offsets of a whole-block access, as a constant function. -/
theorem off_zero : (![0, 0] : Fin 2 → Nat) = fun _ => 0 := funext fun a => by fin_cases a <;> rfl

end Cert.KPay

end
-- ==== Proof.KRegion0.lean ====
/-
  Region 0 of the kernel program, the encoder of the 100000 × 768 news features, as ONE function of the contents the
  region finds at entry.

  The grid has 50 points; point `t` stages rows `2000·t … 2000·t + 1999` of the features (window 0) and the whole of the
  768 × 256 weight matrix and of the bias row (windows 1, 2), and writes back rows `2000·t …` of the result (window 3).
  Entry `(p, q)` of the tile the body stores is the row formula `Rows.encAt` of the staged tiles, which reads the
  features through row `p` only, that is through row `2000·t + p` of the table: so the tile is the block at `t` of
  `Rows.enc` of the entry contents. Row `r` of the table lies in the block of point `r / 2000`, so the blocks cover the
  table and the array ends holding `Rows.enc` of the entry contents.
-/
import proofs.«146827_j53558242181513_2_alg».proof.Proof.Gen.KernelIdeal.Frame
import proofs.«146827_j53558242181513_2_alg».proof.Proof.KPay
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The stored tile at entry `(p, q)`: the row formula of the staged tiles. -/
theorem pay0_apply (x0 : Vec Ideal S2000x768 .f32) (x1 : Vec Ideal S768x256 .f32) (x2 : Vec Ideal S1x256 .f32)
    (p : Fin 2000) (q : Fin 256) :
    k0_pay1 (F := Ideal) x0 x1 x2 (ix2 p q) = Rows.encAt (M := 2000) (K := 768) x0 x1 x2 p q := by
  unfold k0_pay1
  simp only [shapeCast_self]
  exact Cert.KPay.enc_apply dot_S2000x768_S768x256_S2000x256_1_0_0_1_n_n rfl x0 x1 x2 bitsLt_bf16_f32 broadcasts_S1x256_S2000x256 p q

/-- The windows' block indices over the grid: the row windows and the result move with the point along the rows, the
    weights and the bias row stay at block `(0, 0)`. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of window 0's tile at point `t` is row `2000·t + p` of its table. -/
theorem iblk0_0_apply (c : Dev nD) (t : Fin cfg0.N) (p : Fin 2000) (k : Fin 768) (r : Fin 100000) (hr : r.val = t.val * 2000 + p.val) :
    (iblk0 V c 0 t : Vec Ideal S2000x768 .f32) (ix2 p k) = (V c (Pipeline.arrRef spec0 0) : S100000x768.Idx → EReal) (ix2 r k) := by
  obtain ⟨e0, e1, -⟩ := idx0 t
  unfold iblk0
  rw [View.read_apply]
  refine congrArg (V c (Pipeline.arrRef spec0 0)) (funext fun a => Fin.ext ?_)
  match a with
  | ⟨0, _⟩ => show win0_0.index t (0 : Fin 2) * 2000 + 1 * p.val = r.val; rw [e0, hr]; omega
  | ⟨1, _⟩ => show win0_0.index t (1 : Fin 2) * 768 + 1 * k.val = k.val; rw [e1]; omega

/-- Window 1's block at any point is its whole array. -/
theorem iblk0_1_eq (c : Dev nD) (t : Fin cfg0.N) :
    (iblk0 V c 1 t : Vec Ideal S768x256 .f32) = (V c (Pipeline.arrRef spec0 1) : S768x256.Idx → EReal) := by
  obtain ⟨-, -, e0, e1, -⟩ := idx0 t
  unfold iblk0
  funext y
  rw [View.read_apply]
  refine congrArg (V c (Pipeline.arrRef spec0 1)) (funext fun a => Fin.ext ?_)
  match a with
  | ⟨0, _⟩ => show win0_1.index t (0 : Fin 2) * 768 + 1 * (y 0).val = (y 0).val; rw [e0]; omega
  | ⟨1, _⟩ => show win0_1.index t (1 : Fin 2) * 256 + 1 * (y 1).val = (y 1).val; rw [e1]; omega

/-- Window 2's block at any point is its whole array. -/
theorem iblk0_2_eq (c : Dev nD) (t : Fin cfg0.N) :
    (iblk0 V c 2 t : Vec Ideal S1x256 .f32) = (V c (Pipeline.arrRef spec0 2) : S1x256.Idx → EReal) := by
  obtain ⟨-, -, -, -, e0, e1, -⟩ := idx0 t
  unfold iblk0
  funext y
  rw [View.read_apply]
  refine congrArg (V c (Pipeline.arrRef spec0 2)) (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

/-- The table the region leaves: the encoder of the entry contents of windows 0 to 2. -/
abbrev G0 (c : Dev nD) : S100000x256.Idx → EReal :=
  Rows.enc (M := 100000) (K := 768) (V c (Pipeline.arrRef spec0 0)) (V c (Pipeline.arrRef spec0 1)) (V c (Pipeline.arrRef spec0 2))

/-- What point `t` writes back is the block at `t` of that table. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 V c).after 3 t) = _
  rw [after0_3]
  unfold out0_3
  rw [View.canon_unit_zero Cert.KPay.off_zero]
  simp only [View.ld_unit_zero (S := S2000x768) Cert.KPay.off_zero, View.ld_unit_zero (S := S768x256) Cert.KPay.off_zero,
    View.ld_unit_zero (S := S1x256) Cert.KPay.off_zero]
  funext j
  have hj0 : (j 0).val < 2000 := (j 0).isLt
  have hj1 : (j 1).val < 256 := (j 1).isLt
  have hN : cfg0.N = 50 := N_0
  have ht : t.val < cfg0.N := t.isLt
  obtain ⟨-, -, -, -, -, -, e0, e1⟩ := idx0 t
  have hx : (((cfg0.win 3).xinj (grid0.coords t) j : S2000x256.Idx)) = ix2 (⟨(j 0).val, hj0⟩ : Fin 2000) (⟨(j 1).val, hj1⟩ : Fin 256) :=
    funext fun a => by match a with | ⟨0, _⟩ => rfl | ⟨1, _⟩ => rfl
  have hemb : ((((cfg0.win 3).blk t).view.emb j : S100000x256.Idx)) = ix2 (⟨t.val * 2000 + (j 0).val, by omega⟩ : Fin 100000) (⟨(j 1).val, hj1⟩ : Fin 256) :=
    funext fun a => Fin.ext (by
      match a with
      | ⟨0, _⟩ => show win0_3.index t (0 : Fin 2) * 2000 + 1 * (j 0).val = t.val * 2000 + (j 0).val; rw [e0]; omega
      | ⟨1, _⟩ => show win0_3.index t (1 : Fin 2) * 256 + 1 * (j 1).val = (j 1).val; rw [e1]; omega)
  refine (congrArg (k0_pay1 (F := Ideal) (iblk0 V c 0 t) (iblk0 V c 1 t) (iblk0 V c 2 t)) hx).trans ?_
  refine (pay0_apply (iblk0 V c 0 t) (iblk0 V c 1 t) (iblk0 V c 2 t) ⟨(j 0).val, hj0⟩ ⟨(j 1).val, hj1⟩).trans ?_
  refine Eq.trans ?_ (congrArg (G0 V c) hemb).symm
  exact Cert.KPay.encAt_blk (iblk0 V c 0 t) (iblk0 V c 1 t) (iblk0 V c 2 t)
    (V c (Pipeline.arrRef spec0 0)) (V c (Pipeline.arrRef spec0 1)) (V c (Pipeline.arrRef spec0 2))
    ⟨(j 0).val, hj0⟩ ⟨t.val * 2000 + (j 0).val, by omega⟩
    (fun k => iblk0_0_apply V c t ⟨(j 0).val, hj0⟩ k ⟨t.val * 2000 + (j 0).val, by omega⟩ rfl)
    (iblk0_1_eq V c t) (iblk0_2_eq V c t) ⟨(j 1).val, hj1⟩

/-- An index of the table is in point `t`'s block iff each coordinate is in the block's range on its axis. -/
theorem mem_blk0 (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v1).slice (win0_3.rect t)).set ↔ _
  rw [View.set_slice_whole, Rect.mem_set_unit]
  exact Iff.rfl

/-- THE REGION'S VALUE: the result array after the region is the encoder of the entry contents. -/
theorem region0_value (c : Dev nD) :
    (dat0 (F := Ideal) V c).arrAt 3 cfg0.N
      = Rows.enc (M := 100000) (K := 768) (V c (Pipeline.arrRef spec0 0)) (V c (Pipeline.arrRef spec0 1)) (V c (Pipeline.arrRef spec0 2)) :=
  (dat0 V c).arrAt_eq_of_cover 3 (G0 V c) (fun t _ => flushed0_eq V c t) fun i => by
    have hi0 : (i 0).val < 100000 := (i 0).isLt
    have hi1 : (i 1).val < 256 := (i 1).isLt
    have hN : cfg0.N = 50 := N_0
    obtain ⟨t, ht⟩ : ∃ t : Fin cfg0.N, t.val = (i 0).val / 2000 := ⟨⟨(i 0).val / 2000, by rw [hN]; omega⟩, rfl⟩
    obtain ⟨-, -, -, -, -, -, e0, e1⟩ := idx0 t
    refine ⟨t, flush0_3 t, ?_⟩
    rw [mem_blk0]
    intro a
    match a with
    | ⟨0, _⟩ => show win0_3.index t (0 : Fin 2) * 2000 ≤ (i 0).val ∧ (i 0).val < win0_3.index t (0 : Fin 2) * 2000 + 2000; rw [e0, ht]; omega
    | ⟨1, _⟩ => show win0_3.index t (1 : Fin 2) * 256 ≤ (i 1).val ∧ (i 1).val < win0_3.index t (1 : Fin 2) * 256 + 256; rw [e1]; omega

end Cert.KernelIdeal.RegionValue

end
-- ==== Proof.KRegion1.lean ====
/-
  Region 1 of the kernel program, one relation's update of a 20000 × 256 table with the activation, as ONE function of the
  contents the region finds at entry.

  The grid has 5 points; point `t` stages rows `4000·t … 4000·t + 3999` of the two row operands (windows 0 and 1) and the
  whole of the two weight matrices and of the bias row (windows 2, 3, 4), and writes back rows `4000·t …` of the result
  (window 5). Entry `(p, q)` of the tile the body stores is the row formula `Rows.sageAt` of the staged tiles, which
  reads the row operands through row `p` only, that is through row `4000·t + p` of the tables: so the tile is the block
  at `t` of `Rows.sage` of the entry contents. Row `r` of the table lies in the block of point `r / 4000`, so the
  blocks cover the table and the array ends holding `Rows.sage` of the entry contents.
-/
import proofs.«146827_j53558242181513_2_alg».proof.Proof.Gen.KernelIdeal.Frame
import proofs.«146827_j53558242181513_2_alg».proof.Proof.KPay
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The stored tile at entry `(p, q)`: the row formula of the staged tiles. -/
theorem pay1_apply (x0 x1 : Vec Ideal S4000x256 .f32) (x2 x4 : Vec Ideal S256x256 .f32) (x3 : Vec Ideal S1x256 .f32)
    (p : Fin 4000) (q : Fin 256) :
    k1_pay1 (F := Ideal) x0 x1 x2 x4 x3 (ix2 p q) = Rows.sageAt (M := 4000) true x0 x1 x2 x3 x4 p q := by
  unfold k1_pay1
  simp only [shapeCast_self]
  exact Cert.KPay.sage_relu_apply dot_S4000x256_S256x256_S4000x256_1_0_0_1_n_n rfl x0 x1 x2 x3 x4 bitsLt_bf16_f32 broadcasts_S1x256_S4000x256 p q

/-- The windows' block indices over the grid: the row windows and the result move with the point along the rows, the
    weights and the bias row stay at block `(0, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of window 0's tile at point `t` is row `4000·t + p` of its table. -/
theorem iblk1_0_apply (c : Dev nD) (t : Fin cfg1.N) (p : Fin 4000) (k : Fin 256) (r : Fin 20000) (hr : r.val = t.val * 4000 + p.val) :
    (iblk1 V c 0 t : Vec Ideal S4000x256 .f32) (ix2 p k) = (V c (Pipeline.arrRef spec1 0) : S20000x256.Idx → EReal) (ix2 r k) := by
  obtain ⟨e0, e1, -⟩ := idx1 t
  unfold iblk1
  rw [View.read_apply]
  refine congrArg (V c (Pipeline.arrRef spec1 0)) (funext fun a => Fin.ext ?_)
  match a with
  | ⟨0, _⟩ => show win1_0.index t (0 : Fin 2) * 4000 + 1 * p.val = r.val; rw [e0, hr]; omega
  | ⟨1, _⟩ => show win1_0.index t (1 : Fin 2) * 256 + 1 * k.val = k.val; rw [e1]; omega

/-- Row `p` of window 1's tile at point `t` is row `4000·t + p` of its table. -/
theorem iblk1_1_apply (c : Dev nD) (t : Fin cfg1.N) (p : Fin 4000) (k : Fin 256) (r : Fin 20000) (hr : r.val = t.val * 4000 + p.val) :
    (iblk1 V c 1 t : Vec Ideal S4000x256 .f32) (ix2 p k) = (V c (Pipeline.arrRef spec1 1) : S20000x256.Idx → EReal) (ix2 r k) := by
  obtain ⟨-, -, e0, e1, -⟩ := idx1 t
  unfold iblk1
  rw [View.read_apply]
  refine congrArg (V c (Pipeline.arrRef spec1 1)) (funext fun a => Fin.ext ?_)
  match a with
  | ⟨0, _⟩ => show win1_1.index t (0 : Fin 2) * 4000 + 1 * p.val = r.val; rw [e0, hr]; omega
  | ⟨1, _⟩ => show win1_1.index t (1 : Fin 2) * 256 + 1 * k.val = k.val; rw [e1]; omega

/-- Window 2's block at any point is its whole array. -/
theorem iblk1_2_eq (c : Dev nD) (t : Fin cfg1.N) :
    (iblk1 V c 2 t : Vec Ideal S256x256 .f32) = (V c (Pipeline.arrRef spec1 2) : S256x256.Idx → EReal) := by
  obtain ⟨-, -, -, -, e0, e1, -⟩ := idx1 t
  unfold iblk1
  funext y
  rw [View.read_apply]
  refine congrArg (V c (Pipeline.arrRef spec1 2)) (funext fun a => Fin.ext ?_)
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- Window 3's block at any point is its whole array. -/
theorem iblk1_3_eq (c : Dev nD) (t : Fin cfg1.N) :
    (iblk1 V c 3 t : Vec Ideal S1x256 .f32) = (V c (Pipeline.arrRef spec1 3) : S1x256.Idx → EReal) := by
  obtain ⟨-, -, -, -, -, -, e0, e1, -⟩ := idx1 t
  unfold iblk1
  funext y
  rw [View.read_apply]
  refine congrArg (V c (Pipeline.arrRef spec1 3)) (funext fun a => Fin.ext ?_)
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- Window 4's block at any point is its whole array. -/
theorem iblk1_4_eq (c : Dev nD) (t : Fin cfg1.N) :
    (iblk1 V c 4 t : Vec Ideal S256x256 .f32) = (V c (Pipeline.arrRef spec1 4) : S256x256.Idx → EReal) := by
  obtain ⟨-, -, -, -, -, -, -, -, e0, e1, -⟩ := idx1 t
  unfold iblk1
  funext y
  rw [View.read_apply]
  refine congrArg (V c (Pipeline.arrRef spec1 4)) (funext fun a => Fin.ext ?_)
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-- The table the region leaves: the relation's update of the entry contents of windows 0 to 4. -/
abbrev G1 (c : Dev nD) : S20000x256.Idx → EReal :=
  Rows.sage (M := 20000) true (V c (Pipeline.arrRef spec1 0)) (V c (Pipeline.arrRef spec1 1)) (V c (Pipeline.arrRef spec1 2))
    (V c (Pipeline.arrRef spec1 3)) (V c (Pipeline.arrRef spec1 4))

/-- What point `t` writes back is the block at `t` of that table. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5]
  unfold out1_5
  rw [View.canon_unit_zero Cert.KPay.off_zero]
  simp only [View.ld_unit_zero (S := S4000x256) Cert.KPay.off_zero, View.ld_unit_zero (S := S256x256) Cert.KPay.off_zero,
    View.ld_unit_zero (S := S1x256) Cert.KPay.off_zero]
  funext j
  have hj0 : (j 0).val < 4000 := (j 0).isLt
  have hj1 : (j 1).val < 256 := (j 1).isLt
  have hN : cfg1.N = 5 := N_1
  have ht : t.val < cfg1.N := t.isLt
  obtain ⟨-, -, -, -, -, -, -, -, -, -, e0, e1⟩ := idx1 t
  have hx : (((cfg1.win 5).xinj (grid1.coords t) j : S4000x256.Idx)) = ix2 (⟨(j 0).val, hj0⟩ : Fin 4000) (⟨(j 1).val, hj1⟩ : Fin 256) :=
    funext fun a => by match a with | ⟨0, _⟩ => rfl | ⟨1, _⟩ => rfl
  have hemb : ((((cfg1.win 5).blk t).view.emb j : S20000x256.Idx)) = ix2 (⟨t.val * 4000 + (j 0).val, by omega⟩ : Fin 20000) (⟨(j 1).val, hj1⟩ : Fin 256) :=
    funext fun a => Fin.ext (by
      match a with
      | ⟨0, _⟩ => show win1_5.index t (0 : Fin 2) * 4000 + 1 * (j 0).val = t.val * 4000 + (j 0).val; rw [e0]; omega
      | ⟨1, _⟩ => show win1_5.index t (1 : Fin 2) * 256 + 1 * (j 1).val = (j 1).val; rw [e1]; omega)
  refine (congrArg (k1_pay1 (F := Ideal) (iblk1 V c 0 t) (iblk1 V c 1 t) (iblk1 V c 2 t) (iblk1 V c 4 t) (iblk1 V c 3 t)) hx).trans ?_
  refine (pay1_apply (iblk1 V c 0 t) (iblk1 V c 1 t) (iblk1 V c 2 t) (iblk1 V c 4 t) (iblk1 V c 3 t) ⟨(j 0).val, hj0⟩ ⟨(j 1).val, hj1⟩).trans ?_
  refine Eq.trans ?_ (congrArg (G1 V c) hemb).symm
  exact Cert.KPay.sageAt_blk true (iblk1 V c 0 t) (iblk1 V c 1 t) (iblk1 V c 2 t) (iblk1 V c 3 t) (iblk1 V c 4 t)
    (V c (Pipeline.arrRef spec1 0)) (V c (Pipeline.arrRef spec1 1)) (V c (Pipeline.arrRef spec1 2))
    (V c (Pipeline.arrRef spec1 3)) (V c (Pipeline.arrRef spec1 4)) ⟨(j 0).val, hj0⟩ ⟨t.val * 4000 + (j 0).val, by omega⟩
    (fun k => iblk1_0_apply V c t ⟨(j 0).val, hj0⟩ k ⟨t.val * 4000 + (j 0).val, by omega⟩ rfl)
    (fun k => iblk1_1_apply V c t ⟨(j 0).val, hj0⟩ k ⟨t.val * 4000 + (j 0).val, by omega⟩ rfl)
    (iblk1_2_eq V c t) (iblk1_3_eq V c t) (iblk1_4_eq V c t) ⟨(j 1).val, hj1⟩

/-- An index of the table is in point `t`'s block iff each coordinate is in the block's range on its axis. -/
theorem mem_blk1 (t : Fin cfg1.N) (i : S20000x256.Idx) :
    i ∈ ((cfg1.win 5).blk t).view.set ↔ ∀ a : Fin 2, win1_5.index t a * S4000x256.size a ≤ (i a).val ∧ (i a).val < win1_5.index t a * S4000x256.size a + S4000x256.size a := by
  show i ∈ ((View.whole main_v59).slice (win1_5.rect t)).set ↔ _
  rw [View.set_slice_whole, Rect.mem_set_unit]
  exact Iff.rfl

/-- THE REGION'S VALUE: the result array after the region is the relation's update of the entry contents. -/
theorem region1_value (c : Dev nD) :
    (dat1 (F := Ideal) V c).arrAt 5 cfg1.N
      = Rows.sage (M := 20000) true (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 (G1 V c) (fun t _ => flushed1_eq V c t) fun i => by
    have hi0 : (i 0).val < 20000 := (i 0).isLt
    have hi1 : (i 1).val < 256 := (i 1).isLt
    have hN : cfg1.N = 5 := N_1
    obtain ⟨t, ht⟩ : ∃ t : Fin cfg1.N, t.val = (i 0).val / 4000 := ⟨⟨(i 0).val / 4000, by rw [hN]; omega⟩, rfl⟩
    obtain ⟨-, -, -, -, -, -, -, -, -, -, e0, e1⟩ := idx1 t
    refine ⟨t, flush1_5 t, ?_⟩
    rw [mem_blk1]
    intro a
    match a with
    | ⟨0, _⟩ => show win1_5.index t (0 : Fin 2) * 4000 ≤ (i 0).val ∧ (i 0).val < win1_5.index t (0 : Fin 2) * 4000 + 4000; rw [e0, ht]; omega
    | ⟨1, _⟩ => show win1_5.index t (1 : Fin 2) * 256 ≤ (i 1).val ∧ (i 1).val < win1_5.index t (1 : Fin 2) * 256 + 256; rw [e1]; omega

end Cert.KernelIdeal.RegionValue

end
-- ==== Proof.KRegion2.lean ====
/-
  Region 2 of the kernel program, the news update of the 100000 × 256 table with the two root weights and the two
  biases already added, with the activation, as ONE function of the contents the region finds at entry.

  The grid has 50 points; point `t` stages rows `2000·t … 2000·t + 1999` of the three row operands (windows 0, 1, 2) and
  the whole of the three weight matrices and of the bias row (windows 3, 4, 5, 6), and writes back rows `2000·t …` of
  the result (window 7). Entry `(p, q)` of the tile the body stores is the row formula `Rows.fusedAt` of the staged
  tiles, which reads the row operands through row `p` only, that is through row `2000·t + p` of the tables: so the
  tile is the block at `t` of `Rows.fused` of the entry contents. Row `r` of the table lies in the block of point
  `r / 2000`, so the blocks cover the table and the array ends holding `Rows.fused` of the entry contents.
-/
import proofs.«146827_j53558242181513_2_alg».proof.Proof.Gen.KernelIdeal.Frame
import proofs.«146827_j53558242181513_2_alg».proof.Proof.KPay
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The stored tile at entry `(p, q)`: the row formula of the staged tiles. -/
theorem pay2_apply (x0 x1 x2 : Vec Ideal S2000x256 .f32) (x3 x4 x5 : Vec Ideal S256x256 .f32) (x6 : Vec Ideal S1x256 .f32)
    (p : Fin 2000) (q : Fin 256) :
    k2_pay1 (F := Ideal) x0 x1 x2 x3 x4 x5 x6 (ix2 p q) = Rows.fusedAt (M := 2000) true x0 x1 x2 x3 x4 x5 x6 p q := by
  unfold k2_pay1
  simp only [shapeCast_self]
  exact Cert.KPay.fused_relu_apply dot_S2000x256_S256x256_S2000x256_1_0_0_1_n_n rfl x0 x1 x2 x3 x4 x5 x6 bitsLt_bf16_f32 broadcasts_S1x256_S2000x256 p q

/-- The windows' block indices over the grid: the row windows and the result move with the point along the rows, the
    weights and the bias row stay at block `(0, 0)`. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of window 0's tile at point `t` is row `2000·t + p` of its table. -/
theorem iblk2_0_apply (c : Dev nD) (t : Fin cfg2.N) (p : Fin 2000) (k : Fin 256) (r : Fin 100000) (hr : r.val = t.val * 2000 + p.val) :
    (iblk2 V c 0 t : Vec Ideal S2000x256 .f32) (ix2 p k) = (V c (Pipeline.arrRef spec2 0) : S100000x256.Idx → EReal) (ix2 r k) := by
  obtain ⟨e0, e1, -⟩ := idx2 t
  unfold iblk2
  rw [View.read_apply]
  refine congrArg (V c (Pipeline.arrRef spec2 0)) (funext fun a => Fin.ext ?_)
  match a with
  | ⟨0, _⟩ => show win2_0.index t (0 : Fin 2) * 2000 + 1 * p.val = r.val; rw [e0, hr]; omega
  | ⟨1, _⟩ => show win2_0.index t (1 : Fin 2) * 256 + 1 * k.val = k.val; rw [e1]; omega

/-- Row `p` of window 1's tile at point `t` is row `2000·t + p` of its table. -/
theorem iblk2_1_apply (c : Dev nD) (t : Fin cfg2.N) (p : Fin 2000) (k : Fin 256) (r : Fin 100000) (hr : r.val = t.val * 2000 + p.val) :
    (iblk2 V c 1 t : Vec Ideal S2000x256 .f32) (ix2 p k) = (V c (Pipeline.arrRef spec2 1) : S100000x256.Idx → EReal) (ix2 r k) := by
  obtain ⟨-, -, e0, e1, -⟩ := idx2 t
  unfold iblk2
  rw [View.read_apply]
  refine congrArg (V c (Pipeline.arrRef spec2 1)) (funext fun a => Fin.ext ?_)
  match a with
  | ⟨0, _⟩ => show win2_1.index t (0 : Fin 2) * 2000 + 1 * p.val = r.val; rw [e0, hr]; omega
  | ⟨1, _⟩ => show win2_1.index t (1 : Fin 2) * 256 + 1 * k.val = k.val; rw [e1]; omega

/-- Row `p` of window 2's tile at point `t` is row `2000·t + p` of its table. -/
theorem iblk2_2_apply (c : Dev nD) (t : Fin cfg2.N) (p : Fin 2000) (k : Fin 256) (r : Fin 100000) (hr : r.val = t.val * 2000 + p.val) :
    (iblk2 V c 2 t : Vec Ideal S2000x256 .f32) (ix2 p k) = (V c (Pipeline.arrRef spec2 2) : S100000x256.Idx → EReal) (ix2 r k) := by
  obtain ⟨-, -, -, -, e0, e1, -⟩ := idx2 t
  unfold iblk2
  rw [View.read_apply]
  refine congrArg (V c (Pipeline.arrRef spec2 2)) (funext fun a => Fin.ext ?_)
  match a with
  | ⟨0, _⟩ => show win2_2.index t (0 : Fin 2) * 2000 + 1 * p.val = r.val; rw [e0, hr]; omega
  | ⟨1, _⟩ => show win2_2.index t (1 : Fin 2) * 256 + 1 * k.val = k.val; rw [e1]; omega

/-- Window 3's block at any point is its whole array. -/
theorem iblk2_3_eq (c : Dev nD) (t : Fin cfg2.N) :
    (iblk2 V c 3 t : Vec Ideal S256x256 .f32) = (V c (Pipeline.arrRef spec2 3) : S256x256.Idx → EReal) := by
  obtain ⟨-, -, -, -, -, -, e0, e1, -⟩ := idx2 t
  unfold iblk2
  funext y
  rw [View.read_apply]
  refine congrArg (V c (Pipeline.arrRef spec2 3)) (funext fun a => Fin.ext ?_)
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- Window 4's block at any point is its whole array. -/
theorem iblk2_4_eq (c : Dev nD) (t : Fin cfg2.N) :
    (iblk2 V c 4 t : Vec Ideal S256x256 .f32) = (V c (Pipeline.arrRef spec2 4) : S256x256.Idx → EReal) := by
  obtain ⟨-, -, -, -, -, -, -, -, e0, e1, -⟩ := idx2 t
  unfold iblk2
  funext y
  rw [View.read_apply]
  refine congrArg (V c (Pipeline.arrRef spec2 4)) (funext fun a => Fin.ext ?_)
  match a with
  | ⟨0, _⟩ => show win2_4.index t (0 : Fin 2) * 256 + 1 * (y 0).val = (y 0).val; rw [e0]; omega
  | ⟨1, _⟩ => show win2_4.index t (1 : Fin 2) * 256 + 1 * (y 1).val = (y 1).val; rw [e1]; omega

/-- Window 5's block at any point is its whole array. -/
theorem iblk2_5_eq (c : Dev nD) (t : Fin cfg2.N) :
    (iblk2 V c 5 t : Vec Ideal S256x256 .f32) = (V c (Pipeline.arrRef spec2 5) : S256x256.Idx → EReal) := by
  obtain ⟨-, -, -, -, -, -, -, -, -, -, e0, e1, -⟩ := idx2 t
  unfold iblk2
  funext y
  rw [View.read_apply]
  refine congrArg (V c (Pipeline.arrRef spec2 5)) (funext fun a => Fin.ext ?_)
  match a with
  | ⟨0, _⟩ => show win2_5.index t (0 : Fin 2) * 256 + 1 * (y 0).val = (y 0).val; rw [e0]; omega
  | ⟨1, _⟩ => show win2_5.index t (1 : Fin 2) * 256 + 1 * (y 1).val = (y 1).val; rw [e1]; omega

/-- Window 6's block at any point is its whole array. -/
theorem iblk2_6_eq (c : Dev nD) (t : Fin cfg2.N) :
    (iblk2 V c 6 t : Vec Ideal S1x256 .f32) = (V c (Pipeline.arrRef spec2 6) : S1x256.Idx → EReal) := by
  obtain ⟨-, -, -, -, -, -, -, -, -, -, -, -, e0, e1, -⟩ := idx2 t
  unfold iblk2
  funext y
  rw [View.read_apply]
  refine congrArg (V c (Pipeline.arrRef spec2 6)) (funext fun a => Fin.ext ?_)
  match a with
  | ⟨0, _⟩ => show win2_6.index t (0 : Fin 2) * 1 + 1 * (y 0).val = (y 0).val; rw [e0]; omega
  | ⟨1, _⟩ => show win2_6.index t (1 : Fin 2) * 256 + 1 * (y 1).val = (y 1).val; rw [e1]; omega

/-- The table the region leaves: the news update of the entry contents of windows 0 to 6. -/
abbrev G2 (c : Dev nD) : S100000x256.Idx → EReal :=
  Rows.fused (M := 100000) true (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6))

/-- What point `t` writes back is the block at `t` of that table. -/
theorem flushed2_eq (c : Dev nD) (t : Fin cfg2.N) :
    (dat2 (F := Ideal) V c).flushed 7 t = ((cfg2.win 7).blk t).view.read (Elt Ideal) (G2 V c) := by
  show (cfg2.win 7).cut (grid2.coords t) ((dat2 V c).after 7 t) = _
  rw [after2_7]
  unfold out2_7
  rw [View.canon_unit_zero Cert.KPay.off_zero]
  simp only [View.ld_unit_zero (S := S2000x256) Cert.KPay.off_zero, View.ld_unit_zero (S := S256x256) Cert.KPay.off_zero,
    View.ld_unit_zero (S := S1x256) Cert.KPay.off_zero]
  funext j
  have hj0 : (j 0).val < 2000 := (j 0).isLt
  have hj1 : (j 1).val < 256 := (j 1).isLt
  have hN : cfg2.N = 50 := N_2
  have ht : t.val < cfg2.N := t.isLt
  obtain ⟨-, -, -, -, -, -, -, -, -, -, -, -, -, -, e0, e1⟩ := idx2 t
  have hx : (((cfg2.win 7).xinj (grid2.coords t) j : S2000x256.Idx)) = ix2 (⟨(j 0).val, hj0⟩ : Fin 2000) (⟨(j 1).val, hj1⟩ : Fin 256) :=
    funext fun a => by match a with | ⟨0, _⟩ => rfl | ⟨1, _⟩ => rfl
  have hemb : ((((cfg2.win 7).blk t).view.emb j : S100000x256.Idx)) = ix2 (⟨t.val * 2000 + (j 0).val, by omega⟩ : Fin 100000) (⟨(j 1).val, hj1⟩ : Fin 256) :=
    funext fun a => Fin.ext (by
      match a with
      | ⟨0, _⟩ => show win2_7.index t (0 : Fin 2) * 2000 + 1 * (j 0).val = t.val * 2000 + (j 0).val; rw [e0]; omega
      | ⟨1, _⟩ => show win2_7.index t (1 : Fin 2) * 256 + 1 * (j 1).val = (j 1).val; rw [e1]; omega)
  refine (congrArg (k2_pay1 (F := Ideal) (iblk2 V c 0 t) (iblk2 V c 1 t) (iblk2 V c 2 t) (iblk2 V c 3 t) (iblk2 V c 4 t) (iblk2 V c 5 t) (iblk2 V c 6 t)) hx).trans ?_
  refine (pay2_apply (iblk2 V c 0 t) (iblk2 V c 1 t) (iblk2 V c 2 t) (iblk2 V c 3 t) (iblk2 V c 4 t) (iblk2 V c 5 t) (iblk2 V c 6 t) ⟨(j 0).val, hj0⟩ ⟨(j 1).val, hj1⟩).trans ?_
  refine Eq.trans ?_ (congrArg (G2 V c) hemb).symm
  exact Cert.KPay.fusedAt_blk true (iblk2 V c 0 t) (iblk2 V c 1 t) (iblk2 V c 2 t) (iblk2 V c 3 t) (iblk2 V c 4 t) (iblk2 V c 5 t) (iblk2 V c 6 t)
    (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))
    ⟨(j 0).val, hj0⟩ ⟨t.val * 2000 + (j 0).val, by omega⟩
    (fun k => iblk2_0_apply V c t ⟨(j 0).val, hj0⟩ k ⟨t.val * 2000 + (j 0).val, by omega⟩ rfl)
    (fun k => iblk2_1_apply V c t ⟨(j 0).val, hj0⟩ k ⟨t.val * 2000 + (j 0).val, by omega⟩ rfl)
    (fun k => iblk2_2_apply V c t ⟨(j 0).val, hj0⟩ k ⟨t.val * 2000 + (j 0).val, by omega⟩ rfl)
    (iblk2_3_eq V c t) (iblk2_4_eq V c t) (iblk2_5_eq V c t) (iblk2_6_eq V c t) ⟨(j 1).val, hj1⟩

/-- An index of the table is in point `t`'s block iff each coordinate is in the block's range on its axis. -/
theorem mem_blk2 (t : Fin cfg2.N) (i : S100000x256.Idx) :
    i ∈ ((cfg2.win 7).blk t).view.set ↔ ∀ a : Fin 2, win2_7.index t a * S2000x256.size a ≤ (i a).val ∧ (i a).val < win2_7.index t a * S2000x256.size a + S2000x256.size a := by
  show i ∈ ((View.whole main_v103).slice (win2_7.rect t)).set ↔ _
  rw [View.set_slice_whole, Rect.mem_set_unit]
  exact Iff.rfl

/-- THE REGION'S VALUE: the result array after the region is the news update of the entry contents. -/
theorem region2_value (c : Dev nD) :
    (dat2 (F := Ideal) V c).arrAt 7 cfg2.N
      = Rows.fused (M := 100000) true (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6)) :=
  (dat2 V c).arrAt_eq_of_cover 7 (G2 V c) (fun t _ => flushed2_eq V c t) fun i => by
    have hi0 : (i 0).val < 100000 := (i 0).isLt
    have hi1 : (i 1).val < 256 := (i 1).isLt
    have hN : cfg2.N = 50 := N_2
    obtain ⟨t, ht⟩ : ∃ t : Fin cfg2.N, t.val = (i 0).val / 2000 := ⟨⟨(i 0).val / 2000, by rw [hN]; omega⟩, rfl⟩
    obtain ⟨-, -, -, -, -, -, -, -, -, -, -, -, -, -, e0, e1⟩ := idx2 t
    refine ⟨t, flush2_7 t, ?_⟩
    rw [mem_blk2]
    intro a
    match a with
    | ⟨0, _⟩ => show win2_7.index t (0 : Fin 2) * 2000 ≤ (i 0).val ∧ (i 0).val < win2_7.index t (0 : Fin 2) * 2000 + 2000; rw [e0, ht]; omega
    | ⟨1, _⟩ => show win2_7.index t (1 : Fin 2) * 256 ≤ (i 1).val ∧ (i 1).val < win2_7.index t (1 : Fin 2) * 256 + 256; rw [e1]; omega

end Cert.KernelIdeal.RegionValue

end
-- ==== Proof.KRegion3.lean ====
/-
  Region 3 of the kernel program, one relation's update of a 3000 × 256 table with the activation, as ONE function of the
  contents the region finds at entry.

  The grid has 1 point; point `t` stages rows `3000·t … 3000·t + 2999` of the two row operands (windows 0 and 1) and the
  whole of the two weight matrices and of the bias row (windows 2, 3, 4), and writes back rows `3000·t …` of the result
  (window 5). Entry `(p, q)` of the tile the body stores is the row formula `Rows.sageAt` of the staged tiles, which
  reads the row operands through row `p` only, that is through row `3000·t + p` of the tables: so the tile is the block
  at `t` of `Rows.sage` of the entry contents. Row `r` of the table lies in the block of point `r / 3000`, so the
  blocks cover the table and the array ends holding `Rows.sage` of the entry contents.
-/
import proofs.«146827_j53558242181513_2_alg».proof.Proof.Gen.KernelIdeal.Frame
import proofs.«146827_j53558242181513_2_alg».proof.Proof.KPay
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The stored tile at entry `(p, q)`: the row formula of the staged tiles. -/
theorem pay3_apply (x0 x1 : Vec Ideal S3000x256 .f32) (x2 x4 : Vec Ideal S256x256 .f32) (x3 : Vec Ideal S1x256 .f32)
    (p : Fin 3000) (q : Fin 256) :
    k3_pay1 (F := Ideal) x0 x1 x2 x4 x3 (ix2 p q) = Rows.sageAt (M := 3000) true x0 x1 x2 x3 x4 p q := by
  unfold k3_pay1
  simp only [shapeCast_self]
  exact Cert.KPay.sage_relu_apply dot_S3000x256_S256x256_S3000x256_1_0_0_1_n_n rfl x0 x1 x2 x3 x4 bitsLt_bf16_f32 broadcasts_S1x256_S3000x256 p q

/-- The windows' block indices over the grid: the row windows and the result move with the point along the rows, the
    weights and the bias row stay at block `(0, 0)`. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of window 0's tile at point `t` is row `3000·t + p` of its table. -/
theorem iblk3_0_apply (c : Dev nD) (t : Fin cfg3.N) (p : Fin 3000) (k : Fin 256) (r : Fin 3000) (hr : r.val = t.val * 3000 + p.val) :
    (iblk3 V c 0 t : Vec Ideal S3000x256 .f32) (ix2 p k) = (V c (Pipeline.arrRef spec3 0) : S3000x256.Idx → EReal) (ix2 r k) := by
  obtain ⟨e0, e1, -⟩ := idx3 t
  unfold iblk3
  rw [View.read_apply]
  refine congrArg (V c (Pipeline.arrRef spec3 0)) (funext fun a => Fin.ext ?_)
  match a with
  | ⟨0, _⟩ => show win3_0.index t (0 : Fin 2) * 3000 + 1 * p.val = r.val; rw [e0, hr]; omega
  | ⟨1, _⟩ => show win3_0.index t (1 : Fin 2) * 256 + 1 * k.val = k.val; rw [e1]; omega

/-- Row `p` of window 1's tile at point `t` is row `3000·t + p` of its table. -/
theorem iblk3_1_apply (c : Dev nD) (t : Fin cfg3.N) (p : Fin 3000) (k : Fin 256) (r : Fin 3000) (hr : r.val = t.val * 3000 + p.val) :
    (iblk3 V c 1 t : Vec Ideal S3000x256 .f32) (ix2 p k) = (V c (Pipeline.arrRef spec3 1) : S3000x256.Idx → EReal) (ix2 r k) := by
  obtain ⟨-, -, e0, e1, -⟩ := idx3 t
  unfold iblk3
  rw [View.read_apply]
  refine congrArg (V c (Pipeline.arrRef spec3 1)) (funext fun a => Fin.ext ?_)
  match a with
  | ⟨0, _⟩ => show win3_1.index t (0 : Fin 2) * 3000 + 1 * p.val = r.val; rw [e0, hr]; omega
  | ⟨1, _⟩ => show win3_1.index t (1 : Fin 2) * 256 + 1 * k.val = k.val; rw [e1]; omega

/-- Window 2's block at any point is its whole array. -/
theorem iblk3_2_eq (c : Dev nD) (t : Fin cfg3.N) :
    (iblk3 V c 2 t : Vec Ideal S256x256 .f32) = (V c (Pipeline.arrRef spec3 2) : S256x256.Idx → EReal) := by
  obtain ⟨-, -, -, -, e0, e1, -⟩ := idx3 t
  unfold iblk3
  funext y
  rw [View.read_apply]
  refine congrArg (V c (Pipeline.arrRef spec3 2)) (funext fun a => Fin.ext ?_)
  match a with
  | ⟨0, _⟩ => show win3_2.index t (0 : Fin 2) * 256 + 1 * (y 0).val = (y 0).val; rw [e0]; omega
  | ⟨1, _⟩ => show win3_2.index t (1 : Fin 2) * 256 + 1 * (y 1).val = (y 1).val; rw [e1]; omega

/-- Window 3's block at any point is its whole array. -/
theorem iblk3_3_eq (c : Dev nD) (t : Fin cfg3.N) :
    (iblk3 V c 3 t : Vec Ideal S1x256 .f32) = (V c (Pipeline.arrRef spec3 3) : S1x256.Idx → EReal) := by
  obtain ⟨-, -, -, -, -, -, e0, e1, -⟩ := idx3 t
  unfold iblk3
  funext y
  rw [View.read_apply]
  refine congrArg (V c (Pipeline.arrRef spec3 3)) (funext fun a => Fin.ext ?_)
  match a with
  | ⟨0, _⟩ => show win3_3.index t (0 : Fin 2) * 1 + 1 * (y 0).val = (y 0).val; rw [e0]; omega
  | ⟨1, _⟩ => show win3_3.index t (1 : Fin 2) * 256 + 1 * (y 1).val = (y 1).val; rw [e1]; omega

/-- Window 4's block at any point is its whole array. -/
theorem iblk3_4_eq (c : Dev nD) (t : Fin cfg3.N) :
    (iblk3 V c 4 t : Vec Ideal S256x256 .f32) = (V c (Pipeline.arrRef spec3 4) : S256x256.Idx → EReal) := by
  obtain ⟨-, -, -, -, -, -, -, -, e0, e1, -⟩ := idx3 t
  unfold iblk3
  funext y
  rw [View.read_apply]
  refine congrArg (V c (Pipeline.arrRef spec3 4)) (funext fun a => Fin.ext ?_)
  match a with
  | ⟨0, _⟩ => show win3_4.index t (0 : Fin 2) * 256 + 1 * (y 0).val = (y 0).val; rw [e0]; omega
  | ⟨1, _⟩ => show win3_4.index t (1 : Fin 2) * 256 + 1 * (y 1).val = (y 1).val; rw [e1]; omega

/-- The table the region leaves: the relation's update of the entry contents of windows 0 to 4. -/
abbrev G3 (c : Dev nD) : S3000x256.Idx → EReal :=
  Rows.sage (M := 3000) true (V c (Pipeline.arrRef spec3 0)) (V c (Pipeline.arrRef spec3 1)) (V c (Pipeline.arrRef spec3 2))
    (V c (Pipeline.arrRef spec3 3)) (V c (Pipeline.arrRef spec3 4))

/-- What point `t` writes back is the block at `t` of that table. -/
theorem flushed3_eq (c : Dev nD) (t : Fin cfg3.N) :
    (dat3 (F := Ideal) V c).flushed 5 t = ((cfg3.win 5).blk t).view.read (Elt Ideal) (G3 V c) := by
  show (cfg3.win 5).cut (grid3.coords t) ((dat3 V c).after 5 t) = _
  rw [after3_5]
  unfold out3_5
  rw [View.canon_unit_zero Cert.KPay.off_zero]
  simp only [View.ld_unit_zero (S := S3000x256) Cert.KPay.off_zero, View.ld_unit_zero (S := S256x256) Cert.KPay.off_zero,
    View.ld_unit_zero (S := S1x256) Cert.KPay.off_zero]
  funext j
  have hj0 : (j 0).val < 3000 := (j 0).isLt
  have hj1 : (j 1).val < 256 := (j 1).isLt
  have hN : cfg3.N = 1 := N_3
  have ht : t.val < cfg3.N := t.isLt
  obtain ⟨-, -, -, -, -, -, -, -, -, -, e0, e1⟩ := idx3 t
  have hx : (((cfg3.win 5).xinj (grid3.coords t) j : S3000x256.Idx)) = ix2 (⟨(j 0).val, hj0⟩ : Fin 3000) (⟨(j 1).val, hj1⟩ : Fin 256) :=
    funext fun a => by match a with | ⟨0, _⟩ => rfl | ⟨1, _⟩ => rfl
  have hemb : ((((cfg3.win 5).blk t).view.emb j : S3000x256.Idx)) = ix2 (⟨t.val * 3000 + (j 0).val, by omega⟩ : Fin 3000) (⟨(j 1).val, hj1⟩ : Fin 256) :=
    funext fun a => Fin.ext (by
      match a with
      | ⟨0, _⟩ => show win3_5.index t (0 : Fin 2) * 3000 + 1 * (j 0).val = t.val * 3000 + (j 0).val; rw [e0]; omega
      | ⟨1, _⟩ => show win3_5.index t (1 : Fin 2) * 256 + 1 * (j 1).val = (j 1).val; rw [e1]; omega)
  refine (congrArg (k3_pay1 (F := Ideal) (iblk3 V c 0 t) (iblk3 V c 1 t) (iblk3 V c 2 t) (iblk3 V c 4 t) (iblk3 V c 3 t)) hx).trans ?_
  refine (pay3_apply (iblk3 V c 0 t) (iblk3 V c 1 t) (iblk3 V c 2 t) (iblk3 V c 4 t) (iblk3 V c 3 t) ⟨(j 0).val, hj0⟩ ⟨(j 1).val, hj1⟩).trans ?_
  refine Eq.trans ?_ (congrArg (G3 V c) hemb).symm
  exact Cert.KPay.sageAt_blk true (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2))
    (V c (Pipeline.arrRef spec3 3)) (V c (Pipeline.arrRef spec3 4)) ⟨(j 0).val, hj0⟩ ⟨t.val * 3000 + (j 0).val, by omega⟩
    (fun k => iblk3_0_apply V c t ⟨(j 0).val, hj0⟩ k ⟨t.val * 3000 + (j 0).val, by omega⟩ rfl)
    (fun k => iblk3_1_apply V c t ⟨(j 0).val, hj0⟩ k ⟨t.val * 3000 + (j 0).val, by omega⟩ rfl)
    (iblk3_2_eq V c t) (iblk3_3_eq V c t) (iblk3_4_eq V c t) ⟨(j 1).val, hj1⟩

/-- An index of the table is in point `t`'s block iff each coordinate is in the block's range on its axis. -/
theorem mem_blk3 (t : Fin cfg3.N) (i : S3000x256.Idx) :
    i ∈ ((cfg3.win 5).blk t).view.set ↔ ∀ a : Fin 2, win3_5.index t a * S3000x256.size a ≤ (i a).val ∧ (i a).val < win3_5.index t a * S3000x256.size a + S3000x256.size a := by
  show i ∈ ((View.whole main_v125).slice (win3_5.rect t)).set ↔ _
  rw [View.set_slice_whole, Rect.mem_set_unit]
  exact Iff.rfl

/-- THE REGION'S VALUE: the result array after the region is the relation's update of the entry contents. -/
theorem region3_value (c : Dev nD) :
    (dat3 (F := Ideal) V c).arrAt 5 cfg3.N
      = Rows.sage (M := 3000) true (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 (G3 V c) (fun t _ => flushed3_eq V c t) fun i => by
    have hi0 : (i 0).val < 3000 := (i 0).isLt
    have hi1 : (i 1).val < 256 := (i 1).isLt
    have hN : cfg3.N = 1 := N_3
    obtain ⟨t, ht⟩ : ∃ t : Fin cfg3.N, t.val = (i 0).val / 3000 := ⟨⟨(i 0).val / 3000, by rw [hN]; omega⟩, rfl⟩
    obtain ⟨-, -, -, -, -, -, -, -, -, -, e0, e1⟩ := idx3 t
    refine ⟨t, flush3_5 t, ?_⟩
    rw [mem_blk3]
    intro a
    match a with
    | ⟨0, _⟩ => show win3_5.index t (0 : Fin 2) * 3000 ≤ (i 0).val ∧ (i 0).val < win3_5.index t (0 : Fin 2) * 3000 + 3000; rw [e0, ht]; omega
    | ⟨1, _⟩ => show win3_5.index t (1 : Fin 2) * 256 ≤ (i 1).val ∧ (i 1).val < win3_5.index t (1 : Fin 2) * 256 + 256; rw [e1]; omega

end Cert.KernelIdeal.RegionValue

end
-- ==== Proof.KRegion4.lean ====
/-
  Region 4 of the kernel program, one relation's update of a 20000 × 256 table, as ONE function of the
  contents the region finds at entry.

  The grid has 5 points; point `t` stages rows `4000·t … 4000·t + 3999` of the two row operands (windows 0 and 1) and the
  whole of the two weight matrices and of the bias row (windows 2, 3, 4), and writes back rows `4000·t …` of the result
  (window 5). Entry `(p, q)` of the tile the body stores is the row formula `Rows.sageAt` of the staged tiles, which
  reads the row operands through row `p` only, that is through row `4000·t + p` of the tables: so the tile is the block
  at `t` of `Rows.sage` of the entry contents. Row `r` of the table lies in the block of point `r / 4000`, so the
  blocks cover the table and the array ends holding `Rows.sage` of the entry contents.
-/
import proofs.«146827_j53558242181513_2_alg».proof.Proof.Gen.KernelIdeal.Frame
import proofs.«146827_j53558242181513_2_alg».proof.Proof.KPay
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The stored tile at entry `(p, q)`: the row formula of the staged tiles. -/
theorem pay4_apply (x0 x1 : Vec Ideal S4000x256 .f32) (x2 x4 : Vec Ideal S256x256 .f32) (x3 : Vec Ideal S1x256 .f32)
    (p : Fin 4000) (q : Fin 256) :
    k4_pay1 (F := Ideal) x0 x1 x2 x4 x3 (ix2 p q) = Rows.sageAt (M := 4000) false x0 x1 x2 x3 x4 p q := by
  unfold k4_pay1
  simp only [shapeCast_self]
  exact Cert.KPay.sage_lin_apply dot_S4000x256_S256x256_S4000x256_1_0_0_1_n_n rfl x0 x1 x2 x3 x4 bitsLt_bf16_f32 broadcasts_S1x256_S4000x256 p q

/-- The windows' block indices over the grid: the row windows and the result move with the point along the rows, the
    weights and the bias row stay at block `(0, 0)`. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row `p` of window 0's tile at point `t` is row `4000·t + p` of its table. -/
theorem iblk4_0_apply (c : Dev nD) (t : Fin cfg4.N) (p : Fin 4000) (k : Fin 256) (r : Fin 20000) (hr : r.val = t.val * 4000 + p.val) :
    (iblk4 V c 0 t : Vec Ideal S4000x256 .f32) (ix2 p k) = (V c (Pipeline.arrRef spec4 0) : S20000x256.Idx → EReal) (ix2 r k) := by
  obtain ⟨e0, e1, -⟩ := idx4 t
  unfold iblk4
  rw [View.read_apply]
  refine congrArg (V c (Pipeline.arrRef spec4 0)) (funext fun a => Fin.ext ?_)
  match a with
  | ⟨0, _⟩ => show win4_0.index t (0 : Fin 2) * 4000 + 1 * p.val = r.val; rw [e0, hr]; omega
  | ⟨1, _⟩ => show win4_0.index t (1 : Fin 2) * 256 + 1 * k.val = k.val; rw [e1]; omega

/-- Row `p` of window 1's tile at point `t` is row `4000·t + p` of its table. -/
theorem iblk4_1_apply (c : Dev nD) (t : Fin cfg4.N) (p : Fin 4000) (k : Fin 256) (r : Fin 20000) (hr : r.val = t.val * 4000 + p.val) :
    (iblk4 V c 1 t : Vec Ideal S4000x256 .f32) (ix2 p k) = (V c (Pipeline.arrRef spec4 1) : S20000x256.Idx → EReal) (ix2 r k) := by
  obtain ⟨-, -, e0, e1, -⟩ := idx4 t
  unfold iblk4
  rw [View.read_apply]
  refine congrArg (V c (Pipeline.arrRef spec4 1)) (funext fun a => Fin.ext ?_)
  match a with
  | ⟨0, _⟩ => show win4_1.index t (0 : Fin 2) * 4000 + 1 * p.val = r.val; rw [e0, hr]; omega
  | ⟨1, _⟩ => show win4_1.index t (1 : Fin 2) * 256 + 1 * k.val = k.val; rw [e1]; omega

/-- Window 2's block at any point is its whole array. -/
theorem iblk4_2_eq (c : Dev nD) (t : Fin cfg4.N) :
    (iblk4 V c 2 t : Vec Ideal S256x256 .f32) = (V c (Pipeline.arrRef spec4 2) : S256x256.Idx → EReal) := by
  obtain ⟨-, -, -, -, e0, e1, -⟩ := idx4 t
  unfold iblk4
  funext y
  rw [View.read_apply]
  refine congrArg (V c (Pipeline.arrRef spec4 2)) (funext fun a => Fin.ext ?_)
  match a with
  | ⟨0, _⟩ => show win4_2.index t (0 : Fin 2) * 256 + 1 * (y 0).val = (y 0).val; rw [e0]; omega
  | ⟨1, _⟩ => show win4_2.index t (1 : Fin 2) * 256 + 1 * (y 1).val = (y 1).val; rw [e1]; omega

/-- Window 3's block at any point is its whole array. -/
theorem iblk4_3_eq (c : Dev nD) (t : Fin cfg4.N) :
    (iblk4 V c 3 t : Vec Ideal S1x256 .f32) = (V c (Pipeline.arrRef spec4 3) : S1x256.Idx → EReal) := by
  obtain ⟨-, -, -, -, -, -, e0, e1, -⟩ := idx4 t
  unfold iblk4
  funext y
  rw [View.read_apply]
  refine congrArg (V c (Pipeline.arrRef spec4 3)) (funext fun a => Fin.ext ?_)
  match a with
  | ⟨0, _⟩ => show win4_3.index t (0 : Fin 2) * 1 + 1 * (y 0).val = (y 0).val; rw [e0]; omega
  | ⟨1, _⟩ => show win4_3.index t (1 : Fin 2) * 256 + 1 * (y 1).val = (y 1).val; rw [e1]; omega

/-- Window 4's block at any point is its whole array. -/
theorem iblk4_4_eq (c : Dev nD) (t : Fin cfg4.N) :
    (iblk4 V c 4 t : Vec Ideal S256x256 .f32) = (V c (Pipeline.arrRef spec4 4) : S256x256.Idx → EReal) := by
  obtain ⟨-, -, -, -, -, -, -, -, e0, e1, -⟩ := idx4 t
  unfold iblk4
  funext y
  rw [View.read_apply]
  refine congrArg (V c (Pipeline.arrRef spec4 4)) (funext fun a => Fin.ext ?_)
  match a with
  | ⟨0, _⟩ => show win4_4.index t (0 : Fin 2) * 256 + 1 * (y 0).val = (y 0).val; rw [e0]; omega
  | ⟨1, _⟩ => show win4_4.index t (1 : Fin 2) * 256 + 1 * (y 1).val = (y 1).val; rw [e1]; omega

/-- The table the region leaves: the relation's update of the entry contents of windows 0 to 4. -/
abbrev G4 (c : Dev nD) : S20000x256.Idx → EReal :=
  Rows.sage (M := 20000) false (V c (Pipeline.arrRef spec4 0)) (V c (Pipeline.arrRef spec4 1)) (V c (Pipeline.arrRef spec4 2))
    (V c (Pipeline.arrRef spec4 3)) (V c (Pipeline.arrRef spec4 4))

/-- What point `t` writes back is the block at `t` of that table. -/
theorem flushed4_eq (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  unfold out4_5
  rw [View.canon_unit_zero Cert.KPay.off_zero]
  simp only [View.ld_unit_zero (S := S4000x256) Cert.KPay.off_zero, View.ld_unit_zero (S := S256x256) Cert.KPay.off_zero,
    View.ld_unit_zero (S := S1x256) Cert.KPay.off_zero]
  funext j
  have hj0 : (j 0).val < 4000 := (j 0).isLt
  have hj1 : (j 1).val < 256 := (j 1).isLt
  have hN : cfg4.N = 5 := N_4
  have ht : t.val < cfg4.N := t.isLt
  obtain ⟨-, -, -, -, -, -, -, -, -, -, e0, e1⟩ := idx4 t
  have hx : (((cfg4.win 5).xinj (grid4.coords t) j : S4000x256.Idx)) = ix2 (⟨(j 0).val, hj0⟩ : Fin 4000) (⟨(j 1).val, hj1⟩ : Fin 256) :=
    funext fun a => by match a with | ⟨0, _⟩ => rfl | ⟨1, _⟩ => rfl
  have hemb : ((((cfg4.win 5).blk t).view.emb j : S20000x256.Idx)) = ix2 (⟨t.val * 4000 + (j 0).val, by omega⟩ : Fin 20000) (⟨(j 1).val, hj1⟩ : Fin 256) :=
    funext fun a => Fin.ext (by
      match a with
      | ⟨0, _⟩ => show win4_5.index t (0 : Fin 2) * 4000 + 1 * (j 0).val = t.val * 4000 + (j 0).val; rw [e0]; omega
      | ⟨1, _⟩ => show win4_5.index t (1 : Fin 2) * 256 + 1 * (j 1).val = (j 1).val; rw [e1]; omega)
  refine (congrArg (k4_pay1 (F := Ideal) (iblk4 V c 0 t) (iblk4 V c 1 t) (iblk4 V c 2 t) (iblk4 V c 4 t) (iblk4 V c 3 t)) hx).trans ?_
  refine (pay4_apply (iblk4 V c 0 t) (iblk4 V c 1 t) (iblk4 V c 2 t) (iblk4 V c 4 t) (iblk4 V c 3 t) ⟨(j 0).val, hj0⟩ ⟨(j 1).val, hj1⟩).trans ?_
  refine Eq.trans ?_ (congrArg (G4 V c) hemb).symm
  exact Cert.KPay.sageAt_blk false (iblk4 V c 0 t) (iblk4 V c 1 t) (iblk4 V c 2 t) (iblk4 V c 3 t) (iblk4 V c 4 t)
    (V c (Pipeline.arrRef spec4 0)) (V c (Pipeline.arrRef spec4 1)) (V c (Pipeline.arrRef spec4 2))
    (V c (Pipeline.arrRef spec4 3)) (V c (Pipeline.arrRef spec4 4)) ⟨(j 0).val, hj0⟩ ⟨t.val * 4000 + (j 0).val, by omega⟩
    (fun k => iblk4_0_apply V c t ⟨(j 0).val, hj0⟩ k ⟨t.val * 4000 + (j 0).val, by omega⟩ rfl)
    (fun k => iblk4_1_apply V c t ⟨(j 0).val, hj0⟩ k ⟨t.val * 4000 + (j 0).val, by omega⟩ rfl)
    (iblk4_2_eq V c t) (iblk4_3_eq V c t) (iblk4_4_eq V c t) ⟨(j 1).val, hj1⟩

/-- An index of the table is in point `t`'s block iff each coordinate is in the block's range on its axis. -/
theorem mem_blk4 (t : Fin cfg4.N) (i : S20000x256.Idx) :
    i ∈ ((cfg4.win 5).blk t).view.set ↔ ∀ a : Fin 2, win4_5.index t a * S4000x256.size a ≤ (i a).val ∧ (i a).val < win4_5.index t a * S4000x256.size a + S4000x256.size a := by
  show i ∈ ((View.whole main_v147).slice (win4_5.rect t)).set ↔ _
  rw [View.set_slice_whole, Rect.mem_set_unit]
  exact Iff.rfl

/-- THE REGION'S VALUE: the result array after the region is the relation's update of the entry contents. -/
theorem region4_value (c : Dev nD) :
    (dat4 (F := Ideal) V c).arrAt 5 cfg4.N
      = Rows.sage (M := 20000) false (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 (G4 V c) (fun t _ => flushed4_eq V c t) fun i => by
    have hi0 : (i 0).val < 20000 := (i 0).isLt
    have hi1 : (i 1).val < 256 := (i 1).isLt
    have hN : cfg4.N = 5 := N_4
    obtain ⟨t, ht⟩ : ∃ t : Fin cfg4.N, t.val = (i 0).val / 4000 := ⟨⟨(i 0).val / 4000, by rw [hN]; omega⟩, rfl⟩
    obtain ⟨-, -, -, -, -, -, -, -, -, -, e0, e1⟩ := idx4 t
    refine ⟨t, flush4_5 t, ?_⟩
    rw [mem_blk4]
    intro a
    match a with
    | ⟨0, _⟩ => show win4_5.index t (0 : Fin 2) * 4000 ≤ (i 0).val ∧ (i 0).val < win4_5.index t (0 : Fin 2) * 4000 + 4000; rw [e0, ht]; omega
    | ⟨1, _⟩ => show win4_5.index t (1 : Fin 2) * 256 ≤ (i 1).val ∧ (i 1).val < win4_5.index t (1 : Fin 2) * 256 + 256; rw [e1]; omega

end Cert.KernelIdeal.RegionValue

end
-- ==== Proof.KRegion5.lean ====
/-
  Region 5 of the kernel program, the news update of the 100000 × 256 table with the two root weights and the two
  biases already added, as ONE function of the contents the region finds at entry.

  The grid has 50 points; point `t` stages rows `2000·t … 2000·t + 1999` of the three row operands (windows 0, 1, 2) and
  the whole of the three weight matrices and of the bias row (windows 3, 4, 5, 6), and writes back rows `2000·t …` of
  the result (window 7). Entry `(p, q)` of the tile the body stores is the row formula `Rows.fusedAt` of the staged
  tiles, which reads the row operands through row `p` only, that is through row `2000·t + p` of the tables: so the
  tile is the block at `t` of `Rows.fused` of the entry contents. Row `r` of the table lies in the block of point
  `r / 2000`, so the blocks cover the table and the array ends holding `Rows.fused` of the entry contents.
-/
import proofs.«146827_j53558242181513_2_alg».proof.Proof.Gen.KernelIdeal.Frame
import proofs.«146827_j53558242181513_2_alg».proof.Proof.KPay
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The stored tile at entry `(p, q)`: the row formula of the staged tiles. -/
theorem pay5_apply (x0 x1 x2 : Vec Ideal S2000x256 .f32) (x3 x4 x5 : Vec Ideal S256x256 .f32) (x6 : Vec Ideal S1x256 .f32)
    (p : Fin 2000) (q : Fin 256) :
    k5_pay1 (F := Ideal) x0 x1 x2 x3 x4 x5 x6 (ix2 p q) = Rows.fusedAt (M := 2000) false x0 x1 x2 x3 x4 x5 x6 p q := by
  unfold k5_pay1
  simp only [shapeCast_self]
  exact Cert.KPay.fused_lin_apply dot_S2000x256_S256x256_S2000x256_1_0_0_1_n_n rfl x0 x1 x2 x3 x4 x5 x6 bitsLt_bf16_f32 broadcasts_S1x256_S2000x256 p q

/-- The windows' block indices over the grid: the row windows and the result move with the point along the rows, the
    weights and the bias row stay at block `(0, 0)`. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Row `p` of window 0's tile at point `t` is row `2000·t + p` of its table. -/
theorem iblk5_0_apply (c : Dev nD) (t : Fin cfg5.N) (p : Fin 2000) (k : Fin 256) (r : Fin 100000) (hr : r.val = t.val * 2000 + p.val) :
    (iblk5 V c 0 t : Vec Ideal S2000x256 .f32) (ix2 p k) = (V c (Pipeline.arrRef spec5 0) : S100000x256.Idx → EReal) (ix2 r k) := by
  obtain ⟨e0, e1, -⟩ := idx5 t
  unfold iblk5
  rw [View.read_apply]
  refine congrArg (V c (Pipeline.arrRef spec5 0)) (funext fun a => Fin.ext ?_)
  match a with
  | ⟨0, _⟩ => show win5_0.index t (0 : Fin 2) * 2000 + 1 * p.val = r.val; rw [e0, hr]; omega
  | ⟨1, _⟩ => show win5_0.index t (1 : Fin 2) * 256 + 1 * k.val = k.val; rw [e1]; omega

/-- Row `p` of window 1's tile at point `t` is row `2000·t + p` of its table. -/
theorem iblk5_1_apply (c : Dev nD) (t : Fin cfg5.N) (p : Fin 2000) (k : Fin 256) (r : Fin 100000) (hr : r.val = t.val * 2000 + p.val) :
    (iblk5 V c 1 t : Vec Ideal S2000x256 .f32) (ix2 p k) = (V c (Pipeline.arrRef spec5 1) : S100000x256.Idx → EReal) (ix2 r k) := by
  obtain ⟨-, -, e0, e1, -⟩ := idx5 t
  unfold iblk5
  rw [View.read_apply]
  refine congrArg (V c (Pipeline.arrRef spec5 1)) (funext fun a => Fin.ext ?_)
  match a with
  | ⟨0, _⟩ => show win5_1.index t (0 : Fin 2) * 2000 + 1 * p.val = r.val; rw [e0, hr]; omega
  | ⟨1, _⟩ => show win5_1.index t (1 : Fin 2) * 256 + 1 * k.val = k.val; rw [e1]; omega

/-- Row `p` of window 2's tile at point `t` is row `2000·t + p` of its table. -/
theorem iblk5_2_apply (c : Dev nD) (t : Fin cfg5.N) (p : Fin 2000) (k : Fin 256) (r : Fin 100000) (hr : r.val = t.val * 2000 + p.val) :
    (iblk5 V c 2 t : Vec Ideal S2000x256 .f32) (ix2 p k) = (V c (Pipeline.arrRef spec5 2) : S100000x256.Idx → EReal) (ix2 r k) := by
  obtain ⟨-, -, -, -, e0, e1, -⟩ := idx5 t
  unfold iblk5
  rw [View.read_apply]
  refine congrArg (V c (Pipeline.arrRef spec5 2)) (funext fun a => Fin.ext ?_)
  match a with
  | ⟨0, _⟩ => show win5_2.index t (0 : Fin 2) * 2000 + 1 * p.val = r.val; rw [e0, hr]; omega
  | ⟨1, _⟩ => show win5_2.index t (1 : Fin 2) * 256 + 1 * k.val = k.val; rw [e1]; omega

/-- Window 3's block at any point is its whole array. -/
theorem iblk5_3_eq (c : Dev nD) (t : Fin cfg5.N) :
    (iblk5 V c 3 t : Vec Ideal S256x256 .f32) = (V c (Pipeline.arrRef spec5 3) : S256x256.Idx → EReal) := by
  obtain ⟨-, -, -, -, -, -, e0, e1, -⟩ := idx5 t
  unfold iblk5
  funext y
  rw [View.read_apply]
  refine congrArg (V c (Pipeline.arrRef spec5 3)) (funext fun a => Fin.ext ?_)
  match a with
  | ⟨0, _⟩ => show win5_3.index t (0 : Fin 2) * 256 + 1 * (y 0).val = (y 0).val; rw [e0]; omega
  | ⟨1, _⟩ => show win5_3.index t (1 : Fin 2) * 256 + 1 * (y 1).val = (y 1).val; rw [e1]; omega

/-- Window 4's block at any point is its whole array. -/
theorem iblk5_4_eq (c : Dev nD) (t : Fin cfg5.N) :
    (iblk5 V c 4 t : Vec Ideal S256x256 .f32) = (V c (Pipeline.arrRef spec5 4) : S256x256.Idx → EReal) := by
  obtain ⟨-, -, -, -, -, -, -, -, e0, e1, -⟩ := idx5 t
  unfold iblk5
  funext y
  rw [View.read_apply]
  refine congrArg (V c (Pipeline.arrRef spec5 4)) (funext fun a => Fin.ext ?_)
  match a with
  | ⟨0, _⟩ => show win5_4.index t (0 : Fin 2) * 256 + 1 * (y 0).val = (y 0).val; rw [e0]; omega
  | ⟨1, _⟩ => show win5_4.index t (1 : Fin 2) * 256 + 1 * (y 1).val = (y 1).val; rw [e1]; omega

/-- Window 5's block at any point is its whole array. -/
theorem iblk5_5_eq (c : Dev nD) (t : Fin cfg5.N) :
    (iblk5 V c 5 t : Vec Ideal S256x256 .f32) = (V c (Pipeline.arrRef spec5 5) : S256x256.Idx → EReal) := by
  obtain ⟨-, -, -, -, -, -, -, -, -, -, e0, e1, -⟩ := idx5 t
  unfold iblk5
  funext y
  rw [View.read_apply]
  refine congrArg (V c (Pipeline.arrRef spec5 5)) (funext fun a => Fin.ext ?_)
  match a with
  | ⟨0, _⟩ => show win5_5.index t (0 : Fin 2) * 256 + 1 * (y 0).val = (y 0).val; rw [e0]; omega
  | ⟨1, _⟩ => show win5_5.index t (1 : Fin 2) * 256 + 1 * (y 1).val = (y 1).val; rw [e1]; omega

/-- Window 6's block at any point is its whole array. -/
theorem iblk5_6_eq (c : Dev nD) (t : Fin cfg5.N) :
    (iblk5 V c 6 t : Vec Ideal S1x256 .f32) = (V c (Pipeline.arrRef spec5 6) : S1x256.Idx → EReal) := by
  obtain ⟨-, -, -, -, -, -, -, -, -, -, -, -, e0, e1, -⟩ := idx5 t
  unfold iblk5
  funext y
  rw [View.read_apply]
  refine congrArg (V c (Pipeline.arrRef spec5 6)) (funext fun a => Fin.ext ?_)
  match a with
  | ⟨0, _⟩ => show win5_6.index t (0 : Fin 2) * 1 + 1 * (y 0).val = (y 0).val; rw [e0]; omega
  | ⟨1, _⟩ => show win5_6.index t (1 : Fin 2) * 256 + 1 * (y 1).val = (y 1).val; rw [e1]; omega

/-- The table the region leaves: the news update of the entry contents of windows 0 to 6. -/
abbrev G5 (c : Dev nD) : S100000x256.Idx → EReal :=
  Rows.fused (M := 100000) false (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) (V c (Pipeline.arrRef spec5 6))

/-- What point `t` writes back is the block at `t` of that table. -/
theorem flushed5_eq (c : Dev nD) (t : Fin cfg5.N) :
    (dat5 (F := Ideal) V c).flushed 7 t = ((cfg5.win 7).blk t).view.read (Elt Ideal) (G5 V c) := by
  show (cfg5.win 7).cut (grid5.coords t) ((dat5 V c).after 7 t) = _
  rw [after5_7]
  unfold out5_7
  rw [View.canon_unit_zero Cert.KPay.off_zero]
  simp only [View.ld_unit_zero (S := S2000x256) Cert.KPay.off_zero, View.ld_unit_zero (S := S256x256) Cert.KPay.off_zero,
    View.ld_unit_zero (S := S1x256) Cert.KPay.off_zero]
  funext j
  have hj0 : (j 0).val < 2000 := (j 0).isLt
  have hj1 : (j 1).val < 256 := (j 1).isLt
  have hN : cfg5.N = 50 := N_5
  have ht : t.val < cfg5.N := t.isLt
  obtain ⟨-, -, -, -, -, -, -, -, -, -, -, -, -, -, e0, e1⟩ := idx5 t
  have hx : (((cfg5.win 7).xinj (grid5.coords t) j : S2000x256.Idx)) = ix2 (⟨(j 0).val, hj0⟩ : Fin 2000) (⟨(j 1).val, hj1⟩ : Fin 256) :=
    funext fun a => by match a with | ⟨0, _⟩ => rfl | ⟨1, _⟩ => rfl
  have hemb : ((((cfg5.win 7).blk t).view.emb j : S100000x256.Idx)) = ix2 (⟨t.val * 2000 + (j 0).val, by omega⟩ : Fin 100000) (⟨(j 1).val, hj1⟩ : Fin 256) :=
    funext fun a => Fin.ext (by
      match a with
      | ⟨0, _⟩ => show win5_7.index t (0 : Fin 2) * 2000 + 1 * (j 0).val = t.val * 2000 + (j 0).val; rw [e0]; omega
      | ⟨1, _⟩ => show win5_7.index t (1 : Fin 2) * 256 + 1 * (j 1).val = (j 1).val; rw [e1]; omega)
  refine (congrArg (k5_pay1 (F := Ideal) (iblk5 V c 0 t) (iblk5 V c 1 t) (iblk5 V c 2 t) (iblk5 V c 3 t) (iblk5 V c 4 t) (iblk5 V c 5 t) (iblk5 V c 6 t)) hx).trans ?_
  refine (pay5_apply (iblk5 V c 0 t) (iblk5 V c 1 t) (iblk5 V c 2 t) (iblk5 V c 3 t) (iblk5 V c 4 t) (iblk5 V c 5 t) (iblk5 V c 6 t) ⟨(j 0).val, hj0⟩ ⟨(j 1).val, hj1⟩).trans ?_
  refine Eq.trans ?_ (congrArg (G5 V c) hemb).symm
  exact Cert.KPay.fusedAt_blk false (iblk5 V c 0 t) (iblk5 V c 1 t) (iblk5 V c 2 t) (iblk5 V c 3 t) (iblk5 V c 4 t) (iblk5 V c 5 t) (iblk5 V c 6 t)
    (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))
    ⟨(j 0).val, hj0⟩ ⟨t.val * 2000 + (j 0).val, by omega⟩
    (fun k => iblk5_0_apply V c t ⟨(j 0).val, hj0⟩ k ⟨t.val * 2000 + (j 0).val, by omega⟩ rfl)
    (fun k => iblk5_1_apply V c t ⟨(j 0).val, hj0⟩ k ⟨t.val * 2000 + (j 0).val, by omega⟩ rfl)
    (fun k => iblk5_2_apply V c t ⟨(j 0).val, hj0⟩ k ⟨t.val * 2000 + (j 0).val, by omega⟩ rfl)
    (iblk5_3_eq V c t) (iblk5_4_eq V c t) (iblk5_5_eq V c t) (iblk5_6_eq V c t) ⟨(j 1).val, hj1⟩

/-- An index of the table is in point `t`'s block iff each coordinate is in the block's range on its axis. -/
theorem mem_blk5 (t : Fin cfg5.N) (i : S100000x256.Idx) :
    i ∈ ((cfg5.win 7).blk t).view.set ↔ ∀ a : Fin 2, win5_7.index t a * S2000x256.size a ≤ (i a).val ∧ (i a).val < win5_7.index t a * S2000x256.size a + S2000x256.size a := by
  show i ∈ ((View.whole main_v191).slice (win5_7.rect t)).set ↔ _
  rw [View.set_slice_whole, Rect.mem_set_unit]
  exact Iff.rfl

/-- THE REGION'S VALUE: the result array after the region is the news update of the entry contents. -/
theorem region5_value (c : Dev nD) :
    (dat5 (F := Ideal) V c).arrAt 7 cfg5.N
      = Rows.fused (M := 100000) false (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) (V c (Pipeline.arrRef spec5 6)) :=
  (dat5 V c).arrAt_eq_of_cover 7 (G5 V c) (fun t _ => flushed5_eq V c t) fun i => by
    have hi0 : (i 0).val < 100000 := (i 0).isLt
    have hi1 : (i 1).val < 256 := (i 1).isLt
    have hN : cfg5.N = 50 := N_5
    obtain ⟨t, ht⟩ : ∃ t : Fin cfg5.N, t.val = (i 0).val / 2000 := ⟨⟨(i 0).val / 2000, by rw [hN]; omega⟩, rfl⟩
    obtain ⟨-, -, -, -, -, -, -, -, -, -, -, -, -, -, e0, e1⟩ := idx5 t
    refine ⟨t, flush5_7 t, ?_⟩
    rw [mem_blk5]
    intro a
    match a with
    | ⟨0, _⟩ => show win5_7.index t (0 : Fin 2) * 2000 ≤ (i 0).val ∧ (i 0).val < win5_7.index t (0 : Fin 2) * 2000 + 2000; rw [e0, ht]; omega
    | ⟨1, _⟩ => show win5_7.index t (1 : Fin 2) * 256 ≤ (i 1).val ∧ (i 1).val < win5_7.index t (1 : Fin 2) * 256 + 256; rw [e1]; omega

end Cert.KernelIdeal.RegionValue

end
-- ==== Proof.KRegion6.lean ====
/-
  Region 6 of the kernel program, one relation's update of a 3000 × 256 table, as ONE function of the
  contents the region finds at entry.

  The grid has 1 point; point `t` stages rows `3000·t … 3000·t + 2999` of the two row operands (windows 0 and 1) and the
  whole of the two weight matrices and of the bias row (windows 2, 3, 4), and writes back rows `3000·t …` of the result
  (window 5). Entry `(p, q)` of the tile the body stores is the row formula `Rows.sageAt` of the staged tiles, which
  reads the row operands through row `p` only, that is through row `3000·t + p` of the tables: so the tile is the block
  at `t` of `Rows.sage` of the entry contents. Row `r` of the table lies in the block of point `r / 3000`, so the
  blocks cover the table and the array ends holding `Rows.sage` of the entry contents.
-/
import proofs.«146827_j53558242181513_2_alg».proof.Proof.Gen.KernelIdeal.Frame
import proofs.«146827_j53558242181513_2_alg».proof.Proof.KPay
import Idealize.ShloMosaic.Lib.Pipeline.Value

set_option maxRecDepth 16384

noncomputable section

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The stored tile at entry `(p, q)`: the row formula of the staged tiles. -/
theorem pay6_apply (x0 x1 : Vec Ideal S3000x256 .f32) (x2 x4 : Vec Ideal S256x256 .f32) (x3 : Vec Ideal S1x256 .f32)
    (p : Fin 3000) (q : Fin 256) :
    k6_pay1 (F := Ideal) x0 x1 x2 x4 x3 (ix2 p q) = Rows.sageAt (M := 3000) false x0 x1 x2 x3 x4 p q := by
  unfold k6_pay1
  simp only [shapeCast_self]
  exact Cert.KPay.sage_lin_apply dot_S3000x256_S256x256_S3000x256_1_0_0_1_n_n rfl x0 x1 x2 x3 x4 bitsLt_bf16_f32 broadcasts_S1x256_S3000x256 p q

/-- The windows' block indices over the grid: the row windows and the result move with the point along the rows, the
    weights and the bias row stay at block `(0, 0)`. -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row `p` of window 0's tile at point `t` is row `3000·t + p` of its table. -/
theorem iblk6_0_apply (c : Dev nD) (t : Fin cfg6.N) (p : Fin 3000) (k : Fin 256) (r : Fin 3000) (hr : r.val = t.val * 3000 + p.val) :
    (iblk6 V c 0 t : Vec Ideal S3000x256 .f32) (ix2 p k) = (V c (Pipeline.arrRef spec6 0) : S3000x256.Idx → EReal) (ix2 r k) := by
  obtain ⟨e0, e1, -⟩ := idx6 t
  unfold iblk6
  rw [View.read_apply]
  refine congrArg (V c (Pipeline.arrRef spec6 0)) (funext fun a => Fin.ext ?_)
  match a with
  | ⟨0, _⟩ => show win6_0.index t (0 : Fin 2) * 3000 + 1 * p.val = r.val; rw [e0, hr]; omega
  | ⟨1, _⟩ => show win6_0.index t (1 : Fin 2) * 256 + 1 * k.val = k.val; rw [e1]; omega

/-- Row `p` of window 1's tile at point `t` is row `3000·t + p` of its table. -/
theorem iblk6_1_apply (c : Dev nD) (t : Fin cfg6.N) (p : Fin 3000) (k : Fin 256) (r : Fin 3000) (hr : r.val = t.val * 3000 + p.val) :
    (iblk6 V c 1 t : Vec Ideal S3000x256 .f32) (ix2 p k) = (V c (Pipeline.arrRef spec6 1) : S3000x256.Idx → EReal) (ix2 r k) := by
  obtain ⟨-, -, e0, e1, -⟩ := idx6 t
  unfold iblk6
  rw [View.read_apply]
  refine congrArg (V c (Pipeline.arrRef spec6 1)) (funext fun a => Fin.ext ?_)
  match a with
  | ⟨0, _⟩ => show win6_1.index t (0 : Fin 2) * 3000 + 1 * p.val = r.val; rw [e0, hr]; omega
  | ⟨1, _⟩ => show win6_1.index t (1 : Fin 2) * 256 + 1 * k.val = k.val; rw [e1]; omega

/-- Window 2's block at any point is its whole array. -/
theorem iblk6_2_eq (c : Dev nD) (t : Fin cfg6.N) :
    (iblk6 V c 2 t : Vec Ideal S256x256 .f32) = (V c (Pipeline.arrRef spec6 2) : S256x256.Idx → EReal) := by
  obtain ⟨-, -, -, -, e0, e1, -⟩ := idx6 t
  unfold iblk6
  funext y
  rw [View.read_apply]
  refine congrArg (V c (Pipeline.arrRef spec6 2)) (funext fun a => Fin.ext ?_)
  match a with
  | ⟨0, _⟩ => show win6_2.index t (0 : Fin 2) * 256 + 1 * (y 0).val = (y 0).val; rw [e0]; omega
  | ⟨1, _⟩ => show win6_2.index t (1 : Fin 2) * 256 + 1 * (y 1).val = (y 1).val; rw [e1]; omega

/-- Window 3's block at any point is its whole array. -/
theorem iblk6_3_eq (c : Dev nD) (t : Fin cfg6.N) :
    (iblk6 V c 3 t : Vec Ideal S1x256 .f32) = (V c (Pipeline.arrRef spec6 3) : S1x256.Idx → EReal) := by
  obtain ⟨-, -, -, -, -, -, e0, e1, -⟩ := idx6 t
  unfold iblk6
  funext y
  rw [View.read_apply]
  refine congrArg (V c (Pipeline.arrRef spec6 3)) (funext fun a => Fin.ext ?_)
  match a with
  | ⟨0, _⟩ => show win6_3.index t (0 : Fin 2) * 1 + 1 * (y 0).val = (y 0).val; rw [e0]; omega
  | ⟨1, _⟩ => show win6_3.index t (1 : Fin 2) * 256 + 1 * (y 1).val = (y 1).val; rw [e1]; omega

/-- Window 4's block at any point is its whole array. -/
theorem iblk6_4_eq (c : Dev nD) (t : Fin cfg6.N) :
    (iblk6 V c 4 t : Vec Ideal S256x256 .f32) = (V c (Pipeline.arrRef spec6 4) : S256x256.Idx → EReal) := by
  obtain ⟨-, -, -, -, -, -, -, -, e0, e1, -⟩ := idx6 t
  unfold iblk6
  funext y
  rw [View.read_apply]
  refine congrArg (V c (Pipeline.arrRef spec6 4)) (funext fun a => Fin.ext ?_)
  match a with
  | ⟨0, _⟩ => show win6_4.index t (0 : Fin 2) * 256 + 1 * (y 0).val = (y 0).val; rw [e0]; omega
  | ⟨1, _⟩ => show win6_4.index t (1 : Fin 2) * 256 + 1 * (y 1).val = (y 1).val; rw [e1]; omega

/-- The table the region leaves: the relation's update of the entry contents of windows 0 to 4. -/
abbrev G6 (c : Dev nD) : S3000x256.Idx → EReal :=
  Rows.sage (M := 3000) false (V c (Pipeline.arrRef spec6 0)) (V c (Pipeline.arrRef spec6 1)) (V c (Pipeline.arrRef spec6 2))
    (V c (Pipeline.arrRef spec6 3)) (V c (Pipeline.arrRef spec6 4))

/-- What point `t` writes back is the block at `t` of that table. -/
theorem flushed6_eq (c : Dev nD) (t : Fin cfg6.N) :
    (dat6 (F := Ideal) V c).flushed 5 t = ((cfg6.win 5).blk t).view.read (Elt Ideal) (G6 V c) := by
  show (cfg6.win 5).cut (grid6.coords t) ((dat6 V c).after 5 t) = _
  rw [after6_5]
  unfold out6_5
  rw [View.canon_unit_zero Cert.KPay.off_zero]
  simp only [View.ld_unit_zero (S := S3000x256) Cert.KPay.off_zero, View.ld_unit_zero (S := S256x256) Cert.KPay.off_zero,
    View.ld_unit_zero (S := S1x256) Cert.KPay.off_zero]
  funext j
  have hj0 : (j 0).val < 3000 := (j 0).isLt
  have hj1 : (j 1).val < 256 := (j 1).isLt
  have hN : cfg6.N = 1 := N_6
  have ht : t.val < cfg6.N := t.isLt
  obtain ⟨-, -, -, -, -, -, -, -, -, -, e0, e1⟩ := idx6 t
  have hx : (((cfg6.win 5).xinj (grid6.coords t) j : S3000x256.Idx)) = ix2 (⟨(j 0).val, hj0⟩ : Fin 3000) (⟨(j 1).val, hj1⟩ : Fin 256) :=
    funext fun a => by match a with | ⟨0, _⟩ => rfl | ⟨1, _⟩ => rfl
  have hemb : ((((cfg6.win 5).blk t).view.emb j : S3000x256.Idx)) = ix2 (⟨t.val * 3000 + (j 0).val, by omega⟩ : Fin 3000) (⟨(j 1).val, hj1⟩ : Fin 256) :=
    funext fun a => Fin.ext (by
      match a with
      | ⟨0, _⟩ => show win6_5.index t (0 : Fin 2) * 3000 + 1 * (j 0).val = t.val * 3000 + (j 0).val; rw [e0]; omega
      | ⟨1, _⟩ => show win6_5.index t (1 : Fin 2) * 256 + 1 * (j 1).val = (j 1).val; rw [e1]; omega)
  refine (congrArg (k6_pay1 (F := Ideal) (iblk6 V c 0 t) (iblk6 V c 1 t) (iblk6 V c 2 t) (iblk6 V c 4 t) (iblk6 V c 3 t)) hx).trans ?_
  refine (pay6_apply (iblk6 V c 0 t) (iblk6 V c 1 t) (iblk6 V c 2 t) (iblk6 V c 4 t) (iblk6 V c 3 t) ⟨(j 0).val, hj0⟩ ⟨(j 1).val, hj1⟩).trans ?_
  refine Eq.trans ?_ (congrArg (G6 V c) hemb).symm
  exact Cert.KPay.sageAt_blk false (iblk6 V c 0 t) (iblk6 V c 1 t) (iblk6 V c 2 t) (iblk6 V c 3 t) (iblk6 V c 4 t)
    (V c (Pipeline.arrRef spec6 0)) (V c (Pipeline.arrRef spec6 1)) (V c (Pipeline.arrRef spec6 2))
    (V c (Pipeline.arrRef spec6 3)) (V c (Pipeline.arrRef spec6 4)) ⟨(j 0).val, hj0⟩ ⟨t.val * 3000 + (j 0).val, by omega⟩
    (fun k => iblk6_0_apply V c t ⟨(j 0).val, hj0⟩ k ⟨t.val * 3000 + (j 0).val, by omega⟩ rfl)
    (fun k => iblk6_1_apply V c t ⟨(j 0).val, hj0⟩ k ⟨t.val * 3000 + (j 0).val, by omega⟩ rfl)
    (iblk6_2_eq V c t) (iblk6_3_eq V c t) (iblk6_4_eq V c t) ⟨(j 1).val, hj1⟩

/-- An index of the table is in point `t`'s block iff each coordinate is in the block's range on its axis. -/
theorem mem_blk6 (t : Fin cfg6.N) (i : S3000x256.Idx) :
    i ∈ ((cfg6.win 5).blk t).view.set ↔ ∀ a : Fin 2, win6_5.index t a * S3000x256.size a ≤ (i a).val ∧ (i a).val < win6_5.index t a * S3000x256.size a + S3000x256.size a := by
  show i ∈ ((View.whole main_v213).slice (win6_5.rect t)).set ↔ _
  rw [View.set_slice_whole, Rect.mem_set_unit]
  exact Iff.rfl

/-- THE REGION'S VALUE: the result array after the region is the relation's update of the entry contents. -/
theorem region6_value (c : Dev nD) :
    (dat6 (F := Ideal) V c).arrAt 5 cfg6.N
      = Rows.sage (M := 3000) false (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 (G6 V c) (fun t _ => flushed6_eq V c t) fun i => by
    have hi0 : (i 0).val < 3000 := (i 0).isLt
    have hi1 : (i 1).val < 256 := (i 1).isLt
    have hN : cfg6.N = 1 := N_6
    obtain ⟨t, ht⟩ : ∃ t : Fin cfg6.N, t.val = (i 0).val / 3000 := ⟨⟨(i 0).val / 3000, by rw [hN]; omega⟩, rfl⟩
    obtain ⟨-, -, -, -, -, -, -, -, -, -, e0, e1⟩ := idx6 t
    refine ⟨t, flush6_5 t, ?_⟩
    rw [mem_blk6]
    intro a
    match a with
    | ⟨0, _⟩ => show win6_5.index t (0 : Fin 2) * 3000 ≤ (i 0).val ∧ (i 0).val < win6_5.index t (0 : Fin 2) * 3000 + 3000; rw [e0, ht]; omega
    | ⟨1, _⟩ => show win6_5.index t (1 : Fin 2) * 256 ≤ (i 1).val ∧ (i 1).val < win6_5.index t (1 : Fin 2) * 256 + 256; rw [e1]; omega

end Cert.KernelIdeal.RegionValue

end
-- ==== Proof.RefEnc.lean ====
/-
  The reference's news encoder, entry by entry: the stage `relu (x0 · x7 + bias row)` is the table
  `Rows.enc x0 x7 b`, where `b` is the bias `x8` laid out as a `1 × 256` row.  At `(r, j)` the product is
  `Σ_k x0[r,k] · x7[k,j]`, the broadcast bias is `b[0,j]`, and the activation is the maximum with the constant zero.
-/
import proofs.«146827_j53558242181513_2_alg».proof.Proof.RefReadP
import proofs.«146827_j53558242181513_2_alg».proof.Proof.Rows

noncomputable section

namespace Cert.ReferenceIdeal.Stages

open Cert.ReferenceIdeal Cert.ReferenceIdeal.Gen Cert.ReferenceIdeal.ReadP Idealize.ShloMosaic Idealize.ShloMosaic.ValueIdx

/-- The index functions of the `100000×768` by `768×256` product are the row `(r, k)` and the column `(k, j)`. -/
theorem lidx_v0 (r : Fin 100000) (j : Fin 256) (k : Fin 768) : lidx_main_v0 (ix2 r j) k = ix2 r k :=
  funext fun a => Fin.ext (by match a with | ⟨0, _⟩ => rfl | ⟨1, _⟩ => rfl)
theorem ridx_v0 (r : Fin 100000) (j : Fin 256) (k : Fin 768) : ridx_main_v0 (ix2 r j) k = ix2 k j :=
  funext fun a => Fin.ext (by match a with | ⟨0, _⟩ => rfl | ⟨1, _⟩ => rfl)
/-- The bias row broadcast over the rows reads its entry `(0, j)`. -/
theorem idx_v2 (r : Fin 100000) (j : Fin 256) : idx_main_v2 (ix2 r j) = ix2 (0 : Fin 1) j :=
  funext fun a => Fin.ext (by match a with | ⟨0, _⟩ => rfl | ⟨1, _⟩ => rfl)

/-- The encoder stage is `max (x0 · x7 + b, 0)` entry by entry. -/
theorem v4_eq_enc (x0 : (⟨S100000x768, .f32⟩ : BufTy).Contents (Elt Ideal)) (x7 : (⟨S768x256, .f32⟩ : BufTy).Contents (Elt Ideal)) (x8 : (⟨S256, .f32⟩ : BufTy).Contents (Elt Ideal)) :
    val_main_v4 (F := Ideal) x0 x7 x8 = Rows.enc x0 x7 (val_main_v1 (F := Ideal) x8) := by
  funext i
  obtain ⟨r, j, rfl⟩ : ∃ (r : Fin 100000) (j : Fin 256), i = ix2 r j := ⟨i 0, i 1, eq_ix2 i⟩
  rw [Rows.enc_ix2, val_main_v4_apply, val_main_v3_apply, val_main_v0_apply, val_main_v2_apply,
    val_main_call0_v0_apply, val_main_call0_cst_apply, idx_v2]
  generalize val_main_v1 (F := Ideal) x8 = b
  simp only [lidx_v0, ridx_v0, Ideal.addf_def, Ideal.maximumf_def, Ideal.ofBits_def, Ideal.ofBits_zero_f32]
  rfl

end Cert.ReferenceIdeal.Stages

end
-- ==== Proof.RefLayer1.lean ====
/-
  The reference's first layer of relation updates, entry by entry.

  Each relation's update is `mean · wl + bias row + xdst · wr`: two `M×256` by `256×256` products, a `1 × 256` bias
  row broadcast over the `M` rows, and two additions.  Read at `(r, j)` this is `Rows.sageAt false … r j`; the keyword
  and stock tables then take `max (·, 0)`, which is `Rows.sage true`.  The operand stages (the neighbour means, the
  gathered embeddings, the weight slices) are never opened.
-/
import proofs.«146827_j53558242181513_2_alg».proof.Proof.RefReadP
import proofs.«146827_j53558242181513_2_alg».proof.Proof.Rows

noncomputable section

namespace Cert.ReferenceIdeal.Stages

open Cert.ReferenceIdeal Cert.ReferenceIdeal.Gen Cert.ReferenceIdeal.ReadP Idealize.ShloMosaic Idealize.ShloMosaic.ValueIdx

/-- The index functions of the two `20000×256` by `256×256` products and of the bias row of stage 48. -/
theorem lidx_v43 (r : Fin 20000) (j : Fin 256) (k : Fin 256) : lidx_main_v43 (ix2 r j) k = ix2 r k :=
  funext fun a => Fin.ext (by match a with | ⟨0, _⟩ => rfl | ⟨1, _⟩ => rfl)
theorem ridx_v43 (r : Fin 20000) (j : Fin 256) (k : Fin 256) : ridx_main_v43 (ix2 r j) k = ix2 k j :=
  funext fun a => Fin.ext (by match a with | ⟨0, _⟩ => rfl | ⟨1, _⟩ => rfl)
theorem lidx_v47 (r : Fin 20000) (j : Fin 256) (k : Fin 256) : lidx_main_v47 (ix2 r j) k = ix2 r k :=
  funext fun a => Fin.ext (by match a with | ⟨0, _⟩ => rfl | ⟨1, _⟩ => rfl)
theorem ridx_v47 (r : Fin 20000) (j : Fin 256) (k : Fin 256) : ridx_main_v47 (ix2 r j) k = ix2 k j :=
  funext fun a => Fin.ext (by match a with | ⟨0, _⟩ => rfl | ⟨1, _⟩ => rfl)
theorem idx_v45 (r : Fin 20000) (j : Fin 256) : idx_main_v45 (ix2 r j) = ix2 (0 : Fin 1) j :=
  funext fun a => Fin.ext (by match a with | ⟨0, _⟩ => rfl | ⟨1, _⟩ => rfl)

/-- The news→keyword update before its activation: at `(r, j)` the stage is `Σ_k mean[r,k]·wl[k,j] + bl[0,j] + Σ_k xd[r,k]·wr[k,j]`, its five operand
    stages kept as they are. -/
theorem v48_at (x0 : (⟨S100000x768, .f32⟩ : BufTy).Contents (Elt Ideal)) (x1 : (⟨S20000, .i32⟩ : BufTy).Contents (Elt Ideal)) (x3 : (⟨S320000, .i32⟩ : BufTy).Contents (Elt Ideal)) (x4 : (⟨S320000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (r : Fin 20000) (j : Fin 256) :
    val_main_v48 (F := Ideal) x0 x1 x3 x4 x7 x8 x9 x11 x12 x13 (ix2 r j)
      = Rows.sageAt false (val_main_v42 (F := Ideal) x0 x3 x4 x7 x8) (val_main_v11 (F := Ideal) x1 x9) (val_main_v20 (F := Ideal) x11) (val_main_v44 (F := Ideal) x12) (val_main_v24 (F := Ideal) x13) r j := by
  rw [val_main_v48_apply, val_main_v46_apply, val_main_v43_apply, val_main_v45_apply, val_main_v47_apply, idx_v45]
  generalize val_main_v42 (F := Ideal) x0 x3 x4 x7 x8 = mean
  generalize val_main_v11 (F := Ideal) x1 x9 = xd
  generalize val_main_v20 (F := Ideal) x11 = wl
  generalize val_main_v44 (F := Ideal) x12 = bl
  generalize val_main_v24 (F := Ideal) x13 = wr
  simp only [lidx_v43, ridx_v43, lidx_v47, ridx_v47, Ideal.addf_def]
  rfl

/-- The keyword features after layer 1: the news→keyword update followed by `max (·, 0)`. -/
theorem v141_eq_sage (x0 : (⟨S100000x768, .f32⟩ : BufTy).Contents (Elt Ideal)) (x1 : (⟨S20000, .i32⟩ : BufTy).Contents (Elt Ideal)) (x3 : (⟨S320000, .i32⟩ : BufTy).Contents (Elt Ideal)) (x4 : (⟨S320000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) :
    val_main_v141 (F := Ideal) x0 x1 x3 x4 x7 x8 x9 x11 x12 x13
      = Rows.sage true (val_main_v42 (F := Ideal) x0 x3 x4 x7 x8) (val_main_v11 (F := Ideal) x1 x9) (val_main_v20 (F := Ideal) x11) (val_main_v44 (F := Ideal) x12) (val_main_v24 (F := Ideal) x13) := by
  funext i
  obtain ⟨r, j, rfl⟩ : ∃ (r : Fin 20000) (j : Fin 256), i = ix2 r j := ⟨i 0, i 1, eq_ix2 i⟩
  rw [Rows.sage_ix2, val_main_v141_apply, val_main_call2_v0_apply, val_main_call2_cst_apply, v48_at]
  simp only [Ideal.maximumf_def, Ideal.ofBits_def, Ideal.ofBits_zero_f32]
  rfl

/-- The index functions of the two `3000×256` by `256×256` products and of the bias row of stage 139. -/
theorem lidx_v134 (r : Fin 3000) (j : Fin 256) (k : Fin 256) : lidx_main_v134 (ix2 r j) k = ix2 r k :=
  funext fun a => Fin.ext (by match a with | ⟨0, _⟩ => rfl | ⟨1, _⟩ => rfl)
theorem ridx_v134 (r : Fin 3000) (j : Fin 256) (k : Fin 256) : ridx_main_v134 (ix2 r j) k = ix2 k j :=
  funext fun a => Fin.ext (by match a with | ⟨0, _⟩ => rfl | ⟨1, _⟩ => rfl)
theorem lidx_v138 (r : Fin 3000) (j : Fin 256) (k : Fin 256) : lidx_main_v138 (ix2 r j) k = ix2 r k :=
  funext fun a => Fin.ext (by match a with | ⟨0, _⟩ => rfl | ⟨1, _⟩ => rfl)
theorem ridx_v138 (r : Fin 3000) (j : Fin 256) (k : Fin 256) : ridx_main_v138 (ix2 r j) k = ix2 k j :=
  funext fun a => Fin.ext (by match a with | ⟨0, _⟩ => rfl | ⟨1, _⟩ => rfl)
theorem idx_v136 (r : Fin 3000) (j : Fin 256) : idx_main_v136 (ix2 r j) = ix2 (0 : Fin 1) j :=
  funext fun a => Fin.ext (by match a with | ⟨0, _⟩ => rfl | ⟨1, _⟩ => rfl)

/-- The news→stock update before its activation: at `(r, j)` the stage is `Σ_k mean[r,k]·wl[k,j] + bl[0,j] + Σ_k xd[r,k]·wr[k,j]`, its five operand
    stages kept as they are. -/
theorem v139_at (x0 : (⟨S100000x768, .f32⟩ : BufTy).Contents (Elt Ideal)) (x2 : (⟨S3000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (r : Fin 3000) (j : Fin 256) :
    val_main_v139 (F := Ideal) x0 x2 x5 x6 x7 x8 x10 x11 x12 x13 (ix2 r j)
      = Rows.sageAt false (val_main_v133 (F := Ideal) x0 x5 x6 x7 x8) (val_main_v18 (F := Ideal) x2 x10) (val_main_v111 (F := Ideal) x11) (val_main_v135 (F := Ideal) x12) (val_main_v115 (F := Ideal) x13) r j := by
  rw [val_main_v139_apply, val_main_v137_apply, val_main_v134_apply, val_main_v136_apply, val_main_v138_apply, idx_v136]
  generalize val_main_v133 (F := Ideal) x0 x5 x6 x7 x8 = mean
  generalize val_main_v18 (F := Ideal) x2 x10 = xd
  generalize val_main_v111 (F := Ideal) x11 = wl
  generalize val_main_v135 (F := Ideal) x12 = bl
  generalize val_main_v115 (F := Ideal) x13 = wr
  simp only [lidx_v134, ridx_v134, lidx_v138, ridx_v138, Ideal.addf_def]
  rfl

/-- The stock features after layer 1: the news→stock update followed by `max (·, 0)`. -/
theorem v142_eq_sage (x0 : (⟨S100000x768, .f32⟩ : BufTy).Contents (Elt Ideal)) (x2 : (⟨S3000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) :
    val_main_v142 (F := Ideal) x0 x2 x5 x6 x7 x8 x10 x11 x12 x13
      = Rows.sage true (val_main_v133 (F := Ideal) x0 x5 x6 x7 x8) (val_main_v18 (F := Ideal) x2 x10) (val_main_v111 (F := Ideal) x11) (val_main_v135 (F := Ideal) x12) (val_main_v115 (F := Ideal) x13) := by
  funext i
  obtain ⟨r, j, rfl⟩ : ∃ (r : Fin 3000) (j : Fin 256), i = ix2 r j := ⟨i 0, i 1, eq_ix2 i⟩
  rw [Rows.sage_ix2, val_main_v142_apply, val_main_call3_v0_apply, val_main_call3_cst_apply, v139_at]
  simp only [Ideal.maximumf_def, Ideal.ofBits_def, Ideal.ofBits_zero_f32]
  rfl

end Cert.ReferenceIdeal.Stages

end
-- ==== Proof.RefLayer2.lean ====
/-
  The reference's second layer for the keyword and stock tables, entry by entry.

  The second layer repeats the first on the activated features, without a final activation: each result is
  `mean · wl + bias row + xdst · wr`, that is `Rows.sage false`.  The operand stages (the neighbour means over the
  layer-1 features, the layer-1 features themselves, the weight slices) are never opened.
-/
import proofs.«146827_j53558242181513_2_alg».proof.Proof.RefReadP
import proofs.«146827_j53558242181513_2_alg».proof.Proof.Rows

noncomputable section

namespace Cert.ReferenceIdeal.Stages

open Cert.ReferenceIdeal Cert.ReferenceIdeal.Gen Cert.ReferenceIdeal.ReadP Idealize.ShloMosaic Idealize.ShloMosaic.ValueIdx

/-- The index functions of the two `20000×256` by `256×256` products and of the bias row of stage 172. -/
theorem lidx_v167 (r : Fin 20000) (j : Fin 256) (k : Fin 256) : lidx_main_v167 (ix2 r j) k = ix2 r k :=
  funext fun a => Fin.ext (by match a with | ⟨0, _⟩ => rfl | ⟨1, _⟩ => rfl)
theorem ridx_v167 (r : Fin 20000) (j : Fin 256) (k : Fin 256) : ridx_main_v167 (ix2 r j) k = ix2 k j :=
  funext fun a => Fin.ext (by match a with | ⟨0, _⟩ => rfl | ⟨1, _⟩ => rfl)
theorem lidx_v171 (r : Fin 20000) (j : Fin 256) (k : Fin 256) : lidx_main_v171 (ix2 r j) k = ix2 r k :=
  funext fun a => Fin.ext (by match a with | ⟨0, _⟩ => rfl | ⟨1, _⟩ => rfl)
theorem ridx_v171 (r : Fin 20000) (j : Fin 256) (k : Fin 256) : ridx_main_v171 (ix2 r j) k = ix2 k j :=
  funext fun a => Fin.ext (by match a with | ⟨0, _⟩ => rfl | ⟨1, _⟩ => rfl)
theorem idx_v169 (r : Fin 20000) (j : Fin 256) : idx_main_v169 (ix2 r j) = ix2 (0 : Fin 1) j :=
  funext fun a => Fin.ext (by match a with | ⟨0, _⟩ => rfl | ⟨1, _⟩ => rfl)

/-- The keyword result: at `(r, j)` the stage is `Σ_k mean[r,k]·wl[k,j] + bl[0,j] + Σ_k xd[r,k]·wr[k,j]`, its five operand
    stages kept as they are. -/
theorem v172_at (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (x14 : (⟨S4x256x256, .f32⟩ : BufTy).Contents (Elt Ideal)) (x15 : (⟨S4x256, .f32⟩ : BufTy).Contents (Elt Ideal)) (x16 : (⟨S4x256x256, .f32⟩ : BufTy).Contents (Elt Ideal)) (r : Fin 20000) (j : Fin 256) :
    val_main_v172 (F := Ideal) x0 x1 x2 x3 x4 x5 x6 x7 x8 x9 x10 x11 x12 x13 x14 x15 x16 (ix2 r j)
      = Rows.sageAt false (val_main_v166 (F := Ideal) x0 x1 x2 x3 x4 x5 x6 x7 x8 x9 x10 x11 x12 x13) (val_main_v141 (F := Ideal) x0 x1 x3 x4 x7 x8 x9 x11 x12 x13) (val_main_v144 (F := Ideal) x14) (val_main_v168 (F := Ideal) x15) (val_main_v148 (F := Ideal) x16) r j := by
  rw [val_main_v172_apply, val_main_v170_apply, val_main_v167_apply, val_main_v169_apply, val_main_v171_apply, idx_v169]
  generalize val_main_v166 (F := Ideal) x0 x1 x2 x3 x4 x5 x6 x7 x8 x9 x10 x11 x12 x13 = mean
  generalize val_main_v141 (F := Ideal) x0 x1 x3 x4 x7 x8 x9 x11 x12 x13 = xd
  generalize val_main_v144 (F := Ideal) x14 = wl
  generalize val_main_v168 (F := Ideal) x15 = bl
  generalize val_main_v148 (F := Ideal) x16 = wr
  simp only [lidx_v167, ridx_v167, lidx_v171, ridx_v171, Ideal.addf_def]
  rfl

/-- The keyword result is the news→keyword update of layer 2. -/
theorem v172_eq_sage (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (x14 : (⟨S4x256x256, .f32⟩ : BufTy).Contents (Elt Ideal)) (x15 : (⟨S4x256, .f32⟩ : BufTy).Contents (Elt Ideal)) (x16 : (⟨S4x256x256, .f32⟩ : BufTy).Contents (Elt Ideal)) :
    val_main_v172 (F := Ideal) x0 x1 x2 x3 x4 x5 x6 x7 x8 x9 x10 x11 x12 x13 x14 x15 x16
      = Rows.sage false (val_main_v166 (F := Ideal) x0 x1 x2 x3 x4 x5 x6 x7 x8 x9 x10 x11 x12 x13) (val_main_v141 (F := Ideal) x0 x1 x3 x4 x7 x8 x9 x11 x12 x13) (val_main_v144 (F := Ideal) x14) (val_main_v168 (F := Ideal) x15) (val_main_v148 (F := Ideal) x16) := by
  funext i
  obtain ⟨r, j, rfl⟩ : ∃ (r : Fin 20000) (j : Fin 256), i = ix2 r j := ⟨i 0, i 1, eq_ix2 i⟩
  rw [Rows.sage_ix2]
  exact v172_at x0 x1 x2 x3 x4 x5 x6 x7 x8 x9 x10 x11 x12 x13 x14 x15 x16 r j

/-- The index functions of the two `3000×256` by `256×256` products and of the bias row of stage 263. -/
theorem lidx_v258 (r : Fin 3000) (j : Fin 256) (k : Fin 256) : lidx_main_v258 (ix2 r j) k = ix2 r k :=
  funext fun a => Fin.ext (by match a with | ⟨0, _⟩ => rfl | ⟨1, _⟩ => rfl)
theorem ridx_v258 (r : Fin 3000) (j : Fin 256) (k : Fin 256) : ridx_main_v258 (ix2 r j) k = ix2 k j :=
  funext fun a => Fin.ext (by match a with | ⟨0, _⟩ => rfl | ⟨1, _⟩ => rfl)
theorem lidx_v262 (r : Fin 3000) (j : Fin 256) (k : Fin 256) : lidx_main_v262 (ix2 r j) k = ix2 r k :=
  funext fun a => Fin.ext (by match a with | ⟨0, _⟩ => rfl | ⟨1, _⟩ => rfl)
theorem ridx_v262 (r : Fin 3000) (j : Fin 256) (k : Fin 256) : ridx_main_v262 (ix2 r j) k = ix2 k j :=
  funext fun a => Fin.ext (by match a with | ⟨0, _⟩ => rfl | ⟨1, _⟩ => rfl)
theorem idx_v260 (r : Fin 3000) (j : Fin 256) : idx_main_v260 (ix2 r j) = ix2 (0 : Fin 1) j :=
  funext fun a => Fin.ext (by match a with | ⟨0, _⟩ => rfl | ⟨1, _⟩ => rfl)

/-- The stock result: at `(r, j)` the stage is `Σ_k mean[r,k]·wl[k,j] + bl[0,j] + Σ_k xd[r,k]·wr[k,j]`, its five operand
    stages kept as they are. -/
theorem v263_at (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (x14 : (⟨S4x256x256, .f32⟩ : BufTy).Contents (Elt Ideal)) (x15 : (⟨S4x256, .f32⟩ : BufTy).Contents (Elt Ideal)) (x16 : (⟨S4x256x256, .f32⟩ : BufTy).Contents (Elt Ideal)) (r : Fin 3000) (j : Fin 256) :
    val_main_v263 (F := Ideal) x0 x1 x2 x3 x4 x5 x6 x7 x8 x9 x10 x11 x12 x13 x14 x15 x16 (ix2 r j)
      = Rows.sageAt false (val_main_v257 (F := Ideal) x0 x1 x2 x3 x4 x5 x6 x7 x8 x9 x10 x11 x12 x13) (val_main_v142 (F := Ideal) x0 x2 x5 x6 x7 x8 x10 x11 x12 x13) (val_main_v235 (F := Ideal) x14) (val_main_v259 (F := Ideal) x15) (val_main_v239 (F := Ideal) x16) r j := by
  rw [val_main_v263_apply, val_main_v261_apply, val_main_v258_apply, val_main_v260_apply, val_main_v262_apply, idx_v260]
  generalize val_main_v257 (F := Ideal) x0 x1 x2 x3 x4 x5 x6 x7 x8 x9 x10 x11 x12 x13 = mean
  generalize val_main_v142 (F := Ideal) x0 x2 x5 x6 x7 x8 x10 x11 x12 x13 = xd
  generalize val_main_v235 (F := Ideal) x14 = wl
  generalize val_main_v259 (F := Ideal) x15 = bl
  generalize val_main_v239 (F := Ideal) x16 = wr
  simp only [lidx_v258, ridx_v258, lidx_v262, ridx_v262, Ideal.addf_def]
  rfl

/-- The stock result is the news→stock update of layer 2. -/
theorem v263_eq_sage (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (x14 : (⟨S4x256x256, .f32⟩ : BufTy).Contents (Elt Ideal)) (x15 : (⟨S4x256, .f32⟩ : BufTy).Contents (Elt Ideal)) (x16 : (⟨S4x256x256, .f32⟩ : BufTy).Contents (Elt Ideal)) :
    val_main_v263 (F := Ideal) x0 x1 x2 x3 x4 x5 x6 x7 x8 x9 x10 x11 x12 x13 x14 x15 x16
      = Rows.sage false (val_main_v257 (F := Ideal) x0 x1 x2 x3 x4 x5 x6 x7 x8 x9 x10 x11 x12 x13) (val_main_v142 (F := Ideal) x0 x2 x5 x6 x7 x8 x10 x11 x12 x13) (val_main_v235 (F := Ideal) x14) (val_main_v259 (F := Ideal) x15) (val_main_v239 (F := Ideal) x16) := by
  funext i
  obtain ⟨r, j, rfl⟩ : ∃ (r : Fin 3000) (j : Fin 256), i = ix2 r j := ⟨i 0, i 1, eq_ix2 i⟩
  rw [Rows.sage_ix2]
  exact v263_at x0 x1 x2 x3 x4 x5 x6 x7 x8 x9 x10 x11 x12 x13 x14 x15 x16 r j

end Cert.ReferenceIdeal.Stages

end
-- ==== Proof.RefLayer1News.lean ====
/-
  The reference's first-layer news update, entry by entry.

  The news table receives two relations, keyword→news and stock→news, both rooted at the encoded news features.
  Each is `mean · wl + bias row + h · wr` (`Rows.sageAt false` at `(r, j)`); the two are added and the sum takes
  `max (·, 0)`.  The operand stages (the two neighbour means, the encoder's output, the weight slices) are never opened.
-/
import proofs.«146827_j53558242181513_2_alg».proof.Proof.RefReadP
import proofs.«146827_j53558242181513_2_alg».proof.Proof.Rows

noncomputable section

namespace Cert.ReferenceIdeal.Stages

open Cert.ReferenceIdeal Cert.ReferenceIdeal.Gen Cert.ReferenceIdeal.ReadP Idealize.ShloMosaic Idealize.ShloMosaic.ValueIdx

/-- The index functions of the two `100000×256` by `256×256` products and of the bias row of stage 78. -/
theorem lidx_v73 (r : Fin 100000) (j : Fin 256) (k : Fin 256) : lidx_main_v73 (ix2 r j) k = ix2 r k :=
  funext fun a => Fin.ext (by match a with | ⟨0, _⟩ => rfl | ⟨1, _⟩ => rfl)
theorem ridx_v73 (r : Fin 100000) (j : Fin 256) (k : Fin 256) : ridx_main_v73 (ix2 r j) k = ix2 k j :=
  funext fun a => Fin.ext (by match a with | ⟨0, _⟩ => rfl | ⟨1, _⟩ => rfl)
theorem lidx_v77 (r : Fin 100000) (j : Fin 256) (k : Fin 256) : lidx_main_v77 (ix2 r j) k = ix2 r k :=
  funext fun a => Fin.ext (by match a with | ⟨0, _⟩ => rfl | ⟨1, _⟩ => rfl)
theorem ridx_v77 (r : Fin 100000) (j : Fin 256) (k : Fin 256) : ridx_main_v77 (ix2 r j) k = ix2 k j :=
  funext fun a => Fin.ext (by match a with | ⟨0, _⟩ => rfl | ⟨1, _⟩ => rfl)
theorem idx_v75 (r : Fin 100000) (j : Fin 256) : idx_main_v75 (ix2 r j) = ix2 (0 : Fin 1) j :=
  funext fun a => Fin.ext (by match a with | ⟨0, _⟩ => rfl | ⟨1, _⟩ => rfl)

/-- The keyword→news update: at `(r, j)` the stage is `Σ_k mean[r,k]·wl[k,j] + bl[0,j] + Σ_k xd[r,k]·wr[k,j]`, its five operand
    stages kept as they are. -/
theorem v78_at (x0 : (⟨S100000x768, .f32⟩ : BufTy).Contents (Elt Ideal)) (x1 : (⟨S20000, .i32⟩ : BufTy).Contents (Elt Ideal)) (x3 : (⟨S320000, .i32⟩ : BufTy).Contents (Elt Ideal)) (x4 : (⟨S320000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (r : Fin 100000) (j : Fin 256) :
    val_main_v78 (F := Ideal) x0 x1 x3 x4 x7 x8 x9 x11 x12 x13 (ix2 r j)
      = Rows.sageAt false (val_main_v72 (F := Ideal) x1 x3 x4 x9) (val_main_v4 (F := Ideal) x0 x7 x8) (val_main_v50 (F := Ideal) x11) (val_main_v74 (F := Ideal) x12) (val_main_v54 (F := Ideal) x13) r j := by
  rw [val_main_v78_apply, val_main_v76_apply, val_main_v73_apply, val_main_v75_apply, val_main_v77_apply, idx_v75]
  generalize val_main_v72 (F := Ideal) x1 x3 x4 x9 = mean
  generalize val_main_v4 (F := Ideal) x0 x7 x8 = xd
  generalize val_main_v50 (F := Ideal) x11 = wl
  generalize val_main_v74 (F := Ideal) x12 = bl
  generalize val_main_v54 (F := Ideal) x13 = wr
  simp only [lidx_v73, ridx_v73, lidx_v77, ridx_v77, Ideal.addf_def]
  rfl

/-- The index functions of the two `100000×256` by `256×256` products and of the bias row of stage 108. -/
theorem lidx_v103 (r : Fin 100000) (j : Fin 256) (k : Fin 256) : lidx_main_v103 (ix2 r j) k = ix2 r k :=
  funext fun a => Fin.ext (by match a with | ⟨0, _⟩ => rfl | ⟨1, _⟩ => rfl)
theorem ridx_v103 (r : Fin 100000) (j : Fin 256) (k : Fin 256) : ridx_main_v103 (ix2 r j) k = ix2 k j :=
  funext fun a => Fin.ext (by match a with | ⟨0, _⟩ => rfl | ⟨1, _⟩ => rfl)
theorem lidx_v107 (r : Fin 100000) (j : Fin 256) (k : Fin 256) : lidx_main_v107 (ix2 r j) k = ix2 r k :=
  funext fun a => Fin.ext (by match a with | ⟨0, _⟩ => rfl | ⟨1, _⟩ => rfl)
theorem ridx_v107 (r : Fin 100000) (j : Fin 256) (k : Fin 256) : ridx_main_v107 (ix2 r j) k = ix2 k j :=
  funext fun a => Fin.ext (by match a with | ⟨0, _⟩ => rfl | ⟨1, _⟩ => rfl)
theorem idx_v105 (r : Fin 100000) (j : Fin 256) : idx_main_v105 (ix2 r j) = ix2 (0 : Fin 1) j :=
  funext fun a => Fin.ext (by match a with | ⟨0, _⟩ => rfl | ⟨1, _⟩ => rfl)

/-- The stock→news update: at `(r, j)` the stage is `Σ_k mean[r,k]·wl[k,j] + bl[0,j] + Σ_k xd[r,k]·wr[k,j]`, its five operand
    stages kept as they are. -/
theorem v108_at (x0 : (⟨S100000x768, .f32⟩ : BufTy).Contents (Elt Ideal)) (x2 : (⟨S3000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (r : Fin 100000) (j : Fin 256) :
    val_main_v108 (F := Ideal) x0 x2 x5 x6 x7 x8 x10 x11 x12 x13 (ix2 r j)
      = Rows.sageAt false (val_main_v102 (F := Ideal) x2 x5 x6 x10) (val_main_v4 (F := Ideal) x0 x7 x8) (val_main_v80 (F := Ideal) x11) (val_main_v104 (F := Ideal) x12) (val_main_v84 (F := Ideal) x13) r j := by
  rw [val_main_v108_apply, val_main_v106_apply, val_main_v103_apply, val_main_v105_apply, val_main_v107_apply, idx_v105]
  generalize val_main_v102 (F := Ideal) x2 x5 x6 x10 = mean
  generalize val_main_v4 (F := Ideal) x0 x7 x8 = xd
  generalize val_main_v80 (F := Ideal) x11 = wl
  generalize val_main_v104 (F := Ideal) x12 = bl
  generalize val_main_v84 (F := Ideal) x13 = wr
  simp only [lidx_v103, ridx_v103, lidx_v107, ridx_v107, Ideal.addf_def]
  rfl

/-- The news features after layer 1: the sum of the two relations' updates followed by `max (·, 0)`, at `(r, j)`. -/
theorem v140_eq_at (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (r : Fin 100000) (j : Fin 256) :
    val_main_v140 (F := Ideal) x0 x1 x2 x3 x4 x5 x6 x7 x8 x9 x10 x11 x12 x13 (ix2 r j)
      = Rows.act true (Rows.sageAt false (val_main_v72 (F := Ideal) x1 x3 x4 x9) (val_main_v4 (F := Ideal) x0 x7 x8) (val_main_v50 (F := Ideal) x11) (val_main_v74 (F := Ideal) x12) (val_main_v54 (F := Ideal) x13) r j
          + Rows.sageAt false (val_main_v102 (F := Ideal) x2 x5 x6 x10) (val_main_v4 (F := Ideal) x0 x7 x8) (val_main_v80 (F := Ideal) x11) (val_main_v104 (F := Ideal) x12) (val_main_v84 (F := Ideal) x13) r j) := by
  rw [val_main_v140_apply, val_main_call1_v0_apply, val_main_call1_cst_apply, val_main_v109_apply, v78_at, v108_at]
  simp only [Ideal.maximumf_def, Ideal.addf_def, Ideal.ofBits_def, Ideal.ofBits_zero_f32]
  rfl

/-- The news features after layer 1: the sum of the two relations' updates followed by `max (·, 0)`, as a table. -/
theorem v140_eq (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) :
    val_main_v140 (F := Ideal) x0 x1 x2 x3 x4 x5 x6 x7 x8 x9 x10 x11 x12 x13
      = fun i => Rows.act true (Rows.sageAt false (val_main_v72 (F := Ideal) x1 x3 x4 x9) (val_main_v4 (F := Ideal) x0 x7 x8) (val_main_v50 (F := Ideal) x11) (val_main_v74 (F := Ideal) x12) (val_main_v54 (F := Ideal) x13) (i 0) (i 1)
          + Rows.sageAt false (val_main_v102 (F := Ideal) x2 x5 x6 x10) (val_main_v4 (F := Ideal) x0 x7 x8) (val_main_v80 (F := Ideal) x11) (val_main_v104 (F := Ideal) x12) (val_main_v84 (F := Ideal) x13) (i 0) (i 1)) := by
  funext i
  obtain ⟨r, j, rfl⟩ : ∃ (r : Fin 100000) (j : Fin 256), i = ix2 r j := ⟨i 0, i 1, eq_ix2 i⟩
  exact v140_eq_at x0 x1 x2 x3 x4 x5 x6 x7 x8 x9 x10 x11 x12 x13 r j

end Cert.ReferenceIdeal.Stages

end
-- ==== Proof.RefLayer2News.lean ====
/-
  The reference's second-layer news result, entry by entry.

  The news result is the sum of the keyword→news and stock→news updates of layer 2, both rooted at the layer-1 news
  features; each is `mean · wl + bias row + h · wr` (`Rows.sageAt false` at `(r, j)`), and there is no activation.
  The operand stages are never opened.
-/
import proofs.«146827_j53558242181513_2_alg».proof.Proof.RefReadP
import proofs.«146827_j53558242181513_2_alg».proof.Proof.Rows

noncomputable section

namespace Cert.ReferenceIdeal.Stages

open Cert.ReferenceIdeal Cert.ReferenceIdeal.Gen Cert.ReferenceIdeal.ReadP Idealize.ShloMosaic Idealize.ShloMosaic.ValueIdx

/-- The index functions of the two `100000×256` by `256×256` products and of the bias row of stage 202. -/
theorem lidx_v197 (r : Fin 100000) (j : Fin 256) (k : Fin 256) : lidx_main_v197 (ix2 r j) k = ix2 r k :=
  funext fun a => Fin.ext (by match a with | ⟨0, _⟩ => rfl | ⟨1, _⟩ => rfl)
theorem ridx_v197 (r : Fin 100000) (j : Fin 256) (k : Fin 256) : ridx_main_v197 (ix2 r j) k = ix2 k j :=
  funext fun a => Fin.ext (by match a with | ⟨0, _⟩ => rfl | ⟨1, _⟩ => rfl)
theorem lidx_v201 (r : Fin 100000) (j : Fin 256) (k : Fin 256) : lidx_main_v201 (ix2 r j) k = ix2 r k :=
  funext fun a => Fin.ext (by match a with | ⟨0, _⟩ => rfl | ⟨1, _⟩ => rfl)
theorem ridx_v201 (r : Fin 100000) (j : Fin 256) (k : Fin 256) : ridx_main_v201 (ix2 r j) k = ix2 k j :=
  funext fun a => Fin.ext (by match a with | ⟨0, _⟩ => rfl | ⟨1, _⟩ => rfl)
theorem idx_v199 (r : Fin 100000) (j : Fin 256) : idx_main_v199 (ix2 r j) = ix2 (0 : Fin 1) j :=
  funext fun a => Fin.ext (by match a with | ⟨0, _⟩ => rfl | ⟨1, _⟩ => rfl)

/-- The keyword→news update of layer 2: at `(r, j)` the stage is `Σ_k mean[r,k]·wl[k,j] + bl[0,j] + Σ_k xd[r,k]·wr[k,j]`, its five operand
    stages kept as they are. -/
theorem v202_at (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (x14 : (⟨S4x256x256, .f32⟩ : BufTy).Contents (Elt Ideal)) (x15 : (⟨S4x256, .f32⟩ : BufTy).Contents (Elt Ideal)) (x16 : (⟨S4x256x256, .f32⟩ : BufTy).Contents (Elt Ideal)) (r : Fin 100000) (j : Fin 256) :
    val_main_v202 (F := Ideal) x0 x1 x2 x3 x4 x5 x6 x7 x8 x9 x10 x11 x12 x13 x14 x15 x16 (ix2 r j)
      = Rows.sageAt false (val_main_v196 (F := Ideal) x0 x1 x3 x4 x7 x8 x9 x11 x12 x13) (val_main_v140 (F := Ideal) x0 x1 x2 x3 x4 x5 x6 x7 x8 x9 x10 x11 x12 x13) (val_main_v174 (F := Ideal) x14) (val_main_v198 (F := Ideal) x15) (val_main_v178 (F := Ideal) x16) r j := by
  rw [val_main_v202_apply, val_main_v200_apply, val_main_v197_apply, val_main_v199_apply, val_main_v201_apply, idx_v199]
  generalize val_main_v196 (F := Ideal) x0 x1 x3 x4 x7 x8 x9 x11 x12 x13 = mean
  generalize val_main_v140 (F := Ideal) x0 x1 x2 x3 x4 x5 x6 x7 x8 x9 x10 x11 x12 x13 = xd
  generalize val_main_v174 (F := Ideal) x14 = wl
  generalize val_main_v198 (F := Ideal) x15 = bl
  generalize val_main_v178 (F := Ideal) x16 = wr
  simp only [lidx_v197, ridx_v197, lidx_v201, ridx_v201, Ideal.addf_def]
  rfl

/-- The index functions of the two `100000×256` by `256×256` products and of the bias row of stage 232. -/
theorem lidx_v227 (r : Fin 100000) (j : Fin 256) (k : Fin 256) : lidx_main_v227 (ix2 r j) k = ix2 r k :=
  funext fun a => Fin.ext (by match a with | ⟨0, _⟩ => rfl | ⟨1, _⟩ => rfl)
theorem ridx_v227 (r : Fin 100000) (j : Fin 256) (k : Fin 256) : ridx_main_v227 (ix2 r j) k = ix2 k j :=
  funext fun a => Fin.ext (by match a with | ⟨0, _⟩ => rfl | ⟨1, _⟩ => rfl)
theorem lidx_v231 (r : Fin 100000) (j : Fin 256) (k : Fin 256) : lidx_main_v231 (ix2 r j) k = ix2 r k :=
  funext fun a => Fin.ext (by match a with | ⟨0, _⟩ => rfl | ⟨1, _⟩ => rfl)
theorem ridx_v231 (r : Fin 100000) (j : Fin 256) (k : Fin 256) : ridx_main_v231 (ix2 r j) k = ix2 k j :=
  funext fun a => Fin.ext (by match a with | ⟨0, _⟩ => rfl | ⟨1, _⟩ => rfl)
theorem idx_v229 (r : Fin 100000) (j : Fin 256) : idx_main_v229 (ix2 r j) = ix2 (0 : Fin 1) j :=
  funext fun a => Fin.ext (by match a with | ⟨0, _⟩ => rfl | ⟨1, _⟩ => rfl)

/-- The stock→news update of layer 2: at `(r, j)` the stage is `Σ_k mean[r,k]·wl[k,j] + bl[0,j] + Σ_k xd[r,k]·wr[k,j]`, its five operand
    stages kept as they are. -/
theorem v232_at (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (x14 : (⟨S4x256x256, .f32⟩ : BufTy).Contents (Elt Ideal)) (x15 : (⟨S4x256, .f32⟩ : BufTy).Contents (Elt Ideal)) (x16 : (⟨S4x256x256, .f32⟩ : BufTy).Contents (Elt Ideal)) (r : Fin 100000) (j : Fin 256) :
    val_main_v232 (F := Ideal) x0 x1 x2 x3 x4 x5 x6 x7 x8 x9 x10 x11 x12 x13 x14 x15 x16 (ix2 r j)
      = Rows.sageAt false (val_main_v226 (F := Ideal) x0 x2 x5 x6 x7 x8 x10 x11 x12 x13) (val_main_v140 (F := Ideal) x0 x1 x2 x3 x4 x5 x6 x7 x8 x9 x10 x11 x12 x13) (val_main_v204 (F := Ideal) x14) (val_main_v228 (F := Ideal) x15) (val_main_v208 (F := Ideal) x16) r j := by
  rw [val_main_v232_apply, val_main_v230_apply, val_main_v227_apply, val_main_v229_apply, val_main_v231_apply, idx_v229]
  generalize val_main_v226 (F := Ideal) x0 x2 x5 x6 x7 x8 x10 x11 x12 x13 = mean
  generalize val_main_v140 (F := Ideal) x0 x1 x2 x3 x4 x5 x6 x7 x8 x9 x10 x11 x12 x13 = xd
  generalize val_main_v204 (F := Ideal) x14 = wl
  generalize val_main_v228 (F := Ideal) x15 = bl
  generalize val_main_v208 (F := Ideal) x16 = wr
  simp only [lidx_v227, ridx_v227, lidx_v231, ridx_v231, Ideal.addf_def]
  rfl

/-- The news result: the sum of the two relations' updates of layer 2, at `(r, j)`. -/
theorem v233_eq_at (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (x14 : (⟨S4x256x256, .f32⟩ : BufTy).Contents (Elt Ideal)) (x15 : (⟨S4x256, .f32⟩ : BufTy).Contents (Elt Ideal)) (x16 : (⟨S4x256x256, .f32⟩ : BufTy).Contents (Elt Ideal)) (r : Fin 100000) (j : Fin 256) :
    val_main_v233 (F := Ideal) x0 x1 x2 x3 x4 x5 x6 x7 x8 x9 x10 x11 x12 x13 x14 x15 x16 (ix2 r j)
      = (Rows.sageAt false (val_main_v196 (F := Ideal) x0 x1 x3 x4 x7 x8 x9 x11 x12 x13) (val_main_v140 (F := Ideal) x0 x1 x2 x3 x4 x5 x6 x7 x8 x9 x10 x11 x12 x13) (val_main_v174 (F := Ideal) x14) (val_main_v198 (F := Ideal) x15) (val_main_v178 (F := Ideal) x16) r j
          + Rows.sageAt false (val_main_v226 (F := Ideal) x0 x2 x5 x6 x7 x8 x10 x11 x12 x13) (val_main_v140 (F := Ideal) x0 x1 x2 x3 x4 x5 x6 x7 x8 x9 x10 x11 x12 x13) (val_main_v204 (F := Ideal) x14) (val_main_v228 (F := Ideal) x15) (val_main_v208 (F := Ideal) x16) r j) := by
  rw [val_main_v233_apply, v202_at, v232_at]
  rfl

/-- The news result: the sum of the two relations' updates of layer 2, as a table. -/
theorem v233_eq (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (x14 : (⟨S4x256x256, .f32⟩ : BufTy).Contents (Elt Ideal)) (x15 : (⟨S4x256, .f32⟩ : BufTy).Contents (Elt Ideal)) (x16 : (⟨S4x256x256, .f32⟩ : BufTy).Contents (Elt Ideal)) :
    val_main_v233 (F := Ideal) x0 x1 x2 x3 x4 x5 x6 x7 x8 x9 x10 x11 x12 x13 x14 x15 x16
      = fun i => (Rows.sageAt false (val_main_v196 (F := Ideal) x0 x1 x3 x4 x7 x8 x9 x11 x12 x13) (val_main_v140 (F := Ideal) x0 x1 x2 x3 x4 x5 x6 x7 x8 x9 x10 x11 x12 x13) (val_main_v174 (F := Ideal) x14) (val_main_v198 (F := Ideal) x15) (val_main_v178 (F := Ideal) x16) (i 0) (i 1)
          + Rows.sageAt false (val_main_v226 (F := Ideal) x0 x2 x5 x6 x7 x8 x10 x11 x12 x13) (val_main_v140 (F := Ideal) x0 x1 x2 x3 x4 x5 x6 x7 x8 x9 x10 x11 x12 x13) (val_main_v204 (F := Ideal) x14) (val_main_v228 (F := Ideal) x15) (val_main_v208 (F := Ideal) x16) (i 0) (i 1)) := by
  funext i
  obtain ⟨r, j, rfl⟩ : ∃ (r : Fin 100000) (j : Fin 256), i = ix2 r j := ⟨i 0, i 1, eq_ix2 i⟩
  exact v233_eq_at x0 x1 x2 x3 x4 x5 x6 x7 x8 x9 x10 x11 x12 x13 x14 x15 x16 r j

end Cert.ReferenceIdeal.Stages

end
-- ==== Proof.LibReal.lean ====
/-
  Real-valuedness of array operations on the extended reals.

  An array of extended reals is REAL when every entry is a real number (`Cert.Rows.AllReal`). This module
  collects, for the operations a host program is made of, the facts by which realness (or any other property
  of the entries) passes from the operands of an operation to its result:

  * operations that only MOVE entries (broadcast, reshape, slice, gather, concatenate): every entry of the result
    is an entry of an operand (`*_mem`), so every property of all the operand's entries holds of all the
    result's (`*_forall`);
  * entrywise arithmetic (sum, difference, product, maximum, power, square root, quotient, exponential): the
    result of real operands is real, the square root and the quotient away from the corners of their domains;
  * contractions and accumulating scatters: a finite sum of products, or of entries, of reals is real;
  * the single-precision constants `0`, `1`, `-1/2` as reals and `1e-5` as a positive real.
-/
import Idealize.ShloMosaic.PureOps.Ideal
import Idealize.ShloMosaic.PureOps.Ideal.Laws
import Idealize.ShloMosaic.PureOps.ShapeOps
import Idealize.ShloMosaic.PureOps.Vector
import Idealize.ShloMosaic.PureOps.Contract
import proofs.«146827_j53558242181513_2_alg».proof.Proof.Rows

noncomputable section

open scoped BigOperators

namespace Cert.LibReal

open Idealize.ShloMosaic Cert.Rows

/-! ### Operations that move entries -/

section Move
variable {α : Type} {s t : Shape}

/-- If every entry of `y` is an entry of `x`, whatever holds of all entries of `x` holds of all of `y`. -/
theorem forall_of_mem {ι κ : Type} {x : ι → α} {y : κ → α} (hm : ∀ j, ∃ i, y j = x i) {P : α → Prop}
    (hx : ∀ i, P (x i)) : ∀ j, P (y j) := fun j => by
  obtain ⟨i, hi⟩ := hm j
  rw [hi]; exact hx i

/-- Every entry of a broadcast is an entry of its operand. -/
theorem broadcastInDim_mem (dims : Fin s.rank → Fin t.rank) (h : s.BroadcastsInDim t dims) (x : s.Idx → α) :
    ∀ j, ∃ i, broadcastInDim t dims h x j = x i := fun _ => ⟨_, rfl⟩

/-- Every entry of a reshaped array is an entry of its operand. -/
theorem shapeCast_mem (x : s.Idx → α) (h : s.ShapeCasts t) : ∀ j, ∃ i, shapeCast t x h j = x i :=
  fun _ => ⟨_, rfl⟩

/-- Every entry of a slice is an entry of its operand. -/
theorem extractStridedSlice_mem (off : Fin s.rank → Nat) (x : s.Idx → α) (h : s.Slices off t) :
    ∀ j, ∃ i, extractStridedSlice t off x h j = x i := fun _ => ⟨_, rfl⟩

/-- Every entry of a gather is an entry of its operand (the start indices are clamped into the operand). -/
theorem gather_mem {si : Shape} {w : Nat} (d : GatherDims s si t) (x : s.Idx → α) (idx : IVec si w) :
    ∀ j, ∃ i, Host.gather d x idx j = x i := fun _ => ⟨_, rfl⟩

/-- Every entry of a concatenation is an entry of one of the concatenated arrays. -/
theorem concatenate_mem (a : Fin t.rank) (xs : List ((s : Shape) × (s.Idx → α)))
    (h : Shape.Concatenates (xs.map (·.1)) t a) :
    ∀ j, ∃ p ∈ xs, ∃ i, concatenate t a xs h j = p.2 i := fun _ => ⟨_, List.getElem_mem _, _, rfl⟩

/-- What holds of all entries of the operand holds of all entries of its broadcast. -/
theorem broadcastInDim_forall (dims : Fin s.rank → Fin t.rank) (h : s.BroadcastsInDim t dims) (x : s.Idx → α)
    {P : α → Prop} (hx : ∀ i, P (x i)) : ∀ j, P (broadcastInDim t dims h x j) :=
  forall_of_mem (broadcastInDim_mem dims h x) hx

/-- What holds of all entries of the operand holds of all entries of its reshape. -/
theorem shapeCast_forall (x : s.Idx → α) (h : s.ShapeCasts t) {P : α → Prop} (hx : ∀ i, P (x i)) :
    ∀ j, P (shapeCast t x h j) :=
  forall_of_mem (shapeCast_mem x h) hx

/-- What holds of all entries of the operand holds of all entries of a slice of it. -/
theorem extractStridedSlice_forall (off : Fin s.rank → Nat) (x : s.Idx → α) (h : s.Slices off t) {P : α → Prop}
    (hx : ∀ i, P (x i)) : ∀ j, P (extractStridedSlice t off x h j) :=
  forall_of_mem (extractStridedSlice_mem off x h) hx

/-- What holds of all entries of the operand holds of all entries gathered from it. -/
theorem gather_forall {si : Shape} {w : Nat} (d : GatherDims s si t) (x : s.Idx → α) (idx : IVec si w)
    {P : α → Prop} (hx : ∀ i, P (x i)) : ∀ j, P (Host.gather d x idx j) :=
  forall_of_mem (gather_mem d x idx) hx

/-- What holds of all entries of two arrays holds of all entries of their concatenation. -/
theorem concatenate2_forall (a : Fin t.rank) {s₁ s₂ : Shape} (x₁ : s₁.Idx → α) (x₂ : s₂.Idx → α)
    (h : Shape.Concatenates (([⟨s₁, x₁⟩, ⟨s₂, x₂⟩] : List ((s : Shape) × (s.Idx → α))).map (·.1)) t a) {P : α → Prop}
    (h₁ : ∀ i, P (x₁ i)) (h₂ : ∀ i, P (x₂ i)) : ∀ j, P (concatenate t a [⟨s₁, x₁⟩, ⟨s₂, x₂⟩] h j) := fun j => by
  obtain ⟨p, hp, i, hi⟩ := concatenate_mem a [⟨s₁, x₁⟩, ⟨s₂, x₂⟩] h j
  rw [hi]
  rcases List.mem_pair.mp hp with rfl | rfl
  · exact h₁ i
  · exact h₂ i

end Move

/-! ### Constants -/

/-- The pattern of `+0.0` denotes the real `0`. -/
theorem ofBits_zero : Ideal.ofBits .f32 0x00000000#32 = ((0 : ℝ) : EReal) := by
  simp [Ideal.ofBits, Ideal.ieee]

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- The pattern of the single-precision `1e-5` denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-! ### Entrywise arithmetic -/

section Pointwise
variable {s : Shape} {φ : FTy}

/-- An array whose entries are all one real constant is real. -/
theorem allReal_constant (b : BitVec φ.bits) (h : ∃ r : ℝ, Ideal.ofBits φ b = (r : EReal)) :
    AllReal (constant (F := Ideal) s φ b) := fun _ => h

/-- The sum of two real arrays is real. -/
theorem allReal_addf {x y : FVec Ideal s φ} (hx : AllReal x) (hy : AllReal y) : AllReal (addf x y) := fun i => by
  obtain ⟨a, ha⟩ := hx i
  obtain ⟨b, hb⟩ := hy i
  exact ⟨a + b, by show x i + y i = _; rw [ha, hb, EReal.coe_add]⟩

/-- The difference of two real arrays is real. -/
theorem allReal_subf {x y : FVec Ideal s φ} (hx : AllReal x) (hy : AllReal y) : AllReal (subf x y) := fun i => by
  obtain ⟨a, ha⟩ := hx i
  obtain ⟨b, hb⟩ := hy i
  exact ⟨a - b, by show x i - y i = _; rw [ha, hb, EReal.coe_sub]⟩

/-- The product of two real arrays is real. -/
theorem allReal_mulf {x y : FVec Ideal s φ} (hx : AllReal x) (hy : AllReal y) : AllReal (mulf x y) := fun i => by
  obtain ⟨a, ha⟩ := hx i
  obtain ⟨b, hb⟩ := hy i
  exact ⟨a * b, by show x i * y i = _; rw [ha, hb, EReal.coe_mul]⟩

/-- The entrywise maximum of two real arrays is real. -/
theorem allReal_maximumf {x y : FVec Ideal s φ} (hx : AllReal x) (hy : AllReal y) : AllReal (maximumf x y) :=
  fun i => by
    obtain ⟨a, ha⟩ := hx i
    obtain ⟨b, hb⟩ := hy i
    exact ⟨max a b, by show max (x i) (y i) = _; rw [ha, hb]; exact (EReal.coe_strictMono.monotone.map_max).symm⟩

/-- A real array raised entrywise to a real array of exponents is real. -/
theorem allReal_powf {x y : FVec Ideal s φ} (hx : AllReal x) (hy : AllReal y) : AllReal (Host.powf x y) := fun i => by
  obtain ⟨a, ha⟩ := hx i
  obtain ⟨b, hb⟩ := hy i
  exact ⟨Real.rpow a b, by show Ideal.pow (x i) (y i) = _; rw [ha, hb]; rfl⟩

/-- The exponential of a real array is real. -/
theorem allReal_exp {x : FVec Ideal s φ} (hx : AllReal x) : AllReal (Host.exp x) := fun i => by
  obtain ⟨a, ha⟩ := hx i
  exact ⟨Real.exp a, by show Ideal.exp (x i) = _; rw [ha]; rfl⟩

/-- Every entry is a nonnegative real. -/
def AllNonneg (v : s.Idx → EReal) : Prop := ∀ i, ∃ r : ℝ, 0 ≤ r ∧ v i = (r : EReal)

/-- Every entry is a positive real. -/
def AllPos (v : s.Idx → EReal) : Prop := ∀ i, ∃ r : ℝ, 0 < r ∧ v i = (r : EReal)

/-- A nonnegative array is real. -/
theorem AllNonneg.allReal {v : s.Idx → EReal} (h : AllNonneg v) : AllReal v := fun i => by
  obtain ⟨r, _, hr⟩ := h i
  exact ⟨r, hr⟩

/-- A positive array is real. -/
theorem AllPos.allReal {v : s.Idx → EReal} (h : AllPos v) : AllReal v := fun i => by
  obtain ⟨r, _, hr⟩ := h i
  exact ⟨r, hr⟩

/-- An array whose entries are all one positive constant is positive. -/
theorem allPos_constant (b : BitVec φ.bits) (h : ∃ r : ℝ, 0 < r ∧ Ideal.ofBits φ b = (r : EReal)) :
    AllPos (constant (F := Ideal) s φ b) := fun _ => h

/-- A nonnegative array plus a positive array is positive. -/
theorem allPos_addf {x y : FVec Ideal s φ} (hx : AllNonneg x) (hy : AllPos y) : AllPos (addf x y) := fun i => by
  obtain ⟨a, ha0, ha⟩ := hx i
  obtain ⟨b, hb0, hb⟩ := hy i
  exact ⟨a + b, by linarith, by show x i + y i = _; rw [ha, hb, EReal.coe_add]⟩

/-- The square root of a positive array is positive. -/
theorem allPos_sqrt {x : FVec Ideal s φ} (hx : AllPos x) : AllPos (Host.sqrt x) := fun i => by
  obtain ⟨a, ha0, ha⟩ := hx i
  refine ⟨Real.sqrt a, Real.sqrt_pos.mpr ha0, ?_⟩
  show Ideal.sqrt (x i) = _
  rw [ha, Ideal.sqrt_coe, if_neg (not_lt.mpr ha0.le)]

/-- A real array divided entrywise by a positive array is real. -/
theorem allReal_divf {x y : FVec Ideal s φ} (hx : AllReal x) (hy : AllPos y) : AllReal (Host.divf x y) := fun i => by
  obtain ⟨a, ha⟩ := hx i
  obtain ⟨b, hb0, hb⟩ := hy i
  exact ⟨a * (1 / b), by show Ideal.div (x i) (y i) = _; rw [ha, hb, Ideal.div_coe hb0.ne', EReal.coe_mul]⟩

end Pointwise

/-! ### Moving entries keeps realness, nonnegativity and positivity -/

section MoveReal
variable {s t : Shape}

/-- A broadcast of a real array is real. -/
theorem allReal_broadcastInDim (dims : Fin s.rank → Fin t.rank) (h : s.BroadcastsInDim t dims) {x : s.Idx → EReal}
    (hx : AllReal x) : AllReal (broadcastInDim t dims h x) :=
  broadcastInDim_forall dims h x (P := fun v => ∃ r : ℝ, v = (r : EReal)) hx

/-- A broadcast of a nonnegative array is nonnegative. -/
theorem allNonneg_broadcastInDim (dims : Fin s.rank → Fin t.rank) (h : s.BroadcastsInDim t dims) {x : s.Idx → EReal}
    (hx : AllNonneg x) : AllNonneg (broadcastInDim t dims h x) :=
  broadcastInDim_forall dims h x (P := fun v => ∃ r : ℝ, 0 ≤ r ∧ v = (r : EReal)) hx

/-- A broadcast of a positive array is positive. -/
theorem allPos_broadcastInDim (dims : Fin s.rank → Fin t.rank) (h : s.BroadcastsInDim t dims) {x : s.Idx → EReal}
    (hx : AllPos x) : AllPos (broadcastInDim t dims h x) :=
  broadcastInDim_forall dims h x (P := fun v => ∃ r : ℝ, 0 < r ∧ v = (r : EReal)) hx

/-- A reshape of a real array is real. -/
theorem allReal_shapeCast {x : s.Idx → EReal} (h : s.ShapeCasts t) (hx : AllReal x) : AllReal (shapeCast t x h) :=
  shapeCast_forall x h (P := fun v => ∃ r : ℝ, v = (r : EReal)) hx

/-- A reshape of a nonnegative array is nonnegative. -/
theorem allNonneg_shapeCast {x : s.Idx → EReal} (h : s.ShapeCasts t) (hx : AllNonneg x) :
    AllNonneg (shapeCast t x h) :=
  shapeCast_forall x h (P := fun v => ∃ r : ℝ, 0 ≤ r ∧ v = (r : EReal)) hx

/-- A reshape of a positive array is positive. -/
theorem allPos_shapeCast {x : s.Idx → EReal} (h : s.ShapeCasts t) (hx : AllPos x) : AllPos (shapeCast t x h) :=
  shapeCast_forall x h (P := fun v => ∃ r : ℝ, 0 < r ∧ v = (r : EReal)) hx

/-- A slice of a real array is real. -/
theorem allReal_slice (off : Fin s.rank → Nat) {x : s.Idx → EReal} (h : s.Slices off t) (hx : AllReal x) :
    AllReal (extractStridedSlice t off x h) :=
  extractStridedSlice_forall off x h (P := fun v => ∃ r : ℝ, v = (r : EReal)) hx

/-- A slice of a nonnegative array is nonnegative. -/
theorem allNonneg_slice (off : Fin s.rank → Nat) {x : s.Idx → EReal} (h : s.Slices off t) (hx : AllNonneg x) :
    AllNonneg (extractStridedSlice t off x h) :=
  extractStridedSlice_forall off x h (P := fun v => ∃ r : ℝ, 0 ≤ r ∧ v = (r : EReal)) hx

/-- A slice of a positive array is positive. -/
theorem allPos_slice (off : Fin s.rank → Nat) {x : s.Idx → EReal} (h : s.Slices off t) (hx : AllPos x) :
    AllPos (extractStridedSlice t off x h) :=
  extractStridedSlice_forall off x h (P := fun v => ∃ r : ℝ, 0 < r ∧ v = (r : EReal)) hx

/-- Entries gathered from a real array are real. -/
theorem allReal_gather {si : Shape} {w : Nat} (d : GatherDims s si t) {x : s.Idx → EReal} (idx : IVec si w)
    (hx : AllReal x) : AllReal (Host.gather d x idx) :=
  gather_forall d x idx (P := fun v => ∃ r : ℝ, v = (r : EReal)) hx

/-- Entries gathered from a nonnegative array are nonnegative. -/
theorem allNonneg_gather {si : Shape} {w : Nat} (d : GatherDims s si t) {x : s.Idx → EReal} (idx : IVec si w)
    (hx : AllNonneg x) : AllNonneg (Host.gather d x idx) :=
  gather_forall d x idx (P := fun v => ∃ r : ℝ, 0 ≤ r ∧ v = (r : EReal)) hx

/-- The concatenation of two real arrays is real. -/
theorem allReal_concatenate2 (a : Fin t.rank) {s₁ s₂ : Shape} {x₁ : s₁.Idx → EReal} {x₂ : s₂.Idx → EReal}
    (h : Shape.Concatenates (([⟨s₁, x₁⟩, ⟨s₂, x₂⟩] : List ((s : Shape) × (s.Idx → EReal))).map (·.1)) t a)
    (h₁ : AllReal x₁) (h₂ : AllReal x₂) : AllReal (concatenate t a [⟨s₁, x₁⟩, ⟨s₂, x₂⟩] h) :=
  concatenate2_forall a x₁ x₂ h (P := fun v => ∃ r : ℝ, v = (r : EReal)) h₁ h₂

end MoveReal

/-! ### Contractions and accumulating scatters -/

/-- A finite sum of real extended reals is real. -/
theorem sum_real {ι : Type} (S : Finset ι) (f : ι → EReal) (hf : ∀ i ∈ S, ∃ r : ℝ, f i = (r : EReal)) :
    ∃ r : ℝ, (∑ i ∈ S, f i) = (r : EReal) := by
  classical
  induction S using Finset.induction_on with
  | empty => exact ⟨0, by simp⟩
  | insert x S hx ih =>
    obtain ⟨a, ha⟩ := hf x (Finset.mem_insert_self x S)
    obtain ⟨b, hb⟩ := ih fun i hi => hf i (Finset.mem_insert_of_mem hi)
    exact ⟨a + b, by rw [Finset.sum_insert hx, ha, hb, EReal.coe_add]⟩

/-- The host's contraction of two real arrays is real: each entry is a finite sum of products of reals. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show ∃ r : ℝ, FloatOps.dotGeneral d prec .single lhs rhs j = (r : EReal)
  rw [Ideal.dotGeneral_apply]
  refine sum_real _ _ fun k _ => ?_
  obtain ⟨a, ha⟩ := hl (d.lhsIdx j k)
  obtain ⟨b, hb⟩ := hr (d.rhsIdx j k)
  exact ⟨a * b, by rw [ha, hb, EReal.coe_mul]⟩

/-- The host's accumulating scatter of real updates into a real array is real: each entry is the operand's plus a
    finite sum of updates. -/
theorem allReal_scatterAdd {s si u : Shape} {w : Nat} {φ : FTy} (d : ScatterDims s si u) {x : FVec Ideal s φ}
    (idx : IVec si w) {upd : FVec Ideal u φ} (hx : AllReal x) (hu : AllReal upd) :
    AllReal (Host.scatterAdd d x idx upd) := fun i => by
  show ∃ r : ℝ, Ideal.hostScatterAdd d x idx upd i = (r : EReal)
  unfold Ideal.hostScatterAdd
  obtain ⟨a, ha⟩ := hx i
  obtain ⟨b, hb⟩ := sum_real (Finset.univ.filter fun j => d.resultIdx? j idx = some i) upd fun j _ => hu j
  exact ⟨a + b, by rw [ha, hb, EReal.coe_add]⟩

end Cert.LibReal

end
-- ==== Proof.RefReal.lean ====
/-
  Which of the reference's tables hold real numbers.

  Distributing a row of features over the sum of two root weight matrices needs every factor real, so the encoded news
  features, the layer-1 news features and the four root weight slices are shown real, from real inputs:
  * moving entries (broadcast, reshape, slice, gather) keeps realness; sums, products, maxima and matrix products of
    real tables are real; an accumulating scatter of real rows into the zero table is real;
  * a neighbour mean is the scattered sum divided by `max (count, 1)`: the count is a real number and the maximum of a
    real with the constant `1` is a positive real, so the quotient is real.
-/
import proofs.«146827_j53558242181513_2_alg».proof.Proof.RefReadP
import proofs.«146827_j53558242181513_2_alg».proof.Proof.Rows
import proofs.«146827_j53558242181513_2_alg».proof.Proof.LibReal

noncomputable section

namespace Cert.ReferenceIdeal.Stages

open Cert.LibReal Cert.ReferenceIdeal Cert.ReferenceIdeal.Gen Cert.ReferenceIdeal.ReadP Idealize.ShloMosaic Idealize.ShloMosaic.ValueIdx

/-- The entrywise maximum of a real array with a positive array is positive. -/
theorem allPos_maximumf {s : Shape} {φ : FTy} {x y : FVec Ideal s φ} (hx : Rows.AllReal x) (hy : AllPos y) :
    AllPos (maximumf x y) := fun i => by
  obtain ⟨a, ha⟩ := hx i
  obtain ⟨b, hb0, hb⟩ := hy i
  exact ⟨max a b, lt_max_of_lt_right hb0,
    by show max (x i) (y i) = _; rw [ha, hb]; exact (EReal.coe_strictMono.monotone.map_max).symm⟩

/-- The constant zero is real. -/
theorem real_cst_10 : Rows.AllReal (val_main_cst_10 (F := Ideal)) := by
  unfold val_main_cst_10
  exact allReal_constant _ ⟨0, ofBits_zero⟩

/-- The constant one is real. -/
theorem real_cst_11 : Rows.AllReal (val_main_cst_11 (F := Ideal)) := by
  unfold val_main_cst_11
  exact allReal_constant _ ⟨1, ofBits_one⟩

/-- The constant zero is real. -/
theorem real_cst_12 : Rows.AllReal (val_main_cst_12 (F := Ideal)) := by
  unfold val_main_cst_12
  exact allReal_constant _ ⟨0, ofBits_zero⟩

/-- The constant zero is real. -/
theorem real_cst_16 : Rows.AllReal (val_main_cst_16 (F := Ideal)) := by
  unfold val_main_cst_16
  exact allReal_constant _ ⟨0, ofBits_zero⟩

/-- The constant one is real. -/
theorem real_cst_17 : Rows.AllReal (val_main_cst_17 (F := Ideal)) := by
  unfold val_main_cst_17
  exact allReal_constant _ ⟨1, ofBits_one⟩

/-- The constant zero is real. -/
theorem real_cst_18 : Rows.AllReal (val_main_cst_18 (F := Ideal)) := by
  unfold val_main_cst_18
  exact allReal_constant _ ⟨0, ofBits_zero⟩

/-- The constant one is positive. -/
theorem pos_cst_13 : AllPos (val_main_cst_13 (F := Ideal)) := by
  unfold val_main_cst_13
  exact allPos_constant _ ⟨1, one_pos, ofBits_one⟩

/-- The constant one is positive. -/
theorem pos_cst_19 : AllPos (val_main_cst_19 (F := Ideal)) := by
  unfold val_main_cst_19
  exact allPos_constant _ ⟨1, one_pos, ofBits_one⟩

/-- The activation's zero table is real. -/
theorem real_call0 : Rows.AllReal (val_main_call0_v0 (F := Ideal)) := by
  unfold val_main_call0_v0 val_main_call0_cst
  exact allReal_broadcastInDim _ _ (allReal_constant _ ⟨0, ofBits_zero⟩)

/-- The activation's zero table is real. -/
theorem real_call1 : Rows.AllReal (val_main_call1_v0 (F := Ideal)) := by
  unfold val_main_call1_v0 val_main_call1_cst
  exact allReal_broadcastInDim _ _ (allReal_constant _ ⟨0, ofBits_zero⟩)

/-- Stage 0 is real: a product of real tables. -/
theorem real_v0 (x0 : (⟨S100000x768, .f32⟩ : BufTy).Contents (Elt Ideal)) (x7 : (⟨S768x256, .f32⟩ : BufTy).Contents (Elt Ideal)) (hx0 : Rows.AllReal x0) (hx7 : Rows.AllReal x7) :
    Rows.AllReal (val_main_v0 (F := Ideal) x0 x7) := by
  unfold val_main_v0
  exact allReal_dotGeneral _ _ hx0 hx7

/-- Stage 1 is real: a broadcast of a real table. -/
theorem real_v1 (x8 : (⟨S256, .f32⟩ : BufTy).Contents (Elt Ideal)) (hx8 : Rows.AllReal x8) :
    Rows.AllReal (val_main_v1 (F := Ideal) x8) := by
  unfold val_main_v1
  exact allReal_broadcastInDim _ _ hx8

/-- Stage 2 is real: a broadcast of a real table. -/
theorem real_v2 (x8 : (⟨S256, .f32⟩ : BufTy).Contents (Elt Ideal)) (hx8 : Rows.AllReal x8) :
    Rows.AllReal (val_main_v2 (F := Ideal) x8) := by
  unfold val_main_v2
  exact allReal_broadcastInDim _ _ (real_v1 x8 hx8)

/-- Stage 3 is real: a sum of real tables. -/
theorem real_v3 (x0 : (⟨S100000x768, .f32⟩ : BufTy).Contents (Elt Ideal)) (x7 : (⟨S768x256, .f32⟩ : BufTy).Contents (Elt Ideal)) (x8 : (⟨S256, .f32⟩ : BufTy).Contents (Elt Ideal)) (hx0 : Rows.AllReal x0) (hx7 : Rows.AllReal x7) (hx8 : Rows.AllReal x8) :
    Rows.AllReal (val_main_v3 (F := Ideal) x0 x7 x8) := by
  unfold val_main_v3
  exact allReal_addf (real_v0 x0 x7 hx0 hx7) (real_v2 x8 hx8)

/-- Stage 4 is real: a maximum of real tables. -/
theorem real_v4 (x0 : (⟨S100000x768, .f32⟩ : BufTy).Contents (Elt Ideal)) (x7 : (⟨S768x256, .f32⟩ : BufTy).Contents (Elt Ideal)) (x8 : (⟨S256, .f32⟩ : BufTy).Contents (Elt Ideal)) (hx0 : Rows.AllReal x0) (hx7 : Rows.AllReal x7) (hx8 : Rows.AllReal x8) :
    Rows.AllReal (val_main_v4 (F := Ideal) x0 x7 x8) := by
  unfold val_main_v4
  exact allReal_maximumf (real_v3 x0 x7 x8 hx0 hx7 hx8) (real_call0)

/-- Stage 53 is real: a slice of a real table. -/
theorem real_v53 (x13 : (⟨S4x256x256, .f32⟩ : BufTy).Contents (Elt Ideal)) (hx13 : Rows.AllReal x13) :
    Rows.AllReal (val_main_v53 (F := Ideal) x13) := by
  unfold val_main_v53
  exact allReal_slice _ _ hx13

/-- Stage 54 is real: a reshape of a real table. -/
theorem real_v54 (x13 : (⟨S4x256x256, .f32⟩ : BufTy).Contents (Elt Ideal)) (hx13 : Rows.AllReal x13) :
    Rows.AllReal (val_main_v54 (F := Ideal) x13) := by
  unfold val_main_v54
  exact allReal_shapeCast _ (real_v53 x13 hx13)

/-- Stage 83 is real: a slice of a real table. -/
theorem real_v83 (x13 : (⟨S4x256x256, .f32⟩ : BufTy).Contents (Elt Ideal)) (hx13 : Rows.AllReal x13) :
    Rows.AllReal (val_main_v83 (F := Ideal) x13) := by
  unfold val_main_v83
  exact allReal_slice _ _ hx13

/-- Stage 84 is real: a reshape of a real table. -/
theorem real_v84 (x13 : (⟨S4x256x256, .f32⟩ : BufTy).Contents (Elt Ideal)) (hx13 : Rows.AllReal x13) :
    Rows.AllReal (val_main_v84 (F := Ideal) x13) := by
  unfold val_main_v84
  exact allReal_shapeCast _ (real_v83 x13 hx13)

/-- Stage 177 is real: a slice of a real table. -/
theorem real_v177 (x16 : (⟨S4x256x256, .f32⟩ : BufTy).Contents (Elt Ideal)) (hx16 : Rows.AllReal x16) :
    Rows.AllReal (val_main_v177 (F := Ideal) x16) := by
  unfold val_main_v177
  exact allReal_slice _ _ hx16

/-- Stage 178 is real: a reshape of a real table. -/
theorem real_v178 (x16 : (⟨S4x256x256, .f32⟩ : BufTy).Contents (Elt Ideal)) (hx16 : Rows.AllReal x16) :
    Rows.AllReal (val_main_v178 (F := Ideal) x16) := by
  unfold val_main_v178
  exact allReal_shapeCast _ (real_v177 x16 hx16)

/-- Stage 207 is real: a slice of a real table. -/
theorem real_v207 (x16 : (⟨S4x256x256, .f32⟩ : BufTy).Contents (Elt Ideal)) (hx16 : Rows.AllReal x16) :
    Rows.AllReal (val_main_v207 (F := Ideal) x16) := by
  unfold val_main_v207
  exact allReal_slice _ _ hx16

/-- Stage 208 is real: a reshape of a real table. -/
theorem real_v208 (x16 : (⟨S4x256x256, .f32⟩ : BufTy).Contents (Elt Ideal)) (hx16 : Rows.AllReal x16) :
    Rows.AllReal (val_main_v208 (F := Ideal) x16) := by
  unfold val_main_v208
  exact allReal_shapeCast _ (real_v207 x16 hx16)

/-- Stage 62 is real: a broadcast of a real table. -/
theorem real_v62  :
    Rows.AllReal (val_main_v62 (F := Ideal)) := by
  unfold val_main_v62
  exact allReal_broadcastInDim _ _ (real_cst_10)

/-- Stage 11 is real: rows gathered from a real table. -/
theorem real_v11 (x1 : (⟨S20000, .i32⟩ : BufTy).Contents (Elt Ideal)) (x9 : (⟨S20000x256, .f32⟩ : BufTy).Contents (Elt Ideal)) (hx9 : Rows.AllReal x9) :
    Rows.AllReal (val_main_v11 (F := Ideal) x1 x9) := by
  unfold val_main_v11
  exact allReal_gather _ _ hx9

/-- Stage 61 is real: rows gathered from a real table. -/
theorem real_v61 (x1 : (⟨S20000, .i32⟩ : BufTy).Contents (Elt Ideal)) (x4 : (⟨S320000, .i32⟩ : BufTy).Contents (Elt Ideal)) (x9 : (⟨S20000x256, .f32⟩ : BufTy).Contents (Elt Ideal)) (hx9 : Rows.AllReal x9) :
    Rows.AllReal (val_main_v61 (F := Ideal) x1 x4 x9) := by
  unfold val_main_v61
  exact allReal_gather _ _ (real_v11 x1 x9 hx9)

/-- Stage 64 is real: real rows accumulated into a real table. -/
theorem real_v64 (x1 : (⟨S20000, .i32⟩ : BufTy).Contents (Elt Ideal)) (x3 : (⟨S320000, .i32⟩ : BufTy).Contents (Elt Ideal)) (x4 : (⟨S320000, .i32⟩ : BufTy).Contents (Elt Ideal)) (x9 : (⟨S20000x256, .f32⟩ : BufTy).Contents (Elt Ideal)) (hx9 : Rows.AllReal x9) :
    Rows.AllReal (val_main_v64 (F := Ideal) x1 x3 x4 x9) := by
  unfold val_main_v64
  exact allReal_scatterAdd _ _ (real_v62) (real_v61 x1 x4 x9 hx9)

/-- Stage 66 is real: a broadcast of a real table. -/
theorem real_v66  :
    Rows.AllReal (val_main_v66 (F := Ideal)) := by
  unfold val_main_v66
  exact allReal_broadcastInDim _ _ (real_cst_12)

/-- Stage 65 is real: a broadcast of a real table. -/
theorem real_v65  :
    Rows.AllReal (val_main_v65 (F := Ideal)) := by
  unfold val_main_v65
  exact allReal_broadcastInDim _ _ (real_cst_11)

/-- Stage 68 is real: real rows accumulated into a real table. -/
theorem real_v68 (x3 : (⟨S320000, .i32⟩ : BufTy).Contents (Elt Ideal)) :
    Rows.AllReal (val_main_v68 (F := Ideal) x3) := by
  unfold val_main_v68
  exact allReal_scatterAdd _ _ (real_v66) (real_v65)

/-- Stage 69 is positive: a broadcast of a positive table. -/
theorem pos_v69  :
    AllPos (val_main_v69 (F := Ideal)) := by
  unfold val_main_v69
  exact allPos_broadcastInDim _ _ (pos_cst_13)

/-- Stage 70 is positive: the maximum of a real table with a positive one. -/
theorem pos_v70 (x3 : (⟨S320000, .i32⟩ : BufTy).Contents (Elt Ideal)) :
    AllPos (val_main_v70 (F := Ideal) x3) := by
  unfold val_main_v70
  exact allPos_maximumf (real_v68 x3) (pos_v69)

/-- Stage 71 is positive: a broadcast of a positive table. -/
theorem pos_v71 (x3 : (⟨S320000, .i32⟩ : BufTy).Contents (Elt Ideal)) :
    AllPos (val_main_v71 (F := Ideal) x3) := by
  unfold val_main_v71
  exact allPos_broadcastInDim _ _ (pos_v70 x3)

/-- Stage 72 is real: a real table divided by a positive one. -/
theorem real_v72 (x1 : (⟨S20000, .i32⟩ : BufTy).Contents (Elt Ideal)) (x3 : (⟨S320000, .i32⟩ : BufTy).Contents (Elt Ideal)) (x4 : (⟨S320000, .i32⟩ : BufTy).Contents (Elt Ideal)) (x9 : (⟨S20000x256, .f32⟩ : BufTy).Contents (Elt Ideal)) (hx9 : Rows.AllReal x9) :
    Rows.AllReal (val_main_v72 (F := Ideal) x1 x3 x4 x9) := by
  unfold val_main_v72
  exact allReal_divf (real_v64 x1 x3 x4 x9 hx9) (pos_v71 x3)

/-- Stage 49 is real: a slice of a real table. -/
theorem real_v49 (x11 : (⟨S4x256x256, .f32⟩ : BufTy).Contents (Elt Ideal)) (hx11 : Rows.AllReal x11) :
    Rows.AllReal (val_main_v49 (F := Ideal) x11) := by
  unfold val_main_v49
  exact allReal_slice _ _ hx11

/-- Stage 50 is real: a reshape of a real table. -/
theorem real_v50 (x11 : (⟨S4x256x256, .f32⟩ : BufTy).Contents (Elt Ideal)) (hx11 : Rows.AllReal x11) :
    Rows.AllReal (val_main_v50 (F := Ideal) x11) := by
  unfold val_main_v50
  exact allReal_shapeCast _ (real_v49 x11 hx11)

/-- Stage 73 is real: a product of real tables. -/
theorem real_v73 (x1 : (⟨S20000, .i32⟩ : BufTy).Contents (Elt Ideal)) (x3 : (⟨S320000, .i32⟩ : BufTy).Contents (Elt Ideal)) (x4 : (⟨S320000, .i32⟩ : BufTy).Contents (Elt Ideal)) (x9 : (⟨S20000x256, .f32⟩ : BufTy).Contents (Elt Ideal)) (x11 : (⟨S4x256x256, .f32⟩ : BufTy).Contents (Elt Ideal)) (hx9 : Rows.AllReal x9) (hx11 : Rows.AllReal x11) :
    Rows.AllReal (val_main_v73 (F := Ideal) x1 x3 x4 x9 x11) := by
  unfold val_main_v73
  exact allReal_dotGeneral _ _ (real_v72 x1 x3 x4 x9 hx9) (real_v50 x11 hx11)

/-- Stage 51 is real: a slice of a real table. -/
theorem real_v51 (x12 : (⟨S4x256, .f32⟩ : BufTy).Contents (Elt Ideal)) (hx12 : Rows.AllReal x12) :
    Rows.AllReal (val_main_v51 (F := Ideal) x12) := by
  unfold val_main_v51
  exact allReal_slice _ _ hx12

/-- Stage 52 is real: a reshape of a real table. -/
theorem real_v52 (x12 : (⟨S4x256, .f32⟩ : BufTy).Contents (Elt Ideal)) (hx12 : Rows.AllReal x12) :
    Rows.AllReal (val_main_v52 (F := Ideal) x12) := by
  unfold val_main_v52
  exact allReal_shapeCast _ (real_v51 x12 hx12)

/-- Stage 74 is real: a broadcast of a real table. -/
theorem real_v74 (x12 : (⟨S4x256, .f32⟩ : BufTy).Contents (Elt Ideal)) (hx12 : Rows.AllReal x12) :
    Rows.AllReal (val_main_v74 (F := Ideal) x12) := by
  unfold val_main_v74
  exact allReal_broadcastInDim _ _ (real_v52 x12 hx12)

/-- Stage 75 is real: a broadcast of a real table. -/
theorem real_v75 (x12 : (⟨S4x256, .f32⟩ : BufTy).Contents (Elt Ideal)) (hx12 : Rows.AllReal x12) :
    Rows.AllReal (val_main_v75 (F := Ideal) x12) := by
  unfold val_main_v75
  exact allReal_broadcastInDim _ _ (real_v74 x12 hx12)

/-- Stage 76 is real: a sum of real tables. -/
theorem real_v76 (x1 : (⟨S20000, .i32⟩ : BufTy).Contents (Elt Ideal)) (x3 : (⟨S320000, .i32⟩ : BufTy).Contents (Elt Ideal)) (x4 : (⟨S320000, .i32⟩ : BufTy).Contents (Elt Ideal)) (x9 : (⟨S20000x256, .f32⟩ : BufTy).Contents (Elt Ideal)) (x11 : (⟨S4x256x256, .f32⟩ : BufTy).Contents (Elt Ideal)) (x12 : (⟨S4x256, .f32⟩ : BufTy).Contents (Elt Ideal)) (hx9 : Rows.AllReal x9) (hx11 : Rows.AllReal x11) (hx12 : Rows.AllReal x12) :
    Rows.AllReal (val_main_v76 (F := Ideal) x1 x3 x4 x9 x11 x12) := by
  unfold val_main_v76
  exact allReal_addf (real_v73 x1 x3 x4 x9 x11 hx9 hx11) (real_v75 x12 hx12)

/-- Stage 77 is real: a product of real tables. -/
theorem real_v77 (x0 : (⟨S100000x768, .f32⟩ : BufTy).Contents (Elt Ideal)) (x7 : (⟨S768x256, .f32⟩ : BufTy).Contents (Elt Ideal)) (x8 : (⟨S256, .f32⟩ : BufTy).Contents (Elt Ideal)) (x13 : (⟨S4x256x256, .f32⟩ : BufTy).Contents (Elt Ideal)) (hx0 : Rows.AllReal x0) (hx7 : Rows.AllReal x7) (hx8 : Rows.AllReal x8) (hx13 : Rows.AllReal x13) :
    Rows.AllReal (val_main_v77 (F := Ideal) x0 x7 x8 x13) := by
  unfold val_main_v77
  exact allReal_dotGeneral _ _ (real_v4 x0 x7 x8 hx0 hx7 hx8) (real_v54 x13 hx13)

/-- Stage 78 is real: a sum of real tables. -/
theorem real_v78 (x0 : (⟨S100000x768, .f32⟩ : BufTy).Contents (Elt Ideal)) (x1 : (⟨S20000, .i32⟩ : BufTy).Contents (Elt Ideal)) (x3 : (⟨S320000, .i32⟩ : BufTy).Contents (Elt Ideal)) (x4 : (⟨S320000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (hx0 : Rows.AllReal x0) (hx7 : Rows.AllReal x7) (hx8 : Rows.AllReal x8) (hx9 : Rows.AllReal x9) (hx11 : Rows.AllReal x11) (hx12 : Rows.AllReal x12) (hx13 : Rows.AllReal x13) :
    Rows.AllReal (val_main_v78 (F := Ideal) x0 x1 x3 x4 x7 x8 x9 x11 x12 x13) := by
  unfold val_main_v78
  exact allReal_addf (real_v76 x1 x3 x4 x9 x11 x12 hx9 hx11 hx12) (real_v77 x0 x7 x8 x13 hx0 hx7 hx8 hx13)

/-- Stage 92 is real: a broadcast of a real table. -/
theorem real_v92  :
    Rows.AllReal (val_main_v92 (F := Ideal)) := by
  unfold val_main_v92
  exact allReal_broadcastInDim _ _ (real_cst_16)

/-- Stage 18 is real: rows gathered from a real table. -/
theorem real_v18 (x2 : (⟨S3000, .i32⟩ : BufTy).Contents (Elt Ideal)) (x10 : (⟨S3000x256, .f32⟩ : BufTy).Contents (Elt Ideal)) (hx10 : Rows.AllReal x10) :
    Rows.AllReal (val_main_v18 (F := Ideal) x2 x10) := by
  unfold val_main_v18
  exact allReal_gather _ _ hx10

/-- Stage 91 is real: rows gathered from a real table. -/
theorem real_v91 (x2 : (⟨S3000, .i32⟩ : BufTy).Contents (Elt Ideal)) (x6 : (⟨S160000, .i32⟩ : BufTy).Contents (Elt Ideal)) (x10 : (⟨S3000x256, .f32⟩ : BufTy).Contents (Elt Ideal)) (hx10 : Rows.AllReal x10) :
    Rows.AllReal (val_main_v91 (F := Ideal) x2 x6 x10) := by
  unfold val_main_v91
  exact allReal_gather _ _ (real_v18 x2 x10 hx10)

/-- Stage 94 is real: real rows accumulated into a real table. -/
theorem real_v94 (x2 : (⟨S3000, .i32⟩ : BufTy).Contents (Elt Ideal)) (x5 : (⟨S160000, .i32⟩ : BufTy).Contents (Elt Ideal)) (x6 : (⟨S160000, .i32⟩ : BufTy).Contents (Elt Ideal)) (x10 : (⟨S3000x256, .f32⟩ : BufTy).Contents (Elt Ideal)) (hx10 : Rows.AllReal x10) :
    Rows.AllReal (val_main_v94 (F := Ideal) x2 x5 x6 x10) := by
  unfold val_main_v94
  exact allReal_scatterAdd _ _ (real_v92) (real_v91 x2 x6 x10 hx10)

/-- Stage 96 is real: a broadcast of a real table. -/
theorem real_v96  :
    Rows.AllReal (val_main_v96 (F := Ideal)) := by
  unfold val_main_v96
  exact allReal_broadcastInDim _ _ (real_cst_18)

/-- Stage 95 is real: a broadcast of a real table. -/
theorem real_v95  :
    Rows.AllReal (val_main_v95 (F := Ideal)) := by
  unfold val_main_v95
  exact allReal_broadcastInDim _ _ (real_cst_17)

/-- Stage 98 is real: real rows accumulated into a real table. -/
theorem real_v98 (x5 : (⟨S160000, .i32⟩ : BufTy).Contents (Elt Ideal)) :
    Rows.AllReal (val_main_v98 (F := Ideal) x5) := by
  unfold val_main_v98
  exact allReal_scatterAdd _ _ (real_v96) (real_v95)

/-- Stage 99 is positive: a broadcast of a positive table. -/
theorem pos_v99  :
    AllPos (val_main_v99 (F := Ideal)) := by
  unfold val_main_v99
  exact allPos_broadcastInDim _ _ (pos_cst_19)

/-- Stage 100 is positive: the maximum of a real table with a positive one. -/
theorem pos_v100 (x5 : (⟨S160000, .i32⟩ : BufTy).Contents (Elt Ideal)) :
    AllPos (val_main_v100 (F := Ideal) x5) := by
  unfold val_main_v100
  exact allPos_maximumf (real_v98 x5) (pos_v99)

/-- Stage 101 is positive: a broadcast of a positive table. -/
theorem pos_v101 (x5 : (⟨S160000, .i32⟩ : BufTy).Contents (Elt Ideal)) :
    AllPos (val_main_v101 (F := Ideal) x5) := by
  unfold val_main_v101
  exact allPos_broadcastInDim _ _ (pos_v100 x5)

/-- Stage 102 is real: a real table divided by a positive one. -/
theorem real_v102 (x2 : (⟨S3000, .i32⟩ : BufTy).Contents (Elt Ideal)) (x5 : (⟨S160000, .i32⟩ : BufTy).Contents (Elt Ideal)) (x6 : (⟨S160000, .i32⟩ : BufTy).Contents (Elt Ideal)) (x10 : (⟨S3000x256, .f32⟩ : BufTy).Contents (Elt Ideal)) (hx10 : Rows.AllReal x10) :
    Rows.AllReal (val_main_v102 (F := Ideal) x2 x5 x6 x10) := by
  unfold val_main_v102
  exact allReal_divf (real_v94 x2 x5 x6 x10 hx10) (pos_v101 x5)

/-- Stage 79 is real: a slice of a real table. -/
theorem real_v79 (x11 : (⟨S4x256x256, .f32⟩ : BufTy).Contents (Elt Ideal)) (hx11 : Rows.AllReal x11) :
    Rows.AllReal (val_main_v79 (F := Ideal) x11) := by
  unfold val_main_v79
  exact allReal_slice _ _ hx11

/-- Stage 80 is real: a reshape of a real table. -/
theorem real_v80 (x11 : (⟨S4x256x256, .f32⟩ : BufTy).Contents (Elt Ideal)) (hx11 : Rows.AllReal x11) :
    Rows.AllReal (val_main_v80 (F := Ideal) x11) := by
  unfold val_main_v80
  exact allReal_shapeCast _ (real_v79 x11 hx11)

/-- Stage 103 is real: a product of real tables. -/
theorem real_v103 (x2 : (⟨S3000, .i32⟩ : BufTy).Contents (Elt Ideal)) (x5 : (⟨S160000, .i32⟩ : BufTy).Contents (Elt Ideal)) (x6 : (⟨S160000, .i32⟩ : BufTy).Contents (Elt Ideal)) (x10 : (⟨S3000x256, .f32⟩ : BufTy).Contents (Elt Ideal)) (x11 : (⟨S4x256x256, .f32⟩ : BufTy).Contents (Elt Ideal)) (hx10 : Rows.AllReal x10) (hx11 : Rows.AllReal x11) :
    Rows.AllReal (val_main_v103 (F := Ideal) x2 x5 x6 x10 x11) := by
  unfold val_main_v103
  exact allReal_dotGeneral _ _ (real_v102 x2 x5 x6 x10 hx10) (real_v80 x11 hx11)

/-- Stage 81 is real: a slice of a real table. -/
theorem real_v81 (x12 : (⟨S4x256, .f32⟩ : BufTy).Contents (Elt Ideal)) (hx12 : Rows.AllReal x12) :
    Rows.AllReal (val_main_v81 (F := Ideal) x12) := by
  unfold val_main_v81
  exact allReal_slice _ _ hx12

/-- Stage 82 is real: a reshape of a real table. -/
theorem real_v82 (x12 : (⟨S4x256, .f32⟩ : BufTy).Contents (Elt Ideal)) (hx12 : Rows.AllReal x12) :
    Rows.AllReal (val_main_v82 (F := Ideal) x12) := by
  unfold val_main_v82
  exact allReal_shapeCast _ (real_v81 x12 hx12)

/-- Stage 104 is real: a broadcast of a real table. -/
theorem real_v104 (x12 : (⟨S4x256, .f32⟩ : BufTy).Contents (Elt Ideal)) (hx12 : Rows.AllReal x12) :
    Rows.AllReal (val_main_v104 (F := Ideal) x12) := by
  unfold val_main_v104
  exact allReal_broadcastInDim _ _ (real_v82 x12 hx12)

/-- Stage 105 is real: a broadcast of a real table. -/
theorem real_v105 (x12 : (⟨S4x256, .f32⟩ : BufTy).Contents (Elt Ideal)) (hx12 : Rows.AllReal x12) :
    Rows.AllReal (val_main_v105 (F := Ideal) x12) := by
  unfold val_main_v105
  exact allReal_broadcastInDim _ _ (real_v104 x12 hx12)

/-- Stage 106 is real: a sum of real tables. -/
theorem real_v106 (x2 : (⟨S3000, .i32⟩ : BufTy).Contents (Elt Ideal)) (x5 : (⟨S160000, .i32⟩ : BufTy).Contents (Elt Ideal)) (x6 : (⟨S160000, .i32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (hx10 : Rows.AllReal x10) (hx11 : Rows.AllReal x11) (hx12 : Rows.AllReal x12) :
    Rows.AllReal (val_main_v106 (F := Ideal) x2 x5 x6 x10 x11 x12) := by
  unfold val_main_v106
  exact allReal_addf (real_v103 x2 x5 x6 x10 x11 hx10 hx11) (real_v105 x12 hx12)

/-- Stage 107 is real: a product of real tables. -/
theorem real_v107 (x0 : (⟨S100000x768, .f32⟩ : BufTy).Contents (Elt Ideal)) (x7 : (⟨S768x256, .f32⟩ : BufTy).Contents (Elt Ideal)) (x8 : (⟨S256, .f32⟩ : BufTy).Contents (Elt Ideal)) (x13 : (⟨S4x256x256, .f32⟩ : BufTy).Contents (Elt Ideal)) (hx0 : Rows.AllReal x0) (hx7 : Rows.AllReal x7) (hx8 : Rows.AllReal x8) (hx13 : Rows.AllReal x13) :
    Rows.AllReal (val_main_v107 (F := Ideal) x0 x7 x8 x13) := by
  unfold val_main_v107
  exact allReal_dotGeneral _ _ (real_v4 x0 x7 x8 hx0 hx7 hx8) (real_v84 x13 hx13)

/-- Stage 108 is real: a sum of real tables. -/
theorem real_v108 (x0 : (⟨S100000x768, .f32⟩ : BufTy).Contents (Elt Ideal)) (x2 : (⟨S3000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (hx0 : Rows.AllReal x0) (hx7 : Rows.AllReal x7) (hx8 : Rows.AllReal x8) (hx10 : Rows.AllReal x10) (hx11 : Rows.AllReal x11) (hx12 : Rows.AllReal x12) (hx13 : Rows.AllReal x13) :
    Rows.AllReal (val_main_v108 (F := Ideal) x0 x2 x5 x6 x7 x8 x10 x11 x12 x13) := by
  unfold val_main_v108
  exact allReal_addf (real_v106 x2 x5 x6 x10 x11 x12 hx10 hx11 hx12) (real_v107 x0 x7 x8 x13 hx0 hx7 hx8 hx13)

/-- Stage 109 is real: a sum of real tables. -/
theorem real_v109 (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (hx0 : Rows.AllReal x0) (hx7 : Rows.AllReal x7) (hx8 : Rows.AllReal x8) (hx9 : Rows.AllReal x9) (hx10 : Rows.AllReal x10) (hx11 : Rows.AllReal x11) (hx12 : Rows.AllReal x12) (hx13 : Rows.AllReal x13) :
    Rows.AllReal (val_main_v109 (F := Ideal) x0 x1 x2 x3 x4 x5 x6 x7 x8 x9 x10 x11 x12 x13) := by
  unfold val_main_v109
  exact allReal_addf (real_v78 x0 x1 x3 x4 x7 x8 x9 x11 x12 x13 hx0 hx7 hx8 hx9 hx11 hx12 hx13) (real_v108 x0 x2 x5 x6 x7 x8 x10 x11 x12 x13 hx0 hx7 hx8 hx10 hx11 hx12 hx13)

/-- Stage 140 is real: a maximum of real tables. -/
theorem real_v140 (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (hx0 : Rows.AllReal x0) (hx7 : Rows.AllReal x7) (hx8 : Rows.AllReal x8) (hx9 : Rows.AllReal x9) (hx10 : Rows.AllReal x10) (hx11 : Rows.AllReal x11) (hx12 : Rows.AllReal x12) (hx13 : Rows.AllReal x13) :
    Rows.AllReal (val_main_v140 (F := Ideal) x0 x1 x2 x3 x4 x5 x6 x7 x8 x9 x10 x11 x12 x13) := by
  unfold val_main_v140
  exact allReal_maximumf (real_v109 x0 x1 x2 x3 x4 x5 x6 x7 x8 x9 x10 x11 x12 x13 hx0 hx7 hx8 hx9 hx10 hx11 hx12 hx13) (real_call1)

end Cert.ReferenceIdeal.Stages

end
-- ==== Proof.RefFused.lean ====
/-
  The reference's two news updates in fused form.

  In each layer the news table is the sum of two relations' updates that share their root features `h`:
  `(m1·wl1 + bl1 + h·wr1) + (m3·wl3 + bl3 + h·wr3)`.  When `h`, `wr1` and `wr3` hold real numbers the two root
  products combine, `h·wr1 + h·wr3 = h·(wr1 + wr3)` (distributivity needs real factors), and regrouping the remaining
  summands gives `m1·wl1 + m3·wl3 + (bl1 + bl3) + h·(wr1 + wr3)`, the fused update `Rows.fused`.  Layer 1 applies
  `max (·, 0)` to the sum; layer 2 does not.  Realness of the root features and of the root weight slices comes from
  real inputs.
-/
import proofs.«146827_j53558242181513_2_alg».proof.Proof.RefReadP
import proofs.«146827_j53558242181513_2_alg».proof.Proof.Rows
import proofs.«146827_j53558242181513_2_alg».proof.Proof.RefLayer1News
import proofs.«146827_j53558242181513_2_alg».proof.Proof.RefLayer2News
import proofs.«146827_j53558242181513_2_alg».proof.Proof.RefReal

noncomputable section

namespace Cert.ReferenceIdeal.Stages

open Cert.ReferenceIdeal Cert.ReferenceIdeal.Gen Cert.ReferenceIdeal.ReadP Idealize.ShloMosaic Idealize.ShloMosaic.ValueIdx

/-- The layer-1 news features are the fused update of the two relations into news, with `max (·, 0)`. -/
theorem v140_eq_fused (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal))
    (hx0 : Rows.AllReal x0) (hx7 : Rows.AllReal x7) (hx8 : Rows.AllReal x8) (hx13 : Rows.AllReal x13) :
    val_main_v140 (F := Ideal) x0 x1 x2 x3 x4 x5 x6 x7 x8 x9 x10 x11 x12 x13
      = Rows.fused true (val_main_v72 (F := Ideal) x1 x3 x4 x9) (val_main_v102 (F := Ideal) x2 x5 x6 x10) (val_main_v4 (F := Ideal) x0 x7 x8) (val_main_v50 (F := Ideal) x11) (val_main_v80 (F := Ideal) x11)
          (fun i => val_main_v54 (F := Ideal) x13 i + val_main_v84 (F := Ideal) x13 i)
          (fun i => val_main_v74 (F := Ideal) x12 i + val_main_v104 (F := Ideal) x12 i) := by
  funext i
  obtain ⟨r, j, rfl⟩ : ∃ (r : Fin 100000) (j : Fin 256), i = ix2 r j := ⟨i 0, i 1, eq_ix2 i⟩
  rw [Rows.fused_ix2, v140_eq_at x0 x1 x2 x3 x4 x5 x6 x7 x8 x9 x10 x11 x12 x13 r j]
  exact (Rows.fusedAt_eq_add_sageAt true (val_main_v72 (F := Ideal) x1 x3 x4 x9) (val_main_v102 (F := Ideal) x2 x5 x6 x10) (val_main_v4 (F := Ideal) x0 x7 x8) (val_main_v50 (F := Ideal) x11) (val_main_v80 (F := Ideal) x11)
    (val_main_v54 (F := Ideal) x13) (val_main_v84 (F := Ideal) x13) (val_main_v74 (F := Ideal) x12) (val_main_v104 (F := Ideal) x12)
    (real_v4 x0 x7 x8 hx0 hx7 hx8) (real_v54 x13 hx13) (real_v84 x13 hx13) r j).symm

/-- The news result is the fused update of layer 2's two relations into news, without activation. -/
theorem v233_eq_fused (x0 : (⟨S100000x768, .f32⟩ : BufTy).Contents (Elt Ideal)) (x1 : (⟨S20000, .i32⟩ : BufTy).Contents (Elt Ideal)) (x2 : (⟨S3000, .i32⟩ : BufTy).Contents (Elt Ideal)) (x3 : (⟨S320000, .i32⟩ : BufTy).Contents (Elt Ideal)) (x4 : (⟨S320000, .i32⟩ : BufTy).Contents (Elt Ideal)) (x5 : (⟨S160000, .i32⟩ : BufTy).Contents (Elt Ideal)) (x6 : (⟨S160000, .i32⟩ : BufTy).Contents (Elt Ideal)) (x7 : (⟨S768x256, .f32⟩ : BufTy).Contents (Elt Ideal)) (x8 : (⟨S256, .f32⟩ : BufTy).Contents (Elt Ideal)) (x9 : (⟨S20000x256, .f32⟩ : BufTy).Contents (Elt Ideal)) (x10 : (⟨S3000x256, .f32⟩ : BufTy).Contents (Elt Ideal)) (x11 : (⟨S4x256x256, .f32⟩ : BufTy).Contents (Elt Ideal)) (x12 : (⟨S4x256, .f32⟩ : BufTy).Contents (Elt Ideal)) (x13 : (⟨S4x256x256, .f32⟩ : BufTy).Contents (Elt Ideal)) (x14 : (⟨S4x256x256, .f32⟩ : BufTy).Contents (Elt Ideal)) (x15 : (⟨S4x256, .f32⟩ : BufTy).Contents (Elt Ideal)) (x16 : (⟨S4x256x256, .f32⟩ : BufTy).Contents (Elt Ideal))
    (hx0 : Rows.AllReal x0) (hx7 : Rows.AllReal x7) (hx8 : Rows.AllReal x8) (hx9 : Rows.AllReal x9) (hx10 : Rows.AllReal x10) (hx11 : Rows.AllReal x11) (hx12 : Rows.AllReal x12) (hx13 : Rows.AllReal x13) (hx16 : Rows.AllReal x16) :
    val_main_v233 (F := Ideal) x0 x1 x2 x3 x4 x5 x6 x7 x8 x9 x10 x11 x12 x13 x14 x15 x16
      = Rows.fused false (val_main_v196 (F := Ideal) x0 x1 x3 x4 x7 x8 x9 x11 x12 x13) (val_main_v226 (F := Ideal) x0 x2 x5 x6 x7 x8 x10 x11 x12 x13) (val_main_v140 (F := Ideal) x0 x1 x2 x3 x4 x5 x6 x7 x8 x9 x10 x11 x12 x13) (val_main_v174 (F := Ideal) x14) (val_main_v204 (F := Ideal) x14)
          (fun i => val_main_v178 (F := Ideal) x16 i + val_main_v208 (F := Ideal) x16 i)
          (fun i => val_main_v198 (F := Ideal) x15 i + val_main_v228 (F := Ideal) x15 i) := by
  funext i
  obtain ⟨r, j, rfl⟩ : ∃ (r : Fin 100000) (j : Fin 256), i = ix2 r j := ⟨i 0, i 1, eq_ix2 i⟩
  rw [Rows.fused_ix2, v233_eq_at x0 x1 x2 x3 x4 x5 x6 x7 x8 x9 x10 x11 x12 x13 x14 x15 x16 r j]
  exact (Rows.fusedAt_eq_add_sageAt false (val_main_v196 (F := Ideal) x0 x1 x3 x4 x7 x8 x9 x11 x12 x13) (val_main_v226 (F := Ideal) x0 x2 x5 x6 x7 x8 x10 x11 x12 x13) (val_main_v140 (F := Ideal) x0 x1 x2 x3 x4 x5 x6 x7 x8 x9 x10 x11 x12 x13) (val_main_v174 (F := Ideal) x14) (val_main_v204 (F := Ideal) x14)
    (val_main_v178 (F := Ideal) x16) (val_main_v208 (F := Ideal) x16) (val_main_v198 (F := Ideal) x15) (val_main_v228 (F := Ideal) x15)
    (real_v140 x0 x1 x2 x3 x4 x5 x6 x7 x8 x9 x10 x11 x12 x13 hx0 hx7 hx8 hx9 hx10 hx11 hx12 hx13) (real_v178 x16 hx16) (real_v208 x16 hx16) r j).symm

end Cert.ReferenceIdeal.Stages

end
-- ==== Proof.KChain.lean ====
/-
  The idealized kernel's three results are the reference's three result stages of the launch arguments.

  Walk the kernel's run from the launch: each of the seven regions leaves its output array at a row formula of the arrays
  it found (the encoder, one relation's update, or the fused news update), each stretch of host operations in between
  computes the reference's own stages of what it found, and arrays read again later keep their contents across the
  boundaries in between. So, region after region, each output is the reference's stage for the same table: the encoder's
  output its encoder stage; the first layer's keyword, news and stock tables its three activated first-layer stages; the
  second layer's three tables its three results. The two news updates are where the programs differ — the kernel adds the
  two relations' root weights and biases first and multiplies once — and there the realness of the root features and of
  the root weights (from the precondition) makes the fused update the sum of the two relations' updates.
-/
import proofs.«146827_j53558242181513_2_alg».proof.Proof.Gen.KernelIdeal.Frame
import proofs.«146827_j53558242181513_2_alg».proof.Proof.RefReadP
import proofs.«146827_j53558242181513_2_alg».proof.Proof.Rows
import proofs.«146827_j53558242181513_2_alg».proof.Proof.KArgs
import proofs.«146827_j53558242181513_2_alg».proof.Proof.KKeep
import proofs.«146827_j53558242181513_2_alg».proof.Proof.KFold1
import proofs.«146827_j53558242181513_2_alg».proof.Proof.KFold2
import proofs.«146827_j53558242181513_2_alg».proof.Proof.KFold3
import proofs.«146827_j53558242181513_2_alg».proof.Proof.KFold4
import proofs.«146827_j53558242181513_2_alg».proof.Proof.KFold5
import proofs.«146827_j53558242181513_2_alg».proof.Proof.KFold6
import proofs.«146827_j53558242181513_2_alg».proof.Proof.KBias
import proofs.«146827_j53558242181513_2_alg».proof.Proof.KRegion0
import proofs.«146827_j53558242181513_2_alg».proof.Proof.KRegion1
import proofs.«146827_j53558242181513_2_alg».proof.Proof.KRegion2
import proofs.«146827_j53558242181513_2_alg».proof.Proof.KRegion3
import proofs.«146827_j53558242181513_2_alg».proof.Proof.KRegion4
import proofs.«146827_j53558242181513_2_alg».proof.Proof.KRegion5
import proofs.«146827_j53558242181513_2_alg».proof.Proof.KRegion6
import proofs.«146827_j53558242181513_2_alg».proof.Proof.RefEnc
import proofs.«146827_j53558242181513_2_alg».proof.Proof.RefLayer1
import proofs.«146827_j53558242181513_2_alg».proof.Proof.RefLayer2
import proofs.«146827_j53558242181513_2_alg».proof.Proof.RefFused

set_option maxRecDepth 16384
set_option quotPrecheck false

noncomputable section

namespace Cert.KernelIdeal.Chain

open Cert.KernelIdeal Cert.KernelIdeal.Gen Cert.ReferenceIdeal.ReadP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "x0" => m ((c.tc : Thread nD τ).loc main_arg0)
local notation "x1" => m ((c.tc : Thread nD τ).loc main_arg1)
local notation "x2" => m ((c.tc : Thread nD τ).loc main_arg2)
local notation "x3" => m ((c.tc : Thread nD τ).loc main_arg3)
local notation "x4" => m ((c.tc : Thread nD τ).loc main_arg4)
local notation "x5" => m ((c.tc : Thread nD τ).loc main_arg5)
local notation "x6" => m ((c.tc : Thread nD τ).loc main_arg6)
local notation "x7" => m ((c.tc : Thread nD τ).loc main_arg7)
local notation "x8" => m ((c.tc : Thread nD τ).loc main_arg8)
local notation "x9" => m ((c.tc : Thread nD τ).loc main_arg9)
local notation "x10" => m ((c.tc : Thread nD τ).loc main_arg10)
local notation "x11" => m ((c.tc : Thread nD τ).loc main_arg11)
local notation "x12" => m ((c.tc : Thread nD τ).loc main_arg12)
local notation "x13" => m ((c.tc : Thread nD τ).loc main_arg13)
local notation "x14" => m ((c.tc : Thread nD τ).loc main_arg14)
local notation "x15" => m ((c.tc : Thread nD τ).loc main_arg15)
local notation "x16" => m ((c.tc : Thread nD τ).loc main_arg16)

/-- The encoder's output is the reference's encoder stage. -/
theorem v1_W2 :
    W2 (F := Ideal) m ρ c (Proc.devRef .tc main_v1) = val_main_v4 (F := Ideal) x0 x7 x8 := by
  refine (W2_arr m ρ c 3).trans ((Cert.KernelIdeal.RegionValue.region0_value (V1 m ρ) c).trans ?_)
  have e0 : V1 (F := Ideal) m ρ c (Pipeline.arrRef spec0 0) = x0 := Args.arg0_W1 m ρ c
  have e1 : V1 (F := Ideal) m ρ c (Pipeline.arrRef spec0 1) = x7 := Args.arg7_W1 m ρ c
  have e2 : V1 (F := Ideal) m ρ c (Pipeline.arrRef spec0 2) = val_main_v1 (F := Ideal) x8 := Bias.v0_W1 m ρ c
  exact (congr (congr (congrArg (Cert.Rows.enc (M := 100000) (K := 768)) e0) e1) e2).trans (Cert.ReferenceIdeal.Stages.v4_eq_enc x0 x7 x8).symm

/-- The first layer's keyword table (after its activation). -/
theorem v59_W4 :
    W4 (F := Ideal) m ρ c (Proc.devRef .tc main_v59) = val_main_v141 (F := Ideal) x0 x1 x3 x4 x7 x8 x9 x11 x12 x13 := by
  refine (W4_arr m ρ c 5).trans ((Cert.KernelIdeal.RegionValue.region1_value (V3 m ρ) c).trans ?_)
  have e0 : V3 (F := Ideal) m ρ c (Pipeline.arrRef spec1 0) = val_main_v42 (F := Ideal) x0 x3 x4 x7 x8 := Fold1.v51_W3 m ρ c (v1_W2 m ρ c)
  have e1 : V3 (F := Ideal) m ρ c (Pipeline.arrRef spec1 1) = val_main_v11 (F := Ideal) x1 x9 := Fold1.v8_W3 m ρ c
  have e2 : V3 (F := Ideal) m ρ c (Pipeline.arrRef spec1 2) = val_main_v20 (F := Ideal) x11 := Fold1.v53_W3 m ρ c
  have e3 : V3 (F := Ideal) m ρ c (Pipeline.arrRef spec1 3) = val_main_v44 (F := Ideal) x12 := Bias.v58_W3 m ρ c
  have e4 : V3 (F := Ideal) m ρ c (Pipeline.arrRef spec1 4) = val_main_v24 (F := Ideal) x13 := Fold1.v57_W3 m ρ c
  exact (congr (congr (congr (congr (congrArg (Cert.Rows.sage (M := 20000) true) e0) e1) e2) e3) e4).trans (Cert.ReferenceIdeal.Stages.v141_eq_sage x0 x1 x3 x4 x7 x8 x9 x11 x12 x13).symm

/-- The first layer's news table (after its activation): the fused update is the sum of the two relations' updates,
    the root features and the root weights being real. -/
theorem v103_W6
    (hx0 : Rows.AllReal x0) (hx7 : Rows.AllReal x7) (hx8 : Rows.AllReal x8) (hx13 : Rows.AllReal x13) :
    W6 (F := Ideal) m ρ c (Proc.devRef .tc main_v103) = val_main_v140 (F := Ideal) x0 x1 x2 x3 x4 x5 x6 x7 x8 x9 x10 x11 x12 x13 := by
  refine (W6_arr m ρ c 7).trans ((Cert.KernelIdeal.RegionValue.region2_value (V5 m ρ) c).trans ?_)
  have e0 : V5 (F := Ideal) m ρ c (Pipeline.arrRef spec2 0) = val_main_v72 (F := Ideal) x1 x3 x4 x9 := Fold2.v73_W5 m ρ c ((Keep.v8_keep_3_4 m ρ c).trans (Fold1.v8_W3 m ρ c)) ((Keep.v27_keep_3_4 m ρ c).trans (Fold1.v27_W3 m ρ c))
  have e1 : V5 (F := Ideal) m ρ c (Pipeline.arrRef spec2 1) = val_main_v102 (F := Ideal) x2 x5 x6 x10 := Fold2.v87_W5 m ρ c ((Keep.v15_keep_3_4 m ρ c).trans (Fold1.v15_W3 m ρ c)) ((Keep.v32_keep_3_4 m ρ c).trans (Fold1.v32_W3 m ρ c))
  have e2 : V5 (F := Ideal) m ρ c (Pipeline.arrRef spec2 2) = val_main_v4 (F := Ideal) x0 x7 x8 := (Keep.v1_keep_2_5 m ρ c).trans (v1_W2 m ρ c)
  have e3 : V5 (F := Ideal) m ρ c (Pipeline.arrRef spec2 3) = val_main_v50 (F := Ideal) x11 := Fold2.v99_W5 m ρ c
  have e4 : V5 (F := Ideal) m ρ c (Pipeline.arrRef spec2 4) = val_main_v80 (F := Ideal) x11 := Fold2.v101_W5 m ρ c
  have e5 : V5 (F := Ideal) m ρ c (Pipeline.arrRef spec2 5) = (fun i => val_main_v54 (F := Ideal) x13 i + val_main_v84 (F := Ideal) x13 i) := Fold2.v92_W5 m ρ c
  have e6 : V5 (F := Ideal) m ρ c (Pipeline.arrRef spec2 6) = (fun i => val_main_v74 (F := Ideal) x12 i + val_main_v104 (F := Ideal) x12 i) := Bias.v102_W5 m ρ c
  exact (congr (congr (congr (congr (congr (congr (congrArg (Cert.Rows.fused (M := 100000) true) e0) e1) e2) e3) e4) e5) e6).trans (Cert.ReferenceIdeal.Stages.v140_eq_fused x0 x1 x2 x3 x4 x5 x6 x7 x8 x9 x10 x11 x12 x13 hx0 hx7 hx8 hx13).symm

/-- The first layer's stock table (after its activation). -/
theorem v125_W8 :
    W8 (F := Ideal) m ρ c (Proc.devRef .tc main_v125) = val_main_v142 (F := Ideal) x0 x2 x5 x6 x7 x8 x10 x11 x12 x13 := by
  refine (W8_arr m ρ c 5).trans ((Cert.KernelIdeal.RegionValue.region3_value (V7 m ρ) c).trans ?_)
  have e0 : V7 (F := Ideal) m ρ c (Pipeline.arrRef spec3 0) = val_main_v133 (F := Ideal) x0 x5 x6 x7 x8 := Fold3.v117_W7 m ρ c ((Keep.v1_keep_2_6 m ρ c).trans (v1_W2 m ρ c)) ((Keep.v37_keep_3_6 m ρ c).trans (Fold1.v37_W3 m ρ c))
  have e1 : V7 (F := Ideal) m ρ c (Pipeline.arrRef spec3 1) = val_main_v18 (F := Ideal) x2 x10 := (Keep.v15_keep_3_7 m ρ c).trans (Fold1.v15_W3 m ρ c)
  have e2 : V7 (F := Ideal) m ρ c (Pipeline.arrRef spec3 2) = val_main_v111 (F := Ideal) x11 := Fold3.v119_W7 m ρ c
  have e3 : V7 (F := Ideal) m ρ c (Pipeline.arrRef spec3 3) = val_main_v135 (F := Ideal) x12 := Bias.v124_W7 m ρ c
  have e4 : V7 (F := Ideal) m ρ c (Pipeline.arrRef spec3 4) = val_main_v115 (F := Ideal) x13 := Fold3.v123_W7 m ρ c
  exact (congr (congr (congr (congr (congrArg (Cert.Rows.sage (M := 3000) true) e0) e1) e2) e3) e4).trans (Cert.ReferenceIdeal.Stages.v142_eq_sage x0 x2 x5 x6 x7 x8 x10 x11 x12 x13).symm

/-- The second layer's keyword table: the first result. -/
theorem v147_W10
    (hx0 : Rows.AllReal x0) (hx7 : Rows.AllReal x7) (hx8 : Rows.AllReal x8) (hx13 : Rows.AllReal x13) :
    W10 (F := Ideal) m ρ c (Proc.devRef .tc main_v147) = val_main_v172 (F := Ideal) x0 x1 x2 x3 x4 x5 x6 x7 x8 x9 x10 x11 x12 x13 x14 x15 x16 := by
  refine (W10_arr m ρ c 5).trans ((Cert.KernelIdeal.RegionValue.region4_value (V9 m ρ) c).trans ?_)
  have e0 : V9 (F := Ideal) m ρ c (Pipeline.arrRef spec4 0) = val_main_v166 (F := Ideal) x0 x1 x2 x3 x4 x5 x6 x7 x8 x9 x10 x11 x12 x13 := Fold4.v139_W9 m ρ c ((Keep.v103_keep_6_8 m ρ c).trans (v103_W6 m ρ c hx0 hx7 hx8 hx13)) ((Keep.v22_keep_3_8 m ρ c).trans (Fold1.v22_W3 m ρ c))
  have e1 : V9 (F := Ideal) m ρ c (Pipeline.arrRef spec4 1) = val_main_v141 (F := Ideal) x0 x1 x3 x4 x7 x8 x9 x11 x12 x13 := (Keep.v59_keep_4_9 m ρ c).trans (v59_W4 m ρ c)
  have e2 : V9 (F := Ideal) m ρ c (Pipeline.arrRef spec4 2) = val_main_v144 (F := Ideal) x14 := Fold4.v141_W9 m ρ c
  have e3 : V9 (F := Ideal) m ρ c (Pipeline.arrRef spec4 3) = val_main_v168 (F := Ideal) x15 := Bias.v146_W9 m ρ c
  have e4 : V9 (F := Ideal) m ρ c (Pipeline.arrRef spec4 4) = val_main_v148 (F := Ideal) x16 := Fold4.v145_W9 m ρ c
  exact (congr (congr (congr (congr (congrArg (Cert.Rows.sage (M := 20000) false) e0) e1) e2) e3) e4).trans (Cert.ReferenceIdeal.Stages.v172_eq_sage x0 x1 x2 x3 x4 x5 x6 x7 x8 x9 x10 x11 x12 x13 x14 x15 x16).symm

set_option maxHeartbeats 1600000 in
/-- The second layer's news table: the second result. Again the fused update is the sum of the two relations' updates,
    the first layer's news table being real. -/
theorem v191_W12
    (hx0 : Rows.AllReal x0) (hx7 : Rows.AllReal x7) (hx8 : Rows.AllReal x8) (hx9 : Rows.AllReal x9) (hx10 : Rows.AllReal x10)
    (hx11 : Rows.AllReal x11) (hx12 : Rows.AllReal x12) (hx13 : Rows.AllReal x13) (hx16 : Rows.AllReal x16) :
    W12 (F := Ideal) m ρ c (Proc.devRef .tc main_v191) = val_main_v233 (F := Ideal) x0 x1 x2 x3 x4 x5 x6 x7 x8 x9 x10 x11 x12 x13 x14 x15 x16 := by
  refine (W12_arr m ρ c 7).trans ((Cert.KernelIdeal.RegionValue.region5_value (V11 m ρ) c).trans ?_)
  have e0 : V11 (F := Ideal) m ρ c (Pipeline.arrRef spec5 0) = val_main_v196 (F := Ideal) x0 x1 x3 x4 x7 x8 x9 x11 x12 x13 := Fold5.v161_W11 m ρ c ((Keep.v59_keep_4_10 m ρ c).trans (v59_W4 m ρ c)) ((Keep.v27_keep_3_10 m ρ c).trans (Fold1.v27_W3 m ρ c))
  have e1 : V11 (F := Ideal) m ρ c (Pipeline.arrRef spec5 1) = val_main_v226 (F := Ideal) x0 x2 x5 x6 x7 x8 x10 x11 x12 x13 := Fold5.v175_W11 m ρ c ((Keep.v125_keep_8_10 m ρ c).trans (v125_W8 m ρ c)) ((Keep.v32_keep_3_10 m ρ c).trans (Fold1.v32_W3 m ρ c))
  have e2 : V11 (F := Ideal) m ρ c (Pipeline.arrRef spec5 2) = val_main_v140 (F := Ideal) x0 x1 x2 x3 x4 x5 x6 x7 x8 x9 x10 x11 x12 x13 := (Keep.v103_keep_6_11 m ρ c).trans (v103_W6 m ρ c hx0 hx7 hx8 hx13)
  have e3 : V11 (F := Ideal) m ρ c (Pipeline.arrRef spec5 3) = val_main_v174 (F := Ideal) x14 := Fold5.v187_W11 m ρ c
  have e4 : V11 (F := Ideal) m ρ c (Pipeline.arrRef spec5 4) = val_main_v204 (F := Ideal) x14 := Fold5.v189_W11 m ρ c
  have e5 : V11 (F := Ideal) m ρ c (Pipeline.arrRef spec5 5) = (fun i => val_main_v178 (F := Ideal) x16 i + val_main_v208 (F := Ideal) x16 i) := Fold5.v180_W11 m ρ c
  have e6 : V11 (F := Ideal) m ρ c (Pipeline.arrRef spec5 6) = (fun i => val_main_v198 (F := Ideal) x15 i + val_main_v228 (F := Ideal) x15 i) := Bias.v190_W11 m ρ c
  exact (congr (congr (congr (congr (congr (congr (congrArg (Cert.Rows.fused (M := 100000) false) e0) e1) e2) e3) e4) e5) e6).trans (Cert.ReferenceIdeal.Stages.v233_eq_fused x0 x1 x2 x3 x4 x5 x6 x7 x8 x9 x10 x11 x12 x13 x14 x15 x16 hx0 hx7 hx8 hx9 hx10 hx11 hx12 hx13 hx16).symm

/-- The second layer's stock table: the third result. -/
theorem v213_W14
    (hx0 : Rows.AllReal x0) (hx7 : Rows.AllReal x7) (hx8 : Rows.AllReal x8) (hx13 : Rows.AllReal x13) :
    W14 (F := Ideal) m ρ c (Proc.devRef .tc main_v213) = val_main_v263 (F := Ideal) x0 x1 x2 x3 x4 x5 x6 x7 x8 x9 x10 x11 x12 x13 x14 x15 x16 := by
  refine (W14_arr m ρ c 5).trans ((Cert.KernelIdeal.RegionValue.region6_value (V13 m ρ) c).trans ?_)
  have e0 : V13 (F := Ideal) m ρ c (Pipeline.arrRef spec6 0) = val_main_v257 (F := Ideal) x0 x1 x2 x3 x4 x5 x6 x7 x8 x9 x10 x11 x12 x13 := Fold6.v205_W13 m ρ c ((Keep.v103_keep_6_12 m ρ c).trans (v103_W6 m ρ c hx0 hx7 hx8 hx13)) ((Keep.v37_keep_3_12 m ρ c).trans (Fold1.v37_W3 m ρ c))
  have e1 : V13 (F := Ideal) m ρ c (Pipeline.arrRef spec6 1) = val_main_v142 (F := Ideal) x0 x2 x5 x6 x7 x8 x10 x11 x12 x13 := (Keep.v125_keep_8_13 m ρ c).trans (v125_W8 m ρ c)
  have e2 : V13 (F := Ideal) m ρ c (Pipeline.arrRef spec6 2) = val_main_v235 (F := Ideal) x14 := Fold6.v207_W13 m ρ c
  have e3 : V13 (F := Ideal) m ρ c (Pipeline.arrRef spec6 3) = val_main_v259 (F := Ideal) x15 := Bias.v212_W13 m ρ c
  have e4 : V13 (F := Ideal) m ρ c (Pipeline.arrRef spec6 4) = val_main_v239 (F := Ideal) x16 := Fold6.v211_W13 m ρ c
  exact (congr (congr (congr (congr (congrArg (Cert.Rows.sage (M := 3000) false) e0) e1) e2) e3) e4).trans (Cert.ReferenceIdeal.Stages.v263_eq_sage x0 x1 x2 x3 x4 x5 x6 x7 x8 x9 x10 x11 x12 x13 x14 x15 x16).symm

/-- The news result at the last boundary. -/
theorem news_W14
    (hx0 : Rows.AllReal x0) (hx7 : Rows.AllReal x7) (hx8 : Rows.AllReal x8) (hx9 : Rows.AllReal x9) (hx10 : Rows.AllReal x10)
    (hx11 : Rows.AllReal x11) (hx12 : Rows.AllReal x12) (hx13 : Rows.AllReal x13) (hx16 : Rows.AllReal x16) :
    W14 (F := Ideal) m ρ c (Proc.devRef .tc main_v191) = val_main_v233 (F := Ideal) x0 x1 x2 x3 x4 x5 x6 x7 x8 x9 x10 x11 x12 x13 x14 x15 x16 :=
  (Keep.v191_keep_12_14 m ρ c).trans (v191_W12 m ρ c hx0 hx7 hx8 hx9 hx10 hx11 hx12 hx13 hx16)

/-- The keyword result at the last boundary. -/
theorem kw_W14
    (hx0 : Rows.AllReal x0) (hx7 : Rows.AllReal x7) (hx8 : Rows.AllReal x8) (hx13 : Rows.AllReal x13) :
    W14 (F := Ideal) m ρ c (Proc.devRef .tc main_v147) = val_main_v172 (F := Ideal) x0 x1 x2 x3 x4 x5 x6 x7 x8 x9 x10 x11 x12 x13 x14 x15 x16 :=
  (Keep.v147_keep_10_14 m ρ c).trans (v147_W10 m ρ c hx0 hx7 hx8 hx13)

end Cert.KernelIdeal.Chain

end
-- ==== Proof.Finite.lean ====
/-
  From the precondition to real entries.

  The precondition says, of each of the eleven float argument arrays, that every entry's absolute value is below
  `+∞`, and joins the eleven statements by `and`. On the extended reals `|x| = max (x, -x)`, and `max (x, -x) < ⊤`
  fails at both infinities; so every entry of every float argument is a real number. This is what the one law between
  the two programs — distributivity of a row over a sum of two weight matrices — needs.
-/
import proofs.«146827_j53558242181513_2_alg».proof.Pre_finite_inputs
import proofs.«146827_j53558242181513_2_alg».proof.Proof.Rows
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.Pre_finite_inputs

instance : Subsingleton S_.Idx := ⟨fun a b => funext fun d => d.elim0⟩

/-- The single-precision word of `+∞` is `⊤`. -/
theorem ofBits_inf : Ideal.ofBits .f32 0x7F800000#32 = (⊤ : EReal) := by
  simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- If "every entry's absolute value is below `+∞`", reduced by `and` over the whole array, is true, every entry is
    real. -/
theorem allReal_of_all {s : Shape} {axes : List (Fin s.rank)} (a : FVec Ideal s .f32) (hb : S_.BroadcastsInDim s (![] : Fin 0 → Fin s.rank))
    (hr : s.ReducesTo axes S_) (hu : 0 < S_.numel) (init : S_.Idx → BitVec 1)
    (e : Host.reduce IntOp.andi (cmpf .olt (Host.absf a) (broadcastInDim s ![] hb (constant S_ .f32 0x7F800000#32))) init hr hu ix0 = 1#1) :
    Cert.Rows.AllReal a := fun i =>
  real_of_abs_lt (a i) (Host.reduce_andi_all _ init hr hu ix0 e i)

variable [Facts]
open Facts

/-- Under the precondition every float argument holds real numbers. -/
theorem allReal_args (a0 : FVec Ideal S100000x768 .f32) (a1 : IVec S20000 32) (a2 : IVec S3000 32) (a3 a4 : IVec S320000 32)
    (a5 a6 : IVec S160000 32) (a7 : FVec Ideal S768x256 .f32) (a8 : FVec Ideal S256 .f32) (a9 : FVec Ideal S20000x256 .f32)
    (a10 : FVec Ideal S3000x256 .f32) (a11 : FVec Ideal S4x256x256 .f32) (a12 : FVec Ideal S4x256 .f32)
    (a13 a14 : FVec Ideal S4x256x256 .f32) (a15 : FVec Ideal S4x256 .f32) (a16 : FVec Ideal S4x256x256 .f32)
    (h : fn (F := Ideal) a0 a1 a2 a3 a4 a5 a6 a7 a8 a9 a10 a11 a12 a13 a14 a15 a16 = fun _ => 1#1) :
    Cert.Rows.AllReal a0 ∧ Cert.Rows.AllReal a7 ∧ Cert.Rows.AllReal a8 ∧ Cert.Rows.AllReal a9 ∧ Cert.Rows.AllReal a10
      ∧ Cert.Rows.AllReal a11 ∧ Cert.Rows.AllReal a12 ∧ Cert.Rows.AllReal a13 ∧ Cert.Rows.AllReal a14 ∧ Cert.Rows.AllReal a15
      ∧ Cert.Rows.AllReal a16 := by
  have h0 := congrFun h ix0
  dsimp only [fn, fn_part1, fn_part2, fn_part3, andi] at h0
  simp only [IntOp.andi_eq_one] at h0
  obtain ⟨⟨⟨⟨⟨⟨⟨⟨⟨⟨e0, e7⟩, e8⟩, e9⟩, e10⟩, e11⟩, e12⟩, e13⟩, e14⟩, e15⟩, e16⟩ := h0
  exact ⟨allReal_of_all a0 _ _ _ _ e0, allReal_of_all a7 _ _ _ _ e7, allReal_of_all a8 _ _ _ _ e8, allReal_of_all a9 _ _ _ _ e9,
    allReal_of_all a10 _ _ _ _ e10, allReal_of_all a11 _ _ _ _ e11, allReal_of_all a12 _ _ _ _ e12, allReal_of_all a13 _ _ _ _ e13,
    allReal_of_all a14 _ _ _ _ e14, allReal_of_all a15 _ _ _ _ e15, allReal_of_all a16 _ _ _ _ e16⟩

end Cert.Finite

end
-- ==== Proof.lean ====
/-
  The certificate of the two-layer heterogeneous graph network (news, keyword and stock nodes; four relations) against its
  reference.

  Both programs compute, per layer and per relation, `mean · Wl + bl + x_dst · Wr`, where `mean` is the destination's
  mean over its incoming edges of the source rows (a row gather along the edge list, an accumulating scatter into the
  destination rows, a division by the in-degree clamped below at one), and a news node sums its two incoming relations.
  The kernel computes the dense part in seven pipelined regions (an encoder, and per layer one region for each of the
  keyword, news and stock tables) among stretches of host operations that do the gathers, scatters and divisions; for the
  news table it adds the two relations' root weights and biases first and multiplies the root features once. The
  reference is host operations only, and keeps the two relations apart.

  On the extended reals the two agree stage by stage (format changes are the identity, a matrix product is the same sum
  on both sides), except at the news update, where `h · (Wr₁ + Wr₃) = h · Wr₁ + h · Wr₃` is needed: distributivity, which
  holds because under the precondition every float argument is real, and so are the root features of both layers (sums,
  products, maxima and quotients by a degree that is at least one, of reals).

  The three frames are the generated ones (the reference's is its run with the results dropped); the idealization rewrote
  no operation, so the sanctioned-idealization conjunct is trivial; the value conjunct states both runs at the reference's
  three result stages of the kernel's launch arguments.
-/
import proofs.«146827_j53558242181513_2_alg».proof.Defs
import proofs.«146827_j53558242181513_2_alg».proof.Proof.Gen.Kernel
import proofs.«146827_j53558242181513_2_alg».proof.Proof.Gen.Kernel.Frame
import proofs.«146827_j53558242181513_2_alg».proof.Proof.Gen.KernelIdeal
import proofs.«146827_j53558242181513_2_alg».proof.Proof.Gen.KernelIdeal.Frame
import proofs.«146827_j53558242181513_2_alg».proof.Proof.Gen.ReferenceIdeal
import proofs.«146827_j53558242181513_2_alg».proof.Proof.Gen.Pre_finite_inputs
import proofs.«146827_j53558242181513_2_alg».proof.Proof.RefRunP
import proofs.«146827_j53558242181513_2_alg».proof.Proof.RefEqP
import proofs.«146827_j53558242181513_2_alg».proof.Proof.KRun
import proofs.«146827_j53558242181513_2_alg».proof.Proof.KChain
import proofs.«146827_j53558242181513_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs, and its arguments end unchanged. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs, and its arguments end unchanged. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs, and its arguments end unchanged: its run with the three results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.ValueP.run (F := Ideal) m ρ)

/-- The idealization rewrote no operation. -/
theorem preserves : Cert.preserves_Kernel_KernelIdeal := trivial

/-- From memories agreeing on the arguments both programs end with the reference's three result stages of the kernel's
    launch arguments: the kernel by the walk through its regions and stretches, under the realness the precondition
    gives; the reference by its run, its own arguments rewritten to the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.ReadP.val_main_v233 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.ReadP.val_main_v172 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)),
    fun c => Cert.ReferenceIdeal.ReadP.val_main_v263 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ?_) (Cert.KernelIdeal.RunValue.run_values (F := Ideal) m ρ)
    obtain ⟨r0, r7, r8, r9, r10, r11, r12, r13, r14, r15, r16⟩ :=
      @Cert.Finite.allReal_args Cert.Pre_finite_inputs.Gen.facts _ _ _ _ _ _ _ _ _ _ _ _ _ _ _ _ _ (hpre c)
    exact ⟨(h c).1.trans (Cert.KernelIdeal.Chain.news_W14 m ρ c r0 r7 r8 r9 r10 r11 r12 r13 r16),
      (h c).2.1.trans (Cert.KernelIdeal.Chain.kw_W14 m ρ c r0 r7 r8 r13),
      (h c).2.2.1.trans (Cert.KernelIdeal.Chain.v213_W14 m ρ c r0 r7 r8 r13), (h c).2.2.2⟩
  · refine (θ_run Cert.ReferenceIdeal.defs _ _).mono (fun r h c => ?_) (Cert.ReferenceIdeal.ValueP.run (F := Ideal) m' ρ')
    obtain ⟨g0, g1, g2, g3, g4, g5, g6, g7, g8, g9, g10, g11, g12, g13, g14, g15, g16⟩ := hagree c
    refine ⟨(h c).1.trans ?_, (h c).2.1.trans ?_, (h c).2.2.1.trans ?_, (h c).2.2.2⟩
    · rw [Cert.ReferenceIdeal.ReadP.val_main_v233_eq, g0, g1, g2, g3, g4, g5, g6, g7, g8, g9, g10, g11, g12, g13, g14, g15, g16]
    · rw [Cert.ReferenceIdeal.ReadP.val_main_v172_eq, g0, g1, g2, g3, g4, g5, g6, g7, g8, g9, g10, g11, g12, g13, g14, g15, g16]
    · rw [Cert.ReferenceIdeal.ReadP.val_main_v263_eq, g0, g1, g2, g3, g4, g5, g6, g7, g8, g9, g10, g11, g12, g13, g14, g15, g16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
